-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x64x16384 : Shape := ⟨3, ![8, 64, 16384]⟩
abbrev S8x1024x32 : Shape := ⟨3, ![8, 1024, 32]⟩
abbrev S_ : Shape := ⟨0, ![]⟩

class Facts : Prop where
  bcast_S_S8x64x16384 : S_.BroadcastsInDim S8x64x16384 (![] : Fin 0 → Fin S8x64x16384.rank)
  reducesTo_S8x64x16384_S_d0_1_2 : S8x64x16384.ReducesTo [0, 1, 2] S_
  h_S_ : 0 < S_.numel
  bcast_S_S8x1024x32 : S_.BroadcastsInDim S8x1024x32 (![] : Fin 0 → Fin S8x1024x32.rank)
  reducesTo_S8x1024x32_S_d0_1_2 : S8x1024x32.ReducesTo [0, 1, 2] S_

variable [Facts]

def fn {F : FTy → Type} [FloatOps F] (main_arg0 : FVec F S8x64x16384 .f32) (main_arg1 : IVec S8x1024x32 32) : IVec S_ 1 :=
  let main_v0 : FVec F S8x64x16384 .f32 := Host.absf main_arg0
  let main_cst : FVec F S_ .f32 := constant S_ .f32 0x7F800000#32
  let main_v1 : FVec F S8x64x16384 .f32 := broadcastInDim S8x64x16384 ![] bcast_S_S8x64x16384 main_cst
  let main_v2 : IVec S8x64x16384 1 := cmpf .olt main_v0 main_v1
  let main_c : IVec S_ 1 := constantI S_ 1 1#1
  let main_v3 : IVec S_ 1 := (fun x v => Host.reduce IntOp.andi x v reducesTo_S8x64x16384_S_d0_1_2 h_S_) main_v2 main_c
  let main_c_0 : IVec S_ 32 := constantI S_ 32 0#32
  let main_v4 : IVec S8x1024x32 32 := broadcastInDim S8x1024x32 ![] bcast_S_S8x1024x32 main_c_0
  let main_v5 : IVec S8x1024x32 1 := cmpi .sge main_arg1 main_v4
  let main_c_1 : IVec S_ 32 := constantI S_ 32 16383#32
  let main_v6 : IVec S8x1024x32 32 := broadcastInDim S8x1024x32 ![] bcast_S_S8x1024x32 main_c_1
  let main_v7 : IVec S8x1024x32 1 := cmpi .sle main_arg1 main_v6
  let main_v8 : IVec S8x1024x32 1 := andi main_v5 main_v7
  let main_c_2 : IVec S_ 1 := constantI S_ 1 1#1
  let main_v9 : IVec S_ 1 := (fun x v => Host.reduce IntOp.andi x v reducesTo_S8x1024x32_S_d0_1_2 h_S_) main_v8 main_c_2
  let main_v10 : IVec S_ 1 := andi main_v3 main_v9
  main_v10
-- ==== Kernel.lean ====
abbrev S8x64x16384 : Shape := ⟨3, ![8, 64, 16384]⟩
abbrev S8x1024x32 : Shape := ⟨3, ![8, 1024, 32]⟩
abbrev S8x32x1024 : Shape := ⟨3, ![8, 32, 1024]⟩
abbrev S8x64x32x1024 : Shape := ⟨4, ![8, 64, 32, 1024]⟩
abbrev S32x1024 : Shape := ⟨2, ![32, 1024]⟩
abbrev S16384 : Shape := ⟨1, ![16384]⟩
abbrev S_ : Shape := ⟨0, ![]⟩
abbrev S1x32x1024 : Shape := ⟨3, ![1, 32, 1024]⟩
abbrev S1x1x16384 : Shape := ⟨3, ![1, 1, 16384]⟩
abbrev S16 : Shape := ⟨1, ![16]⟩
abbrev S1x16 : Shape := ⟨2, ![1, 16]⟩
abbrev S1x1x32x1024 : Shape := ⟨4, ![1, 1, 32, 1024]⟩
abbrev S8x64x1024x32 : Shape := ⟨4, ![8, 64, 1024, 32]⟩

abbrev nBuf : Table → Nat
  | .hbm => 5
  | .local .scVector .vmem => 3
  | _ => 0

abbrev bufTy : (tb : Table) → Fin (nBuf tb) → BufTy
  | .hbm, ⟨0, _⟩ => ⟨S8x64x16384, .f32⟩
  | .hbm, ⟨1, _⟩ => ⟨S8x1024x32, .i32⟩
  | .hbm, ⟨2, _⟩ => ⟨S8x32x1024, .i32⟩
  | .hbm, ⟨3, _⟩ => ⟨S8x64x32x1024, .f32⟩
  | .hbm, ⟨4, _⟩ => ⟨S8x64x1024x32, .f32⟩
  | .local .scVector .vmem, ⟨0, _⟩ => ⟨S32x1024, .i32⟩
  | .local .scVector .vmem, ⟨1, _⟩ => ⟨S16384, .f32⟩
  | .local .scVector .vmem, ⟨2, _⟩ => ⟨S32x1024, .f32⟩
  | _, _ => ⟨S8x64x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_93_r0 : BitVec 32 := 0#32
  let c0_i32_94_r0 : BitVec 32 := 0#32
  ![v18.toNat, 0, 0]
def k0_off2 (i : grid0.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let v30 : BitVec 32 := Scalar.addi v29 c0_i32_10
  let c0_i32_93_r1 : BitVec 32 := 0#32
  ![v18.toNat, v30.toNat, 0]
@[reducible] def k0_t1_loop : Scf.Loop 32 :=
  let c0_i32_12 : BitVec 32 := 0#32
  let c32_i32 : BitVec 32 := 32#32
  let v31 : BitVec 32 := Scalar.addi c0_i32_12 c32_i32
  let c1_i32_13 : BitVec 32 := 1#32
  ⟨c0_i32_12, v31, c1_i32_13⟩
@[reducible] def k0_t2_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off3 (k0_t1 : Fin k0_t1_loop.trips) (k0_t2 : Fin k0_t2_loop.trips) : Fin 2 → Nat :=
  let c0_i32_12 : BitVec 32 := 0#32
  let c1_i32_13 : BitVec 32 := 1#32
  let arg8 : BitVec 32 := Scf.iv c0_i32_12 c1_i32_13 k0_t1
  let v81 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk1 (v83 : IVec S16 32) : Prop :=
  (∀ a x, ((![v83] : Fin 1 → IVec S16 32) a x).toNat < S16384.size a)
instance k0_chk1.dec : ∀ (v83 : IVec S16 32), Decidable (k0_chk1 v83) := fun v83 => decidable_of_iff' _ (Iff.of_eq (k0_chk1.eq_1 v83))
theorem k0_idx1_inb : ∀ (v83 : IVec S16 32) (k0_hw1 : k0_chk1 v83), ∀ a x, ((![v83] : Fin 1 → IVec S16 32) a x).toNat < S16384.size a := fun v83 k0_hw1 => k0_hw1
def k0_off4 (k0_t1 : Fin k0_t1_loop.trips) (k0_t2 : Fin k0_t2_loop.trips) (c0_i32_98 : BitVec 32) : Fin 2 → Nat :=
  let c0_i32_12 : BitVec 32 := 0#32
  let c1_i32_13 : BitVec 32 := 1#32
  let arg8 : BitVec 32 := Scf.iv c0_i32_12 c1_i32_13 k0_t1
  let v85 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk2 (v91 : IVec S16 32) : Prop :=
  (∀ a x, ((![v91] : Fin 1 → IVec S16 32) a x).toNat < S16384.size a)
instance k0_chk2.dec : ∀ (v91 : IVec S16 32), Decidable (k0_chk2 v91) := fun v91 => decidable_of_iff' _ (Iff.of_eq (k0_chk2.eq_1 v91))
theorem k0_idx2_inb : ∀ (v91 : IVec S16 32) (k0_hw2 : k0_chk2 v91), ∀ a x, ((![v91] : Fin 1 → IVec S16 32) a x).toNat < S16384.size a := fun v91 k0_hw2 => k0_hw2
def k0_off5 (k0_t1 : Fin k0_t1_loop.trips) (k0_t2 : Fin k0_t2_loop.trips) (c16_i32_99 : BitVec 32) : Fin 2 → Nat :=
  let c0_i32_12 : BitVec 32 := 0#32
  let c1_i32_13 : BitVec 32 := 1#32
  let arg8 : BitVec 32 := Scf.iv c0_i32_12 c1_i32_13 k0_t1
  let v93 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk3 (v99 : IVec S16 32) : Prop :=
  (∀ a x, ((![v99] : Fin 1 → IVec S16 32) a x).toNat < S16384.size a)
instance k0_chk3.dec : ∀ (v99 : IVec S16 32), Decidable (k0_chk3 v99) := fun v99 => decidable_of_iff' _ (Iff.of_eq (k0_chk3.eq_1 v99))
theorem k0_idx3_inb : ∀ (v99 : IVec S16 32) (k0_hw3 : k0_chk3 v99), ∀ a x, ((![v99] : Fin 1 → IVec S16 32) a x).toNat < S16384.size a := fun v99 k0_hw3 => k0_hw3
def k0_off6 (k0_t1 : Fin k0_t1_loop.trips) (k0_t2 : Fin k0_t2_loop.trips) (c32_i32_100 : BitVec 32) : Fin 2 → Nat :=
  let c0_i32_12 : BitVec 32 := 0#32
  let c1_i32_13 : BitVec 32 := 1#32
  let arg8 : BitVec 32 := Scf.iv c0_i32_12 c1_i32_13 k0_t1
  let v101 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk4 (v107 : IVec S16 32) : Prop :=
  (∀ a x, ((![v107] : Fin 1 → IVec S16 32) a x).toNat < S16384.size a)
instance k0_chk4.dec : ∀ (v107 : IVec S16 32), Decidable (k0_chk4 v107) := fun v107 => decidable_of_iff' _ (Iff.of_eq (k0_chk4.eq_1 v107))
theorem k0_idx4_inb : ∀ (v107 : IVec S16 32) (k0_hw4 : k0_chk4 v107), ∀ a x, ((![v107] : Fin 1 → IVec S16 32) a x).toNat < S16384.size a := fun v107 k0_hw4 => k0_hw4
def k0_off7 (k0_t1 : Fin k0_t1_loop.trips) (k0_t2 : Fin k0_t2_loop.trips) (c48_i32 : BitVec 32) : Fin 2 → Nat :=
  let c0_i32_12 : BitVec 32 := 0#32
  let c1_i32_13 : BitVec 32 := 1#32
  let arg8 : BitVec 32 := Scf.iv c0_i32_12 c1_i32_13 k0_t1
  let v109 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk5 (v115 : IVec S16 32) : Prop :=
  (∀ a x, ((![v115] : Fin 1 → IVec S16 32) a x).toNat < S16384.size a)
instance k0_chk5.dec : ∀ (v115 : IVec S16 32), Decidable (k0_chk5 v115) := fun v115 => decidable_of_iff' _ (Iff.of_eq (k0_chk5.eq_1 v115))
theorem k0_idx5_inb : ∀ (v115 : IVec S16 32) (k0_hw5 : k0_chk5 v115), ∀ a x, ((![v115] : Fin 1 → IVec S16 32) a x).toNat < S16384.size a := fun v115 k0_hw5 => k0_hw5
def k0_off8 (k0_t1 : Fin k0_t1_loop.trips) (k0_t2 : Fin k0_t2_loop.trips) (c64_i32 : BitVec 32) : Fin 2 → Nat :=
  let c0_i32_12 : BitVec 32 := 0#32
  let c1_i32_13 : BitVec 32 := 1#32
  let arg8 : BitVec 32 := Scf.iv c0_i32_12 c1_i32_13 k0_t1
  let v117 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk6 (v123 : IVec S16 32) : Prop :=
  (∀ a x, ((![v123] : Fin 1 → IVec S16 32) a x).toNat < S16384.size a)
instance k0_chk6.dec : ∀ (v123 : IVec S16 32), Decidable (k0_chk6 v123) := fun v123 => decidable_of_iff' _ (Iff.of_eq (k0_chk6.eq_1 v123))
theorem k0_idx6_inb : ∀ (v123 : IVec S16 32) (k0_hw6 : k0_chk6 v123), ∀ a x, ((![v123] : Fin 1 → IVec S16 32) a x).toNat < S16384.size a := fun v123 k0_hw6 => k0_hw6
def k0_off9 (k0_t1 : Fin k0_t1_loop.trips) (k0_t2 : Fin k0_t2_loop.trips) (c80_i32 : BitVec 32) : Fin 2 → Nat :=
  let c0_i32_12 : BitVec 32 := 0#32
  let c1_i32_13 : BitVec 32 := 1#32
  let arg8 : BitVec 32 := Scf.iv c0_i32_12 c1_i32_13 k0_t1
  let v125 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk7 (v131 : IVec S16 32) : Prop :=
  (∀ a x, ((![v131] : Fin 1 → IVec S16 32) a x).toNat < S16384.size a)
instance k0_chk7.dec : ∀ (v131 : IVec S16 32), Decidable (k0_chk7 v131) := fun v131 => decidable_of_iff' _ (Iff.of_eq (k0_chk7.eq_1 v131))
theorem k0_idx7_inb : ∀ (v131 : IVec S16 32) (k0_hw7 : k0_chk7 v131), ∀ a x, ((![v131] : Fin 1 → IVec S16 32) a x).toNat < S16384.size a := fun v131 k0_hw7 => k0_hw7
def k0_off10 (k0_t1 : Fin k0_t1_loop.trips) (k0_t2 : Fin k0_t2_loop.trips) (c96_i32 : BitVec 32) : Fin 2 → Nat :=
  let c0_i32_12 : BitVec 32 := 0#32
  let c1_i32_13 : BitVec 32 := 1#32
  let arg8 : BitVec 32 := Scf.iv c0_i32_12 c1_i32_13 k0_t1
  let v133 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk8 (v139 : IVec S16 32) : Prop :=
  (∀ a x, ((![v139] : Fin 1 → IVec S16 32) a x).toNat < S16384.size a)
instance k0_chk8.dec : ∀ (v139 : IVec S16 32), Decidable (k0_chk8 v139) := fun v139 => decidable_of_iff' _ (Iff.of_eq (k0_chk8.eq_1 v139))
theorem k0_idx8_inb : ∀ (v139 : IVec S16 32) (k0_hw8 : k0_chk8 v139), ∀ a x, ((![v139] : Fin 1 → IVec S16 32) a x).toNat < S16384.size a := fun v139 k0_hw8 => k0_hw8
def k0_off11 (k0_t1 : Fin k0_t1_loop.trips) (k0_t2 : Fin k0_t2_loop.trips) : Fin 2 → Nat :=
  let c0_i32_12 : BitVec 32 := 0#32
  let c1_i32_13 : BitVec 32 := 1#32
  let arg8 : BitVec 32 := Scf.iv c0_i32_12 c1_i32_13 k0_t1
  let v141 : Index := Scalar.indexCast arg8
  let c0_i32_93 : BitVec 32 := 0#32
  let c1_i32_95 : BitVec 32 := 1#32
  let arg10 : BitVec 32 := Scf.iv c0_i32_93 c1_i32_95 k0_t2
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
def k0_off12 (i : grid0.Coords) (c0_i32_10 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let v30 : BitVec 32 := Scalar.addi v29 c0_i32_10
  let c0_i32_93_r2 : BitVec 32 := 0#32
  let c0_i32_94_r2 : BitVec 32 := 0#32
  ![v18.toNat, v30.toNat, 0, 0]
@[reducible] def k0_t3_loop : Scf.Loop 32 :=
  let c0_i32_17 : BitVec 32 := 0#32
  let c32_i32_18 : BitVec 32 := 32#32
  let v34 : BitVec 32 := Scalar.addi c0_i32_17 c32_i32_18
  let c1_i32_19 : BitVec 32 := 1#32
  ⟨c0_i32_17, v34, c1_i32_19⟩
@[reducible] def k0_t4_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off13 (k0_t3 : Fin k0_t3_loop.trips) (k0_t4 : Fin k0_t4_loop.trips) : Fin 2 → Nat :=
  let c0_i32_17 : BitVec 32 := 0#32
  let c1_i32_19 : BitVec 32 := 1#32
  let arg8 : BitVec 32 := Scf.iv c0_i32_17 c1_i32_19 k0_t3
  let v81 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk9 (v83 : IVec S16 32) : Prop :=
  (∀ a x, ((![v83] : Fin 1 → IVec S16 32) a x).toNat < S16384.size a)
instance k0_chk9.dec : ∀ (v83 : IVec S16 32), Decidable (k0_chk9 v83) := fun v83 => decidable_of_iff' _ (Iff.of_eq (k0_chk9.eq_1 v83))
theorem k0_idx9_inb : ∀ (v83 : IVec S16 32) (k0_hw9 : k0_chk9 v83), ∀ a x, ((![v83] : Fin 1 → IVec S16 32) a x).toNat < S16384.size a := fun v83 k0_hw9 => k0_hw9
def k0_off14 (k0_t3 : Fin k0_t3_loop.trips) (k0_t4 : Fin k0_t4_loop.trips) (c0_i32_98 : BitVec 32) : Fin 2 → Nat :=
  let c0_i32_17 : BitVec 32 := 0#32
  let c1_i32_19 : BitVec 32 := 1#32
  let arg8 : BitVec 32 := Scf.iv c0_i32_17 c1_i32_19 k0_t3
  let v85 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk10 (v91 : IVec S16 32) : Prop :=
  (∀ a x, ((![v91] : Fin 1 → IVec S16 32) a x).toNat < S16384.size a)
instance k0_chk10.dec : ∀ (v91 : IVec S16 32), Decidable (k0_chk10 v91) := fun v91 => decidable_of_iff' _ (Iff.of_eq (k0_chk10.eq_1 v91))
theorem k0_idx10_inb : ∀ (v91 : IVec S16 32) (k0_hw10 : k0_chk10 v91), ∀ a x, ((![v91] : Fin 1 → IVec S16 32) a x).toNat < S16384.size a := fun v91 k0_hw10 => k0_hw10
def k0_off15 (k0_t3 : Fin k0_t3_loop.trips) (k0_t4 : Fin k0_t4_loop.trips) (c16_i32_99 : BitVec 32) : Fin 2 → Nat :=
  let c0_i32_17 : BitVec 32 := 0#32
  let c1_i32_19 : BitVec 32 := 1#32
  let arg8 : BitVec 32 := Scf.iv c0_i32_17 c1_i32_19 k0_t3
  let v93 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk11 (v99 : IVec S16 32) : Prop :=
  (∀ a x, ((![v99] : Fin 1 → IVec S16 32) a x).toNat < S16384.size a)
instance k0_chk11.dec : ∀ (v99 : IVec S16 32), Decidable (k0_chk11 v99) := fun v99 => decidable_of_iff' _ (Iff.of_eq (k0_chk11.eq_1 v99))
theorem k0_idx11_inb : ∀ (v99 : IVec S16 32) (k0_hw11 : k0_chk11 v99), ∀ a x, ((![v99] : Fin 1 → IVec S16 32) a x).toNat < S16384.size a := fun v99 k0_hw11 => k0_hw11
def k0_off16 (k0_t3 : Fin k0_t3_loop.trips) (k0_t4 : Fin k0_t4_loop.trips) (c32_i32_100 : BitVec 32) : Fin 2 → Nat :=
  let c0_i32_17 : BitVec 32 := 0#32
  let c1_i32_19 : BitVec 32 := 1#32
  let arg8 : BitVec 32 := Scf.iv c0_i32_17 c1_i32_19 k0_t3
  let v101 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk12 (v107 : IVec S16 32) : Prop :=
  (∀ a x, ((![v107] : Fin 1 → IVec S16 32) a x).toNat < S16384.size a)
instance k0_chk12.dec : ∀ (v107 : IVec S16 32), Decidable (k0_chk12 v107) := fun v107 => decidable_of_iff' _ (Iff.of_eq (k0_chk12.eq_1 v107))
theorem k0_idx12_inb : ∀ (v107 : IVec S16 32) (k0_hw12 : k0_chk12 v107), ∀ a x, ((![v107] : Fin 1 → IVec S16 32) a x).toNat < S16384.size a := fun v107 k0_hw12 => k0_hw12
def k0_off17 (k0_t3 : Fin k0_t3_loop.trips) (k0_t4 : Fin k0_t4_loop.trips) (c48_i32 : BitVec 32) : Fin 2 → Nat :=
  let c0_i32_17 : BitVec 32 := 0#32
  let c1_i32_19 : BitVec 32 := 1#32
  let arg8 : BitVec 32 := Scf.iv c0_i32_17 c1_i32_19 k0_t3
  let v109 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk13 (v115 : IVec S16 32) : Prop :=
  (∀ a x, ((![v115] : Fin 1 → IVec S16 32) a x).toNat < S16384.size a)
instance k0_chk13.dec : ∀ (v115 : IVec S16 32), Decidable (k0_chk13 v115) := fun v115 => decidable_of_iff' _ (Iff.of_eq (k0_chk13.eq_1 v115))
theorem k0_idx13_inb : ∀ (v115 : IVec S16 32) (k0_hw13 : k0_chk13 v115), ∀ a x, ((![v115] : Fin 1 → IVec S16 32) a x).toNat < S16384.size a := fun v115 k0_hw13 => k0_hw13
def k0_off18 (k0_t3 : Fin k0_t3_loop.trips) (k0_t4 : Fin k0_t4_loop.trips) (c64_i32 : BitVec 32) : Fin 2 → Nat :=
  let c0_i32_17 : BitVec 32 := 0#32
  let c1_i32_19 : BitVec 32 := 1#32
  let arg8 : BitVec 32 := Scf.iv c0_i32_17 c1_i32_19 k0_t3
  let v117 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk14 (v123 : IVec S16 32) : Prop :=
  (∀ a x, ((![v123] : Fin 1 → IVec S16 32) a x).toNat < S16384.size a)
instance k0_chk14.dec : ∀ (v123 : IVec S16 32), Decidable (k0_chk14 v123) := fun v123 => decidable_of_iff' _ (Iff.of_eq (k0_chk14.eq_1 v123))
theorem k0_idx14_inb : ∀ (v123 : IVec S16 32) (k0_hw14 : k0_chk14 v123), ∀ a x, ((![v123] : Fin 1 → IVec S16 32) a x).toNat < S16384.size a := fun v123 k0_hw14 => k0_hw14
def k0_off19 (k0_t3 : Fin k0_t3_loop.trips) (k0_t4 : Fin k0_t4_loop.trips) (c80_i32 : BitVec 32) : Fin 2 → Nat :=
  let c0_i32_17 : BitVec 32 := 0#32
  let c1_i32_19 : BitVec 32 := 1#32
  let arg8 : BitVec 32 := Scf.iv c0_i32_17 c1_i32_19 k0_t3
  let v125 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk15 (v131 : IVec S16 32) : Prop :=
  (∀ a x, ((![v131] : Fin 1 → IVec S16 32) a x).toNat < S16384.size a)
instance k0_chk15.dec : ∀ (v131 : IVec S16 32), Decidable (k0_chk15 v131) := fun v131 => decidable_of_iff' _ (Iff.of_eq (k0_chk15.eq_1 v131))
theorem k0_idx15_inb : ∀ (v131 : IVec S16 32) (k0_hw15 : k0_chk15 v131), ∀ a x, ((![v131] : Fin 1 → IVec S16 32) a x).toNat < S16384.size a := fun v131 k0_hw15 => k0_hw15
def k0_off20 (k0_t3 : Fin k0_t3_loop.trips) (k0_t4 : Fin k0_t4_loop.trips) (c96_i32 : BitVec 32) : Fin 2 → Nat :=
  let c0_i32_17 : BitVec 32 := 0#32
  let c1_i32_19 : BitVec 32 := 1#32
  let arg8 : BitVec 32 := Scf.iv c0_i32_17 c1_i32_19 k0_t3
  let v133 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk16 (v139 : IVec S16 32) : Prop :=
  (∀ a x, ((![v139] : Fin 1 → IVec S16 32) a x).toNat < S16384.size a)
instance k0_chk16.dec : ∀ (v139 : IVec S16 32), Decidable (k0_chk16 v139) := fun v139 => decidable_of_iff' _ (Iff.of_eq (k0_chk16.eq_1 v139))
theorem k0_idx16_inb : ∀ (v139 : IVec S16 32) (k0_hw16 : k0_chk16 v139), ∀ a x, ((![v139] : Fin 1 → IVec S16 32) a x).toNat < S16384.size a := fun v139 k0_hw16 => k0_hw16
def k0_off21 (k0_t3 : Fin k0_t3_loop.trips) (k0_t4 : Fin k0_t4_loop.trips) : Fin 2 → Nat :=
  let c0_i32_17 : BitVec 32 := 0#32
  let c1_i32_19 : BitVec 32 := 1#32
  let arg8 : BitVec 32 := Scf.iv c0_i32_17 c1_i32_19 k0_t3
  let v141 : Index := Scalar.indexCast arg8
  let c0_i32_93 : BitVec 32 := 0#32
  let c1_i32_95 : BitVec 32 := 1#32
  let arg10 : BitVec 32 := Scf.iv c0_i32_93 c1_i32_95 k0_t4
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t5_loop : Scf.Loop 32 :=
  let c0_i32_23 : BitVec 32 := 0#32
  let c32_i32_24 : BitVec 32 := 32#32
  let v37 : BitVec 32 := Scalar.addi c0_i32_23 c32_i32_24
  let c1_i32_25 : BitVec 32 := 1#32
  ⟨c0_i32_23, v37, c1_i32_25⟩
@[reducible] def k0_t6_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off22 (k0_t5 : Fin k0_t5_loop.trips) (k0_t6 : Fin k0_t6_loop.trips) : Fin 2 → Nat :=
  let c0_i32_23 : BitVec 32 := 0#32
  let c1_i32_25 : BitVec 32 := 1#32
  let arg8 : BitVec 32 := Scf.iv c0_i32_23 c1_i32_25 k0_t5
  let v81 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk17 (v83 : IVec S16 32) : Prop :=
  (∀ a x, ((![v83] : Fin 1 → IVec S16 32) a x).toNat < S16384.size a)
instance k0_chk17.dec : ∀ (v83 : IVec S16 32), Decidable (k0_chk17 v83) := fun v83 => decidable_of_iff' _ (Iff.of_eq (k0_chk17.eq_1 v83))
theorem k0_idx17_inb : ∀ (v83 : IVec S16 32) (k0_hw17 : k0_chk17 v83), ∀ a x, ((![v83] : Fin 1 → IVec S16 32) a x).toNat < S16384.size a := fun v83 k0_hw17 => k0_hw17
def k0_off23 (k0_t5 : Fin k0_t5_loop.trips) (k0_t6 : Fin k0_t6_loop.trips) (c0_i32_98 : BitVec 32) : Fin 2 → Nat :=
  let c0_i32_23 : BitVec 32 := 0#32
  let c1_i32_25 : BitVec 32 := 1#32
  let arg8 : BitVec 32 := Scf.iv c0_i32_23 c1_i32_25 k0_t5
  let v85 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk18 (v91 : IVec S16 32) : Prop :=
  (∀ a x, ((![v91] : Fin 1 → IVec S16 32) a x).toNat < S16384.size a)
instance k0_chk18.dec : ∀ (v91 : IVec S16 32), Decidable (k0_chk18 v91) := fun v91 => decidable_of_iff' _ (Iff.of_eq (k0_chk18.eq_1 v91))
theorem k0_idx18_inb : ∀ (v91 : IVec S16 32) (k0_hw18 : k0_chk18 v91), ∀ a x, ((![v91] : Fin 1 → IVec S16 32) a x).toNat < S16384.size a := fun v91 k0_hw18 => k0_hw18
def k0_off24 (k0_t5 : Fin k0_t5_loop.trips) (k0_t6 : Fin k0_t6_loop.trips) (c16_i32_99 : BitVec 32) : Fin 2 → Nat :=
  let c0_i32_23 : BitVec 32 := 0#32
  let c1_i32_25 : BitVec 32 := 1#32
  let arg8 : BitVec 32 := Scf.iv c0_i32_23 c1_i32_25 k0_t5
  let v93 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk19 (v99 : IVec S16 32) : Prop :=
  (∀ a x, ((![v99] : Fin 1 → IVec S16 32) a x).toNat < S16384.size a)
instance k0_chk19.dec : ∀ (v99 : IVec S16 32), Decidable (k0_chk19 v99) := fun v99 => decidable_of_iff' _ (Iff.of_eq (k0_chk19.eq_1 v99))
theorem k0_idx19_inb : ∀ (v99 : IVec S16 32) (k0_hw19 : k0_chk19 v99), ∀ a x, ((![v99] : Fin 1 → IVec S16 32) a x).toNat < S16384.size a := fun v99 k0_hw19 => k0_hw19
def k0_off25 (k0_t5 : Fin k0_t5_loop.trips) (k0_t6 : Fin k0_t6_loop.trips) (c32_i32_100 : BitVec 32) : Fin 2 → Nat :=
  let c0_i32_23 : BitVec 32 := 0#32
  let c1_i32_25 : BitVec 32 := 1#32
  let arg8 : BitVec 32 := Scf.iv c0_i32_23 c1_i32_25 k0_t5
  let v101 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk20 (v107 : IVec S16 32) : Prop :=
  (∀ a x, ((![v107] : Fin 1 → IVec S16 32) a x).toNat < S16384.size a)
instance k0_chk20.dec : ∀ (v107 : IVec S16 32), Decidable (k0_chk20 v107) := fun v107 => decidable_of_iff' _ (Iff.of_eq (k0_chk20.eq_1 v107))
theorem k0_idx20_inb : ∀ (v107 : IVec S16 32) (k0_hw20 : k0_chk20 v107), ∀ a x, ((![v107] : Fin 1 → IVec S16 32) a x).toNat < S16384.size a := fun v107 k0_hw20 => k0_hw20
def k0_off26 (k0_t5 : Fin k0_t5_loop.trips) (k0_t6 : Fin k0_t6_loop.trips) (c48_i32 : BitVec 32) : Fin 2 → Nat :=
  let c0_i32_23 : BitVec 32 := 0#32
  let c1_i32_25 : BitVec 32 := 1#32
  let arg8 : BitVec 32 := Scf.iv c0_i32_23 c1_i32_25 k0_t5
  let v109 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk21 (v115 : IVec S16 32) : Prop :=
  (∀ a x, ((![v115] : Fin 1 → IVec S16 32) a x).toNat < S16384.size a)
instance k0_chk21.dec : ∀ (v115 : IVec S16 32), Decidable (k0_chk21 v115) := fun v115 => decidable_of_iff' _ (Iff.of_eq (k0_chk21.eq_1 v115))
theorem k0_idx21_inb : ∀ (v115 : IVec S16 32) (k0_hw21 : k0_chk21 v115), ∀ a x, ((![v115] : Fin 1 → IVec S16 32) a x).toNat < S16384.size a := fun v115 k0_hw21 => k0_hw21
def k0_off27 (k0_t5 : Fin k0_t5_loop.trips) (k0_t6 : Fin k0_t6_loop.trips) (c64_i32 : BitVec 32) : Fin 2 → Nat :=
  let c0_i32_23 : BitVec 32 := 0#32
  let c1_i32_25 : BitVec 32 := 1#32
  let arg8 : BitVec 32 := Scf.iv c0_i32_23 c1_i32_25 k0_t5
  let v117 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk22 (v123 : IVec S16 32) : Prop :=
  (∀ a x, ((![v123] : Fin 1 → IVec S16 32) a x).toNat < S16384.size a)
instance k0_chk22.dec : ∀ (v123 : IVec S16 32), Decidable (k0_chk22 v123) := fun v123 => decidable_of_iff' _ (Iff.of_eq (k0_chk22.eq_1 v123))
theorem k0_idx22_inb : ∀ (v123 : IVec S16 32) (k0_hw22 : k0_chk22 v123), ∀ a x, ((![v123] : Fin 1 → IVec S16 32) a x).toNat < S16384.size a := fun v123 k0_hw22 => k0_hw22
def k0_off28 (k0_t5 : Fin k0_t5_loop.trips) (k0_t6 : Fin k0_t6_loop.trips) (c80_i32 : BitVec 32) : Fin 2 → Nat :=
  let c0_i32_23 : BitVec 32 := 0#32
  let c1_i32_25 : BitVec 32 := 1#32
  let arg8 : BitVec 32 := Scf.iv c0_i32_23 c1_i32_25 k0_t5
  let v125 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk23 (v131 : IVec S16 32) : Prop :=
  (∀ a x, ((![v131] : Fin 1 → IVec S16 32) a x).toNat < S16384.size a)
instance k0_chk23.dec : ∀ (v131 : IVec S16 32), Decidable (k0_chk23 v131) := fun v131 => decidable_of_iff' _ (Iff.of_eq (k0_chk23.eq_1 v131))
theorem k0_idx23_inb : ∀ (v131 : IVec S16 32) (k0_hw23 : k0_chk23 v131), ∀ a x, ((![v131] : Fin 1 → IVec S16 32) a x).toNat < S16384.size a := fun v131 k0_hw23 => k0_hw23
def k0_off29 (k0_t5 : Fin k0_t5_loop.trips) (k0_t6 : Fin k0_t6_loop.trips) (c96_i32 : BitVec 32) : Fin 2 → Nat :=
  let c0_i32_23 : BitVec 32 := 0#32
  let c1_i32_25 : BitVec 32 := 1#32
  let arg8 : BitVec 32 := Scf.iv c0_i32_23 c1_i32_25 k0_t5
  let v133 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk24 (v139 : IVec S16 32) : Prop :=
  (∀ a x, ((![v139] : Fin 1 → IVec S16 32) a x).toNat < S16384.size a)
instance k0_chk24.dec : ∀ (v139 : IVec S16 32), Decidable (k0_chk24 v139) := fun v139 => decidable_of_iff' _ (Iff.of_eq (k0_chk24.eq_1 v139))
theorem k0_idx24_inb : ∀ (v139 : IVec S16 32) (k0_hw24 : k0_chk24 v139), ∀ a x, ((![v139] : Fin 1 → IVec S16 32) a x).toNat < S16384.size a := fun v139 k0_hw24 => k0_hw24
def k0_off30 (k0_t5 : Fin k0_t5_loop.trips) (k0_t6 : Fin k0_t6_loop.trips) : Fin 2 → Nat :=
  let c0_i32_23 : BitVec 32 := 0#32
  let c1_i32_25 : BitVec 32 := 1#32
  let arg8 : BitVec 32 := Scf.iv c0_i32_23 c1_i32_25 k0_t5
  let v141 : Index := Scalar.indexCast arg8
  let c0_i32_93 : BitVec 32 := 0#32
  let c1_i32_95 : BitVec 32 := 1#32
  let arg10 : BitVec 32 := Scf.iv c0_i32_93 c1_i32_95 k0_t6
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t7_loop : Scf.Loop 32 :=
  let c0_i32_28 : BitVec 32 := 0#32
  let c32_i32_29 : BitVec 32 := 32#32
  let v40 : BitVec 32 := Scalar.addi c0_i32_28 c32_i32_29
  let c1_i32_30 : BitVec 32 := 1#32
  ⟨c0_i32_28, v40, c1_i32_30⟩
@[reducible] def k0_t8_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off31 (k0_t7 : Fin k0_t7_loop.trips) (k0_t8 : Fin k0_t8_loop.trips) : Fin 2 → Nat :=
  let c0_i32_28 : BitVec 32 := 0#32
  let c1_i32_30 : BitVec 32 := 1#32
  let arg8 : BitVec 32 := Scf.iv c0_i32_28 c1_i32_30 k0_t7
  let v81 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk25 (v83 : IVec S16 32) : Prop :=
  (∀ a x, ((![v83] : Fin 1 → IVec S16 32) a x).toNat < S16384.size a)
instance k0_chk25.dec : ∀ (v83 : IVec S16 32), Decidable (k0_chk25 v83) := fun v83 => decidable_of_iff' _ (Iff.of_eq (k0_chk25.eq_1 v83))
theorem k0_idx25_inb : ∀ (v83 : IVec S16 32) (k0_hw25 : k0_chk25 v83), ∀ a x, ((![v83] : Fin 1 → IVec S16 32) a x).toNat < S16384.size a := fun v83 k0_hw25 => k0_hw25
def k0_off32 (k0_t7 : Fin k0_t7_loop.trips) (k0_t8 : Fin k0_t8_loop.trips) (c0_i32_98 : BitVec 32) : Fin 2 → Nat :=
  let c0_i32_28 : BitVec 32 := 0#32
  let c1_i32_30 : BitVec 32 := 1#32
  let arg8 : BitVec 32 := Scf.iv c0_i32_28 c1_i32_30 k0_t7
  let v85 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk26 (v91 : IVec S16 32) : Prop :=
  (∀ a x, ((![v91] : Fin 1 → IVec S16 32) a x).toNat < S16384.size a)
instance k0_chk26.dec : ∀ (v91 : IVec S16 32), Decidable (k0_chk26 v91) := fun v91 => decidable_of_iff' _ (Iff.of_eq (k0_chk26.eq_1 v91))
theorem k0_idx26_inb : ∀ (v91 : IVec S16 32) (k0_hw26 : k0_chk26 v91), ∀ a x, ((![v91] : Fin 1 → IVec S16 32) a x).toNat < S16384.size a := fun v91 k0_hw26 => k0_hw26
def k0_off33 (k0_t7 : Fin k0_t7_loop.trips) (k0_t8 : Fin k0_t8_loop.trips) (c16_i32_99 : BitVec 32) : Fin 2 → Nat :=
  let c0_i32_28 : BitVec 32 := 0#32
  let c1_i32_30 : BitVec 32 := 1#32
  let arg8 : BitVec 32 := Scf.iv c0_i32_28 c1_i32_30 k0_t7
  let v93 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk27 (v99 : IVec S16 32) : Prop :=
  (∀ a x, ((![v99] : Fin 1 → IVec S16 32) a x).toNat < S16384.size a)
instance k0_chk27.dec : ∀ (v99 : IVec S16 32), Decidable (k0_chk27 v99) := fun v99 => decidable_of_iff' _ (Iff.of_eq (k0_chk27.eq_1 v99))
theorem k0_idx27_inb : ∀ (v99 : IVec S16 32) (k0_hw27 : k0_chk27 v99), ∀ a x, ((![v99] : Fin 1 → IVec S16 32) a x).toNat < S16384.size a := fun v99 k0_hw27 => k0_hw27
def k0_off34 (k0_t7 : Fin k0_t7_loop.trips) (k0_t8 : Fin k0_t8_loop.trips) (c32_i32_100 : BitVec 32) : Fin 2 → Nat :=
  let c0_i32_28 : BitVec 32 := 0#32
  let c1_i32_30 : BitVec 32 := 1#32
  let arg8 : BitVec 32 := Scf.iv c0_i32_28 c1_i32_30 k0_t7
  let v101 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk28 (v107 : IVec S16 32) : Prop :=
  (∀ a x, ((![v107] : Fin 1 → IVec S16 32) a x).toNat < S16384.size a)
instance k0_chk28.dec : ∀ (v107 : IVec S16 32), Decidable (k0_chk28 v107) := fun v107 => decidable_of_iff' _ (Iff.of_eq (k0_chk28.eq_1 v107))
theorem k0_idx28_inb : ∀ (v107 : IVec S16 32) (k0_hw28 : k0_chk28 v107), ∀ a x, ((![v107] : Fin 1 → IVec S16 32) a x).toNat < S16384.size a := fun v107 k0_hw28 => k0_hw28
def k0_off35 (k0_t7 : Fin k0_t7_loop.trips) (k0_t8 : Fin k0_t8_loop.trips) (c48_i32 : BitVec 32) : Fin 2 → Nat :=
  let c0_i32_28 : BitVec 32 := 0#32
  let c1_i32_30 : BitVec 32 := 1#32
  let arg8 : BitVec 32 := Scf.iv c0_i32_28 c1_i32_30 k0_t7
  let v109 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk29 (v115 : IVec S16 32) : Prop :=
  (∀ a x, ((![v115] : Fin 1 → IVec S16 32) a x).toNat < S16384.size a)
instance k0_chk29.dec : ∀ (v115 : IVec S16 32), Decidable (k0_chk29 v115) := fun v115 => decidable_of_iff' _ (Iff.of_eq (k0_chk29.eq_1 v115))
theorem k0_idx29_inb : ∀ (v115 : IVec S16 32) (k0_hw29 : k0_chk29 v115), ∀ a x, ((![v115] : Fin 1 → IVec S16 32) a x).toNat < S16384.size a := fun v115 k0_hw29 => k0_hw29
def k0_off36 (k0_t7 : Fin k0_t7_loop.trips) (k0_t8 : Fin k0_t8_loop.trips) (c64_i32 : BitVec 32) : Fin 2 → Nat :=
  let c0_i32_28 : BitVec 32 := 0#32
  let c1_i32_30 : BitVec 32 := 1#32
  let arg8 : BitVec 32 := Scf.iv c0_i32_28 c1_i32_30 k0_t7
  let v117 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk30 (v123 : IVec S16 32) : Prop :=
  (∀ a x, ((![v123] : Fin 1 → IVec S16 32) a x).toNat < S16384.size a)
instance k0_chk30.dec : ∀ (v123 : IVec S16 32), Decidable (k0_chk30 v123) := fun v123 => decidable_of_iff' _ (Iff.of_eq (k0_chk30.eq_1 v123))
theorem k0_idx30_inb : ∀ (v123 : IVec S16 32) (k0_hw30 : k0_chk30 v123), ∀ a x, ((![v123] : Fin 1 → IVec S16 32) a x).toNat < S16384.size a := fun v123 k0_hw30 => k0_hw30
def k0_off37 (k0_t7 : Fin k0_t7_loop.trips) (k0_t8 : Fin k0_t8_loop.trips) (c80_i32 : BitVec 32) : Fin 2 → Nat :=
  let c0_i32_28 : BitVec 32 := 0#32
  let c1_i32_30 : BitVec 32 := 1#32
  let arg8 : BitVec 32 := Scf.iv c0_i32_28 c1_i32_30 k0_t7
  let v125 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk31 (v131 : IVec S16 32) : Prop :=
  (∀ a x, ((![v131] : Fin 1 → IVec S16 32) a x).toNat < S16384.size a)
instance k0_chk31.dec : ∀ (v131 : IVec S16 32), Decidable (k0_chk31 v131) := fun v131 => decidable_of_iff' _ (Iff.of_eq (k0_chk31.eq_1 v131))
theorem k0_idx31_inb : ∀ (v131 : IVec S16 32) (k0_hw31 : k0_chk31 v131), ∀ a x, ((![v131] : Fin 1 → IVec S16 32) a x).toNat < S16384.size a := fun v131 k0_hw31 => k0_hw31
def k0_off38 (k0_t7 : Fin k0_t7_loop.trips) (k0_t8 : Fin k0_t8_loop.trips) (c96_i32 : BitVec 32) : Fin 2 → Nat :=
  let c0_i32_28 : BitVec 32 := 0#32
  let c1_i32_30 : BitVec 32 := 1#32
  let arg8 : BitVec 32 := Scf.iv c0_i32_28 c1_i32_30 k0_t7
  let v133 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk32 (v139 : IVec S16 32) : Prop :=
  (∀ a x, ((![v139] : Fin 1 → IVec S16 32) a x).toNat < S16384.size a)
instance k0_chk32.dec : ∀ (v139 : IVec S16 32), Decidable (k0_chk32 v139) := fun v139 => decidable_of_iff' _ (Iff.of_eq (k0_chk32.eq_1 v139))
theorem k0_idx32_inb : ∀ (v139 : IVec S16 32) (k0_hw32 : k0_chk32 v139), ∀ a x, ((![v139] : Fin 1 → IVec S16 32) a x).toNat < S16384.size a := fun v139 k0_hw32 => k0_hw32
def k0_off39 (k0_t7 : Fin k0_t7_loop.trips) (k0_t8 : Fin k0_t8_loop.trips) : Fin 2 → Nat :=
  let c0_i32_28 : BitVec 32 := 0#32
  let c1_i32_30 : BitVec 32 := 1#32
  let arg8 : BitVec 32 := Scf.iv c0_i32_28 c1_i32_30 k0_t7
  let v141 : Index := Scalar.indexCast arg8
  let c0_i32_93 : BitVec 32 := 0#32
  let c1_i32_95 : BitVec 32 := 1#32
  let arg10 : BitVec 32 := Scf.iv c0_i32_93 c1_i32_95 k0_t8
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t9_loop : Scf.Loop 32 :=
  let c0_i32_34 : BitVec 32 := 0#32
  let c32_i32_35 : BitVec 32 := 32#32
  let v43 : BitVec 32 := Scalar.addi c0_i32_34 c32_i32_35
  let c1_i32_36 : BitVec 32 := 1#32
  ⟨c0_i32_34, v43, c1_i32_36⟩
@[reducible] def k0_t10_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off40 (k0_t9 : Fin k0_t9_loop.trips) (k0_t10 : Fin k0_t10_loop.trips) : Fin 2 → Nat :=
  let c0_i32_34 : BitVec 32 := 0#32
  let c1_i32_36 : BitVec 32 := 1#32
  let arg8 : BitVec 32 := Scf.iv c0_i32_34 c1_i32_36 k0_t9
  let v81 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk33 (v83 : IVec S16 32) : Prop :=
  (∀ a x, ((![v83] : Fin 1 → IVec S16 32) a x).toNat < S16384.size a)
instance k0_chk33.dec : ∀ (v83 : IVec S16 32), Decidable (k0_chk33 v83) := fun v83 => decidable_of_iff' _ (Iff.of_eq (k0_chk33.eq_1 v83))
theorem k0_idx33_inb : ∀ (v83 : IVec S16 32) (k0_hw33 : k0_chk33 v83), ∀ a x, ((![v83] : Fin 1 → IVec S16 32) a x).toNat < S16384.size a := fun v83 k0_hw33 => k0_hw33
def k0_off41 (k0_t9 : Fin k0_t9_loop.trips) (k0_t10 : Fin k0_t10_loop.trips) (c0_i32_98 : BitVec 32) : Fin 2 → Nat :=
  let c0_i32_34 : BitVec 32 := 0#32
  let c1_i32_36 : BitVec 32 := 1#32
  let arg8 : BitVec 32 := Scf.iv c0_i32_34 c1_i32_36 k0_t9
  let v85 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk34 (v91 : IVec S16 32) : Prop :=
  (∀ a x, ((![v91] : Fin 1 → IVec S16 32) a x).toNat < S16384.size a)
instance k0_chk34.dec : ∀ (v91 : IVec S16 32), Decidable (k0_chk34 v91) := fun v91 => decidable_of_iff' _ (Iff.of_eq (k0_chk34.eq_1 v91))
theorem k0_idx34_inb : ∀ (v91 : IVec S16 32) (k0_hw34 : k0_chk34 v91), ∀ a x, ((![v91] : Fin 1 → IVec S16 32) a x).toNat < S16384.size a := fun v91 k0_hw34 => k0_hw34
def k0_off42 (k0_t9 : Fin k0_t9_loop.trips) (k0_t10 : Fin k0_t10_loop.trips) (c16_i32_99 : BitVec 32) : Fin 2 → Nat :=
  let c0_i32_34 : BitVec 32 := 0#32
  let c1_i32_36 : BitVec 32 := 1#32
  let arg8 : BitVec 32 := Scf.iv c0_i32_34 c1_i32_36 k0_t9
  let v93 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk35 (v99 : IVec S16 32) : Prop :=
  (∀ a x, ((![v99] : Fin 1 → IVec S16 32) a x).toNat < S16384.size a)
instance k0_chk35.dec : ∀ (v99 : IVec S16 32), Decidable (k0_chk35 v99) := fun v99 => decidable_of_iff' _ (Iff.of_eq (k0_chk35.eq_1 v99))
theorem k0_idx35_inb : ∀ (v99 : IVec S16 32) (k0_hw35 : k0_chk35 v99), ∀ a x, ((![v99] : Fin 1 → IVec S16 32) a x).toNat < S16384.size a := fun v99 k0_hw35 => k0_hw35
def k0_off43 (k0_t9 : Fin k0_t9_loop.trips) (k0_t10 : Fin k0_t10_loop.trips) (c32_i32_100 : BitVec 32) : Fin 2 → Nat :=
  let c0_i32_34 : BitVec 32 := 0#32
  let c1_i32_36 : BitVec 32 := 1#32
  let arg8 : BitVec 32 := Scf.iv c0_i32_34 c1_i32_36 k0_t9
  let v101 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk36 (v107 : IVec S16 32) : Prop :=
  (∀ a x, ((![v107] : Fin 1 → IVec S16 32) a x).toNat < S16384.size a)
instance k0_chk36.dec : ∀ (v107 : IVec S16 32), Decidable (k0_chk36 v107) := fun v107 => decidable_of_iff' _ (Iff.of_eq (k0_chk36.eq_1 v107))
theorem k0_idx36_inb : ∀ (v107 : IVec S16 32) (k0_hw36 : k0_chk36 v107), ∀ a x, ((![v107] : Fin 1 → IVec S16 32) a x).toNat < S16384.size a := fun v107 k0_hw36 => k0_hw36
def k0_off44 (k0_t9 : Fin k0_t9_loop.trips) (k0_t10 : Fin k0_t10_loop.trips) (c48_i32 : BitVec 32) : Fin 2 → Nat :=
  let c0_i32_34 : BitVec 32 := 0#32
  let c1_i32_36 : BitVec 32 := 1#32
  let arg8 : BitVec 32 := Scf.iv c0_i32_34 c1_i32_36 k0_t9
  let v109 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk37 (v115 : IVec S16 32) : Prop :=
  (∀ a x, ((![v115] : Fin 1 → IVec S16 32) a x).toNat < S16384.size a)
instance k0_chk37.dec : ∀ (v115 : IVec S16 32), Decidable (k0_chk37 v115) := fun v115 => decidable_of_iff' _ (Iff.of_eq (k0_chk37.eq_1 v115))
theorem k0_idx37_inb : ∀ (v115 : IVec S16 32) (k0_hw37 : k0_chk37 v115), ∀ a x, ((![v115] : Fin 1 → IVec S16 32) a x).toNat < S16384.size a := fun v115 k0_hw37 => k0_hw37
def k0_off45 (k0_t9 : Fin k0_t9_loop.trips) (k0_t10 : Fin k0_t10_loop.trips) (c64_i32 : BitVec 32) : Fin 2 → Nat :=
  let c0_i32_34 : BitVec 32 := 0#32
  let c1_i32_36 : BitVec 32 := 1#32
  let arg8 : BitVec 32 := Scf.iv c0_i32_34 c1_i32_36 k0_t9
  let v117 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk38 (v123 : IVec S16 32) : Prop :=
  (∀ a x, ((![v123] : Fin 1 → IVec S16 32) a x).toNat < S16384.size a)
instance k0_chk38.dec : ∀ (v123 : IVec S16 32), Decidable (k0_chk38 v123) := fun v123 => decidable_of_iff' _ (Iff.of_eq (k0_chk38.eq_1 v123))
theorem k0_idx38_inb : ∀ (v123 : IVec S16 32) (k0_hw38 : k0_chk38 v123), ∀ a x, ((![v123] : Fin 1 → IVec S16 32) a x).toNat < S16384.size a := fun v123 k0_hw38 => k0_hw38
def k0_off46 (k0_t9 : Fin k0_t9_loop.trips) (k0_t10 : Fin k0_t10_loop.trips) (c80_i32 : BitVec 32) : Fin 2 → Nat :=
  let c0_i32_34 : BitVec 32 := 0#32
  let c1_i32_36 : BitVec 32 := 1#32
  let arg8 : BitVec 32 := Scf.iv c0_i32_34 c1_i32_36 k0_t9
  let v125 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk39 (v131 : IVec S16 32) : Prop :=
  (∀ a x, ((![v131] : Fin 1 → IVec S16 32) a x).toNat < S16384.size a)
instance k0_chk39.dec : ∀ (v131 : IVec S16 32), Decidable (k0_chk39 v131) := fun v131 => decidable_of_iff' _ (Iff.of_eq (k0_chk39.eq_1 v131))
theorem k0_idx39_inb : ∀ (v131 : IVec S16 32) (k0_hw39 : k0_chk39 v131), ∀ a x, ((![v131] : Fin 1 → IVec S16 32) a x).toNat < S16384.size a := fun v131 k0_hw39 => k0_hw39
def k0_off47 (k0_t9 : Fin k0_t9_loop.trips) (k0_t10 : Fin k0_t10_loop.trips) (c96_i32 : BitVec 32) : Fin 2 → Nat :=
  let c0_i32_34 : BitVec 32 := 0#32
  let c1_i32_36 : BitVec 32 := 1#32
  let arg8 : BitVec 32 := Scf.iv c0_i32_34 c1_i32_36 k0_t9
  let v133 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk40 (v139 : IVec S16 32) : Prop :=
  (∀ a x, ((![v139] : Fin 1 → IVec S16 32) a x).toNat < S16384.size a)
instance k0_chk40.dec : ∀ (v139 : IVec S16 32), Decidable (k0_chk40 v139) := fun v139 => decidable_of_iff' _ (Iff.of_eq (k0_chk40.eq_1 v139))
theorem k0_idx40_inb : ∀ (v139 : IVec S16 32) (k0_hw40 : k0_chk40 v139), ∀ a x, ((![v139] : Fin 1 → IVec S16 32) a x).toNat < S16384.size a := fun v139 k0_hw40 => k0_hw40
def k0_off48 (k0_t9 : Fin k0_t9_loop.trips) (k0_t10 : Fin k0_t10_loop.trips) : Fin 2 → Nat :=
  let c0_i32_34 : BitVec 32 := 0#32
  let c1_i32_36 : BitVec 32 := 1#32
  let arg8 : BitVec 32 := Scf.iv c0_i32_34 c1_i32_36 k0_t9
  let v141 : Index := Scalar.indexCast arg8
  let c0_i32_93 : BitVec 32 := 0#32
  let c1_i32_95 : BitVec 32 := 1#32
  let arg10 : BitVec 32 := Scf.iv c0_i32_93 c1_i32_95 k0_t10
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t11_loop : Scf.Loop 32 :=
  let c0_i32_39 : BitVec 32 := 0#32
  let c32_i32_40 : BitVec 32 := 32#32
  let v46 : BitVec 32 := Scalar.addi c0_i32_39 c32_i32_40
  let c1_i32_41 : BitVec 32 := 1#32
  ⟨c0_i32_39, v46, c1_i32_41⟩
@[reducible] def k0_t12_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off49 (k0_t11 : Fin k0_t11_loop.trips) (k0_t12 : Fin k0_t12_loop.trips) : Fin 2 → Nat :=
  let c0_i32_39 : BitVec 32 := 0#32
  let c1_i32_41 : BitVec 32 := 1#32
  let arg8 : BitVec 32 := Scf.iv c0_i32_39 c1_i32_41 k0_t11
  let v81 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk41 (v83 : IVec S16 32) : Prop :=
  (∀ a x, ((![v83] : Fin 1 → IVec S16 32) a x).toNat < S16384.size a)
instance k0_chk41.dec : ∀ (v83 : IVec S16 32), Decidable (k0_chk41 v83) := fun v83 => decidable_of_iff' _ (Iff.of_eq (k0_chk41.eq_1 v83))
theorem k0_idx41_inb : ∀ (v83 : IVec S16 32) (k0_hw41 : k0_chk41 v83), ∀ a x, ((![v83] : Fin 1 → IVec S16 32) a x).toNat < S16384.size a := fun v83 k0_hw41 => k0_hw41
def k0_off50 (k0_t11 : Fin k0_t11_loop.trips) (k0_t12 : Fin k0_t12_loop.trips) (c0_i32_98 : BitVec 32) : Fin 2 → Nat :=
  let c0_i32_39 : BitVec 32 := 0#32
  let c1_i32_41 : BitVec 32 := 1#32
  let arg8 : BitVec 32 := Scf.iv c0_i32_39 c1_i32_41 k0_t11
  let v85 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk42 (v91 : IVec S16 32) : Prop :=
  (∀ a x, ((![v91] : Fin 1 → IVec S16 32) a x).toNat < S16384.size a)
instance k0_chk42.dec : ∀ (v91 : IVec S16 32), Decidable (k0_chk42 v91) := fun v91 => decidable_of_iff' _ (Iff.of_eq (k0_chk42.eq_1 v91))
theorem k0_idx42_inb : ∀ (v91 : IVec S16 32) (k0_hw42 : k0_chk42 v91), ∀ a x, ((![v91] : Fin 1 → IVec S16 32) a x).toNat < S16384.size a := fun v91 k0_hw42 => k0_hw42
def k0_off51 (k0_t11 : Fin k0_t11_loop.trips) (k0_t12 : Fin k0_t12_loop.trips) (c16_i32_99 : BitVec 32) : Fin 2 → Nat :=
  let c0_i32_39 : BitVec 32 := 0#32
  let c1_i32_41 : BitVec 32 := 1#32
  let arg8 : BitVec 32 := Scf.iv c0_i32_39 c1_i32_41 k0_t11
  let v93 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk43 (v99 : IVec S16 32) : Prop :=
  (∀ a x, ((![v99] : Fin 1 → IVec S16 32) a x).toNat < S16384.size a)
instance k0_chk43.dec : ∀ (v99 : IVec S16 32), Decidable (k0_chk43 v99) := fun v99 => decidable_of_iff' _ (Iff.of_eq (k0_chk43.eq_1 v99))
theorem k0_idx43_inb : ∀ (v99 : IVec S16 32) (k0_hw43 : k0_chk43 v99), ∀ a x, ((![v99] : Fin 1 → IVec S16 32) a x).toNat < S16384.size a := fun v99 k0_hw43 => k0_hw43
def k0_off52 (k0_t11 : Fin k0_t11_loop.trips) (k0_t12 : Fin k0_t12_loop.trips) (c32_i32_100 : BitVec 32) : Fin 2 → Nat :=
  let c0_i32_39 : BitVec 32 := 0#32
  let c1_i32_41 : BitVec 32 := 1#32
  let arg8 : BitVec 32 := Scf.iv c0_i32_39 c1_i32_41 k0_t11
  let v101 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk44 (v107 : IVec S16 32) : Prop :=
  (∀ a x, ((![v107] : Fin 1 → IVec S16 32) a x).toNat < S16384.size a)
instance k0_chk44.dec : ∀ (v107 : IVec S16 32), Decidable (k0_chk44 v107) := fun v107 => decidable_of_iff' _ (Iff.of_eq (k0_chk44.eq_1 v107))
theorem k0_idx44_inb : ∀ (v107 : IVec S16 32) (k0_hw44 : k0_chk44 v107), ∀ a x, ((![v107] : Fin 1 → IVec S16 32) a x).toNat < S16384.size a := fun v107 k0_hw44 => k0_hw44
def k0_off53 (k0_t11 : Fin k0_t11_loop.trips) (k0_t12 : Fin k0_t12_loop.trips) (c48_i32 : BitVec 32) : Fin 2 → Nat :=
  let c0_i32_39 : BitVec 32 := 0#32
  let c1_i32_41 : BitVec 32 := 1#32
  let arg8 : BitVec 32 := Scf.iv c0_i32_39 c1_i32_41 k0_t11
  let v109 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk45 (v115 : IVec S16 32) : Prop :=
  (∀ a x, ((![v115] : Fin 1 → IVec S16 32) a x).toNat < S16384.size a)
instance k0_chk45.dec : ∀ (v115 : IVec S16 32), Decidable (k0_chk45 v115) := fun v115 => decidable_of_iff' _ (Iff.of_eq (k0_chk45.eq_1 v115))
theorem k0_idx45_inb : ∀ (v115 : IVec S16 32) (k0_hw45 : k0_chk45 v115), ∀ a x, ((![v115] : Fin 1 → IVec S16 32) a x).toNat < S16384.size a := fun v115 k0_hw45 => k0_hw45
def k0_off54 (k0_t11 : Fin k0_t11_loop.trips) (k0_t12 : Fin k0_t12_loop.trips) (c64_i32 : BitVec 32) : Fin 2 → Nat :=
  let c0_i32_39 : BitVec 32 := 0#32
  let c1_i32_41 : BitVec 32 := 1#32
  let arg8 : BitVec 32 := Scf.iv c0_i32_39 c1_i32_41 k0_t11
  let v117 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk46 (v123 : IVec S16 32) : Prop :=
  (∀ a x, ((![v123] : Fin 1 → IVec S16 32) a x).toNat < S16384.size a)
instance k0_chk46.dec : ∀ (v123 : IVec S16 32), Decidable (k0_chk46 v123) := fun v123 => decidable_of_iff' _ (Iff.of_eq (k0_chk46.eq_1 v123))
theorem k0_idx46_inb : ∀ (v123 : IVec S16 32) (k0_hw46 : k0_chk46 v123), ∀ a x, ((![v123] : Fin 1 → IVec S16 32) a x).toNat < S16384.size a := fun v123 k0_hw46 => k0_hw46
def k0_off55 (k0_t11 : Fin k0_t11_loop.trips) (k0_t12 : Fin k0_t12_loop.trips) (c80_i32 : BitVec 32) : Fin 2 → Nat :=
  let c0_i32_39 : BitVec 32 := 0#32
  let c1_i32_41 : BitVec 32 := 1#32
  let arg8 : BitVec 32 := Scf.iv c0_i32_39 c1_i32_41 k0_t11
  let v125 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk47 (v131 : IVec S16 32) : Prop :=
  (∀ a x, ((![v131] : Fin 1 → IVec S16 32) a x).toNat < S16384.size a)
instance k0_chk47.dec : ∀ (v131 : IVec S16 32), Decidable (k0_chk47 v131) := fun v131 => decidable_of_iff' _ (Iff.of_eq (k0_chk47.eq_1 v131))
theorem k0_idx47_inb : ∀ (v131 : IVec S16 32) (k0_hw47 : k0_chk47 v131), ∀ a x, ((![v131] : Fin 1 → IVec S16 32) a x).toNat < S16384.size a := fun v131 k0_hw47 => k0_hw47
def k0_off56 (k0_t11 : Fin k0_t11_loop.trips) (k0_t12 : Fin k0_t12_loop.trips) (c96_i32 : BitVec 32) : Fin 2 → Nat :=
  let c0_i32_39 : BitVec 32 := 0#32
  let c1_i32_41 : BitVec 32 := 1#32
  let arg8 : BitVec 32 := Scf.iv c0_i32_39 c1_i32_41 k0_t11
  let v133 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk48 (v139 : IVec S16 32) : Prop :=
  (∀ a x, ((![v139] : Fin 1 → IVec S16 32) a x).toNat < S16384.size a)
instance k0_chk48.dec : ∀ (v139 : IVec S16 32), Decidable (k0_chk48 v139) := fun v139 => decidable_of_iff' _ (Iff.of_eq (k0_chk48.eq_1 v139))
theorem k0_idx48_inb : ∀ (v139 : IVec S16 32) (k0_hw48 : k0_chk48 v139), ∀ a x, ((![v139] : Fin 1 → IVec S16 32) a x).toNat < S16384.size a := fun v139 k0_hw48 => k0_hw48
def k0_off57 (k0_t11 : Fin k0_t11_loop.trips) (k0_t12 : Fin k0_t12_loop.trips) : Fin 2 → Nat :=
  let c0_i32_39 : BitVec 32 := 0#32
  let c1_i32_41 : BitVec 32 := 1#32
  let arg8 : BitVec 32 := Scf.iv c0_i32_39 c1_i32_41 k0_t11
  let v141 : Index := Scalar.indexCast arg8
  let c0_i32_93 : BitVec 32 := 0#32
  let c1_i32_95 : BitVec 32 := 1#32
  let arg10 : BitVec 32 := Scf.iv c0_i32_93 c1_i32_95 k0_t12
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t13_loop : Scf.Loop 32 :=
  let c0_i32_44 : BitVec 32 := 0#32
  let c32_i32_45 : BitVec 32 := 32#32
  let v49 : BitVec 32 := Scalar.addi c0_i32_44 c32_i32_45
  let c1_i32_46 : BitVec 32 := 1#32
  ⟨c0_i32_44, v49, c1_i32_46⟩
@[reducible] def k0_t14_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off58 (k0_t13 : Fin k0_t13_loop.trips) (k0_t14 : Fin k0_t14_loop.trips) : Fin 2 → Nat :=
  let c0_i32_44 : BitVec 32 := 0#32
  let c1_i32_46 : BitVec 32 := 1#32
  let arg8 : BitVec 32 := Scf.iv c0_i32_44 c1_i32_46 k0_t13
  let v81 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk49 (v83 : IVec S16 32) : Prop :=
  (∀ a x, ((![v83] : Fin 1 → IVec S16 32) a x).toNat < S16384.size a)
instance k0_chk49.dec : ∀ (v83 : IVec S16 32), Decidable (k0_chk49 v83) := fun v83 => decidable_of_iff' _ (Iff.of_eq (k0_chk49.eq_1 v83))
theorem k0_idx49_inb : ∀ (v83 : IVec S16 32) (k0_hw49 : k0_chk49 v83), ∀ a x, ((![v83] : Fin 1 → IVec S16 32) a x).toNat < S16384.size a := fun v83 k0_hw49 => k0_hw49
def k0_off59 (k0_t13 : Fin k0_t13_loop.trips) (k0_t14 : Fin k0_t14_loop.trips) (c0_i32_98 : BitVec 32) : Fin 2 → Nat :=
  let c0_i32_44 : BitVec 32 := 0#32
  let c1_i32_46 : BitVec 32 := 1#32
  let arg8 : BitVec 32 := Scf.iv c0_i32_44 c1_i32_46 k0_t13
  let v85 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk50 (v91 : IVec S16 32) : Prop :=
  (∀ a x, ((![v91] : Fin 1 → IVec S16 32) a x).toNat < S16384.size a)
instance k0_chk50.dec : ∀ (v91 : IVec S16 32), Decidable (k0_chk50 v91) := fun v91 => decidable_of_iff' _ (Iff.of_eq (k0_chk50.eq_1 v91))
theorem k0_idx50_inb : ∀ (v91 : IVec S16 32) (k0_hw50 : k0_chk50 v91), ∀ a x, ((![v91] : Fin 1 → IVec S16 32) a x).toNat < S16384.size a := fun v91 k0_hw50 => k0_hw50
def k0_off60 (k0_t13 : Fin k0_t13_loop.trips) (k0_t14 : Fin k0_t14_loop.trips) (c16_i32_99 : BitVec 32) : Fin 2 → Nat :=
  let c0_i32_44 : BitVec 32 := 0#32
  let c1_i32_46 : BitVec 32 := 1#32
  let arg8 : BitVec 32 := Scf.iv c0_i32_44 c1_i32_46 k0_t13
  let v93 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk51 (v99 : IVec S16 32) : Prop :=
  (∀ a x, ((![v99] : Fin 1 → IVec S16 32) a x).toNat < S16384.size a)
instance k0_chk51.dec : ∀ (v99 : IVec S16 32), Decidable (k0_chk51 v99) := fun v99 => decidable_of_iff' _ (Iff.of_eq (k0_chk51.eq_1 v99))
theorem k0_idx51_inb : ∀ (v99 : IVec S16 32) (k0_hw51 : k0_chk51 v99), ∀ a x, ((![v99] : Fin 1 → IVec S16 32) a x).toNat < S16384.size a := fun v99 k0_hw51 => k0_hw51
def k0_off61 (k0_t13 : Fin k0_t13_loop.trips) (k0_t14 : Fin k0_t14_loop.trips) (c32_i32_100 : BitVec 32) : Fin 2 → Nat :=
  let c0_i32_44 : BitVec 32 := 0#32
  let c1_i32_46 : BitVec 32 := 1#32
  let arg8 : BitVec 32 := Scf.iv c0_i32_44 c1_i32_46 k0_t13
  let v101 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk52 (v107 : IVec S16 32) : Prop :=
  (∀ a x, ((![v107] : Fin 1 → IVec S16 32) a x).toNat < S16384.size a)
instance k0_chk52.dec : ∀ (v107 : IVec S16 32), Decidable (k0_chk52 v107) := fun v107 => decidable_of_iff' _ (Iff.of_eq (k0_chk52.eq_1 v107))
theorem k0_idx52_inb : ∀ (v107 : IVec S16 32) (k0_hw52 : k0_chk52 v107), ∀ a x, ((![v107] : Fin 1 → IVec S16 32) a x).toNat < S16384.size a := fun v107 k0_hw52 => k0_hw52
def k0_off62 (k0_t13 : Fin k0_t13_loop.trips) (k0_t14 : Fin k0_t14_loop.trips) (c48_i32 : BitVec 32) : Fin 2 → Nat :=
  let c0_i32_44 : BitVec 32 := 0#32
  let c1_i32_46 : BitVec 32 := 1#32
  let arg8 : BitVec 32 := Scf.iv c0_i32_44 c1_i32_46 k0_t13
  let v109 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk53 (v115 : IVec S16 32) : Prop :=
  (∀ a x, ((![v115] : Fin 1 → IVec S16 32) a x).toNat < S16384.size a)
instance k0_chk53.dec : ∀ (v115 : IVec S16 32), Decidable (k0_chk53 v115) := fun v115 => decidable_of_iff' _ (Iff.of_eq (k0_chk53.eq_1 v115))
theorem k0_idx53_inb : ∀ (v115 : IVec S16 32) (k0_hw53 : k0_chk53 v115), ∀ a x, ((![v115] : Fin 1 → IVec S16 32) a x).toNat < S16384.size a := fun v115 k0_hw53 => k0_hw53
def k0_off63 (k0_t13 : Fin k0_t13_loop.trips) (k0_t14 : Fin k0_t14_loop.trips) (c64_i32 : BitVec 32) : Fin 2 → Nat :=
  let c0_i32_44 : BitVec 32 := 0#32
  let c1_i32_46 : BitVec 32 := 1#32
  let arg8 : BitVec 32 := Scf.iv c0_i32_44 c1_i32_46 k0_t13
  let v117 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk54 (v123 : IVec S16 32) : Prop :=
  (∀ a x, ((![v123] : Fin 1 → IVec S16 32) a x).toNat < S16384.size a)
instance k0_chk54.dec : ∀ (v123 : IVec S16 32), Decidable (k0_chk54 v123) := fun v123 => decidable_of_iff' _ (Iff.of_eq (k0_chk54.eq_1 v123))
theorem k0_idx54_inb : ∀ (v123 : IVec S16 32) (k0_hw54 : k0_chk54 v123), ∀ a x, ((![v123] : Fin 1 → IVec S16 32) a x).toNat < S16384.size a := fun v123 k0_hw54 => k0_hw54
def k0_off64 (k0_t13 : Fin k0_t13_loop.trips) (k0_t14 : Fin k0_t14_loop.trips) (c80_i32 : BitVec 32) : Fin 2 → Nat :=
  let c0_i32_44 : BitVec 32 := 0#32
  let c1_i32_46 : BitVec 32 := 1#32
  let arg8 : BitVec 32 := Scf.iv c0_i32_44 c1_i32_46 k0_t13
  let v125 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk55 (v131 : IVec S16 32) : Prop :=
  (∀ a x, ((![v131] : Fin 1 → IVec S16 32) a x).toNat < S16384.size a)
instance k0_chk55.dec : ∀ (v131 : IVec S16 32), Decidable (k0_chk55 v131) := fun v131 => decidable_of_iff' _ (Iff.of_eq (k0_chk55.eq_1 v131))
theorem k0_idx55_inb : ∀ (v131 : IVec S16 32) (k0_hw55 : k0_chk55 v131), ∀ a x, ((![v131] : Fin 1 → IVec S16 32) a x).toNat < S16384.size a := fun v131 k0_hw55 => k0_hw55
def k0_off65 (k0_t13 : Fin k0_t13_loop.trips) (k0_t14 : Fin k0_t14_loop.trips) (c96_i32 : BitVec 32) : Fin 2 → Nat :=
  let c0_i32_44 : BitVec 32 := 0#32
  let c1_i32_46 : BitVec 32 := 1#32
  let arg8 : BitVec 32 := Scf.iv c0_i32_44 c1_i32_46 k0_t13
  let v133 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk56 (v139 : IVec S16 32) : Prop :=
  (∀ a x, ((![v139] : Fin 1 → IVec S16 32) a x).toNat < S16384.size a)
instance k0_chk56.dec : ∀ (v139 : IVec S16 32), Decidable (k0_chk56 v139) := fun v139 => decidable_of_iff' _ (Iff.of_eq (k0_chk56.eq_1 v139))
theorem k0_idx56_inb : ∀ (v139 : IVec S16 32) (k0_hw56 : k0_chk56 v139), ∀ a x, ((![v139] : Fin 1 → IVec S16 32) a x).toNat < S16384.size a := fun v139 k0_hw56 => k0_hw56
def k0_off66 (k0_t13 : Fin k0_t13_loop.trips) (k0_t14 : Fin k0_t14_loop.trips) : Fin 2 → Nat :=
  let c0_i32_44 : BitVec 32 := 0#32
  let c1_i32_46 : BitVec 32 := 1#32
  let arg8 : BitVec 32 := Scf.iv c0_i32_44 c1_i32_46 k0_t13
  let v141 : Index := Scalar.indexCast arg8
  let c0_i32_93 : BitVec 32 := 0#32
  let c1_i32_95 : BitVec 32 := 1#32
  let arg10 : BitVec 32 := Scf.iv c0_i32_93 c1_i32_95 k0_t14
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t15_loop : Scf.Loop 32 :=
  let c0_i32_49 : BitVec 32 := 0#32
  let c32_i32_50 : BitVec 32 := 32#32
  let v52 : BitVec 32 := Scalar.addi c0_i32_49 c32_i32_50
  let c1_i32_51 : BitVec 32 := 1#32
  ⟨c0_i32_49, v52, c1_i32_51⟩
@[reducible] def k0_t16_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off67 (k0_t15 : Fin k0_t15_loop.trips) (k0_t16 : Fin k0_t16_loop.trips) : Fin 2 → Nat :=
  let c0_i32_49 : BitVec 32 := 0#32
  let c1_i32_51 : BitVec 32 := 1#32
  let arg8 : BitVec 32 := Scf.iv c0_i32_49 c1_i32_51 k0_t15
  let v81 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk57 (v83 : IVec S16 32) : Prop :=
  (∀ a x, ((![v83] : Fin 1 → IVec S16 32) a x).toNat < S16384.size a)
instance k0_chk57.dec : ∀ (v83 : IVec S16 32), Decidable (k0_chk57 v83) := fun v83 => decidable_of_iff' _ (Iff.of_eq (k0_chk57.eq_1 v83))
theorem k0_idx57_inb : ∀ (v83 : IVec S16 32) (k0_hw57 : k0_chk57 v83), ∀ a x, ((![v83] : Fin 1 → IVec S16 32) a x).toNat < S16384.size a := fun v83 k0_hw57 => k0_hw57
def k0_off68 (k0_t15 : Fin k0_t15_loop.trips) (k0_t16 : Fin k0_t16_loop.trips) (c0_i32_98 : BitVec 32) : Fin 2 → Nat :=
  let c0_i32_49 : BitVec 32 := 0#32
  let c1_i32_51 : BitVec 32 := 1#32
  let arg8 : BitVec 32 := Scf.iv c0_i32_49 c1_i32_51 k0_t15
  let v85 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk58 (v91 : IVec S16 32) : Prop :=
  (∀ a x, ((![v91] : Fin 1 → IVec S16 32) a x).toNat < S16384.size a)
instance k0_chk58.dec : ∀ (v91 : IVec S16 32), Decidable (k0_chk58 v91) := fun v91 => decidable_of_iff' _ (Iff.of_eq (k0_chk58.eq_1 v91))
theorem k0_idx58_inb : ∀ (v91 : IVec S16 32) (k0_hw58 : k0_chk58 v91), ∀ a x, ((![v91] : Fin 1 → IVec S16 32) a x).toNat < S16384.size a := fun v91 k0_hw58 => k0_hw58
def k0_off69 (k0_t15 : Fin k0_t15_loop.trips) (k0_t16 : Fin k0_t16_loop.trips) (c16_i32_99 : BitVec 32) : Fin 2 → Nat :=
  let c0_i32_49 : BitVec 32 := 0#32
  let c1_i32_51 : BitVec 32 := 1#32
  let arg8 : BitVec 32 := Scf.iv c0_i32_49 c1_i32_51 k0_t15
  let v93 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk59 (v99 : IVec S16 32) : Prop :=
  (∀ a x, ((![v99] : Fin 1 → IVec S16 32) a x).toNat < S16384.size a)
instance k0_chk59.dec : ∀ (v99 : IVec S16 32), Decidable (k0_chk59 v99) := fun v99 => decidable_of_iff' _ (Iff.of_eq (k0_chk59.eq_1 v99))
theorem k0_idx59_inb : ∀ (v99 : IVec S16 32) (k0_hw59 : k0_chk59 v99), ∀ a x, ((![v99] : Fin 1 → IVec S16 32) a x).toNat < S16384.size a := fun v99 k0_hw59 => k0_hw59
def k0_off70 (k0_t15 : Fin k0_t15_loop.trips) (k0_t16 : Fin k0_t16_loop.trips) (c32_i32_100 : BitVec 32) : Fin 2 → Nat :=
  let c0_i32_49 : BitVec 32 := 0#32
  let c1_i32_51 : BitVec 32 := 1#32
  let arg8 : BitVec 32 := Scf.iv c0_i32_49 c1_i32_51 k0_t15
  let v101 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk60 (v107 : IVec S16 32) : Prop :=
  (∀ a x, ((![v107] : Fin 1 → IVec S16 32) a x).toNat < S16384.size a)
instance k0_chk60.dec : ∀ (v107 : IVec S16 32), Decidable (k0_chk60 v107) := fun v107 => decidable_of_iff' _ (Iff.of_eq (k0_chk60.eq_1 v107))
theorem k0_idx60_inb : ∀ (v107 : IVec S16 32) (k0_hw60 : k0_chk60 v107), ∀ a x, ((![v107] : Fin 1 → IVec S16 32) a x).toNat < S16384.size a := fun v107 k0_hw60 => k0_hw60
def k0_off71 (k0_t15 : Fin k0_t15_loop.trips) (k0_t16 : Fin k0_t16_loop.trips) (c48_i32 : BitVec 32) : Fin 2 → Nat :=
  let c0_i32_49 : BitVec 32 := 0#32
  let c1_i32_51 : BitVec 32 := 1#32
  let arg8 : BitVec 32 := Scf.iv c0_i32_49 c1_i32_51 k0_t15
  let v109 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk61 (v115 : IVec S16 32) : Prop :=
  (∀ a x, ((![v115] : Fin 1 → IVec S16 32) a x).toNat < S16384.size a)
instance k0_chk61.dec : ∀ (v115 : IVec S16 32), Decidable (k0_chk61 v115) := fun v115 => decidable_of_iff' _ (Iff.of_eq (k0_chk61.eq_1 v115))
theorem k0_idx61_inb : ∀ (v115 : IVec S16 32) (k0_hw61 : k0_chk61 v115), ∀ a x, ((![v115] : Fin 1 → IVec S16 32) a x).toNat < S16384.size a := fun v115 k0_hw61 => k0_hw61
def k0_off72 (k0_t15 : Fin k0_t15_loop.trips) (k0_t16 : Fin k0_t16_loop.trips) (c64_i32 : BitVec 32) : Fin 2 → Nat :=
  let c0_i32_49 : BitVec 32 := 0#32
  let c1_i32_51 : BitVec 32 := 1#32
  let arg8 : BitVec 32 := Scf.iv c0_i32_49 c1_i32_51 k0_t15
  let v117 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk62 (v123 : IVec S16 32) : Prop :=
  (∀ a x, ((![v123] : Fin 1 → IVec S16 32) a x).toNat < S16384.size a)
instance k0_chk62.dec : ∀ (v123 : IVec S16 32), Decidable (k0_chk62 v123) := fun v123 => decidable_of_iff' _ (Iff.of_eq (k0_chk62.eq_1 v123))
theorem k0_idx62_inb : ∀ (v123 : IVec S16 32) (k0_hw62 : k0_chk62 v123), ∀ a x, ((![v123] : Fin 1 → IVec S16 32) a x).toNat < S16384.size a := fun v123 k0_hw62 => k0_hw62
def k0_off73 (k0_t15 : Fin k0_t15_loop.trips) (k0_t16 : Fin k0_t16_loop.trips) (c80_i32 : BitVec 32) : Fin 2 → Nat :=
  let c0_i32_49 : BitVec 32 := 0#32
  let c1_i32_51 : BitVec 32 := 1#32
  let arg8 : BitVec 32 := Scf.iv c0_i32_49 c1_i32_51 k0_t15
  let v125 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk63 (v131 : IVec S16 32) : Prop :=
  (∀ a x, ((![v131] : Fin 1 → IVec S16 32) a x).toNat < S16384.size a)
instance k0_chk63.dec : ∀ (v131 : IVec S16 32), Decidable (k0_chk63 v131) := fun v131 => decidable_of_iff' _ (Iff.of_eq (k0_chk63.eq_1 v131))
theorem k0_idx63_inb : ∀ (v131 : IVec S16 32) (k0_hw63 : k0_chk63 v131), ∀ a x, ((![v131] : Fin 1 → IVec S16 32) a x).toNat < S16384.size a := fun v131 k0_hw63 => k0_hw63
def k0_off74 (k0_t15 : Fin k0_t15_loop.trips) (k0_t16 : Fin k0_t16_loop.trips) (c96_i32 : BitVec 32) : Fin 2 → Nat :=
  let c0_i32_49 : BitVec 32 := 0#32
  let c1_i32_51 : BitVec 32 := 1#32
  let arg8 : BitVec 32 := Scf.iv c0_i32_49 c1_i32_51 k0_t15
  let v133 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk64 (v139 : IVec S16 32) : Prop :=
  (∀ a x, ((![v139] : Fin 1 → IVec S16 32) a x).toNat < S16384.size a)
instance k0_chk64.dec : ∀ (v139 : IVec S16 32), Decidable (k0_chk64 v139) := fun v139 => decidable_of_iff' _ (Iff.of_eq (k0_chk64.eq_1 v139))
theorem k0_idx64_inb : ∀ (v139 : IVec S16 32) (k0_hw64 : k0_chk64 v139), ∀ a x, ((![v139] : Fin 1 → IVec S16 32) a x).toNat < S16384.size a := fun v139 k0_hw64 => k0_hw64
def k0_off75 (k0_t15 : Fin k0_t15_loop.trips) (k0_t16 : Fin k0_t16_loop.trips) : Fin 2 → Nat :=
  let c0_i32_49 : BitVec 32 := 0#32
  let c1_i32_51 : BitVec 32 := 1#32
  let arg8 : BitVec 32 := Scf.iv c0_i32_49 c1_i32_51 k0_t15
  let v141 : Index := Scalar.indexCast arg8
  let c0_i32_93 : BitVec 32 := 0#32
  let c1_i32_95 : BitVec 32 := 1#32
  let arg10 : BitVec 32 := Scf.iv c0_i32_93 c1_i32_95 k0_t16
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t17_loop : Scf.Loop 32 :=
  let c0_i32_54 : BitVec 32 := 0#32
  let c32_i32_55 : BitVec 32 := 32#32
  let v55 : BitVec 32 := Scalar.addi c0_i32_54 c32_i32_55
  let c1_i32_56 : BitVec 32 := 1#32
  ⟨c0_i32_54, v55, c1_i32_56⟩
@[reducible] def k0_t18_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off76 (k0_t17 : Fin k0_t17_loop.trips) (k0_t18 : Fin k0_t18_loop.trips) : Fin 2 → Nat :=
  let c0_i32_54 : BitVec 32 := 0#32
  let c1_i32_56 : BitVec 32 := 1#32
  let arg8 : BitVec 32 := Scf.iv c0_i32_54 c1_i32_56 k0_t17
  let v81 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk65 (v83 : IVec S16 32) : Prop :=
  (∀ a x, ((![v83] : Fin 1 → IVec S16 32) a x).toNat < S16384.size a)
instance k0_chk65.dec : ∀ (v83 : IVec S16 32), Decidable (k0_chk65 v83) := fun v83 => decidable_of_iff' _ (Iff.of_eq (k0_chk65.eq_1 v83))
theorem k0_idx65_inb : ∀ (v83 : IVec S16 32) (k0_hw65 : k0_chk65 v83), ∀ a x, ((![v83] : Fin 1 → IVec S16 32) a x).toNat < S16384.size a := fun v83 k0_hw65 => k0_hw65
def k0_off77 (k0_t17 : Fin k0_t17_loop.trips) (k0_t18 : Fin k0_t18_loop.trips) (c0_i32_98 : BitVec 32) : Fin 2 → Nat :=
  let c0_i32_54 : BitVec 32 := 0#32
  let c1_i32_56 : BitVec 32 := 1#32
  let arg8 : BitVec 32 := Scf.iv c0_i32_54 c1_i32_56 k0_t17
  let v85 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk66 (v91 : IVec S16 32) : Prop :=
  (∀ a x, ((![v91] : Fin 1 → IVec S16 32) a x).toNat < S16384.size a)
instance k0_chk66.dec : ∀ (v91 : IVec S16 32), Decidable (k0_chk66 v91) := fun v91 => decidable_of_iff' _ (Iff.of_eq (k0_chk66.eq_1 v91))
theorem k0_idx66_inb : ∀ (v91 : IVec S16 32) (k0_hw66 : k0_chk66 v91), ∀ a x, ((![v91] : Fin 1 → IVec S16 32) a x).toNat < S16384.size a := fun v91 k0_hw66 => k0_hw66
def k0_off78 (k0_t17 : Fin k0_t17_loop.trips) (k0_t18 : Fin k0_t18_loop.trips) (c16_i32_99 : BitVec 32) : Fin 2 → Nat :=
  let c0_i32_54 : BitVec 32 := 0#32
  let c1_i32_56 : BitVec 32 := 1#32
  let arg8 : BitVec 32 := Scf.iv c0_i32_54 c1_i32_56 k0_t17
  let v93 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk67 (v99 : IVec S16 32) : Prop :=
  (∀ a x, ((![v99] : Fin 1 → IVec S16 32) a x).toNat < S16384.size a)
instance k0_chk67.dec : ∀ (v99 : IVec S16 32), Decidable (k0_chk67 v99) := fun v99 => decidable_of_iff' _ (Iff.of_eq (k0_chk67.eq_1 v99))
theorem k0_idx67_inb : ∀ (v99 : IVec S16 32) (k0_hw67 : k0_chk67 v99), ∀ a x, ((![v99] : Fin 1 → IVec S16 32) a x).toNat < S16384.size a := fun v99 k0_hw67 => k0_hw67
def k0_off79 (k0_t17 : Fin k0_t17_loop.trips) (k0_t18 : Fin k0_t18_loop.trips) (c32_i32_100 : BitVec 32) : Fin 2 → Nat :=
  let c0_i32_54 : BitVec 32 := 0#32
  let c1_i32_56 : BitVec 32 := 1#32
  let arg8 : BitVec 32 := Scf.iv c0_i32_54 c1_i32_56 k0_t17
  let v101 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk68 (v107 : IVec S16 32) : Prop :=
  (∀ a x, ((![v107] : Fin 1 → IVec S16 32) a x).toNat < S16384.size a)
instance k0_chk68.dec : ∀ (v107 : IVec S16 32), Decidable (k0_chk68 v107) := fun v107 => decidable_of_iff' _ (Iff.of_eq (k0_chk68.eq_1 v107))
theorem k0_idx68_inb : ∀ (v107 : IVec S16 32) (k0_hw68 : k0_chk68 v107), ∀ a x, ((![v107] : Fin 1 → IVec S16 32) a x).toNat < S16384.size a := fun v107 k0_hw68 => k0_hw68
def k0_off80 (k0_t17 : Fin k0_t17_loop.trips) (k0_t18 : Fin k0_t18_loop.trips) (c48_i32 : BitVec 32) : Fin 2 → Nat :=
  let c0_i32_54 : BitVec 32 := 0#32
  let c1_i32_56 : BitVec 32 := 1#32
  let arg8 : BitVec 32 := Scf.iv c0_i32_54 c1_i32_56 k0_t17
  let v109 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk69 (v115 : IVec S16 32) : Prop :=
  (∀ a x, ((![v115] : Fin 1 → IVec S16 32) a x).toNat < S16384.size a)
instance k0_chk69.dec : ∀ (v115 : IVec S16 32), Decidable (k0_chk69 v115) := fun v115 => decidable_of_iff' _ (Iff.of_eq (k0_chk69.eq_1 v115))
theorem k0_idx69_inb : ∀ (v115 : IVec S16 32) (k0_hw69 : k0_chk69 v115), ∀ a x, ((![v115] : Fin 1 → IVec S16 32) a x).toNat < S16384.size a := fun v115 k0_hw69 => k0_hw69
def k0_off81 (k0_t17 : Fin k0_t17_loop.trips) (k0_t18 : Fin k0_t18_loop.trips) (c64_i32 : BitVec 32) : Fin 2 → Nat :=
  let c0_i32_54 : BitVec 32 := 0#32
  let c1_i32_56 : BitVec 32 := 1#32
  let arg8 : BitVec 32 := Scf.iv c0_i32_54 c1_i32_56 k0_t17
  let v117 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk70 (v123 : IVec S16 32) : Prop :=
  (∀ a x, ((![v123] : Fin 1 → IVec S16 32) a x).toNat < S16384.size a)
instance k0_chk70.dec : ∀ (v123 : IVec S16 32), Decidable (k0_chk70 v123) := fun v123 => decidable_of_iff' _ (Iff.of_eq (k0_chk70.eq_1 v123))
theorem k0_idx70_inb : ∀ (v123 : IVec S16 32) (k0_hw70 : k0_chk70 v123), ∀ a x, ((![v123] : Fin 1 → IVec S16 32) a x).toNat < S16384.size a := fun v123 k0_hw70 => k0_hw70
def k0_off82 (k0_t17 : Fin k0_t17_loop.trips) (k0_t18 : Fin k0_t18_loop.trips) (c80_i32 : BitVec 32) : Fin 2 → Nat :=
  let c0_i32_54 : BitVec 32 := 0#32
  let c1_i32_56 : BitVec 32 := 1#32
  let arg8 : BitVec 32 := Scf.iv c0_i32_54 c1_i32_56 k0_t17
  let v125 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk71 (v131 : IVec S16 32) : Prop :=
  (∀ a x, ((![v131] : Fin 1 → IVec S16 32) a x).toNat < S16384.size a)
instance k0_chk71.dec : ∀ (v131 : IVec S16 32), Decidable (k0_chk71 v131) := fun v131 => decidable_of_iff' _ (Iff.of_eq (k0_chk71.eq_1 v131))
theorem k0_idx71_inb : ∀ (v131 : IVec S16 32) (k0_hw71 : k0_chk71 v131), ∀ a x, ((![v131] : Fin 1 → IVec S16 32) a x).toNat < S16384.size a := fun v131 k0_hw71 => k0_hw71
def k0_off83 (k0_t17 : Fin k0_t17_loop.trips) (k0_t18 : Fin k0_t18_loop.trips) (c96_i32 : BitVec 32) : Fin 2 → Nat :=
  let c0_i32_54 : BitVec 32 := 0#32
  let c1_i32_56 : BitVec 32 := 1#32
  let arg8 : BitVec 32 := Scf.iv c0_i32_54 c1_i32_56 k0_t17
  let v133 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk72 (v139 : IVec S16 32) : Prop :=
  (∀ a x, ((![v139] : Fin 1 → IVec S16 32) a x).toNat < S16384.size a)
instance k0_chk72.dec : ∀ (v139 : IVec S16 32), Decidable (k0_chk72 v139) := fun v139 => decidable_of_iff' _ (Iff.of_eq (k0_chk72.eq_1 v139))
theorem k0_idx72_inb : ∀ (v139 : IVec S16 32) (k0_hw72 : k0_chk72 v139), ∀ a x, ((![v139] : Fin 1 → IVec S16 32) a x).toNat < S16384.size a := fun v139 k0_hw72 => k0_hw72
def k0_off84 (k0_t17 : Fin k0_t17_loop.trips) (k0_t18 : Fin k0_t18_loop.trips) : Fin 2 → Nat :=
  let c0_i32_54 : BitVec 32 := 0#32
  let c1_i32_56 : BitVec 32 := 1#32
  let arg8 : BitVec 32 := Scf.iv c0_i32_54 c1_i32_56 k0_t17
  let v141 : Index := Scalar.indexCast arg8
  let c0_i32_93 : BitVec 32 := 0#32
  let c1_i32_95 : BitVec 32 := 1#32
  let arg10 : BitVec 32 := Scf.iv c0_i32_93 c1_i32_95 k0_t18
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t19_loop : Scf.Loop 32 :=
  let c0_i32_59 : BitVec 32 := 0#32
  let c32_i32_60 : BitVec 32 := 32#32
  let v58 : BitVec 32 := Scalar.addi c0_i32_59 c32_i32_60
  let c1_i32_61 : BitVec 32 := 1#32
  ⟨c0_i32_59, v58, c1_i32_61⟩
@[reducible] def k0_t20_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off85 (k0_t19 : Fin k0_t19_loop.trips) (k0_t20 : Fin k0_t20_loop.trips) : Fin 2 → Nat :=
  let c0_i32_59 : BitVec 32 := 0#32
  let c1_i32_61 : BitVec 32 := 1#32
  let arg8 : BitVec 32 := Scf.iv c0_i32_59 c1_i32_61 k0_t19
  let v81 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk73 (v83 : IVec S16 32) : Prop :=
  (∀ a x, ((![v83] : Fin 1 → IVec S16 32) a x).toNat < S16384.size a)
instance k0_chk73.dec : ∀ (v83 : IVec S16 32), Decidable (k0_chk73 v83) := fun v83 => decidable_of_iff' _ (Iff.of_eq (k0_chk73.eq_1 v83))
theorem k0_idx73_inb : ∀ (v83 : IVec S16 32) (k0_hw73 : k0_chk73 v83), ∀ a x, ((![v83] : Fin 1 → IVec S16 32) a x).toNat < S16384.size a := fun v83 k0_hw73 => k0_hw73
def k0_off86 (k0_t19 : Fin k0_t19_loop.trips) (k0_t20 : Fin k0_t20_loop.trips) (c0_i32_98 : BitVec 32) : Fin 2 → Nat :=
  let c0_i32_59 : BitVec 32 := 0#32
  let c1_i32_61 : BitVec 32 := 1#32
  let arg8 : BitVec 32 := Scf.iv c0_i32_59 c1_i32_61 k0_t19
  let v85 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk74 (v91 : IVec S16 32) : Prop :=
  (∀ a x, ((![v91] : Fin 1 → IVec S16 32) a x).toNat < S16384.size a)
instance k0_chk74.dec : ∀ (v91 : IVec S16 32), Decidable (k0_chk74 v91) := fun v91 => decidable_of_iff' _ (Iff.of_eq (k0_chk74.eq_1 v91))
theorem k0_idx74_inb : ∀ (v91 : IVec S16 32) (k0_hw74 : k0_chk74 v91), ∀ a x, ((![v91] : Fin 1 → IVec S16 32) a x).toNat < S16384.size a := fun v91 k0_hw74 => k0_hw74
def k0_off87 (k0_t19 : Fin k0_t19_loop.trips) (k0_t20 : Fin k0_t20_loop.trips) (c16_i32_99 : BitVec 32) : Fin 2 → Nat :=
  let c0_i32_59 : BitVec 32 := 0#32
  let c1_i32_61 : BitVec 32 := 1#32
  let arg8 : BitVec 32 := Scf.iv c0_i32_59 c1_i32_61 k0_t19
  let v93 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk75 (v99 : IVec S16 32) : Prop :=
  (∀ a x, ((![v99] : Fin 1 → IVec S16 32) a x).toNat < S16384.size a)
instance k0_chk75.dec : ∀ (v99 : IVec S16 32), Decidable (k0_chk75 v99) := fun v99 => decidable_of_iff' _ (Iff.of_eq (k0_chk75.eq_1 v99))
theorem k0_idx75_inb : ∀ (v99 : IVec S16 32) (k0_hw75 : k0_chk75 v99), ∀ a x, ((![v99] : Fin 1 → IVec S16 32) a x).toNat < S16384.size a := fun v99 k0_hw75 => k0_hw75
def k0_off88 (k0_t19 : Fin k0_t19_loop.trips) (k0_t20 : Fin k0_t20_loop.trips) (c32_i32_100 : BitVec 32) : Fin 2 → Nat :=
  let c0_i32_59 : BitVec 32 := 0#32
  let c1_i32_61 : BitVec 32 := 1#32
  let arg8 : BitVec 32 := Scf.iv c0_i32_59 c1_i32_61 k0_t19
  let v101 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk76 (v107 : IVec S16 32) : Prop :=
  (∀ a x, ((![v107] : Fin 1 → IVec S16 32) a x).toNat < S16384.size a)
instance k0_chk76.dec : ∀ (v107 : IVec S16 32), Decidable (k0_chk76 v107) := fun v107 => decidable_of_iff' _ (Iff.of_eq (k0_chk76.eq_1 v107))
theorem k0_idx76_inb : ∀ (v107 : IVec S16 32) (k0_hw76 : k0_chk76 v107), ∀ a x, ((![v107] : Fin 1 → IVec S16 32) a x).toNat < S16384.size a := fun v107 k0_hw76 => k0_hw76
def k0_off89 (k0_t19 : Fin k0_t19_loop.trips) (k0_t20 : Fin k0_t20_loop.trips) (c48_i32 : BitVec 32) : Fin 2 → Nat :=
  let c0_i32_59 : BitVec 32 := 0#32
  let c1_i32_61 : BitVec 32 := 1#32
  let arg8 : BitVec 32 := Scf.iv c0_i32_59 c1_i32_61 k0_t19
  let v109 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk77 (v115 : IVec S16 32) : Prop :=
  (∀ a x, ((![v115] : Fin 1 → IVec S16 32) a x).toNat < S16384.size a)
instance k0_chk77.dec : ∀ (v115 : IVec S16 32), Decidable (k0_chk77 v115) := fun v115 => decidable_of_iff' _ (Iff.of_eq (k0_chk77.eq_1 v115))
theorem k0_idx77_inb : ∀ (v115 : IVec S16 32) (k0_hw77 : k0_chk77 v115), ∀ a x, ((![v115] : Fin 1 → IVec S16 32) a x).toNat < S16384.size a := fun v115 k0_hw77 => k0_hw77
def k0_off90 (k0_t19 : Fin k0_t19_loop.trips) (k0_t20 : Fin k0_t20_loop.trips) (c64_i32 : BitVec 32) : Fin 2 → Nat :=
  let c0_i32_59 : BitVec 32 := 0#32
  let c1_i32_61 : BitVec 32 := 1#32
  let arg8 : BitVec 32 := Scf.iv c0_i32_59 c1_i32_61 k0_t19
  let v117 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk78 (v123 : IVec S16 32) : Prop :=
  (∀ a x, ((![v123] : Fin 1 → IVec S16 32) a x).toNat < S16384.size a)
instance k0_chk78.dec : ∀ (v123 : IVec S16 32), Decidable (k0_chk78 v123) := fun v123 => decidable_of_iff' _ (Iff.of_eq (k0_chk78.eq_1 v123))
theorem k0_idx78_inb : ∀ (v123 : IVec S16 32) (k0_hw78 : k0_chk78 v123), ∀ a x, ((![v123] : Fin 1 → IVec S16 32) a x).toNat < S16384.size a := fun v123 k0_hw78 => k0_hw78
def k0_off91 (k0_t19 : Fin k0_t19_loop.trips) (k0_t20 : Fin k0_t20_loop.trips) (c80_i32 : BitVec 32) : Fin 2 → Nat :=
  let c0_i32_59 : BitVec 32 := 0#32
  let c1_i32_61 : BitVec 32 := 1#32
  let arg8 : BitVec 32 := Scf.iv c0_i32_59 c1_i32_61 k0_t19
  let v125 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk79 (v131 : IVec S16 32) : Prop :=
  (∀ a x, ((![v131] : Fin 1 → IVec S16 32) a x).toNat < S16384.size a)
instance k0_chk79.dec : ∀ (v131 : IVec S16 32), Decidable (k0_chk79 v131) := fun v131 => decidable_of_iff' _ (Iff.of_eq (k0_chk79.eq_1 v131))
theorem k0_idx79_inb : ∀ (v131 : IVec S16 32) (k0_hw79 : k0_chk79 v131), ∀ a x, ((![v131] : Fin 1 → IVec S16 32) a x).toNat < S16384.size a := fun v131 k0_hw79 => k0_hw79
def k0_off92 (k0_t19 : Fin k0_t19_loop.trips) (k0_t20 : Fin k0_t20_loop.trips) (c96_i32 : BitVec 32) : Fin 2 → Nat :=
  let c0_i32_59 : BitVec 32 := 0#32
  let c1_i32_61 : BitVec 32 := 1#32
  let arg8 : BitVec 32 := Scf.iv c0_i32_59 c1_i32_61 k0_t19
  let v133 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk80 (v139 : IVec S16 32) : Prop :=
  (∀ a x, ((![v139] : Fin 1 → IVec S16 32) a x).toNat < S16384.size a)
instance k0_chk80.dec : ∀ (v139 : IVec S16 32), Decidable (k0_chk80 v139) := fun v139 => decidable_of_iff' _ (Iff.of_eq (k0_chk80.eq_1 v139))
theorem k0_idx80_inb : ∀ (v139 : IVec S16 32) (k0_hw80 : k0_chk80 v139), ∀ a x, ((![v139] : Fin 1 → IVec S16 32) a x).toNat < S16384.size a := fun v139 k0_hw80 => k0_hw80
def k0_off93 (k0_t19 : Fin k0_t19_loop.trips) (k0_t20 : Fin k0_t20_loop.trips) : Fin 2 → Nat :=
  let c0_i32_59 : BitVec 32 := 0#32
  let c1_i32_61 : BitVec 32 := 1#32
  let arg8 : BitVec 32 := Scf.iv c0_i32_59 c1_i32_61 k0_t19
  let v141 : Index := Scalar.indexCast arg8
  let c0_i32_93 : BitVec 32 := 0#32
  let c1_i32_95 : BitVec 32 := 1#32
  let arg10 : BitVec 32 := Scf.iv c0_i32_93 c1_i32_95 k0_t20
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t21_loop : Scf.Loop 32 :=
  let c0_i32_64 : BitVec 32 := 0#32
  let c32_i32_65 : BitVec 32 := 32#32
  let v61 : BitVec 32 := Scalar.addi c0_i32_64 c32_i32_65
  let c1_i32_66 : BitVec 32 := 1#32
  ⟨c0_i32_64, v61, c1_i32_66⟩
@[reducible] def k0_t22_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off94 (k0_t21 : Fin k0_t21_loop.trips) (k0_t22 : Fin k0_t22_loop.trips) : Fin 2 → Nat :=
  let c0_i32_64 : BitVec 32 := 0#32
  let c1_i32_66 : BitVec 32 := 1#32
  let arg8 : BitVec 32 := Scf.iv c0_i32_64 c1_i32_66 k0_t21
  let v81 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk81 (v83 : IVec S16 32) : Prop :=
  (∀ a x, ((![v83] : Fin 1 → IVec S16 32) a x).toNat < S16384.size a)
instance k0_chk81.dec : ∀ (v83 : IVec S16 32), Decidable (k0_chk81 v83) := fun v83 => decidable_of_iff' _ (Iff.of_eq (k0_chk81.eq_1 v83))
theorem k0_idx81_inb : ∀ (v83 : IVec S16 32) (k0_hw81 : k0_chk81 v83), ∀ a x, ((![v83] : Fin 1 → IVec S16 32) a x).toNat < S16384.size a := fun v83 k0_hw81 => k0_hw81
def k0_off95 (k0_t21 : Fin k0_t21_loop.trips) (k0_t22 : Fin k0_t22_loop.trips) (c0_i32_98 : BitVec 32) : Fin 2 → Nat :=
  let c0_i32_64 : BitVec 32 := 0#32
  let c1_i32_66 : BitVec 32 := 1#32
  let arg8 : BitVec 32 := Scf.iv c0_i32_64 c1_i32_66 k0_t21
  let v85 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk82 (v91 : IVec S16 32) : Prop :=
  (∀ a x, ((![v91] : Fin 1 → IVec S16 32) a x).toNat < S16384.size a)
instance k0_chk82.dec : ∀ (v91 : IVec S16 32), Decidable (k0_chk82 v91) := fun v91 => decidable_of_iff' _ (Iff.of_eq (k0_chk82.eq_1 v91))
theorem k0_idx82_inb : ∀ (v91 : IVec S16 32) (k0_hw82 : k0_chk82 v91), ∀ a x, ((![v91] : Fin 1 → IVec S16 32) a x).toNat < S16384.size a := fun v91 k0_hw82 => k0_hw82
def k0_off96 (k0_t21 : Fin k0_t21_loop.trips) (k0_t22 : Fin k0_t22_loop.trips) (c16_i32_99 : BitVec 32) : Fin 2 → Nat :=
  let c0_i32_64 : BitVec 32 := 0#32
  let c1_i32_66 : BitVec 32 := 1#32
  let arg8 : BitVec 32 := Scf.iv c0_i32_64 c1_i32_66 k0_t21
  let v93 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk83 (v99 : IVec S16 32) : Prop :=
  (∀ a x, ((![v99] : Fin 1 → IVec S16 32) a x).toNat < S16384.size a)
instance k0_chk83.dec : ∀ (v99 : IVec S16 32), Decidable (k0_chk83 v99) := fun v99 => decidable_of_iff' _ (Iff.of_eq (k0_chk83.eq_1 v99))
theorem k0_idx83_inb : ∀ (v99 : IVec S16 32) (k0_hw83 : k0_chk83 v99), ∀ a x, ((![v99] : Fin 1 → IVec S16 32) a x).toNat < S16384.size a := fun v99 k0_hw83 => k0_hw83
def k0_off97 (k0_t21 : Fin k0_t21_loop.trips) (k0_t22 : Fin k0_t22_loop.trips) (c32_i32_100 : BitVec 32) : Fin 2 → Nat :=
  let c0_i32_64 : BitVec 32 := 0#32
  let c1_i32_66 : BitVec 32 := 1#32
  let arg8 : BitVec 32 := Scf.iv c0_i32_64 c1_i32_66 k0_t21
  let v101 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk84 (v107 : IVec S16 32) : Prop :=
  (∀ a x, ((![v107] : Fin 1 → IVec S16 32) a x).toNat < S16384.size a)
instance k0_chk84.dec : ∀ (v107 : IVec S16 32), Decidable (k0_chk84 v107) := fun v107 => decidable_of_iff' _ (Iff.of_eq (k0_chk84.eq_1 v107))
theorem k0_idx84_inb : ∀ (v107 : IVec S16 32) (k0_hw84 : k0_chk84 v107), ∀ a x, ((![v107] : Fin 1 → IVec S16 32) a x).toNat < S16384.size a := fun v107 k0_hw84 => k0_hw84
def k0_off98 (k0_t21 : Fin k0_t21_loop.trips) (k0_t22 : Fin k0_t22_loop.trips) (c48_i32 : BitVec 32) : Fin 2 → Nat :=
  let c0_i32_64 : BitVec 32 := 0#32
  let c1_i32_66 : BitVec 32 := 1#32
  let arg8 : BitVec 32 := Scf.iv c0_i32_64 c1_i32_66 k0_t21
  let v109 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk85 (v115 : IVec S16 32) : Prop :=
  (∀ a x, ((![v115] : Fin 1 → IVec S16 32) a x).toNat < S16384.size a)
instance k0_chk85.dec : ∀ (v115 : IVec S16 32), Decidable (k0_chk85 v115) := fun v115 => decidable_of_iff' _ (Iff.of_eq (k0_chk85.eq_1 v115))
theorem k0_idx85_inb : ∀ (v115 : IVec S16 32) (k0_hw85 : k0_chk85 v115), ∀ a x, ((![v115] : Fin 1 → IVec S16 32) a x).toNat < S16384.size a := fun v115 k0_hw85 => k0_hw85
def k0_off99 (k0_t21 : Fin k0_t21_loop.trips) (k0_t22 : Fin k0_t22_loop.trips) (c64_i32 : BitVec 32) : Fin 2 → Nat :=
  let c0_i32_64 : BitVec 32 := 0#32
  let c1_i32_66 : BitVec 32 := 1#32
  let arg8 : BitVec 32 := Scf.iv c0_i32_64 c1_i32_66 k0_t21
  let v117 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk86 (v123 : IVec S16 32) : Prop :=
  (∀ a x, ((![v123] : Fin 1 → IVec S16 32) a x).toNat < S16384.size a)
instance k0_chk86.dec : ∀ (v123 : IVec S16 32), Decidable (k0_chk86 v123) := fun v123 => decidable_of_iff' _ (Iff.of_eq (k0_chk86.eq_1 v123))
theorem k0_idx86_inb : ∀ (v123 : IVec S16 32) (k0_hw86 : k0_chk86 v123), ∀ a x, ((![v123] : Fin 1 → IVec S16 32) a x).toNat < S16384.size a := fun v123 k0_hw86 => k0_hw86
def k0_off100 (k0_t21 : Fin k0_t21_loop.trips) (k0_t22 : Fin k0_t22_loop.trips) (c80_i32 : BitVec 32) : Fin 2 → Nat :=
  let c0_i32_64 : BitVec 32 := 0#32
  let c1_i32_66 : BitVec 32 := 1#32
  let arg8 : BitVec 32 := Scf.iv c0_i32_64 c1_i32_66 k0_t21
  let v125 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk87 (v131 : IVec S16 32) : Prop :=
  (∀ a x, ((![v131] : Fin 1 → IVec S16 32) a x).toNat < S16384.size a)
instance k0_chk87.dec : ∀ (v131 : IVec S16 32), Decidable (k0_chk87 v131) := fun v131 => decidable_of_iff' _ (Iff.of_eq (k0_chk87.eq_1 v131))
theorem k0_idx87_inb : ∀ (v131 : IVec S16 32) (k0_hw87 : k0_chk87 v131), ∀ a x, ((![v131] : Fin 1 → IVec S16 32) a x).toNat < S16384.size a := fun v131 k0_hw87 => k0_hw87
def k0_off101 (k0_t21 : Fin k0_t21_loop.trips) (k0_t22 : Fin k0_t22_loop.trips) (c96_i32 : BitVec 32) : Fin 2 → Nat :=
  let c0_i32_64 : BitVec 32 := 0#32
  let c1_i32_66 : BitVec 32 := 1#32
  let arg8 : BitVec 32 := Scf.iv c0_i32_64 c1_i32_66 k0_t21
  let v133 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk88 (v139 : IVec S16 32) : Prop :=
  (∀ a x, ((![v139] : Fin 1 → IVec S16 32) a x).toNat < S16384.size a)
instance k0_chk88.dec : ∀ (v139 : IVec S16 32), Decidable (k0_chk88 v139) := fun v139 => decidable_of_iff' _ (Iff.of_eq (k0_chk88.eq_1 v139))
theorem k0_idx88_inb : ∀ (v139 : IVec S16 32) (k0_hw88 : k0_chk88 v139), ∀ a x, ((![v139] : Fin 1 → IVec S16 32) a x).toNat < S16384.size a := fun v139 k0_hw88 => k0_hw88
def k0_off102 (k0_t21 : Fin k0_t21_loop.trips) (k0_t22 : Fin k0_t22_loop.trips) : Fin 2 → Nat :=
  let c0_i32_64 : BitVec 32 := 0#32
  let c1_i32_66 : BitVec 32 := 1#32
  let arg8 : BitVec 32 := Scf.iv c0_i32_64 c1_i32_66 k0_t21
  let v141 : Index := Scalar.indexCast arg8
  let c0_i32_93 : BitVec 32 := 0#32
  let c1_i32_95 : BitVec 32 := 1#32
  let arg10 : BitVec 32 := Scf.iv c0_i32_93 c1_i32_95 k0_t22
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t23_loop : Scf.Loop 32 :=
  let c0_i32_69 : BitVec 32 := 0#32
  let c32_i32_70 : BitVec 32 := 32#32
  let v64 : BitVec 32 := Scalar.addi c0_i32_69 c32_i32_70
  let c1_i32_71 : BitVec 32 := 1#32
  ⟨c0_i32_69, v64, c1_i32_71⟩
@[reducible] def k0_t24_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off103 (k0_t23 : Fin k0_t23_loop.trips) (k0_t24 : Fin k0_t24_loop.trips) : Fin 2 → Nat :=
  let c0_i32_69 : BitVec 32 := 0#32
  let c1_i32_71 : BitVec 32 := 1#32
  let arg8 : BitVec 32 := Scf.iv c0_i32_69 c1_i32_71 k0_t23
  let v81 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk89 (v83 : IVec S16 32) : Prop :=
  (∀ a x, ((![v83] : Fin 1 → IVec S16 32) a x).toNat < S16384.size a)
instance k0_chk89.dec : ∀ (v83 : IVec S16 32), Decidable (k0_chk89 v83) := fun v83 => decidable_of_iff' _ (Iff.of_eq (k0_chk89.eq_1 v83))
theorem k0_idx89_inb : ∀ (v83 : IVec S16 32) (k0_hw89 : k0_chk89 v83), ∀ a x, ((![v83] : Fin 1 → IVec S16 32) a x).toNat < S16384.size a := fun v83 k0_hw89 => k0_hw89
def k0_off104 (k0_t23 : Fin k0_t23_loop.trips) (k0_t24 : Fin k0_t24_loop.trips) (c0_i32_98 : BitVec 32) : Fin 2 → Nat :=
  let c0_i32_69 : BitVec 32 := 0#32
  let c1_i32_71 : BitVec 32 := 1#32
  let arg8 : BitVec 32 := Scf.iv c0_i32_69 c1_i32_71 k0_t23
  let v85 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk90 (v91 : IVec S16 32) : Prop :=
  (∀ a x, ((![v91] : Fin 1 → IVec S16 32) a x).toNat < S16384.size a)
instance k0_chk90.dec : ∀ (v91 : IVec S16 32), Decidable (k0_chk90 v91) := fun v91 => decidable_of_iff' _ (Iff.of_eq (k0_chk90.eq_1 v91))
theorem k0_idx90_inb : ∀ (v91 : IVec S16 32) (k0_hw90 : k0_chk90 v91), ∀ a x, ((![v91] : Fin 1 → IVec S16 32) a x).toNat < S16384.size a := fun v91 k0_hw90 => k0_hw90
def k0_off105 (k0_t23 : Fin k0_t23_loop.trips) (k0_t24 : Fin k0_t24_loop.trips) (c16_i32_99 : BitVec 32) : Fin 2 → Nat :=
  let c0_i32_69 : BitVec 32 := 0#32
  let c1_i32_71 : BitVec 32 := 1#32
  let arg8 : BitVec 32 := Scf.iv c0_i32_69 c1_i32_71 k0_t23
  let v93 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk91 (v99 : IVec S16 32) : Prop :=
  (∀ a x, ((![v99] : Fin 1 → IVec S16 32) a x).toNat < S16384.size a)
instance k0_chk91.dec : ∀ (v99 : IVec S16 32), Decidable (k0_chk91 v99) := fun v99 => decidable_of_iff' _ (Iff.of_eq (k0_chk91.eq_1 v99))
theorem k0_idx91_inb : ∀ (v99 : IVec S16 32) (k0_hw91 : k0_chk91 v99), ∀ a x, ((![v99] : Fin 1 → IVec S16 32) a x).toNat < S16384.size a := fun v99 k0_hw91 => k0_hw91
def k0_off106 (k0_t23 : Fin k0_t23_loop.trips) (k0_t24 : Fin k0_t24_loop.trips) (c32_i32_100 : BitVec 32) : Fin 2 → Nat :=
  let c0_i32_69 : BitVec 32 := 0#32
  let c1_i32_71 : BitVec 32 := 1#32
  let arg8 : BitVec 32 := Scf.iv c0_i32_69 c1_i32_71 k0_t23
  let v101 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk92 (v107 : IVec S16 32) : Prop :=
  (∀ a x, ((![v107] : Fin 1 → IVec S16 32) a x).toNat < S16384.size a)
instance k0_chk92.dec : ∀ (v107 : IVec S16 32), Decidable (k0_chk92 v107) := fun v107 => decidable_of_iff' _ (Iff.of_eq (k0_chk92.eq_1 v107))
theorem k0_idx92_inb : ∀ (v107 : IVec S16 32) (k0_hw92 : k0_chk92 v107), ∀ a x, ((![v107] : Fin 1 → IVec S16 32) a x).toNat < S16384.size a := fun v107 k0_hw92 => k0_hw92
def k0_off107 (k0_t23 : Fin k0_t23_loop.trips) (k0_t24 : Fin k0_t24_loop.trips) (c48_i32 : BitVec 32) : Fin 2 → Nat :=
  let c0_i32_69 : BitVec 32 := 0#32
  let c1_i32_71 : BitVec 32 := 1#32
  let arg8 : BitVec 32 := Scf.iv c0_i32_69 c1_i32_71 k0_t23
  let v109 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk93 (v115 : IVec S16 32) : Prop :=
  (∀ a x, ((![v115] : Fin 1 → IVec S16 32) a x).toNat < S16384.size a)
instance k0_chk93.dec : ∀ (v115 : IVec S16 32), Decidable (k0_chk93 v115) := fun v115 => decidable_of_iff' _ (Iff.of_eq (k0_chk93.eq_1 v115))
theorem k0_idx93_inb : ∀ (v115 : IVec S16 32) (k0_hw93 : k0_chk93 v115), ∀ a x, ((![v115] : Fin 1 → IVec S16 32) a x).toNat < S16384.size a := fun v115 k0_hw93 => k0_hw93
def k0_off108 (k0_t23 : Fin k0_t23_loop.trips) (k0_t24 : Fin k0_t24_loop.trips) (c64_i32 : BitVec 32) : Fin 2 → Nat :=
  let c0_i32_69 : BitVec 32 := 0#32
  let c1_i32_71 : BitVec 32 := 1#32
  let arg8 : BitVec 32 := Scf.iv c0_i32_69 c1_i32_71 k0_t23
  let v117 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk94 (v123 : IVec S16 32) : Prop :=
  (∀ a x, ((![v123] : Fin 1 → IVec S16 32) a x).toNat < S16384.size a)
instance k0_chk94.dec : ∀ (v123 : IVec S16 32), Decidable (k0_chk94 v123) := fun v123 => decidable_of_iff' _ (Iff.of_eq (k0_chk94.eq_1 v123))
theorem k0_idx94_inb : ∀ (v123 : IVec S16 32) (k0_hw94 : k0_chk94 v123), ∀ a x, ((![v123] : Fin 1 → IVec S16 32) a x).toNat < S16384.size a := fun v123 k0_hw94 => k0_hw94
def k0_off109 (k0_t23 : Fin k0_t23_loop.trips) (k0_t24 : Fin k0_t24_loop.trips) (c80_i32 : BitVec 32) : Fin 2 → Nat :=
  let c0_i32_69 : BitVec 32 := 0#32
  let c1_i32_71 : BitVec 32 := 1#32
  let arg8 : BitVec 32 := Scf.iv c0_i32_69 c1_i32_71 k0_t23
  let v125 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk95 (v131 : IVec S16 32) : Prop :=
  (∀ a x, ((![v131] : Fin 1 → IVec S16 32) a x).toNat < S16384.size a)
instance k0_chk95.dec : ∀ (v131 : IVec S16 32), Decidable (k0_chk95 v131) := fun v131 => decidable_of_iff' _ (Iff.of_eq (k0_chk95.eq_1 v131))
theorem k0_idx95_inb : ∀ (v131 : IVec S16 32) (k0_hw95 : k0_chk95 v131), ∀ a x, ((![v131] : Fin 1 → IVec S16 32) a x).toNat < S16384.size a := fun v131 k0_hw95 => k0_hw95
def k0_off110 (k0_t23 : Fin k0_t23_loop.trips) (k0_t24 : Fin k0_t24_loop.trips) (c96_i32 : BitVec 32) : Fin 2 → Nat :=
  let c0_i32_69 : BitVec 32 := 0#32
  let c1_i32_71 : BitVec 32 := 1#32
  let arg8 : BitVec 32 := Scf.iv c0_i32_69 c1_i32_71 k0_t23
  let v133 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk96 (v139 : IVec S16 32) : Prop :=
  (∀ a x, ((![v139] : Fin 1 → IVec S16 32) a x).toNat < S16384.size a)
instance k0_chk96.dec : ∀ (v139 : IVec S16 32), Decidable (k0_chk96 v139) := fun v139 => decidable_of_iff' _ (Iff.of_eq (k0_chk96.eq_1 v139))
theorem k0_idx96_inb : ∀ (v139 : IVec S16 32) (k0_hw96 : k0_chk96 v139), ∀ a x, ((![v139] : Fin 1 → IVec S16 32) a x).toNat < S16384.size a := fun v139 k0_hw96 => k0_hw96
def k0_off111 (k0_t23 : Fin k0_t23_loop.trips) (k0_t24 : Fin k0_t24_loop.trips) : Fin 2 → Nat :=
  let c0_i32_69 : BitVec 32 := 0#32
  let c1_i32_71 : BitVec 32 := 1#32
  let arg8 : BitVec 32 := Scf.iv c0_i32_69 c1_i32_71 k0_t23
  let v141 : Index := Scalar.indexCast arg8
  let c0_i32_93 : BitVec 32 := 0#32
  let c1_i32_95 : BitVec 32 := 1#32
  let arg10 : BitVec 32 := Scf.iv c0_i32_93 c1_i32_95 k0_t24
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t25_loop : Scf.Loop 32 :=
  let c0_i32_74 : BitVec 32 := 0#32
  let c32_i32_75 : BitVec 32 := 32#32
  let v67 : BitVec 32 := Scalar.addi c0_i32_74 c32_i32_75
  let c1_i32_76 : BitVec 32 := 1#32
  ⟨c0_i32_74, v67, c1_i32_76⟩
@[reducible] def k0_t26_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off112 (k0_t25 : Fin k0_t25_loop.trips) (k0_t26 : Fin k0_t26_loop.trips) : Fin 2 → Nat :=
  let c0_i32_74 : BitVec 32 := 0#32
  let c1_i32_76 : BitVec 32 := 1#32
  let arg8 : BitVec 32 := Scf.iv c0_i32_74 c1_i32_76 k0_t25
  let v81 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk97 (v83 : IVec S16 32) : Prop :=
  (∀ a x, ((![v83] : Fin 1 → IVec S16 32) a x).toNat < S16384.size a)
instance k0_chk97.dec : ∀ (v83 : IVec S16 32), Decidable (k0_chk97 v83) := fun v83 => decidable_of_iff' _ (Iff.of_eq (k0_chk97.eq_1 v83))
theorem k0_idx97_inb : ∀ (v83 : IVec S16 32) (k0_hw97 : k0_chk97 v83), ∀ a x, ((![v83] : Fin 1 → IVec S16 32) a x).toNat < S16384.size a := fun v83 k0_hw97 => k0_hw97
def k0_off113 (k0_t25 : Fin k0_t25_loop.trips) (k0_t26 : Fin k0_t26_loop.trips) (c0_i32_98 : BitVec 32) : Fin 2 → Nat :=
  let c0_i32_74 : BitVec 32 := 0#32
  let c1_i32_76 : BitVec 32 := 1#32
  let arg8 : BitVec 32 := Scf.iv c0_i32_74 c1_i32_76 k0_t25
  let v85 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk98 (v91 : IVec S16 32) : Prop :=
  (∀ a x, ((![v91] : Fin 1 → IVec S16 32) a x).toNat < S16384.size a)
instance k0_chk98.dec : ∀ (v91 : IVec S16 32), Decidable (k0_chk98 v91) := fun v91 => decidable_of_iff' _ (Iff.of_eq (k0_chk98.eq_1 v91))
theorem k0_idx98_inb : ∀ (v91 : IVec S16 32) (k0_hw98 : k0_chk98 v91), ∀ a x, ((![v91] : Fin 1 → IVec S16 32) a x).toNat < S16384.size a := fun v91 k0_hw98 => k0_hw98
def k0_off114 (k0_t25 : Fin k0_t25_loop.trips) (k0_t26 : Fin k0_t26_loop.trips) (c16_i32_99 : BitVec 32) : Fin 2 → Nat :=
  let c0_i32_74 : BitVec 32 := 0#32
  let c1_i32_76 : BitVec 32 := 1#32
  let arg8 : BitVec 32 := Scf.iv c0_i32_74 c1_i32_76 k0_t25
  let v93 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk99 (v99 : IVec S16 32) : Prop :=
  (∀ a x, ((![v99] : Fin 1 → IVec S16 32) a x).toNat < S16384.size a)
instance k0_chk99.dec : ∀ (v99 : IVec S16 32), Decidable (k0_chk99 v99) := fun v99 => decidable_of_iff' _ (Iff.of_eq (k0_chk99.eq_1 v99))
theorem k0_idx99_inb : ∀ (v99 : IVec S16 32) (k0_hw99 : k0_chk99 v99), ∀ a x, ((![v99] : Fin 1 → IVec S16 32) a x).toNat < S16384.size a := fun v99 k0_hw99 => k0_hw99
def k0_off115 (k0_t25 : Fin k0_t25_loop.trips) (k0_t26 : Fin k0_t26_loop.trips) (c32_i32_100 : BitVec 32) : Fin 2 → Nat :=
  let c0_i32_74 : BitVec 32 := 0#32
  let c1_i32_76 : BitVec 32 := 1#32
  let arg8 : BitVec 32 := Scf.iv c0_i32_74 c1_i32_76 k0_t25
  let v101 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk100 (v107 : IVec S16 32) : Prop :=
  (∀ a x, ((![v107] : Fin 1 → IVec S16 32) a x).toNat < S16384.size a)
instance k0_chk100.dec : ∀ (v107 : IVec S16 32), Decidable (k0_chk100 v107) := fun v107 => decidable_of_iff' _ (Iff.of_eq (k0_chk100.eq_1 v107))
theorem k0_idx100_inb : ∀ (v107 : IVec S16 32) (k0_hw100 : k0_chk100 v107), ∀ a x, ((![v107] : Fin 1 → IVec S16 32) a x).toNat < S16384.size a := fun v107 k0_hw100 => k0_hw100
def k0_off116 (k0_t25 : Fin k0_t25_loop.trips) (k0_t26 : Fin k0_t26_loop.trips) (c48_i32 : BitVec 32) : Fin 2 → Nat :=
  let c0_i32_74 : BitVec 32 := 0#32
  let c1_i32_76 : BitVec 32 := 1#32
  let arg8 : BitVec 32 := Scf.iv c0_i32_74 c1_i32_76 k0_t25
  let v109 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk101 (v115 : IVec S16 32) : Prop :=
  (∀ a x, ((![v115] : Fin 1 → IVec S16 32) a x).toNat < S16384.size a)
instance k0_chk101.dec : ∀ (v115 : IVec S16 32), Decidable (k0_chk101 v115) := fun v115 => decidable_of_iff' _ (Iff.of_eq (k0_chk101.eq_1 v115))
theorem k0_idx101_inb : ∀ (v115 : IVec S16 32) (k0_hw101 : k0_chk101 v115), ∀ a x, ((![v115] : Fin 1 → IVec S16 32) a x).toNat < S16384.size a := fun v115 k0_hw101 => k0_hw101
def k0_off117 (k0_t25 : Fin k0_t25_loop.trips) (k0_t26 : Fin k0_t26_loop.trips) (c64_i32 : BitVec 32) : Fin 2 → Nat :=
  let c0_i32_74 : BitVec 32 := 0#32
  let c1_i32_76 : BitVec 32 := 1#32
  let arg8 : BitVec 32 := Scf.iv c0_i32_74 c1_i32_76 k0_t25
  let v117 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk102 (v123 : IVec S16 32) : Prop :=
  (∀ a x, ((![v123] : Fin 1 → IVec S16 32) a x).toNat < S16384.size a)
instance k0_chk102.dec : ∀ (v123 : IVec S16 32), Decidable (k0_chk102 v123) := fun v123 => decidable_of_iff' _ (Iff.of_eq (k0_chk102.eq_1 v123))
theorem k0_idx102_inb : ∀ (v123 : IVec S16 32) (k0_hw102 : k0_chk102 v123), ∀ a x, ((![v123] : Fin 1 → IVec S16 32) a x).toNat < S16384.size a := fun v123 k0_hw102 => k0_hw102
def k0_off118 (k0_t25 : Fin k0_t25_loop.trips) (k0_t26 : Fin k0_t26_loop.trips) (c80_i32 : BitVec 32) : Fin 2 → Nat :=
  let c0_i32_74 : BitVec 32 := 0#32
  let c1_i32_76 : BitVec 32 := 1#32
  let arg8 : BitVec 32 := Scf.iv c0_i32_74 c1_i32_76 k0_t25
  let v125 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk103 (v131 : IVec S16 32) : Prop :=
  (∀ a x, ((![v131] : Fin 1 → IVec S16 32) a x).toNat < S16384.size a)
instance k0_chk103.dec : ∀ (v131 : IVec S16 32), Decidable (k0_chk103 v131) := fun v131 => decidable_of_iff' _ (Iff.of_eq (k0_chk103.eq_1 v131))
theorem k0_idx103_inb : ∀ (v131 : IVec S16 32) (k0_hw103 : k0_chk103 v131), ∀ a x, ((![v131] : Fin 1 → IVec S16 32) a x).toNat < S16384.size a := fun v131 k0_hw103 => k0_hw103
def k0_off119 (k0_t25 : Fin k0_t25_loop.trips) (k0_t26 : Fin k0_t26_loop.trips) (c96_i32 : BitVec 32) : Fin 2 → Nat :=
  let c0_i32_74 : BitVec 32 := 0#32
  let c1_i32_76 : BitVec 32 := 1#32
  let arg8 : BitVec 32 := Scf.iv c0_i32_74 c1_i32_76 k0_t25
  let v133 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk104 (v139 : IVec S16 32) : Prop :=
  (∀ a x, ((![v139] : Fin 1 → IVec S16 32) a x).toNat < S16384.size a)
instance k0_chk104.dec : ∀ (v139 : IVec S16 32), Decidable (k0_chk104 v139) := fun v139 => decidable_of_iff' _ (Iff.of_eq (k0_chk104.eq_1 v139))
theorem k0_idx104_inb : ∀ (v139 : IVec S16 32) (k0_hw104 : k0_chk104 v139), ∀ a x, ((![v139] : Fin 1 → IVec S16 32) a x).toNat < S16384.size a := fun v139 k0_hw104 => k0_hw104
def k0_off120 (k0_t25 : Fin k0_t25_loop.trips) (k0_t26 : Fin k0_t26_loop.trips) : Fin 2 → Nat :=
  let c0_i32_74 : BitVec 32 := 0#32
  let c1_i32_76 : BitVec 32 := 1#32
  let arg8 : BitVec 32 := Scf.iv c0_i32_74 c1_i32_76 k0_t25
  let v141 : Index := Scalar.indexCast arg8
  let c0_i32_93 : BitVec 32 := 0#32
  let c1_i32_95 : BitVec 32 := 1#32
  let arg10 : BitVec 32 := Scf.iv c0_i32_93 c1_i32_95 k0_t26
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t27_loop : Scf.Loop 32 :=
  let c0_i32_79 : BitVec 32 := 0#32
  let c32_i32_80 : BitVec 32 := 32#32
  let v70 : BitVec 32 := Scalar.addi c0_i32_79 c32_i32_80
  let c1_i32_81 : BitVec 32 := 1#32
  ⟨c0_i32_79, v70, c1_i32_81⟩
@[reducible] def k0_t28_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off121 (k0_t27 : Fin k0_t27_loop.trips) (k0_t28 : Fin k0_t28_loop.trips) : Fin 2 → Nat :=
  let c0_i32_79 : BitVec 32 := 0#32
  let c1_i32_81 : BitVec 32 := 1#32
  let arg8 : BitVec 32 := Scf.iv c0_i32_79 c1_i32_81 k0_t27
  let v81 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk105 (v83 : IVec S16 32) : Prop :=
  (∀ a x, ((![v83] : Fin 1 → IVec S16 32) a x).toNat < S16384.size a)
instance k0_chk105.dec : ∀ (v83 : IVec S16 32), Decidable (k0_chk105 v83) := fun v83 => decidable_of_iff' _ (Iff.of_eq (k0_chk105.eq_1 v83))
theorem k0_idx105_inb : ∀ (v83 : IVec S16 32) (k0_hw105 : k0_chk105 v83), ∀ a x, ((![v83] : Fin 1 → IVec S16 32) a x).toNat < S16384.size a := fun v83 k0_hw105 => k0_hw105
def k0_off122 (k0_t27 : Fin k0_t27_loop.trips) (k0_t28 : Fin k0_t28_loop.trips) (c0_i32_98 : BitVec 32) : Fin 2 → Nat :=
  let c0_i32_79 : BitVec 32 := 0#32
  let c1_i32_81 : BitVec 32 := 1#32
  let arg8 : BitVec 32 := Scf.iv c0_i32_79 c1_i32_81 k0_t27
  let v85 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk106 (v91 : IVec S16 32) : Prop :=
  (∀ a x, ((![v91] : Fin 1 → IVec S16 32) a x).toNat < S16384.size a)
instance k0_chk106.dec : ∀ (v91 : IVec S16 32), Decidable (k0_chk106 v91) := fun v91 => decidable_of_iff' _ (Iff.of_eq (k0_chk106.eq_1 v91))
theorem k0_idx106_inb : ∀ (v91 : IVec S16 32) (k0_hw106 : k0_chk106 v91), ∀ a x, ((![v91] : Fin 1 → IVec S16 32) a x).toNat < S16384.size a := fun v91 k0_hw106 => k0_hw106
def k0_off123 (k0_t27 : Fin k0_t27_loop.trips) (k0_t28 : Fin k0_t28_loop.trips) (c16_i32_99 : BitVec 32) : Fin 2 → Nat :=
  let c0_i32_79 : BitVec 32 := 0#32
  let c1_i32_81 : BitVec 32 := 1#32
  let arg8 : BitVec 32 := Scf.iv c0_i32_79 c1_i32_81 k0_t27
  let v93 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk107 (v99 : IVec S16 32) : Prop :=
  (∀ a x, ((![v99] : Fin 1 → IVec S16 32) a x).toNat < S16384.size a)
instance k0_chk107.dec : ∀ (v99 : IVec S16 32), Decidable (k0_chk107 v99) := fun v99 => decidable_of_iff' _ (Iff.of_eq (k0_chk107.eq_1 v99))
theorem k0_idx107_inb : ∀ (v99 : IVec S16 32) (k0_hw107 : k0_chk107 v99), ∀ a x, ((![v99] : Fin 1 → IVec S16 32) a x).toNat < S16384.size a := fun v99 k0_hw107 => k0_hw107
def k0_off124 (k0_t27 : Fin k0_t27_loop.trips) (k0_t28 : Fin k0_t28_loop.trips) (c32_i32_100 : BitVec 32) : Fin 2 → Nat :=
  let c0_i32_79 : BitVec 32 := 0#32
  let c1_i32_81 : BitVec 32 := 1#32
  let arg8 : BitVec 32 := Scf.iv c0_i32_79 c1_i32_81 k0_t27
  let v101 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk108 (v107 : IVec S16 32) : Prop :=
  (∀ a x, ((![v107] : Fin 1 → IVec S16 32) a x).toNat < S16384.size a)
instance k0_chk108.dec : ∀ (v107 : IVec S16 32), Decidable (k0_chk108 v107) := fun v107 => decidable_of_iff' _ (Iff.of_eq (k0_chk108.eq_1 v107))
theorem k0_idx108_inb : ∀ (v107 : IVec S16 32) (k0_hw108 : k0_chk108 v107), ∀ a x, ((![v107] : Fin 1 → IVec S16 32) a x).toNat < S16384.size a := fun v107 k0_hw108 => k0_hw108
def k0_off125 (k0_t27 : Fin k0_t27_loop.trips) (k0_t28 : Fin k0_t28_loop.trips) (c48_i32 : BitVec 32) : Fin 2 → Nat :=
  let c0_i32_79 : BitVec 32 := 0#32
  let c1_i32_81 : BitVec 32 := 1#32
  let arg8 : BitVec 32 := Scf.iv c0_i32_79 c1_i32_81 k0_t27
  let v109 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk109 (v115 : IVec S16 32) : Prop :=
  (∀ a x, ((![v115] : Fin 1 → IVec S16 32) a x).toNat < S16384.size a)
instance k0_chk109.dec : ∀ (v115 : IVec S16 32), Decidable (k0_chk109 v115) := fun v115 => decidable_of_iff' _ (Iff.of_eq (k0_chk109.eq_1 v115))
theorem k0_idx109_inb : ∀ (v115 : IVec S16 32) (k0_hw109 : k0_chk109 v115), ∀ a x, ((![v115] : Fin 1 → IVec S16 32) a x).toNat < S16384.size a := fun v115 k0_hw109 => k0_hw109
def k0_off126 (k0_t27 : Fin k0_t27_loop.trips) (k0_t28 : Fin k0_t28_loop.trips) (c64_i32 : BitVec 32) : Fin 2 → Nat :=
  let c0_i32_79 : BitVec 32 := 0#32
  let c1_i32_81 : BitVec 32 := 1#32
  let arg8 : BitVec 32 := Scf.iv c0_i32_79 c1_i32_81 k0_t27
  let v117 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk110 (v123 : IVec S16 32) : Prop :=
  (∀ a x, ((![v123] : Fin 1 → IVec S16 32) a x).toNat < S16384.size a)
instance k0_chk110.dec : ∀ (v123 : IVec S16 32), Decidable (k0_chk110 v123) := fun v123 => decidable_of_iff' _ (Iff.of_eq (k0_chk110.eq_1 v123))
theorem k0_idx110_inb : ∀ (v123 : IVec S16 32) (k0_hw110 : k0_chk110 v123), ∀ a x, ((![v123] : Fin 1 → IVec S16 32) a x).toNat < S16384.size a := fun v123 k0_hw110 => k0_hw110
def k0_off127 (k0_t27 : Fin k0_t27_loop.trips) (k0_t28 : Fin k0_t28_loop.trips) (c80_i32 : BitVec 32) : Fin 2 → Nat :=
  let c0_i32_79 : BitVec 32 := 0#32
  let c1_i32_81 : BitVec 32 := 1#32
  let arg8 : BitVec 32 := Scf.iv c0_i32_79 c1_i32_81 k0_t27
  let v125 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk111 (v131 : IVec S16 32) : Prop :=
  (∀ a x, ((![v131] : Fin 1 → IVec S16 32) a x).toNat < S16384.size a)
instance k0_chk111.dec : ∀ (v131 : IVec S16 32), Decidable (k0_chk111 v131) := fun v131 => decidable_of_iff' _ (Iff.of_eq (k0_chk111.eq_1 v131))
theorem k0_idx111_inb : ∀ (v131 : IVec S16 32) (k0_hw111 : k0_chk111 v131), ∀ a x, ((![v131] : Fin 1 → IVec S16 32) a x).toNat < S16384.size a := fun v131 k0_hw111 => k0_hw111
def k0_off128 (k0_t27 : Fin k0_t27_loop.trips) (k0_t28 : Fin k0_t28_loop.trips) (c96_i32 : BitVec 32) : Fin 2 → Nat :=
  let c0_i32_79 : BitVec 32 := 0#32
  let c1_i32_81 : BitVec 32 := 1#32
  let arg8 : BitVec 32 := Scf.iv c0_i32_79 c1_i32_81 k0_t27
  let v133 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk112 (v139 : IVec S16 32) : Prop :=
  (∀ a x, ((![v139] : Fin 1 → IVec S16 32) a x).toNat < S16384.size a)
instance k0_chk112.dec : ∀ (v139 : IVec S16 32), Decidable (k0_chk112 v139) := fun v139 => decidable_of_iff' _ (Iff.of_eq (k0_chk112.eq_1 v139))
theorem k0_idx112_inb : ∀ (v139 : IVec S16 32) (k0_hw112 : k0_chk112 v139), ∀ a x, ((![v139] : Fin 1 → IVec S16 32) a x).toNat < S16384.size a := fun v139 k0_hw112 => k0_hw112
def k0_off129 (k0_t27 : Fin k0_t27_loop.trips) (k0_t28 : Fin k0_t28_loop.trips) : Fin 2 → Nat :=
  let c0_i32_79 : BitVec 32 := 0#32
  let c1_i32_81 : BitVec 32 := 1#32
  let arg8 : BitVec 32 := Scf.iv c0_i32_79 c1_i32_81 k0_t27
  let v141 : Index := Scalar.indexCast arg8
  let c0_i32_93 : BitVec 32 := 0#32
  let c1_i32_95 : BitVec 32 := 1#32
  let arg10 : BitVec 32 := Scf.iv c0_i32_93 c1_i32_95 k0_t28
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t29_loop : Scf.Loop 32 :=
  let c0_i32_84 : BitVec 32 := 0#32
  let c32_i32_85 : BitVec 32 := 32#32
  let v73 : BitVec 32 := Scalar.addi c0_i32_84 c32_i32_85
  let c1_i32_86 : BitVec 32 := 1#32
  ⟨c0_i32_84, v73, c1_i32_86⟩
@[reducible] def k0_t30_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off130 (k0_t29 : Fin k0_t29_loop.trips) (k0_t30 : Fin k0_t30_loop.trips) : Fin 2 → Nat :=
  let c0_i32_84 : BitVec 32 := 0#32
  let c1_i32_86 : BitVec 32 := 1#32
  let arg8 : BitVec 32 := Scf.iv c0_i32_84 c1_i32_86 k0_t29
  let v81 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk113 (v83 : IVec S16 32) : Prop :=
  (∀ a x, ((![v83] : Fin 1 → IVec S16 32) a x).toNat < S16384.size a)
instance k0_chk113.dec : ∀ (v83 : IVec S16 32), Decidable (k0_chk113 v83) := fun v83 => decidable_of_iff' _ (Iff.of_eq (k0_chk113.eq_1 v83))
theorem k0_idx113_inb : ∀ (v83 : IVec S16 32) (k0_hw113 : k0_chk113 v83), ∀ a x, ((![v83] : Fin 1 → IVec S16 32) a x).toNat < S16384.size a := fun v83 k0_hw113 => k0_hw113
def k0_off131 (k0_t29 : Fin k0_t29_loop.trips) (k0_t30 : Fin k0_t30_loop.trips) (c0_i32_98 : BitVec 32) : Fin 2 → Nat :=
  let c0_i32_84 : BitVec 32 := 0#32
  let c1_i32_86 : BitVec 32 := 1#32
  let arg8 : BitVec 32 := Scf.iv c0_i32_84 c1_i32_86 k0_t29
  let v85 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk114 (v91 : IVec S16 32) : Prop :=
  (∀ a x, ((![v91] : Fin 1 → IVec S16 32) a x).toNat < S16384.size a)
instance k0_chk114.dec : ∀ (v91 : IVec S16 32), Decidable (k0_chk114 v91) := fun v91 => decidable_of_iff' _ (Iff.of_eq (k0_chk114.eq_1 v91))
theorem k0_idx114_inb : ∀ (v91 : IVec S16 32) (k0_hw114 : k0_chk114 v91), ∀ a x, ((![v91] : Fin 1 → IVec S16 32) a x).toNat < S16384.size a := fun v91 k0_hw114 => k0_hw114
def k0_off132 (k0_t29 : Fin k0_t29_loop.trips) (k0_t30 : Fin k0_t30_loop.trips) (c16_i32_99 : BitVec 32) : Fin 2 → Nat :=
  let c0_i32_84 : BitVec 32 := 0#32
  let c1_i32_86 : BitVec 32 := 1#32
  let arg8 : BitVec 32 := Scf.iv c0_i32_84 c1_i32_86 k0_t29
  let v93 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk115 (v99 : IVec S16 32) : Prop :=
  (∀ a x, ((![v99] : Fin 1 → IVec S16 32) a x).toNat < S16384.size a)
instance k0_chk115.dec : ∀ (v99 : IVec S16 32), Decidable (k0_chk115 v99) := fun v99 => decidable_of_iff' _ (Iff.of_eq (k0_chk115.eq_1 v99))
theorem k0_idx115_inb : ∀ (v99 : IVec S16 32) (k0_hw115 : k0_chk115 v99), ∀ a x, ((![v99] : Fin 1 → IVec S16 32) a x).toNat < S16384.size a := fun v99 k0_hw115 => k0_hw115
def k0_off133 (k0_t29 : Fin k0_t29_loop.trips) (k0_t30 : Fin k0_t30_loop.trips) (c32_i32_100 : BitVec 32) : Fin 2 → Nat :=
  let c0_i32_84 : BitVec 32 := 0#32
  let c1_i32_86 : BitVec 32 := 1#32
  let arg8 : BitVec 32 := Scf.iv c0_i32_84 c1_i32_86 k0_t29
  let v101 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk116 (v107 : IVec S16 32) : Prop :=
  (∀ a x, ((![v107] : Fin 1 → IVec S16 32) a x).toNat < S16384.size a)
instance k0_chk116.dec : ∀ (v107 : IVec S16 32), Decidable (k0_chk116 v107) := fun v107 => decidable_of_iff' _ (Iff.of_eq (k0_chk116.eq_1 v107))
theorem k0_idx116_inb : ∀ (v107 : IVec S16 32) (k0_hw116 : k0_chk116 v107), ∀ a x, ((![v107] : Fin 1 → IVec S16 32) a x).toNat < S16384.size a := fun v107 k0_hw116 => k0_hw116
def k0_off134 (k0_t29 : Fin k0_t29_loop.trips) (k0_t30 : Fin k0_t30_loop.trips) (c48_i32 : BitVec 32) : Fin 2 → Nat :=
  let c0_i32_84 : BitVec 32 := 0#32
  let c1_i32_86 : BitVec 32 := 1#32
  let arg8 : BitVec 32 := Scf.iv c0_i32_84 c1_i32_86 k0_t29
  let v109 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk117 (v115 : IVec S16 32) : Prop :=
  (∀ a x, ((![v115] : Fin 1 → IVec S16 32) a x).toNat < S16384.size a)
instance k0_chk117.dec : ∀ (v115 : IVec S16 32), Decidable (k0_chk117 v115) := fun v115 => decidable_of_iff' _ (Iff.of_eq (k0_chk117.eq_1 v115))
theorem k0_idx117_inb : ∀ (v115 : IVec S16 32) (k0_hw117 : k0_chk117 v115), ∀ a x, ((![v115] : Fin 1 → IVec S16 32) a x).toNat < S16384.size a := fun v115 k0_hw117 => k0_hw117
def k0_off135 (k0_t29 : Fin k0_t29_loop.trips) (k0_t30 : Fin k0_t30_loop.trips) (c64_i32 : BitVec 32) : Fin 2 → Nat :=
  let c0_i32_84 : BitVec 32 := 0#32
  let c1_i32_86 : BitVec 32 := 1#32
  let arg8 : BitVec 32 := Scf.iv c0_i32_84 c1_i32_86 k0_t29
  let v117 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk118 (v123 : IVec S16 32) : Prop :=
  (∀ a x, ((![v123] : Fin 1 → IVec S16 32) a x).toNat < S16384.size a)
instance k0_chk118.dec : ∀ (v123 : IVec S16 32), Decidable (k0_chk118 v123) := fun v123 => decidable_of_iff' _ (Iff.of_eq (k0_chk118.eq_1 v123))
theorem k0_idx118_inb : ∀ (v123 : IVec S16 32) (k0_hw118 : k0_chk118 v123), ∀ a x, ((![v123] : Fin 1 → IVec S16 32) a x).toNat < S16384.size a := fun v123 k0_hw118 => k0_hw118
def k0_off136 (k0_t29 : Fin k0_t29_loop.trips) (k0_t30 : Fin k0_t30_loop.trips) (c80_i32 : BitVec 32) : Fin 2 → Nat :=
  let c0_i32_84 : BitVec 32 := 0#32
  let c1_i32_86 : BitVec 32 := 1#32
  let arg8 : BitVec 32 := Scf.iv c0_i32_84 c1_i32_86 k0_t29
  let v125 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk119 (v131 : IVec S16 32) : Prop :=
  (∀ a x, ((![v131] : Fin 1 → IVec S16 32) a x).toNat < S16384.size a)
instance k0_chk119.dec : ∀ (v131 : IVec S16 32), Decidable (k0_chk119 v131) := fun v131 => decidable_of_iff' _ (Iff.of_eq (k0_chk119.eq_1 v131))
theorem k0_idx119_inb : ∀ (v131 : IVec S16 32) (k0_hw119 : k0_chk119 v131), ∀ a x, ((![v131] : Fin 1 → IVec S16 32) a x).toNat < S16384.size a := fun v131 k0_hw119 => k0_hw119
def k0_off137 (k0_t29 : Fin k0_t29_loop.trips) (k0_t30 : Fin k0_t30_loop.trips) (c96_i32 : BitVec 32) : Fin 2 → Nat :=
  let c0_i32_84 : BitVec 32 := 0#32
  let c1_i32_86 : BitVec 32 := 1#32
  let arg8 : BitVec 32 := Scf.iv c0_i32_84 c1_i32_86 k0_t29
  let v133 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk120 (v139 : IVec S16 32) : Prop :=
  (∀ a x, ((![v139] : Fin 1 → IVec S16 32) a x).toNat < S16384.size a)
instance k0_chk120.dec : ∀ (v139 : IVec S16 32), Decidable (k0_chk120 v139) := fun v139 => decidable_of_iff' _ (Iff.of_eq (k0_chk120.eq_1 v139))
theorem k0_idx120_inb : ∀ (v139 : IVec S16 32) (k0_hw120 : k0_chk120 v139), ∀ a x, ((![v139] : Fin 1 → IVec S16 32) a x).toNat < S16384.size a := fun v139 k0_hw120 => k0_hw120
def k0_off138 (k0_t29 : Fin k0_t29_loop.trips) (k0_t30 : Fin k0_t30_loop.trips) : Fin 2 → Nat :=
  let c0_i32_84 : BitVec 32 := 0#32
  let c1_i32_86 : BitVec 32 := 1#32
  let arg8 : BitVec 32 := Scf.iv c0_i32_84 c1_i32_86 k0_t29
  let v141 : Index := Scalar.indexCast arg8
  let c0_i32_93 : BitVec 32 := 0#32
  let c1_i32_95 : BitVec 32 := 1#32
  let arg10 : BitVec 32 := Scf.iv c0_i32_93 c1_i32_95 k0_t30
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
@[reducible] def k0_t31_loop : Scf.Loop 32 :=
  let c0_i32_89 : BitVec 32 := 0#32
  let c32_i32_90 : BitVec 32 := 32#32
  let v76 : BitVec 32 := Scalar.addi c0_i32_89 c32_i32_90
  let c1_i32_91 : BitVec 32 := 1#32
  ⟨c0_i32_89, v76, c1_i32_91⟩
@[reducible] def k0_t32_loop : Scf.Loop 32 :=
  let c0_i32_93 : BitVec 32 := 0#32
  let c8_i32_94 : BitVec 32 := 8#32
  let v78 : BitVec 32 := Scalar.addi c0_i32_93 c8_i32_94
  let c1_i32_95 : BitVec 32 := 1#32
  ⟨c0_i32_93, v78, c1_i32_95⟩
def k0_off139 (k0_t31 : Fin k0_t31_loop.trips) (k0_t32 : Fin k0_t32_loop.trips) : Fin 2 → Nat :=
  let c0_i32_89 : BitVec 32 := 0#32
  let c1_i32_91 : BitVec 32 := 1#32
  let arg8 : BitVec 32 := Scf.iv c0_i32_89 c1_i32_91 k0_t31
  let v81 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let c0_i32_98 : BitVec 32 := 0#32
  let v80 : BitVec 32 := Scalar.addi v79 c0_i32_98
  let v82 : Index := Scalar.indexCast v80
  ![v81.toNat, v82.toNat]

def k0_chk121 (v83 : IVec S16 32) : Prop :=
  (∀ a x, ((![v83] : Fin 1 → IVec S16 32) a x).toNat < S16384.size a)
instance k0_chk121.dec : ∀ (v83 : IVec S16 32), Decidable (k0_chk121 v83) := fun v83 => decidable_of_iff' _ (Iff.of_eq (k0_chk121.eq_1 v83))
theorem k0_idx121_inb : ∀ (v83 : IVec S16 32) (k0_hw121 : k0_chk121 v83), ∀ a x, ((![v83] : Fin 1 → IVec S16 32) a x).toNat < S16384.size a := fun v83 k0_hw121 => k0_hw121
def k0_off140 (k0_t31 : Fin k0_t31_loop.trips) (k0_t32 : Fin k0_t32_loop.trips) (c0_i32_98 : BitVec 32) : Fin 2 → Nat :=
  let c0_i32_89 : BitVec 32 := 0#32
  let c1_i32_91 : BitVec 32 := 1#32
  let arg8 : BitVec 32 := Scf.iv c0_i32_89 c1_i32_91 k0_t31
  let v85 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let v80 : BitVec 32 := Scalar.addi v79 c0_i32_98
  let v86 : Index := Scalar.indexCast v80
  ![v85.toNat, v86.toNat]

def k0_chk122 (v91 : IVec S16 32) : Prop :=
  (∀ a x, ((![v91] : Fin 1 → IVec S16 32) a x).toNat < S16384.size a)
instance k0_chk122.dec : ∀ (v91 : IVec S16 32), Decidable (k0_chk122 v91) := fun v91 => decidable_of_iff' _ (Iff.of_eq (k0_chk122.eq_1 v91))
theorem k0_idx122_inb : ∀ (v91 : IVec S16 32) (k0_hw122 : k0_chk122 v91), ∀ a x, ((![v91] : Fin 1 → IVec S16 32) a x).toNat < S16384.size a := fun v91 k0_hw122 => k0_hw122
def k0_off141 (k0_t31 : Fin k0_t31_loop.trips) (k0_t32 : Fin k0_t32_loop.trips) (c16_i32_99 : BitVec 32) : Fin 2 → Nat :=
  let c0_i32_89 : BitVec 32 := 0#32
  let c1_i32_91 : BitVec 32 := 1#32
  let arg8 : BitVec 32 := Scf.iv c0_i32_89 c1_i32_91 k0_t31
  let v93 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let v88 : BitVec 32 := Scalar.addi v79 c16_i32_99
  let v94 : Index := Scalar.indexCast v88
  ![v93.toNat, v94.toNat]

def k0_chk123 (v99 : IVec S16 32) : Prop :=
  (∀ a x, ((![v99] : Fin 1 → IVec S16 32) a x).toNat < S16384.size a)
instance k0_chk123.dec : ∀ (v99 : IVec S16 32), Decidable (k0_chk123 v99) := fun v99 => decidable_of_iff' _ (Iff.of_eq (k0_chk123.eq_1 v99))
theorem k0_idx123_inb : ∀ (v99 : IVec S16 32) (k0_hw123 : k0_chk123 v99), ∀ a x, ((![v99] : Fin 1 → IVec S16 32) a x).toNat < S16384.size a := fun v99 k0_hw123 => k0_hw123
def k0_off142 (k0_t31 : Fin k0_t31_loop.trips) (k0_t32 : Fin k0_t32_loop.trips) (c32_i32_100 : BitVec 32) : Fin 2 → Nat :=
  let c0_i32_89 : BitVec 32 := 0#32
  let c1_i32_91 : BitVec 32 := 1#32
  let arg8 : BitVec 32 := Scf.iv c0_i32_89 c1_i32_91 k0_t31
  let v101 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let v96 : BitVec 32 := Scalar.addi v79 c32_i32_100
  let v102 : Index := Scalar.indexCast v96
  ![v101.toNat, v102.toNat]

def k0_chk124 (v107 : IVec S16 32) : Prop :=
  (∀ a x, ((![v107] : Fin 1 → IVec S16 32) a x).toNat < S16384.size a)
instance k0_chk124.dec : ∀ (v107 : IVec S16 32), Decidable (k0_chk124 v107) := fun v107 => decidable_of_iff' _ (Iff.of_eq (k0_chk124.eq_1 v107))
theorem k0_idx124_inb : ∀ (v107 : IVec S16 32) (k0_hw124 : k0_chk124 v107), ∀ a x, ((![v107] : Fin 1 → IVec S16 32) a x).toNat < S16384.size a := fun v107 k0_hw124 => k0_hw124
def k0_off143 (k0_t31 : Fin k0_t31_loop.trips) (k0_t32 : Fin k0_t32_loop.trips) (c48_i32 : BitVec 32) : Fin 2 → Nat :=
  let c0_i32_89 : BitVec 32 := 0#32
  let c1_i32_91 : BitVec 32 := 1#32
  let arg8 : BitVec 32 := Scf.iv c0_i32_89 c1_i32_91 k0_t31
  let v109 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let v104 : BitVec 32 := Scalar.addi v79 c48_i32
  let v110 : Index := Scalar.indexCast v104
  ![v109.toNat, v110.toNat]

def k0_chk125 (v115 : IVec S16 32) : Prop :=
  (∀ a x, ((![v115] : Fin 1 → IVec S16 32) a x).toNat < S16384.size a)
instance k0_chk125.dec : ∀ (v115 : IVec S16 32), Decidable (k0_chk125 v115) := fun v115 => decidable_of_iff' _ (Iff.of_eq (k0_chk125.eq_1 v115))
theorem k0_idx125_inb : ∀ (v115 : IVec S16 32) (k0_hw125 : k0_chk125 v115), ∀ a x, ((![v115] : Fin 1 → IVec S16 32) a x).toNat < S16384.size a := fun v115 k0_hw125 => k0_hw125
def k0_off144 (k0_t31 : Fin k0_t31_loop.trips) (k0_t32 : Fin k0_t32_loop.trips) (c64_i32 : BitVec 32) : Fin 2 → Nat :=
  let c0_i32_89 : BitVec 32 := 0#32
  let c1_i32_91 : BitVec 32 := 1#32
  let arg8 : BitVec 32 := Scf.iv c0_i32_89 c1_i32_91 k0_t31
  let v117 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let v112 : BitVec 32 := Scalar.addi v79 c64_i32
  let v118 : Index := Scalar.indexCast v112
  ![v117.toNat, v118.toNat]

def k0_chk126 (v123 : IVec S16 32) : Prop :=
  (∀ a x, ((![v123] : Fin 1 → IVec S16 32) a x).toNat < S16384.size a)
instance k0_chk126.dec : ∀ (v123 : IVec S16 32), Decidable (k0_chk126 v123) := fun v123 => decidable_of_iff' _ (Iff.of_eq (k0_chk126.eq_1 v123))
theorem k0_idx126_inb : ∀ (v123 : IVec S16 32) (k0_hw126 : k0_chk126 v123), ∀ a x, ((![v123] : Fin 1 → IVec S16 32) a x).toNat < S16384.size a := fun v123 k0_hw126 => k0_hw126
def k0_off145 (k0_t31 : Fin k0_t31_loop.trips) (k0_t32 : Fin k0_t32_loop.trips) (c80_i32 : BitVec 32) : Fin 2 → Nat :=
  let c0_i32_89 : BitVec 32 := 0#32
  let c1_i32_91 : BitVec 32 := 1#32
  let arg8 : BitVec 32 := Scf.iv c0_i32_89 c1_i32_91 k0_t31
  let v125 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let v120 : BitVec 32 := Scalar.addi v79 c80_i32
  let v126 : Index := Scalar.indexCast v120
  ![v125.toNat, v126.toNat]

def k0_chk127 (v131 : IVec S16 32) : Prop :=
  (∀ a x, ((![v131] : Fin 1 → IVec S16 32) a x).toNat < S16384.size a)
instance k0_chk127.dec : ∀ (v131 : IVec S16 32), Decidable (k0_chk127 v131) := fun v131 => decidable_of_iff' _ (Iff.of_eq (k0_chk127.eq_1 v131))
theorem k0_idx127_inb : ∀ (v131 : IVec S16 32) (k0_hw127 : k0_chk127 v131), ∀ a x, ((![v131] : Fin 1 → IVec S16 32) a x).toNat < S16384.size a := fun v131 k0_hw127 => k0_hw127
def k0_off146 (k0_t31 : Fin k0_t31_loop.trips) (k0_t32 : Fin k0_t32_loop.trips) (c96_i32 : BitVec 32) : Fin 2 → Nat :=
  let c0_i32_89 : BitVec 32 := 0#32
  let c1_i32_91 : BitVec 32 := 1#32
  let arg8 : BitVec 32 := Scf.iv c0_i32_89 c1_i32_91 k0_t31
  let v133 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let v128 : BitVec 32 := Scalar.addi v79 c96_i32
  let v134 : Index := Scalar.indexCast v128
  ![v133.toNat, v134.toNat]

def k0_chk128 (v139 : IVec S16 32) : Prop :=
  (∀ a x, ((![v139] : Fin 1 → IVec S16 32) a x).toNat < S16384.size a)
instance k0_chk128.dec : ∀ (v139 : IVec S16 32), Decidable (k0_chk128 v139) := fun v139 => decidable_of_iff' _ (Iff.of_eq (k0_chk128.eq_1 v139))
theorem k0_idx128_inb : ∀ (v139 : IVec S16 32) (k0_hw128 : k0_chk128 v139), ∀ a x, ((![v139] : Fin 1 → IVec S16 32) a x).toNat < S16384.size a := fun v139 k0_hw128 => k0_hw128
def k0_off147 (k0_t31 : Fin k0_t31_loop.trips) (k0_t32 : Fin k0_t32_loop.trips) : Fin 2 → Nat :=
  let c0_i32_89 : BitVec 32 := 0#32
  let c1_i32_91 : BitVec 32 := 1#32
  let arg8 : BitVec 32 := Scf.iv c0_i32_89 c1_i32_91 k0_t31
  let v141 : Index := Scalar.indexCast arg8
  let c0_i32_93 : BitVec 32 := 0#32
  let c1_i32_95 : BitVec 32 := 1#32
  let arg10 : BitVec 32 := Scf.iv c0_i32_93 c1_i32_95 k0_t32
  let c128_i32 : BitVec 32 := 128#32
  let v79 : BitVec 32 := Scalar.muli arg10 c128_i32
  let c112_i32 : BitVec 32 := 112#32
  let v136 : BitVec 32 := Scalar.addi v79 c112_i32
  let v142 : Index := Scalar.indexCast v136
  ![v141.toNat, v142.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S8x1024x32_S8x32x1024_0_2_1 : S8x1024x32.Transposes [0, 2, 1] S8x32x1024
  squeezes_S1x32x1024_S32x1024 : S1x32x1024.Squeezes S32x1024
  squeezes_S1x1x16384_S16384 : S1x1x16384.Squeezes S16384
  h_S1x16 : 0 < S1x16.numel
  shapeCasts_S1x16_S16 : S1x16.ShapeCasts S16
  h_S16384 : 0 < S16384.numel
  shapeCasts_S16_S1x16 : S16.ShapeCasts S1x16
  squeezes_S1x1x32x1024_S32x1024 : S1x1x32x1024.Squeezes S32x1024
  transposes_S8x64x32x1024_S8x64x1024x32_0_1_3_2 : S8x64x32x1024.Transposes [0, 1, 3, 2] S8x64x1024x32
  hcc0_scoped0 : 0 + S_.numel ≤ 33
  hcc0_scoped1 : 1 + S_.numel ≤ 33
  hcc0_scoped2 : 2 + S_.numel ≤ 33
  hcc0_scoped3 : 3 + S_.numel ≤ 33
  hcc0_scoped4 : 4 + S_.numel ≤ 33
  hcc0_scoped5 : 5 + S_.numel ≤ 33
  hcc0_scoped6 : 6 + S_.numel ≤ 33
  hcc0_scoped7 : 7 + S_.numel ≤ 33
  hcc0_scoped8 : 8 + S_.numel ≤ 33
  hcc0_scoped9 : 9 + S_.numel ≤ 33
  hcc0_scoped10 : 10 + S_.numel ≤ 33
  hcc0_scoped11 : 11 + S_.numel ≤ 33
  hcc0_scoped12 : 12 + S_.numel ≤ 33
  hcc0_scoped13 : 13 + S_.numel ≤ 33
  hcc0_scoped14 : 14 + S_.numel ≤ 33
  hcc0_scoped15 : 15 + S_.numel ≤ 33
  hcc0_scoped16 : 16 + S_.numel ≤ 33
  hcc0_scoped17 : 17 + S_.numel ≤ 33
  hcc0_scoped18 : 18 + S_.numel ≤ 33
  hcc0_scoped19 : 19 + S_.numel ≤ 33
  hcc0_scoped20 : 20 + S_.numel ≤ 33
  hcc0_scoped21 : 21 + S_.numel ≤ 33
  hcc0_scoped22 : 22 + S_.numel ≤ 33
  hcc0_scoped23 : 23 + S_.numel ≤ 33
  hcc0_scoped24 : 24 + S_.numel ≤ 33
  hcc0_scoped25 : 25 + S_.numel ≤ 33
  hcc0_scoped26 : 26 + S_.numel ≤ 33
  hcc0_scoped27 : 27 + S_.numel ≤ 33
  hcc0_scoped28 : 28 + S_.numel ≤ 33
  hcc0_scoped29 : 29 + S_.numel ≤ 33
  hcc0_scoped30 : 30 + S_.numel ≤ 33
  hcc0_scoped31 : 31 + S_.numel ≤ 33
  hcc0_scoped32 : 32 + S_.numel ≤ 33
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x32x1024.size a ≤ S8x32x1024.size a
  k0_off2_inb : ∀ i : grid0.Coords, ∀ (r : Fin 16), ∀ a, (k0_off2 i (BitVec.ofNat 32 r.val)) a + S1x1x16384.size a ≤ S8x64x16384.size a
  k0_t1_ok : k0_t1_loop.OK
  k0_t2_ok : k0_t2_loop.OK
  k0_off3_inb : ∀ (k0_t1 : Fin k0_t1_loop.trips) (k0_t2 : Fin k0_t2_loop.trips), ∀ a, (k0_off3 k0_t1 k0_t2) a + S1x16.size a ≤ S32x1024.size a
  k0_off4_inb : ∀ (k0_t1 : Fin k0_t1_loop.trips) (k0_t2 : Fin k0_t2_loop.trips), ∀ (r : Fin 2), ∀ a, (k0_off4 k0_t1 k0_t2 (BitVec.ofNat 32 (16 * r.val))) a + S1x16.size a ≤ S32x1024.size a
  k0_off5_inb : ∀ (k0_t1 : Fin k0_t1_loop.trips) (k0_t2 : Fin k0_t2_loop.trips), ∀ (r : Fin 2), ∀ a, (k0_off5 k0_t1 k0_t2 (BitVec.ofNat 32 (16 + 16 * r.val))) a + S1x16.size a ≤ S32x1024.size a
  k0_off6_inb : ∀ (k0_t1 : Fin k0_t1_loop.trips) (k0_t2 : Fin k0_t2_loop.trips), ∀ (r : Fin 2), ∀ a, (k0_off6 k0_t1 k0_t2 (BitVec.ofNat 32 (32 + 16 * r.val))) a + S1x16.size a ≤ S32x1024.size a
  k0_off7_inb : ∀ (k0_t1 : Fin k0_t1_loop.trips) (k0_t2 : Fin k0_t2_loop.trips), ∀ (r : Fin 2), ∀ a, (k0_off7 k0_t1 k0_t2 (BitVec.ofNat 32 (48 + 16 * r.val))) a + S1x16.size a ≤ S32x1024.size a
  k0_off8_inb : ∀ (k0_t1 : Fin k0_t1_loop.trips) (k0_t2 : Fin k0_t2_loop.trips), ∀ (r : Fin 2), ∀ a, (k0_off8 k0_t1 k0_t2 (BitVec.ofNat 32 (64 + 16 * r.val))) a + S1x16.size a ≤ S32x1024.size a
  k0_off9_inb : ∀ (k0_t1 : Fin k0_t1_loop.trips) (k0_t2 : Fin k0_t2_loop.trips), ∀ (r : Fin 2), ∀ a, (k0_off9 k0_t1 k0_t2 (BitVec.ofNat 32 (80 + 16 * r.val))) a + S1x16.size a ≤ S32x1024.size a
  k0_off10_inb : ∀ (k0_t1 : Fin k0_t1_loop.trips) (k0_t2 : Fin k0_t2_loop.trips), ∀ (r : Fin 2), ∀ a, (k0_off10 k0_t1 k0_t2 (BitVec.ofNat 32 (96 + 16 * r.val))) a + S1x16.size a ≤ S32x1024.size a
  k0_off11_inb : ∀ (k0_t1 : Fin k0_t1_loop.trips) (k0_t2 : Fin k0_t2_loop.trips), ∀ a, (k0_off11 k0_t1 k0_t2) a + S1x16.size a ≤ S32x1024.size a
  k0_off12_inb : ∀ i : grid0.Coords, ∀ (r : Fin 16), ∀ a, (k0_off12 i (BitVec.ofNat 32 r.val)) a + S1x1x32x1024.size a ≤ S8x64x32x1024.size a
  k0_t3_ok : k0_t3_loop.OK
  k0_t4_ok : k0_t4_loop.OK
  k0_off13_inb : ∀ (k0_t3 : Fin k0_t3_loop.trips) (k0_t4 : Fin k0_t4_loop.trips), ∀ a, (k0_off13 k0_t3 k0_t4) a + S1x16.size a ≤ S32x1024.size a
  k0_off14_inb : ∀ (k0_t3 : Fin k0_t3_loop.trips) (k0_t4 : Fin k0_t4_loop.trips), ∀ (r : Fin 2), ∀ a, (k0_off14 k0_t3 k0_t4 (BitVec.ofNat 32 (16 * r.val))) a + S1x16.size a ≤ S32x1024.size a
  k0_off15_inb : ∀ (k0_t3 : Fin k0_t3_loop.trips) (k0_t4 : Fin k0_t4_loop.trips), ∀ (r : Fin 2), ∀ a, (k0_off15 k0_t3 k0_t4 (BitVec.ofNat 32 (16 + 16 * r.val))) a + S1x16.size a ≤ S32x1024.size a
  k0_off16_inb : ∀ (k0_t3 : Fin k0_t3_loop.trips) (k0_t4 : Fin k0_t4_loop.trips), ∀ (r : Fin 2), ∀ a, (k0_off16 k0_t3 k0_t4 (BitVec.ofNat 32 (32 + 16 * r.val))) a + S1x16.size a ≤ S32x1024.size a
  k0_off17_inb : ∀ (k0_t3 : Fin k0_t3_loop.trips) (k0_t4 : Fin k0_t4_loop.trips), ∀ (r : Fin 2), ∀ a, (k0_off17 k0_t3 k0_t4 (BitVec.ofNat 32 (48 + 16 * r.val))) a + S1x16.size a ≤ S32x1024.size a
  k0_off18_inb : ∀ (k0_t3 : Fin k0_t3_loop.trips) (k0_t4 : Fin k0_t4_loop.trips), ∀ (r : Fin 2), ∀ a, (k0_off18 k0_t3 k0_t4 (BitVec.ofNat 32 (64 + 16 * r.val))) a + S1x16.size a ≤ S32x1024.size a
  k0_off19_inb : ∀ (k0_t3 : Fin k0_t3_loop.trips) (k0_t4 : Fin k0_t4_loop.trips), ∀ (r : Fin 2), ∀ a, (k0_off19 k0_t3 k0_t4 (BitVec.ofNat 32 (80 + 16 * r.val))) a + S1x16.size a ≤ S32x1024.size a
  k0_off20_inb : ∀ (k0_t3 : Fin k0_t3_loop.trips) (k0_t4 : Fin k0_t4_loop.trips), ∀ (r : Fin 2), ∀ a, (k0_off20 k0_t3 k0_t4 (BitVec.ofNat 32 (96 + 16 * r.val))) a + S1x16.size a ≤ S32x1024.size a
  k0_off21_inb : ∀ (k0_t3 : Fin k0_t3_loop.trips) (k0_t4 : Fin k0_t4_loop.trips), ∀ a, (k0_off21 k0_t3 k0_t4) a + S1x16.size a ≤ S32x1024.size a
  k0_t5_ok : k0_t5_loop.OK
  k0_t6_ok : k0_t6_loop.OK
  k0_off22_inb : ∀ (k0_t5 : Fin k0_t5_loop.trips) (k0_t6 : Fin k0_t6_loop.trips), ∀ a, (k0_off22 k0_t5 k0_t6) a + S1x16.size a ≤ S32x1024.size a
  k0_off23_inb : ∀ (k0_t5 : Fin k0_t5_loop.trips) (k0_t6 : Fin k0_t6_loop.trips), ∀ (r : Fin 2), ∀ a, (k0_off23 k0_t5 k0_t6 (BitVec.ofNat 32 (16 * r.val))) a + S1x16.size a ≤ S32x1024.size a
  k0_off24_inb : ∀ (k0_t5 : Fin k0_t5_loop.trips) (k0_t6 : Fin k0_t6_loop.trips), ∀ (r : Fin 2), ∀ a, (k0_off24 k0_t5 k0_t6 (BitVec.ofNat 32 (16 + 16 * r.val))) a + S1x16.size a ≤ S32x1024.size a
  k0_off25_inb : ∀ (k0_t5 : Fin k0_t5_loop.trips) (k0_t6 : Fin k0_t6_loop.trips), ∀ (r : Fin 2), ∀ a, (k0_off25 k0_t5 k0_t6 (BitVec.ofNat 32 (32 + 16 * r.val))) a + S1x16.size a ≤ S32x1024.size a
  k0_off26_inb : ∀ (k0_t5 : Fin k0_t5_loop.trips) (k0_t6 : Fin k0_t6_loop.trips), ∀ (r : Fin 2), ∀ a, (k0_off26 k0_t5 k0_t6 (BitVec.ofNat 32 (48 + 16 * r.val))) a + S1x16.size a ≤ S32x1024.size a
  k0_off27_inb : ∀ (k0_t5 : Fin k0_t5_loop.trips) (k0_t6 : Fin k0_t6_loop.trips), ∀ (r : Fin 2), ∀ a, (k0_off27 k0_t5 k0_t6 (BitVec.ofNat 32 (64 + 16 * r.val))) a + S1x16.size a ≤ S32x1024.size a
  k0_off28_inb : ∀ (k0_t5 : Fin k0_t5_loop.trips) (k0_t6 : Fin k0_t6_loop.trips), ∀ (r : Fin 2), ∀ a, (k0_off28 k0_t5 k0_t6 (BitVec.ofNat 32 (80 + 16 * r.val))) a + S1x16.size a ≤ S32x1024.size a
  k0_off29_inb : ∀ (k0_t5 : Fin k0_t5_loop.trips) (k0_t6 : Fin k0_t6_loop.trips), ∀ (r : Fin 2), ∀ a, (k0_off29 k0_t5 k0_t6 (BitVec.ofNat 32 (96 + 16 * r.val))) a + S1x16.size a ≤ S32x1024.size a
  k0_off30_inb : ∀ (k0_t5 : Fin k0_t5_loop.trips) (k0_t6 : Fin k0_t6_loop.trips), ∀ a, (k0_off30 k0_t5 k0_t6) a + S1x16.size a ≤ S32x1024.size a
  k0_t7_ok : k0_t7_loop.OK
  k0_t8_ok : k0_t8_loop.OK
  k0_off31_inb : ∀ (k0_t7 : Fin k0_t7_loop.trips) (k0_t8 : Fin k0_t8_loop.trips), ∀ a, (k0_off31 k0_t7 k0_t8) a + S1x16.size a ≤ S32x1024.size a
  k0_off32_inb : ∀ (k0_t7 : Fin k0_t7_loop.trips) (k0_t8 : Fin k0_t8_loop.trips), ∀ (r : Fin 2), ∀ a, (k0_off32 k0_t7 k0_t8 (BitVec.ofNat 32 (16 * r.val))) a + S1x16.size a ≤ S32x1024.size a
  k0_off33_inb : ∀ (k0_t7 : Fin k0_t7_loop.trips) (k0_t8 : Fin k0_t8_loop.trips), ∀ (r : Fin 2), ∀ a, (k0_off33 k0_t7 k0_t8 (BitVec.ofNat 32 (16 + 16 * r.val))) a + S1x16.size a ≤ S32x1024.size a
  k0_off34_inb : ∀ (k0_t7 : Fin k0_t7_loop.trips) (k0_t8 : Fin k0_t8_loop.trips), ∀ (r : Fin 2), ∀ a, (k0_off34 k0_t7 k0_t8 (BitVec.ofNat 32 (32 + 16 * r.val))) a + S1x16.size a ≤ S32x1024.size a
  k0_off35_inb : ∀ (k0_t7 : Fin k0_t7_loop.trips) (k0_t8 : Fin k0_t8_loop.trips), ∀ (r : Fin 2), ∀ a, (k0_off35 k0_t7 k0_t8 (BitVec.ofNat 32 (48 + 16 * r.val))) a + S1x16.size a ≤ S32x1024.size a
  k0_off36_inb : ∀ (k0_t7 : Fin k0_t7_loop.trips) (k0_t8 : Fin k0_t8_loop.trips), ∀ (r : Fin 2), ∀ a, (k0_off36 k0_t7 k0_t8 (BitVec.ofNat 32 (64 + 16 * r.val))) a + S1x16.size a ≤ S32x1024.size a
  k0_off37_inb : ∀ (k0_t7 : Fin k0_t7_loop.trips) (k0_t8 : Fin k0_t8_loop.trips), ∀ (r : Fin 2), ∀ a, (k0_off37 k0_t7 k0_t8 (BitVec.ofNat 32 (80 + 16 * r.val))) a + S1x16.size a ≤ S32x1024.size a
  k0_off38_inb : ∀ (k0_t7 : Fin k0_t7_loop.trips) (k0_t8 : Fin k0_t8_loop.trips), ∀ (r : Fin 2), ∀ a, (k0_off38 k0_t7 k0_t8 (BitVec.ofNat 32 (96 + 16 * r.val))) a + S1x16.size a ≤ S32x1024.size a
  k0_off39_inb : ∀ (k0_t7 : Fin k0_t7_loop.trips) (k0_t8 : Fin k0_t8_loop.trips), ∀ a, (k0_off39 k0_t7 k0_t8) a + S1x16.size a ≤ S32x1024.size a
  k0_t9_ok : k0_t9_loop.OK
  k0_t10_ok : k0_t10_loop.OK
  k0_off40_inb : ∀ (k0_t9 : Fin k0_t9_loop.trips) (k0_t10 : Fin k0_t10_loop.trips), ∀ a, (k0_off40 k0_t9 k0_t10) a + S1x16.size a ≤ S32x1024.size a
  k0_off41_inb : ∀ (k0_t9 : Fin k0_t9_loop.trips) (k0_t10 : Fin k0_t10_loop.trips), ∀ (r : Fin 2), ∀ a, (k0_off41 k0_t9 k0_t10 (BitVec.ofNat 32 (16 * r.val))) a + S1x16.size a ≤ S32x1024.size a
  k0_off42_inb : ∀ (k0_t9 : Fin k0_t9_loop.trips) (k0_t10 : Fin k0_t10_loop.trips), ∀ (r : Fin 2), ∀ a, (k0_off42 k0_t9 k0_t10 (BitVec.ofNat 32 (16 + 16 * r.val))) a + S1x16.size a ≤ S32x1024.size a
  k0_off43_inb : ∀ (k0_t9 : Fin k0_t9_loop.trips) (k0_t10 : Fin k0_t10_loop.trips), ∀ (r : Fin 2), ∀ a, (k0_off43 k0_t9 k0_t10 (BitVec.ofNat 32 (32 + 16 * r.val))) a + S1x16.size a ≤ S32x1024.size a
  k0_off44_inb : ∀ (k0_t9 : Fin k0_t9_loop.trips) (k0_t10 : Fin k0_t10_loop.trips), ∀ (r : Fin 2), ∀ a, (k0_off44 k0_t9 k0_t10 (BitVec.ofNat 32 (48 + 16 * r.val))) a + S1x16.size a ≤ S32x1024.size a
  k0_off45_inb : ∀ (k0_t9 : Fin k0_t9_loop.trips) (k0_t10 : Fin k0_t10_loop.trips), ∀ (r : Fin 2), ∀ a, (k0_off45 k0_t9 k0_t10 (BitVec.ofNat 32 (64 + 16 * r.val))) a + S1x16.size a ≤ S32x1024.size a
  k0_off46_inb : ∀ (k0_t9 : Fin k0_t9_loop.trips) (k0_t10 : Fin k0_t10_loop.trips), ∀ (r : Fin 2), ∀ a, (k0_off46 k0_t9 k0_t10 (BitVec.ofNat 32 (80 + 16 * r.val))) a + S1x16.size a ≤ S32x1024.size a
  k0_off47_inb : ∀ (k0_t9 : Fin k0_t9_loop.trips) (k0_t10 : Fin k0_t10_loop.trips), ∀ (r : Fin 2), ∀ a, (k0_off47 k0_t9 k0_t10 (BitVec.ofNat 32 (96 + 16 * r.val))) a + S1x16.size a ≤ S32x1024.size a
  k0_off48_inb : ∀ (k0_t9 : Fin k0_t9_loop.trips) (k0_t10 : Fin k0_t10_loop.trips), ∀ a, (k0_off48 k0_t9 k0_t10) a + S1x16.size a ≤ S32x1024.size a
  k0_t11_ok : k0_t11_loop.OK
  k0_t12_ok : k0_t12_loop.OK
  k0_off49_inb : ∀ (k0_t11 : Fin k0_t11_loop.trips) (k0_t12 : Fin k0_t12_loop.trips), ∀ a, (k0_off49 k0_t11 k0_t12) a + S1x16.size a ≤ S32x1024.size a
  k0_off50_inb : ∀ (k0_t11 : Fin k0_t11_loop.trips) (k0_t12 : Fin k0_t12_loop.trips), ∀ (r : Fin 2), ∀ a, (k0_off50 k0_t11 k0_t12 (BitVec.ofNat 32 (16 * r.val))) a + S1x16.size a ≤ S32x1024.size a
  k0_off51_inb : ∀ (k0_t11 : Fin k0_t11_loop.trips) (k0_t12 : Fin k0_t12_loop.trips), ∀ (r : Fin 2), ∀ a, (k0_off51 k0_t11 k0_t12 (BitVec.ofNat 32 (16 + 16 * r.val))) a + S1x16.size a ≤ S32x1024.size a
  k0_off52_inb : ∀ (k0_t11 : Fin k0_t11_loop.trips) (k0_t12 : Fin k0_t12_loop.trips), ∀ (r : Fin 2), ∀ a, (k0_off52 k0_t11 k0_t12 (BitVec.ofNat 32 (32 + 16 * r.val))) a + S1x16.size a ≤ S32x1024.size a
  k0_off53_inb : ∀ (k0_t11 : Fin k0_t11_loop.trips) (k0_t12 : Fin k0_t12_loop.trips), ∀ (r : Fin 2), ∀ a, (k0_off53 k0_t11 k0_t12 (BitVec.ofNat 32 (48 + 16 * r.val))) a + S1x16.size a ≤ S32x1024.size a
  k0_off54_inb : ∀ (k0_t11 : Fin k0_t11_loop.trips) (k0_t12 : Fin k0_t12_loop.trips), ∀ (r : Fin 2), ∀ a, (k0_off54 k0_t11 k0_t12 (BitVec.ofNat 32 (64 + 16 * r.val))) a + S1x16.size a ≤ S32x1024.size a
  k0_off55_inb : ∀ (k0_t11 : Fin k0_t11_loop.trips) (k0_t12 : Fin k0_t12_loop.trips), ∀ (r : Fin 2), ∀ a, (k0_off55 k0_t11 k0_t12 (BitVec.ofNat 32 (80 + 16 * r.val))) a + S1x16.size a ≤ S32x1024.size a
  k0_off56_inb : ∀ (k0_t11 : Fin k0_t11_loop.trips) (k0_t12 : Fin k0_t12_loop.trips), ∀ (r : Fin 2), ∀ a, (k0_off56 k0_t11 k0_t12 (BitVec.ofNat 32 (96 + 16 * r.val))) a + S1x16.size a ≤ S32x1024.size a
  k0_off57_inb : ∀ (k0_t11 : Fin k0_t11_loop.trips) (k0_t12 : Fin k0_t12_loop.trips), ∀ a, (k0_off57 k0_t11 k0_t12) a + S1x16.size a ≤ S32x1024.size a
  k0_t13_ok : k0_t13_loop.OK
  k0_t14_ok : k0_t14_loop.OK
  k0_off58_inb : ∀ (k0_t13 : Fin k0_t13_loop.trips) (k0_t14 : Fin k0_t14_loop.trips), ∀ a, (k0_off58 k0_t13 k0_t14) a + S1x16.size a ≤ S32x1024.size a
  k0_off59_inb : ∀ (k0_t13 : Fin k0_t13_loop.trips) (k0_t14 : Fin k0_t14_loop.trips), ∀ (r : Fin 2), ∀ a, (k0_off59 k0_t13 k0_t14 (BitVec.ofNat 32 (16 * r.val))) a + S1x16.size a ≤ S32x1024.size a
  k0_off60_inb : ∀ (k0_t13 : Fin k0_t13_loop.trips) (k0_t14 : Fin k0_t14_loop.trips), ∀ (r : Fin 2), ∀ a, (k0_off60 k0_t13 k0_t14 (BitVec.ofNat 32 (16 + 16 * r.val))) a + S1x16.size a ≤ S32x1024.size a
  k0_off61_inb : ∀ (k0_t13 : Fin k0_t13_loop.trips) (k0_t14 : Fin k0_t14_loop.trips), ∀ (r : Fin 2), ∀ a, (k0_off61 k0_t13 k0_t14 (BitVec.ofNat 32 (32 + 16 * r.val))) a + S1x16.size a ≤ S32x1024.size a
  k0_off62_inb : ∀ (k0_t13 : Fin k0_t13_loop.trips) (k0_t14 : Fin k0_t14_loop.trips), ∀ (r : Fin 2), ∀ a, (k0_off62 k0_t13 k0_t14 (BitVec.ofNat 32 (48 + 16 * r.val))) a + S1x16.size a ≤ S32x1024.size a
  k0_off63_inb : ∀ (k0_t13 : Fin k0_t13_loop.trips) (k0_t14 : Fin k0_t14_loop.trips), ∀ (r : Fin 2), ∀ a, (k0_off63 k0_t13 k0_t14 (BitVec.ofNat 32 (64 + 16 * r.val))) a + S1x16.size a ≤ S32x1024.size a
  k0_off64_inb : ∀ (k0_t13 : Fin k0_t13_loop.trips) (k0_t14 : Fin k0_t14_loop.trips), ∀ (r : Fin 2), ∀ a, (k0_off64 k0_t13 k0_t14 (BitVec.ofNat 32 (80 + 16 * r.val))) a + S1x16.size a ≤ S32x1024.size a
  k0_off65_inb : ∀ (k0_t13 : Fin k0_t13_loop.trips) (k0_t14 : Fin k0_t14_loop.trips), ∀ (r : Fin 2), ∀ a, (k0_off65 k0_t13 k0_t14 (BitVec.ofNat 32 (96 + 16 * r.val))) a + S1x16.size a ≤ S32x1024.size a
  k0_off66_inb : ∀ (k0_t13 : Fin k0_t13_loop.trips) (k0_t14 : Fin k0_t14_loop.trips), ∀ a, (k0_off66 k0_t13 k0_t14) a + S1x16.size a ≤ S32x1024.size a
  k0_t15_ok : k0_t15_loop.OK
  k0_t16_ok : k0_t16_loop.OK
  k0_off67_inb : ∀ (k0_t15 : Fin k0_t15_loop.trips) (k0_t16 : Fin k0_t16_loop.trips), ∀ a, (k0_off67 k0_t15 k0_t16) a + S1x16.size a ≤ S32x1024.size a
  k0_off68_inb : ∀ (k0_t15 : Fin k0_t15_loop.trips) (k0_t16 : Fin k0_t16_loop.trips), ∀ (r : Fin 2), ∀ a, (k0_off68 k0_t15 k0_t16 (BitVec.ofNat 32 (16 * r.val))) a + S1x16.size a ≤ S32x1024.size a
  k0_off69_inb : ∀ (k0_t15 : Fin k0_t15_loop.trips) (k0_t16 : Fin k0_t16_loop.trips), ∀ (r : Fin 2), ∀ a, (k0_off69 k0_t15 k0_t16 (BitVec.ofNat 32 (16 + 16 * r.val))) a + S1x16.size a ≤ S32x1024.size a
  k0_off70_inb : ∀ (k0_t15 : Fin k0_t15_loop.trips) (k0_t16 : Fin k0_t16_loop.trips), ∀ (r : Fin 2), ∀ a, (k0_off70 k0_t15 k0_t16 (BitVec.ofNat 32 (32 + 16 * r.val))) a + S1x16.size a ≤ S32x1024.size a
  k0_off71_inb : ∀ (k0_t15 : Fin k0_t15_loop.trips) (k0_t16 : Fin k0_t16_loop.trips), ∀ (r : Fin 2), ∀ a, (k0_off71 k0_t15 k0_t16 (BitVec.ofNat 32 (48 + 16 * r.val))) a + S1x16.size a ≤ S32x1024.size a
  k0_off72_inb : ∀ (k0_t15 : Fin k0_t15_loop.trips) (k0_t16 : Fin k0_t16_loop.trips), ∀ (r : Fin 2), ∀ a, (k0_off72 k0_t15 k0_t16 (BitVec.ofNat 32 (64 + 16 * r.val))) a + S1x16.size a ≤ S32x1024.size a
  k0_off73_inb : ∀ (k0_t15 : Fin k0_t15_loop.trips) (k0_t16 : Fin k0_t16_loop.trips), ∀ (r : Fin 2), ∀ a, (k0_off73 k0_t15 k0_t16 (BitVec.ofNat 32 (80 + 16 * r.val))) a + S1x16.size a ≤ S32x1024.size a
  k0_off74_inb : ∀ (k0_t15 : Fin k0_t15_loop.trips) (k0_t16 : Fin k0_t16_loop.trips), ∀ (r : Fin 2), ∀ a, (k0_off74 k0_t15 k0_t16 (BitVec.ofNat 32 (96 + 16 * r.val))) a + S1x16.size a ≤ S32x1024.size a
  k0_off75_inb : ∀ (k0_t15 : Fin k0_t15_loop.trips) (k0_t16 : Fin k0_t16_loop.trips), ∀ a, (k0_off75 k0_t15 k0_t16) a + S1x16.size a ≤ S32x1024.size a
  k0_t17_ok : k0_t17_loop.OK
  k0_t18_ok : k0_t18_loop.OK
  k0_off76_inb : ∀ (k0_t17 : Fin k0_t17_loop.trips) (k0_t18 : Fin k0_t18_loop.trips), ∀ a, (k0_off76 k0_t17 k0_t18) a + S1x16.size a ≤ S32x1024.size a
  k0_off77_inb : ∀ (k0_t17 : Fin k0_t17_loop.trips) (k0_t18 : Fin k0_t18_loop.trips), ∀ (r : Fin 2), ∀ a, (k0_off77 k0_t17 k0_t18 (BitVec.ofNat 32 (16 * r.val))) a + S1x16.size a ≤ S32x1024.size a
  k0_off78_inb : ∀ (k0_t17 : Fin k0_t17_loop.trips) (k0_t18 : Fin k0_t18_loop.trips), ∀ (r : Fin 2), ∀ a, (k0_off78 k0_t17 k0_t18 (BitVec.ofNat 32 (16 + 16 * r.val))) a + S1x16.size a ≤ S32x1024.size a
  k0_off79_inb : ∀ (k0_t17 : Fin k0_t17_loop.trips) (k0_t18 : Fin k0_t18_loop.trips), ∀ (r : Fin 2), ∀ a, (k0_off79 k0_t17 k0_t18 (BitVec.ofNat 32 (32 + 16 * r.val))) a + S1x16.size a ≤ S32x1024.size a
  k0_off80_inb : ∀ (k0_t17 : Fin k0_t17_loop.trips) (k0_t18 : Fin k0_t18_loop.trips), ∀ (r : Fin 2), ∀ a, (k0_off80 k0_t17 k0_t18 (BitVec.ofNat 32 (48 + 16 * r.val))) a + S1x16.size a ≤ S32x1024.size a
  k0_off81_inb : ∀ (k0_t17 : Fin k0_t17_loop.trips) (k0_t18 : Fin k0_t18_loop.trips), ∀ (r : Fin 2), ∀ a, (k0_off81 k0_t17 k0_t18 (BitVec.ofNat 32 (64 + 16 * r.val))) a + S1x16.size a ≤ S32x1024.size a
  k0_off82_inb : ∀ (k0_t17 : Fin k0_t17_loop.trips) (k0_t18 : Fin k0_t18_loop.trips), ∀ (r : Fin 2), ∀ a, (k0_off82 k0_t17 k0_t18 (BitVec.ofNat 32 (80 + 16 * r.val))) a + S1x16.size a ≤ S32x1024.size a
  k0_off83_inb : ∀ (k0_t17 : Fin k0_t17_loop.trips) (k0_t18 : Fin k0_t18_loop.trips), ∀ (r : Fin 2), ∀ a, (k0_off83 k0_t17 k0_t18 (BitVec.ofNat 32 (96 + 16 * r.val))) a + S1x16.size a ≤ S32x1024.size a
  k0_off84_inb : ∀ (k0_t17 : Fin k0_t17_loop.trips) (k0_t18 : Fin k0_t18_loop.trips), ∀ a, (k0_off84 k0_t17 k0_t18) a + S1x16.size a ≤ S32x1024.size a
  k0_t19_ok : k0_t19_loop.OK
  k0_t20_ok : k0_t20_loop.OK
  k0_off85_inb : ∀ (k0_t19 : Fin k0_t19_loop.trips) (k0_t20 : Fin k0_t20_loop.trips), ∀ a, (k0_off85 k0_t19 k0_t20) a + S1x16.size a ≤ S32x1024.size a
  k0_off86_inb : ∀ (k0_t19 : Fin k0_t19_loop.trips) (k0_t20 : Fin k0_t20_loop.trips), ∀ (r : Fin 2), ∀ a, (k0_off86 k0_t19 k0_t20 (BitVec.ofNat 32 (16 * r.val))) a + S1x16.size a ≤ S32x1024.size a
  k0_off87_inb : ∀ (k0_t19 : Fin k0_t19_loop.trips) (k0_t20 : Fin k0_t20_loop.trips), ∀ (r : Fin 2), ∀ a, (k0_off87 k0_t19 k0_t20 (BitVec.ofNat 32 (16 + 16 * r.val))) a + S1x16.size a ≤ S32x1024.size a
  k0_off88_inb : ∀ (k0_t19 : Fin k0_t19_loop.trips) (k0_t20 : Fin k0_t20_loop.trips), ∀ (r : Fin 2), ∀ a, (k0_off88 k0_t19 k0_t20 (BitVec.ofNat 32 (32 + 16 * r.val))) a + S1x16.size a ≤ S32x1024.size a
  k0_off89_inb : ∀ (k0_t19 : Fin k0_t19_loop.trips) (k0_t20 : Fin k0_t20_loop.trips), ∀ (r : Fin 2), ∀ a, (k0_off89 k0_t19 k0_t20 (BitVec.ofNat 32 (48 + 16 * r.val))) a + S1x16.size a ≤ S32x1024.size a
  k0_off90_inb : ∀ (k0_t19 : Fin k0_t19_loop.trips) (k0_t20 : Fin k0_t20_loop.trips), ∀ (r : Fin 2), ∀ a, (k0_off90 k0_t19 k0_t20 (BitVec.ofNat 32 (64 + 16 * r.val))) a + S1x16.size a ≤ S32x1024.size a
  k0_off91_inb : ∀ (k0_t19 : Fin k0_t19_loop.trips) (k0_t20 : Fin k0_t20_loop.trips), ∀ (r : Fin 2), ∀ a, (k0_off91 k0_t19 k0_t20 (BitVec.ofNat 32 (80 + 16 * r.val))) a + S1x16.size a ≤ S32x1024.size a
  k0_off92_inb : ∀ (k0_t19 : Fin k0_t19_loop.trips) (k0_t20 : Fin k0_t20_loop.trips), ∀ (r : Fin 2), ∀ a, (k0_off92 k0_t19 k0_t20 (BitVec.ofNat 32 (96 + 16 * r.val))) a + S1x16.size a ≤ S32x1024.size a
  k0_off93_inb : ∀ (k0_t19 : Fin k0_t19_loop.trips) (k0_t20 : Fin k0_t20_loop.trips), ∀ a, (k0_off93 k0_t19 k0_t20) a + S1x16.size a ≤ S32x1024.size a
  k0_t21_ok : k0_t21_loop.OK
  k0_t22_ok : k0_t22_loop.OK
  k0_off94_inb : ∀ (k0_t21 : Fin k0_t21_loop.trips) (k0_t22 : Fin k0_t22_loop.trips), ∀ a, (k0_off94 k0_t21 k0_t22) a + S1x16.size a ≤ S32x1024.size a
  k0_off95_inb : ∀ (k0_t21 : Fin k0_t21_loop.trips) (k0_t22 : Fin k0_t22_loop.trips), ∀ (r : Fin 2), ∀ a, (k0_off95 k0_t21 k0_t22 (BitVec.ofNat 32 (16 * r.val))) a + S1x16.size a ≤ S32x1024.size a
  k0_off96_inb : ∀ (k0_t21 : Fin k0_t21_loop.trips) (k0_t22 : Fin k0_t22_loop.trips), ∀ (r : Fin 2), ∀ a, (k0_off96 k0_t21 k0_t22 (BitVec.ofNat 32 (16 + 16 * r.val))) a + S1x16.size a ≤ S32x1024.size a
  k0_off97_inb : ∀ (k0_t21 : Fin k0_t21_loop.trips) (k0_t22 : Fin k0_t22_loop.trips), ∀ (r : Fin 2), ∀ a, (k0_off97 k0_t21 k0_t22 (BitVec.ofNat 32 (32 + 16 * r.val))) a + S1x16.size a ≤ S32x1024.size a
  k0_off98_inb : ∀ (k0_t21 : Fin k0_t21_loop.trips) (k0_t22 : Fin k0_t22_loop.trips), ∀ (r : Fin 2), ∀ a, (k0_off98 k0_t21 k0_t22 (BitVec.ofNat 32 (48 + 16 * r.val))) a + S1x16.size a ≤ S32x1024.size a
  k0_off99_inb : ∀ (k0_t21 : Fin k0_t21_loop.trips) (k0_t22 : Fin k0_t22_loop.trips), ∀ (r : Fin 2), ∀ a, (k0_off99 k0_t21 k0_t22 (BitVec.ofNat 32 (64 + 16 * r.val))) a + S1x16.size a ≤ S32x1024.size a
  k0_off100_inb : ∀ (k0_t21 : Fin k0_t21_loop.trips) (k0_t22 : Fin k0_t22_loop.trips), ∀ (r : Fin 2), ∀ a, (k0_off100 k0_t21 k0_t22 (BitVec.ofNat 32 (80 + 16 * r.val))) a + S1x16.size a ≤ S32x1024.size a
  k0_off101_inb : ∀ (k0_t21 : Fin k0_t21_loop.trips) (k0_t22 : Fin k0_t22_loop.trips), ∀ (r : Fin 2), ∀ a, (k0_off101 k0_t21 k0_t22 (BitVec.ofNat 32 (96 + 16 * r.val))) a + S1x16.size a ≤ S32x1024.size a
  k0_off102_inb : ∀ (k0_t21 : Fin k0_t21_loop.trips) (k0_t22 : Fin k0_t22_loop.trips), ∀ a, (k0_off102 k0_t21 k0_t22) a + S1x16.size a ≤ S32x1024.size a
  k0_t23_ok : k0_t23_loop.OK
  k0_t24_ok : k0_t24_loop.OK
  k0_off103_inb : ∀ (k0_t23 : Fin k0_t23_loop.trips) (k0_t24 : Fin k0_t24_loop.trips), ∀ a, (k0_off103 k0_t23 k0_t24) a + S1x16.size a ≤ S32x1024.size a
  k0_off104_inb : ∀ (k0_t23 : Fin k0_t23_loop.trips) (k0_t24 : Fin k0_t24_loop.trips), ∀ (r : Fin 2), ∀ a, (k0_off104 k0_t23 k0_t24 (BitVec.ofNat 32 (16 * r.val))) a + S1x16.size a ≤ S32x1024.size a
  k0_off105_inb : ∀ (k0_t23 : Fin k0_t23_loop.trips) (k0_t24 : Fin k0_t24_loop.trips), ∀ (r : Fin 2), ∀ a, (k0_off105 k0_t23 k0_t24 (BitVec.ofNat 32 (16 + 16 * r.val))) a + S1x16.size a ≤ S32x1024.size a
  k0_off106_inb : ∀ (k0_t23 : Fin k0_t23_loop.trips) (k0_t24 : Fin k0_t24_loop.trips), ∀ (r : Fin 2), ∀ a, (k0_off106 k0_t23 k0_t24 (BitVec.ofNat 32 (32 + 16 * r.val))) a + S1x16.size a ≤ S32x1024.size a
  k0_off107_inb : ∀ (k0_t23 : Fin k0_t23_loop.trips) (k0_t24 : Fin k0_t24_loop.trips), ∀ (r : Fin 2), ∀ a, (k0_off107 k0_t23 k0_t24 (BitVec.ofNat 32 (48 + 16 * r.val))) a + S1x16.size a ≤ S32x1024.size a
  k0_off108_inb : ∀ (k0_t23 : Fin k0_t23_loop.trips) (k0_t24 : Fin k0_t24_loop.trips), ∀ (r : Fin 2), ∀ a, (k0_off108 k0_t23 k0_t24 (BitVec.ofNat 32 (64 + 16 * r.val))) a + S1x16.size a ≤ S32x1024.size a
  k0_off109_inb : ∀ (k0_t23 : Fin k0_t23_loop.trips) (k0_t24 : Fin k0_t24_loop.trips), ∀ (r : Fin 2), ∀ a, (k0_off109 k0_t23 k0_t24 (BitVec.ofNat 32 (80 + 16 * r.val))) a + S1x16.size a ≤ S32x1024.size a
  k0_off110_inb : ∀ (k0_t23 : Fin k0_t23_loop.trips) (k0_t24 : Fin k0_t24_loop.trips), ∀ (r : Fin 2), ∀ a, (k0_off110 k0_t23 k0_t24 (BitVec.ofNat 32 (96 + 16 * r.val))) a + S1x16.size a ≤ S32x1024.size a
  k0_off111_inb : ∀ (k0_t23 : Fin k0_t23_loop.trips) (k0_t24 : Fin k0_t24_loop.trips), ∀ a, (k0_off111 k0_t23 k0_t24) a + S1x16.size a ≤ S32x1024.size a
  k0_t25_ok : k0_t25_loop.OK
  k0_t26_ok : k0_t26_loop.OK
  k0_off112_inb : ∀ (k0_t25 : Fin k0_t25_loop.trips) (k0_t26 : Fin k0_t26_loop.trips), ∀ a, (k0_off112 k0_t25 k0_t26) a + S1x16.size a ≤ S32x1024.size a
  k0_off113_inb : ∀ (k0_t25 : Fin k0_t25_loop.trips) (k0_t26 : Fin k0_t26_loop.trips), ∀ (r : Fin 2), ∀ a, (k0_off113 k0_t25 k0_t26 (BitVec.ofNat 32 (16 * r.val))) a + S1x16.size a ≤ S32x1024.size a
  k0_off114_inb : ∀ (k0_t25 : Fin k0_t25_loop.trips) (k0_t26 : Fin k0_t26_loop.trips), ∀ (r : Fin 2), ∀ a, (k0_off114 k0_t25 k0_t26 (BitVec.ofNat 32 (16 + 16 * r.val))) a + S1x16.size a ≤ S32x1024.size a
  k0_off115_inb : ∀ (k0_t25 : Fin k0_t25_loop.trips) (k0_t26 : Fin k0_t26_loop.trips), ∀ (r : Fin 2), ∀ a, (k0_off115 k0_t25 k0_t26 (BitVec.ofNat 32 (32 + 16 * r.val))) a + S1x16.size a ≤ S32x1024.size a
  k0_off116_inb : ∀ (k0_t25 : Fin k0_t25_loop.trips) (k0_t26 : Fin k0_t26_loop.trips), ∀ (r : Fin 2), ∀ a, (k0_off116 k0_t25 k0_t26 (BitVec.ofNat 32 (48 + 16 * r.val))) a + S1x16.size a ≤ S32x1024.size a
  k0_off117_inb : ∀ (k0_t25 : Fin k0_t25_loop.trips) (k0_t26 : Fin k0_t26_loop.trips), ∀ (r : Fin 2), ∀ a, (k0_off117 k0_t25 k0_t26 (BitVec.ofNat 32 (64 + 16 * r.val))) a + S1x16.size a ≤ S32x1024.size a
  k0_off118_inb : ∀ (k0_t25 : Fin k0_t25_loop.trips) (k0_t26 : Fin k0_t26_loop.trips), ∀ (r : Fin 2), ∀ a, (k0_off118 k0_t25 k0_t26 (BitVec.ofNat 32 (80 + 16 * r.val))) a + S1x16.size a ≤ S32x1024.size a
  k0_off119_inb : ∀ (k0_t25 : Fin k0_t25_loop.trips) (k0_t26 : Fin k0_t26_loop.trips), ∀ (r : Fin 2), ∀ a, (k0_off119 k0_t25 k0_t26 (BitVec.ofNat 32 (96 + 16 * r.val))) a + S1x16.size a ≤ S32x1024.size a
  k0_off120_inb : ∀ (k0_t25 : Fin k0_t25_loop.trips) (k0_t26 : Fin k0_t26_loop.trips), ∀ a, (k0_off120 k0_t25 k0_t26) a + S1x16.size a ≤ S32x1024.size a
  k0_t27_ok : k0_t27_loop.OK
  k0_t28_ok : k0_t28_loop.OK
  k0_off121_inb : ∀ (k0_t27 : Fin k0_t27_loop.trips) (k0_t28 : Fin k0_t28_loop.trips), ∀ a, (k0_off121 k0_t27 k0_t28) a + S1x16.size a ≤ S32x1024.size a
  k0_off122_inb : ∀ (k0_t27 : Fin k0_t27_loop.trips) (k0_t28 : Fin k0_t28_loop.trips), ∀ (r : Fin 2), ∀ a, (k0_off122 k0_t27 k0_t28 (BitVec.ofNat 32 (16 * r.val))) a + S1x16.size a ≤ S32x1024.size a
  k0_off123_inb : ∀ (k0_t27 : Fin k0_t27_loop.trips) (k0_t28 : Fin k0_t28_loop.trips), ∀ (r : Fin 2), ∀ a, (k0_off123 k0_t27 k0_t28 (BitVec.ofNat 32 (16 + 16 * r.val))) a + S1x16.size a ≤ S32x1024.size a
  k0_off124_inb : ∀ (k0_t27 : Fin k0_t27_loop.trips) (k0_t28 : Fin k0_t28_loop.trips), ∀ (r : Fin 2), ∀ a, (k0_off124 k0_t27 k0_t28 (BitVec.ofNat 32 (32 + 16 * r.val))) a + S1x16.size a ≤ S32x1024.size a
  k0_off125_inb : ∀ (k0_t27 : Fin k0_t27_loop.trips) (k0_t28 : Fin k0_t28_loop.trips), ∀ (r : Fin 2), ∀ a, (k0_off125 k0_t27 k0_t28 (BitVec.ofNat 32 (48 + 16 * r.val))) a + S1x16.size a ≤ S32x1024.size a
  k0_off126_inb : ∀ (k0_t27 : Fin k0_t27_loop.trips) (k0_t28 : Fin k0_t28_loop.trips), ∀ (r : Fin 2), ∀ a, (k0_off126 k0_t27 k0_t28 (BitVec.ofNat 32 (64 + 16 * r.val))) a + S1x16.size a ≤ S32x1024.size a
  k0_off127_inb : ∀ (k0_t27 : Fin k0_t27_loop.trips) (k0_t28 : Fin k0_t28_loop.trips), ∀ (r : Fin 2), ∀ a, (k0_off127 k0_t27 k0_t28 (BitVec.ofNat 32 (80 + 16 * r.val))) a + S1x16.size a ≤ S32x1024.size a
  k0_off128_inb : ∀ (k0_t27 : Fin k0_t27_loop.trips) (k0_t28 : Fin k0_t28_loop.trips), ∀ (r : Fin 2), ∀ a, (k0_off128 k0_t27 k0_t28 (BitVec.ofNat 32 (96 + 16 * r.val))) a + S1x16.size a ≤ S32x1024.size a
  k0_off129_inb : ∀ (k0_t27 : Fin k0_t27_loop.trips) (k0_t28 : Fin k0_t28_loop.trips), ∀ a, (k0_off129 k0_t27 k0_t28) a + S1x16.size a ≤ S32x1024.size a
  k0_t29_ok : k0_t29_loop.OK
  k0_t30_ok : k0_t30_loop.OK
  k0_off130_inb : ∀ (k0_t29 : Fin k0_t29_loop.trips) (k0_t30 : Fin k0_t30_loop.trips), ∀ a, (k0_off130 k0_t29 k0_t30) a + S1x16.size a ≤ S32x1024.size a
  k0_off131_inb : ∀ (k0_t29 : Fin k0_t29_loop.trips) (k0_t30 : Fin k0_t30_loop.trips), ∀ (r : Fin 2), ∀ a, (k0_off131 k0_t29 k0_t30 (BitVec.ofNat 32 (16 * r.val))) a + S1x16.size a ≤ S32x1024.size a
  k0_off132_inb : ∀ (k0_t29 : Fin k0_t29_loop.trips) (k0_t30 : Fin k0_t30_loop.trips), ∀ (r : Fin 2), ∀ a, (k0_off132 k0_t29 k0_t30 (BitVec.ofNat 32 (16 + 16 * r.val))) a + S1x16.size a ≤ S32x1024.size a
  k0_off133_inb : ∀ (k0_t29 : Fin k0_t29_loop.trips) (k0_t30 : Fin k0_t30_loop.trips), ∀ (r : Fin 2), ∀ a, (k0_off133 k0_t29 k0_t30 (BitVec.ofNat 32 (32 + 16 * r.val))) a + S1x16.size a ≤ S32x1024.size a
  k0_off134_inb : ∀ (k0_t29 : Fin k0_t29_loop.trips) (k0_t30 : Fin k0_t30_loop.trips), ∀ (r : Fin 2), ∀ a, (k0_off134 k0_t29 k0_t30 (BitVec.ofNat 32 (48 + 16 * r.val))) a + S1x16.size a ≤ S32x1024.size a
  k0_off135_inb : ∀ (k0_t29 : Fin k0_t29_loop.trips) (k0_t30 : Fin k0_t30_loop.trips), ∀ (r : Fin 2), ∀ a, (k0_off135 k0_t29 k0_t30 (BitVec.ofNat 32 (64 + 16 * r.val))) a + S1x16.size a ≤ S32x1024.size a
  k0_off136_inb : ∀ (k0_t29 : Fin k0_t29_loop.trips) (k0_t30 : Fin k0_t30_loop.trips), ∀ (r : Fin 2), ∀ a, (k0_off136 k0_t29 k0_t30 (BitVec.ofNat 32 (80 + 16 * r.val))) a + S1x16.size a ≤ S32x1024.size a
  k0_off137_inb : ∀ (k0_t29 : Fin k0_t29_loop.trips) (k0_t30 : Fin k0_t30_loop.trips), ∀ (r : Fin 2), ∀ a, (k0_off137 k0_t29 k0_t30 (BitVec.ofNat 32 (96 + 16 * r.val))) a + S1x16.size a ≤ S32x1024.size a
  k0_off138_inb : ∀ (k0_t29 : Fin k0_t29_loop.trips) (k0_t30 : Fin k0_t30_loop.trips), ∀ a, (k0_off138 k0_t29 k0_t30) a + S1x16.size a ≤ S32x1024.size a
  k0_t31_ok : k0_t31_loop.OK
  k0_t32_ok : k0_t32_loop.OK
  k0_off139_inb : ∀ (k0_t31 : Fin k0_t31_loop.trips) (k0_t32 : Fin k0_t32_loop.trips), ∀ a, (k0_off139 k0_t31 k0_t32) a + S1x16.size a ≤ S32x1024.size a
  k0_off140_inb : ∀ (k0_t31 : Fin k0_t31_loop.trips) (k0_t32 : Fin k0_t32_loop.trips), ∀ (r : Fin 2), ∀ a, (k0_off140 k0_t31 k0_t32 (BitVec.ofNat 32 (16 * r.val))) a + S1x16.size a ≤ S32x1024.size a
  k0_off141_inb : ∀ (k0_t31 : Fin k0_t31_loop.trips) (k0_t32 : Fin k0_t32_loop.trips), ∀ (r : Fin 2), ∀ a, (k0_off141 k0_t31 k0_t32 (BitVec.ofNat 32 (16 + 16 * r.val))) a + S1x16.size a ≤ S32x1024.size a
  k0_off142_inb : ∀ (k0_t31 : Fin k0_t31_loop.trips) (k0_t32 : Fin k0_t32_loop.trips), ∀ (r : Fin 2), ∀ a, (k0_off142 k0_t31 k0_t32 (BitVec.ofNat 32 (32 + 16 * r.val))) a + S1x16.size a ≤ S32x1024.size a
  k0_off143_inb : ∀ (k0_t31 : Fin k0_t31_loop.trips) (k0_t32 : Fin k0_t32_loop.trips), ∀ (r : Fin 2), ∀ a, (k0_off143 k0_t31 k0_t32 (BitVec.ofNat 32 (48 + 16 * r.val))) a + S1x16.size a ≤ S32x1024.size a
  k0_off144_inb : ∀ (k0_t31 : Fin k0_t31_loop.trips) (k0_t32 : Fin k0_t32_loop.trips), ∀ (r : Fin 2), ∀ a, (k0_off144 k0_t31 k0_t32 (BitVec.ofNat 32 (64 + 16 * r.val))) a + S1x16.size a ≤ S32x1024.size a
  k0_off145_inb : ∀ (k0_t31 : Fin k0_t31_loop.trips) (k0_t32 : Fin k0_t32_loop.trips), ∀ (r : Fin 2), ∀ a, (k0_off145 k0_t31 k0_t32 (BitVec.ofNat 32 (80 + 16 * r.val))) a + S1x16.size a ≤ S32x1024.size a
  k0_off146_inb : ∀ (k0_t31 : Fin k0_t31_loop.trips) (k0_t32 : Fin k0_t32_loop.trips), ∀ (r : Fin 2), ∀ a, (k0_off146 k0_t31 k0_t32 (BitVec.ofNat 32 (96 + 16 * r.val))) a + S1x16.size a ≤ S32x1024.size a
  k0_off147_inb : ∀ (k0_t31 : Fin k0_t31_loop.trips) (k0_t32 : Fin k0_t32_loop.trips), ∀ a, (k0_off147 k0_t31 k0_t32) a + S1x16.size a ≤ S32x1024.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc0_scoped14 : DmaSems sig S_ := SemArray.consecutive 14 S_ hcc0_scoped14
abbrev cc0_scoped15 : DmaSems sig S_ := SemArray.consecutive 15 S_ hcc0_scoped15
abbrev cc0_scoped16 : DmaSems sig S_ := SemArray.consecutive 16 S_ hcc0_scoped16
abbrev cc0_scoped17 : DmaSems sig S_ := SemArray.consecutive 17 S_ hcc0_scoped17
abbrev cc0_scoped18 : DmaSems sig S_ := SemArray.consecutive 18 S_ hcc0_scoped18
abbrev cc0_scoped19 : DmaSems sig S_ := SemArray.consecutive 19 S_ hcc0_scoped19
abbrev cc0_scoped20 : DmaSems sig S_ := SemArray.consecutive 20 S_ hcc0_scoped20
abbrev cc0_scoped21 : DmaSems sig S_ := SemArray.consecutive 21 S_ hcc0_scoped21
abbrev cc0_scoped22 : DmaSems sig S_ := SemArray.consecutive 22 S_ hcc0_scoped22
abbrev cc0_scoped23 : DmaSems sig S_ := SemArray.consecutive 23 S_ hcc0_scoped23
abbrev cc0_scoped24 : DmaSems sig S_ := SemArray.consecutive 24 S_ hcc0_scoped24
abbrev cc0_scoped25 : DmaSems sig S_ := SemArray.consecutive 25 S_ hcc0_scoped25
abbrev cc0_scoped26 : DmaSems sig S_ := SemArray.consecutive 26 S_ hcc0_scoped26
abbrev cc0_scoped27 : DmaSems sig S_ := SemArray.consecutive 27 S_ hcc0_scoped27
abbrev cc0_scoped28 : DmaSems sig S_ := SemArray.consecutive 28 S_ hcc0_scoped28
abbrev cc0_scoped29 : DmaSems sig S_ := SemArray.consecutive 29 S_ hcc0_scoped29
abbrev cc0_scoped30 : DmaSems sig S_ := SemArray.consecutive 30 S_ hcc0_scoped30
abbrev cc0_scoped31 : DmaSems sig S_ := SemArray.consecutive 31 S_ hcc0_scoped31
abbrev cc0_scoped32 : DmaSems sig S_ := SemArray.consecutive 32 S_ hcc0_scoped32

class Facts : Prop extends Facts₀ where

variable [Facts]
-- ==== ReferenceIdeal.lean ====
abbrev S8x64x16384 : Shape := ⟨3, ![8, 64, 16384]⟩
abbrev S8x1024x32 : Shape := ⟨3, ![8, 1024, 32]⟩
abbrev S512x16384 : Shape := ⟨2, ![512, 16384]⟩
abbrev S8x32768 : Shape := ⟨2, ![8, 32768]⟩
abbrev S8x1x32768 : Shape := ⟨3, ![8, 1, 32768]⟩
abbrev S8x64x32768 : Shape := ⟨3, ![8, 64, 32768]⟩
abbrev S512x32768 : Shape := ⟨2, ![512, 32768]⟩
abbrev S_ : Shape := ⟨0, ![]⟩
abbrev S512x32768x1 : Shape := ⟨3, ![512, 32768, 1]⟩
abbrev S1 : Shape := ⟨1, ![1]⟩
abbrev S1x1x1 : Shape := ⟨3, ![1, 1, 1]⟩
abbrev S8x64x1024x32 : Shape := ⟨4, ![8, 64, 1024, 32]⟩

abbrev nBuf : Space → Nat
  | .hbm => 30
  | .vmem => 0
  | .smem => 0
  | _ => 0

abbrev bufTy : (tb : Table) → Fin (tcTables nBuf tb) → BufTy
  | .hbm, ⟨0, _⟩ => ⟨S8x64x16384, .f32⟩
  | .hbm, ⟨1, _⟩ => ⟨S8x1024x32, .i32⟩
  | .hbm, ⟨2, _⟩ => ⟨S512x16384, .f32⟩
  | .hbm, ⟨3, _⟩ => ⟨S8x32768, .i32⟩
  | .hbm, ⟨4, _⟩ => ⟨S8x1x32768, .i32⟩
  | .hbm, ⟨5, _⟩ => ⟨S8x64x32768, .i32⟩
  | .hbm, ⟨6, _⟩ => ⟨S512x32768, .i32⟩
  | .hbm, ⟨7, _⟩ => ⟨S_, .i32⟩
  | .hbm, ⟨8, _⟩ => ⟨S512x32768, .i32⟩
  | .hbm, ⟨9, _⟩ => ⟨S512x32768, .i1⟩
  | .hbm, ⟨10, _⟩ => ⟨S_, .i32⟩
  | .hbm, ⟨11, _⟩ => ⟨S512x32768, .i32⟩
  | .hbm, ⟨12, _⟩ => ⟨S512x32768, .i32⟩
  | .hbm, ⟨13, _⟩ => ⟨S512x32768, .i32⟩
  | .hbm, ⟨14, _⟩ => ⟨S512x32768x1, .i32⟩
  | .hbm, ⟨15, _⟩ => ⟨S1, .i32⟩
  | .hbm, ⟨16, _⟩ => ⟨S_, .i32⟩
  | .hbm, ⟨17, _⟩ => ⟨S512x32768x1, .i32⟩
  | .hbm, ⟨18, _⟩ => ⟨S512x32768x1, .i1⟩
  | .hbm, ⟨19, _⟩ => ⟨S1x1x1, .i32⟩
  | .hbm, ⟨20, _⟩ => ⟨S512x32768x1, .i32⟩
  | .hbm, ⟨21, _⟩ => ⟨S512x32768x1, .i1⟩
  | .hbm, ⟨22, _⟩ => ⟨S512x32768x1, .i1⟩
  | .hbm, ⟨23, _⟩ => ⟨S_, .i1⟩
  | .hbm, ⟨24, _⟩ => ⟨S512x32768, .i1⟩
  | .hbm, ⟨25, _⟩ => ⟨S512x32768, .f32⟩
  | .hbm, ⟨26, _⟩ => ⟨S_, .f32⟩
  | .hbm, ⟨27, _⟩ => ⟨S512x32768, .f32⟩
  | .hbm, ⟨28, _⟩ => ⟨S512x32768, .f32⟩
  | .hbm, ⟨29, _⟩ => ⟨S8x64x1024x32, .f32⟩
  | _, _ => ⟨S8x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v5 : Ref sig .tc := ⟨.hbm, 28, rfl⟩
abbrev main_v6 : Ref sig .tc := ⟨.hbm, 29, rfl⟩

abbrev nD : Nat := 1
abbrev τ : Topo := Topo.v7x

variable {F : FTy → Type} [FloatOps F]

class Facts₀ : Prop where
  shapeCasts_S8x64x16384_S512x16384 : S8x64x16384.ShapeCasts S512x16384
  shapeCasts_S8x1024x32_S8x32768 : S8x1024x32.ShapeCasts S8x32768
  bcast_S8x32768_S8x1x32768_0_2 : S8x32768.BroadcastsInDim S8x1x32768 (![0, 2] : Fin 2 → Fin S8x1x32768.rank)
  bcast_S8x1x32768_S8x64x32768_0_1_2 : S8x1x32768.BroadcastsInDim S8x64x32768 (![0, 1, 2] : Fin 3 → Fin S8x64x32768.rank)
  shapeCasts_S8x64x32768_S512x32768 : S8x64x32768.ShapeCasts S512x32768
  bcast_S_S512x32768 : S_.BroadcastsInDim S512x32768 (![] : Fin 0 → Fin S512x32768.rank)
  shapeCasts_S512x32768_S512x32768x1 : S512x32768.ShapeCasts S512x32768x1
  bcast_S_S512x32768x1 : S_.BroadcastsInDim S512x32768x1 (![] : Fin 0 → Fin S512x32768x1.rank)
  bcast_S1_S1x1x1_2 : S1.BroadcastsInDim S1x1x1 (![2] : Fin 1 → Fin S1x1x1.rank)
  bcast_S1x1x1_S512x32768x1_0_1_2 : S1x1x1.BroadcastsInDim S512x32768x1 (![0, 1, 2] : Fin 3 → Fin S512x32768x1.rank)
  reducesTo_S512x32768x1_S512x32768_d2 : S512x32768x1.ReducesTo [2] S512x32768
  h_S_ : 0 < S_.numel
  shapeCasts_S512x32768_S8x64x1024x32 : S512x32768.ShapeCasts S8x64x1024x32
  gather_S512x16384_S512x32768x1_S512x32768_n_1_0_0_1_2_11_wf : GatherDims.WF S512x16384 S512x32768x1 S512x32768 [] [1] [0] [1] [0] 2 ![1, 1]

variable [Facts₀]

def gather_S512x16384_S512x32768x1_S512x32768_n_1_0_0_1_2_11 : GatherDims S512x16384 S512x32768x1 S512x32768 where
  offsetDims := []
  collapsedSliceDims := [1]
  operandBatchingDims := [0]
  startIndicesBatchingDims := [0]
  startIndexMap := [1]
  indexVectorDim := 2
  sliceSizes := ![1, 1]
  wf := gather_S512x16384_S512x32768x1_S512x32768_n_1_0_0_1_2_11_wf

class Facts : Prop extends Facts₀ where

variable [Facts]
-- ==== Proof.GroupI.Setup.lean ====
/-
  Names shared by the modules about the idealized kernel: the launch configuration as the launch theorem reads it,
  the ghost state (the handshakes' rounds beside the transfers' counters), the thread of a vector subcore at a
  grid point, and the kernel's six memrefs spelt as the body table passes them.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«208723_g16346645529139_cont_week2b_1265_5_alg».proof.Proof.Gen.KernelIdeal
import proofs.«208723_g16346645529139_cont_week2b_1265_5_alg».proof.Proof.Gen.KernelIdeal.Skeleton

noncomputable section

namespace Cert.Proof.GroupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The vector subcore a grid point names. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

/-- The arrays as locations of device `d`: the points, the transposed indices, the kernel's result. -/
abbrev pLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.Proof.GroupI

end
-- ==== Proof.GroupI.Nest.lean ====
/-
  The loop nest of one channel row. The index scratch holds a slab of indices `f5` (32 × 1024 words, each below
  16384), the row scratch one row `f6` of the points (16384 numbers); the nest writes into the out scratch, sixteen
  lanes at a time, the row gathered at the indices: entry `(s, q)` becomes `f6 [f5 (s, q)]`. The inner loop's
  invariant says which entries are already that (rows above `k1`, and row `k1` left of column `128·k2`);
  eight stores of one trip extend it by 128 columns; thirty-two rows fill the scratch.
-/
import proofs.«208723_g16346645529139_cont_week2b_1265_5_alg».proof.Proof.GroupI.Setup

noncomputable section

namespace Cert.Proof.GroupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.KernelIdeal.main_arg0_scv : Memref Cert.KernelIdeal.sig Kind.scVector Space.hbm Cert.KernelIdeal.S8x64x16384 EltTy.f32)
local notation "iV" => (Memref.whole Cert.KernelIdeal.main_v0_scv : Memref Cert.KernelIdeal.sig Kind.scVector Space.hbm Cert.KernelIdeal.S8x32x1024 EltTy.i32)
local notation "oV" => (Memref.whole Cert.KernelIdeal.main_v1_scv : Memref Cert.KernelIdeal.sig Kind.scVector Space.hbm Cert.KernelIdeal.S8x64x32x1024 EltTy.f32)
local notation "s5" => (Memref.whole Cert.KernelIdeal.cc0_scratch0 : Memref Cert.KernelIdeal.sig Kind.scVector Space.vmem Cert.KernelIdeal.S32x1024 EltTy.i32)
local notation "s6" => (Memref.whole Cert.KernelIdeal.cc0_scratch1 : Memref Cert.KernelIdeal.sig Kind.scVector Space.vmem Cert.KernelIdeal.S16384 EltTy.f32)
local notation "s7" => (Memref.whole Cert.KernelIdeal.cc0_scratch2 : Memref Cert.KernelIdeal.sig Kind.scVector Space.vmem Cert.KernelIdeal.S32x1024 EltTy.f32)
local notation "𝕄" => MT nD τ sig (HIx 1) (Elt F) ℕ UU ℕ

/-- The out scratch once filled: entry `y` is the row scratch at the index the index scratch holds at `y`. -/
def gat (d : Dev nD) (L : grid0.Coords) (f5 : Buf (Elt F) ((thr d L).loc cc0_scratch0)) (f6 : Buf (Elt F) ((thr d L).loc cc0_scratch1))
    (hidx : ∀ (a : Fin 1) (y : S32x1024.Idx), (f5 y).toNat < S16384.size a) : Buf (Elt F) ((thr d L).loc cc0_scratch2) :=
  fun y => f6 (fun a => ⟨(f5 y).toNat, hidx a y⟩)

/-- The entries already filled before trip `k2` of row `k1`. -/
def filled (k1 k2 : Nat) (y : S32x1024.Idx) : Prop := (y 0).val < k1 ∨ ((y 0).val = k1 ∧ (y 1).val < 128 * k2)

/-- Sixteen words loaded from the index scratch are words of it: each names a lane of the row scratch. -/
theorem chk_range (d : Dev nD) (L : grid0.Coords) (f5 : Buf (Elt F) ((thr d L).loc cc0_scratch0))
    (hidx : ∀ (a : Fin 1) (y : S32x1024.Idx), (f5 y).toNat < S16384.size a)
    (off : Fin 2 → Nat) (h : ∀ a, off a + S1x16.size a ≤ S32x1024.size a) :
    ∀ a x, ((![shapeCast S16 ((s5).view.readAt (Elt F) (Rect.unit (s := S32x1024) off S1x16.size h).toLoadRect f5) shapeCasts_S1x16_S16] : Fin 1 → IVec S16 32) a x).toNat < S16384.size a := by
  intro a x
  obtain rfl : a = 0 := Subsingleton.elim _ _
  show ((s5).view.readAt (Elt F) (Rect.unit (s := S32x1024) off S1x16.size h).toLoadRect f5 (Shape.reshapeEquiv _ x)).toNat < S16384.size 0
  simp only [View.readAt_apply, Memref.view_whole, View.read_whole]
  exact hidx 0 _

/-- The sixteen numbers one chunk stores are the gathered row at the chunk's own entries. -/
theorem piece_gather (d : Dev nD) (L : grid0.Coords) (f5 : Buf (Elt F) ((thr d L).loc cc0_scratch0)) (f6 : Buf (Elt F) ((thr d L).loc cc0_scratch1))
    (hidx : ∀ (a : Fin 1) (y : S32x1024.Idx), (f5 y).toNat < S16384.size a)
    (off' off : Fin 2 → Nat) (h' : ∀ a, off' a + S1x16.size a ≤ S32x1024.size a) (h : ∀ a, off a + S1x16.size a ≤ S32x1024.size a) (e : off' = off)
    (hh : ∀ a x, ((![shapeCast S16 ((s5).view.readAt (Elt F) (Rect.unit (s := S32x1024) off' S1x16.size h').toLoadRect f5) shapeCasts_S1x16_S16] : Fin 1 → IVec S16 32) a x).toNat < S16384.size a)
    (x : (Rect.unit (s := S32x1024) off S1x16.size h).shape.Idx) :
    shapeCast S1x16 (loadIdx (View.read (Elt F) ((s6).access (Rect.whole cc0_scratch1.ty.shape)) f6)
        ![shapeCast S16 ((s5).view.readAt (Elt F) (Rect.unit (s := S32x1024) off' S1x16.size h').toLoadRect f5) shapeCasts_S1x16_S16] hh) shapeCasts_S16_S1x16 x
      = gat d L f5 f6 hidx ((Rect.unit (s := S32x1024) off S1x16.size h).emb x) := by
  subst e
  rw [Memref.read_access_whole]
  show f6 (idxAt _ hh (Shape.reshapeEquiv _ x)) = f6 _
  refine congrArg f6 (funext fun (a : Fin 1) => Fin.ext ?_)
  obtain rfl : a = (0 : Fin 1) := Subsingleton.elim _ _
  show ((s5).view.readAt (Elt F) (Rect.unit (s := S32x1024) off' S1x16.size h').toLoadRect f5 (Shape.reshapeEquiv _ (Shape.reshapeEquiv _ x))).toNat = (f5 _).toNat
  rw [Shape.reshapeEquiv_reshapeEquiv, Shape.reshapeEquiv_self]
  simp only [View.readAt_apply, Memref.view_whole, View.read_whole]
  rfl

/-- The entries of a sixteen-lane chunk at `(a, b)`: row `a`, columns `b … b + 15`. -/
theorem mem_row16 (off : Fin 2 → Nat) (h : ∀ a, off a + S1x16.size a ≤ S32x1024.size a) (a b : Nat) (e : off = ![a, b]) (y : S32x1024.Idx) :
    y ∈ (Rect.unit (s := S32x1024) off S1x16.size h).set ↔ ((y 0).val = a ∧ b ≤ (y 1).val ∧ (y 1).val < b + 16) := by
  subst e
  rw [Rect.mem_set_unit, Fin.forall_fin_two]
  show ((a ≤ (y 0).val ∧ (y 0).val < a + 1) ∧ (b ≤ (y 1).val ∧ (y 1).val < b + 16)) ↔ _
  omega

/-- Stores whose numbers all agree with one function `G` extend the set of entries known to be `G` by what they cover. -/
theorem writes_step (d : Dev nD) (L : grid0.Coords) (G f7 : Buf (Elt F) ((thr d L).loc cc0_scratch2))
    (Ls : List (View.Piece (Elt F) S32x1024 .f32)) (Dn Dn' : S32x1024.Idx → Prop)
    (hG : ∀ p ∈ Ls, ∀ x, p.2 x = G (p.1.emb x)) (hf : ∀ y, Dn y → f7 y = G y)
    (hD : ∀ y, Dn' y → Dn y ∨ ∃ p ∈ Ls, y ∈ p.1.set) :
    ∀ y, Dn' y → (s7).view.writes (Elt F) f7 Ls y = G y := by
  intro y hy
  by_cases hc : ∃ p ∈ Ls, y ∈ p.1.set
  · exact View.read_writes_apply_of_pieces (s7).view f7 G Ls hG y hc
  · have h1 := View.read_writes_apply_of_forall_not_mem (s7).view f7 y Ls (fun p hp hm => hc ⟨p, hp, hm⟩)
    rcases hD y hy with h | h
    · exact h1.trans (hf y h)
    · exact absurd h hc

variable [FloatOps F]

/-- Before trip `k` of the inner loop at row `k1`: the index and row scratch as they were, the out scratch gathered on the filled entries. -/
def inv2 (d : Dev nD) (L : grid0.Coords) (f5 : Buf (Elt F) ((thr d L).loc cc0_scratch0)) (f6 : Buf (Elt F) ((thr d L).loc cc0_scratch1))
    (hidx : ∀ (a : Fin 1) (y : S32x1024.Idx), (f5 y).toNat < S16384.size a) (k1 : Nat) (k : Nat) (_ : Unit) : sProp 𝕄 :=
  iprop(((s5).view.loc (thr d L) ↦{fullShare} f5) ∗ ((s6).view.loc (thr d L) ↦{fullShare} f6)
    ∗ ∃ f7 : Buf (Elt F) ((thr d L).loc cc0_scratch2), ((s7).view.loc (thr d L) ↦{fullShare} f7) ∗ ⌜∀ y, filled k1 k y → f7 y = gat d L f5 f6 hidx y⌝)

/-- Before row `k` of the outer loop: the rows above `k` gathered. -/
def inv1 (d : Dev nD) (L : grid0.Coords) (f5 : Buf (Elt F) ((thr d L).loc cc0_scratch0)) (f6 : Buf (Elt F) ((thr d L).loc cc0_scratch1))
    (hidx : ∀ (a : Fin 1) (y : S32x1024.Idx), (f5 y).toNat < S16384.size a) (k : Nat) (_ : BitVec 32) : sProp 𝕄 :=
  iprop(((s5).view.loc (thr d L) ↦{fullShare} f5) ∗ ((s6).view.loc (thr d L) ↦{fullShare} f6)
    ∗ ∃ f7 : Buf (Elt F) ((thr d L).loc cc0_scratch2), ((s7).view.loc (thr d L) ↦{fullShare} f7) ∗ ⌜∀ y : S32x1024.Idx, (y 0).val < k → f7 y = gat d L f5 f6 hidx y⌝)

/-- One trip of the inner loop of nest 0: eight sixteen-lane chunks of row `k1` of the out scratch, columns
    `128·k2 … 128·k2 + 127`, each filled with the row scratch gathered at the index scratch's words there. -/
theorem nest0_inner (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (k1 : Fin k0_t1_loop.trips) (arg8 : BitVec 32) (k2 : Fin k0_t2_loop.trips) (acc : Unit) :
    inv2 d L f5 f6 hidx k1.val k2.val acc
      ⊢ wp frame (wpE (defs₀ (F := F)) 𝒱₀ (thr d L) none) Set.univ
          (k0_t2_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29 k1 arg8 k2 acc) (inv2 d L f5 f6 hidx k1.val (k2.val + 1)) := by
  have cfL0 : k0_off3 k1 k2 = ![k1.val, 128 * k2.val + 0] := k0_off3_eq k1 k2
  have cfS0 : k0_off4 k1 k2 0#32 = ![k1.val, 128 * k2.val + 0] := k0_off4_eq k1 k2 0
  have cfL1 : k0_off4 k1 k2 16#32 = ![k1.val, 128 * k2.val + 16] := k0_off4_eq k1 k2 1
  have cfS1 : k0_off5 k1 k2 16#32 = ![k1.val, 128 * k2.val + 16] := k0_off5_eq k1 k2 0
  have cfL2 : k0_off5 k1 k2 32#32 = ![k1.val, 128 * k2.val + 32] := k0_off5_eq k1 k2 1
  have cfS2 : k0_off6 k1 k2 32#32 = ![k1.val, 128 * k2.val + 32] := k0_off6_eq k1 k2 0
  have cfL3 : k0_off6 k1 k2 48#32 = ![k1.val, 128 * k2.val + 48] := k0_off6_eq k1 k2 1
  have cfS3 : k0_off7 k1 k2 48#32 = ![k1.val, 128 * k2.val + 48] := k0_off7_eq k1 k2 0
  have cfL4 : k0_off7 k1 k2 64#32 = ![k1.val, 128 * k2.val + 64] := k0_off7_eq k1 k2 1
  have cfS4 : k0_off8 k1 k2 64#32 = ![k1.val, 128 * k2.val + 64] := k0_off8_eq k1 k2 0
  have cfL5 : k0_off8 k1 k2 80#32 = ![k1.val, 128 * k2.val + 80] := k0_off8_eq k1 k2 1
  have cfS5 : k0_off9 k1 k2 80#32 = ![k1.val, 128 * k2.val + 80] := k0_off9_eq k1 k2 0
  have cfL6 : k0_off9 k1 k2 96#32 = ![k1.val, 128 * k2.val + 96] := k0_off9_eq k1 k2 1
  have cfS6 : k0_off10 k1 k2 96#32 = ![k1.val, 128 * k2.val + 96] := k0_off10_eq k1 k2 0
  have cfL7 : k0_off10 k1 k2 112#32 = ![k1.val, 128 * k2.val + 112] := k0_off10_eq k1 k2 1
  have cfS7 : k0_off11 k1 k2 = ![k1.val, 128 * k2.val + 112] := k0_off11_eq k1 k2
  unfold k0_t2_body inv2
  iintro ⟨H5, H6, %f7, H7, %hf7⟩
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)
  sl_step
  isplitl [H5]; · iexact H5
  isplitl [H6]; · iexact H6
  iexists _
  isplitl [H7]; · iexact H7
  ipureintro
  refine writes_step d L (gat d L f5 f6 hidx) f7 _ (filled k1.val k2.val) (filled k1.val (k2.val + 1)) ?hG hf7 ?hD
  case hG =>
    intro p hp x
    simp only [List.mem_cons, List.not_mem_nil, _root_.or_false] at hp
    rcases hp with rfl | rfl | rfl | rfl | rfl | rfl | rfl | rfl
    · dsimp only at x ⊢; exact piece_gather d L f5 f6 hidx _ _ _ _ (cfL7.trans cfS7.symm) _ x
    · dsimp only at x ⊢; exact piece_gather d L f5 f6 hidx _ _ _ _ (cfL6.trans cfS6.symm) _ x
    · dsimp only at x ⊢; exact piece_gather d L f5 f6 hidx _ _ _ _ (cfL5.trans cfS5.symm) _ x
    · dsimp only at x ⊢; exact piece_gather d L f5 f6 hidx _ _ _ _ (cfL4.trans cfS4.symm) _ x
    · dsimp only at x ⊢; exact piece_gather d L f5 f6 hidx _ _ _ _ (cfL3.trans cfS3.symm) _ x
    · dsimp only at x ⊢; exact piece_gather d L f5 f6 hidx _ _ _ _ (cfL2.trans cfS2.symm) _ x
    · dsimp only at x ⊢; exact piece_gather d L f5 f6 hidx _ _ _ _ (cfL1.trans cfS1.symm) _ x
    · dsimp only at x ⊢; exact piece_gather d L f5 f6 hidx _ _ _ _ (cfL0.trans cfS0.symm) _ x
  case hD =>
    intro y hy
    by_cases hlt : filled k1.val k2.val y
    · exact Or.inl hlt
    · right
      simp only [List.mem_cons, List.not_mem_nil, _root_.or_false, exists_eq_or_imp, exists_eq_left]
      rw [mem_row16 _ _ _ _ cfS7 y, mem_row16 _ _ _ _ cfS6 y, mem_row16 _ _ _ _ cfS5 y, mem_row16 _ _ _ _ cfS4 y,
        mem_row16 _ _ _ _ cfS3 y, mem_row16 _ _ _ _ cfS2 y, mem_row16 _ _ _ _ cfS1 y, mem_row16 _ _ _ _ cfS0 y]
      unfold filled at hy hlt
      omega

/-- Nest 0: the two counted loops fill the out scratch, row by row, with the row scratch gathered at the index scratch. -/
theorem nest0 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t1_loop k0_t1_ok 0#32 (k0_t1_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := by
  have ht1 : Scf.trips k0_t1_loop.lb k0_t1_loop.ub k0_t1_loop.st = 32 := by decide
  have ht2 : Scf.trips k0_t2_loop.lb k0_t2_loop.ub k0_t2_loop.st = 8 := by decide
  iintro ⟨H5, H6, H7⟩
  sl_for (inv1 d L f5 f6 hidx) $$ [H5 H6 H7]
  case region =>
    intro k1 acc
    unfold nest0.sl.prog.body_1 k0_t1_body inv1
    iintro ⟨H5, H6, %g7, H7, %hg7⟩
    sl_exec
    sl_for (inv2 d L f5 f6 hidx k1.val) $$ [H5 H6 H7]
    case region =>
      intro k2 acc2
      exact nest0_inner d L v29 f5 f6 hidx k1 _ k2 acc2
    · unfold inv2
      isplitl [H5]; · iexact H5
      isplitl [H6]; · iexact H6
      iexists g7
      isplitl [H7]; · iexact H7
      ipureintro
      intro y hy
      refine hg7 y ?_
      unfold filled at hy
      omega
    iintro %acc2 HI
    unfold inv2
    icases HI with ⟨H5, H6, %g7', H7, %hg7'⟩
    sl_exec
    sl_step
    isplitl [H5]; · iexact H5
    isplitl [H6]; · iexact H6
    iexists g7'
    isplitl [H7]; · iexact H7
    ipureintro
    intro y hy
    refine hg7' y ?_
    unfold filled
    have hy1 : (y 1).val < 1024 := (y 1).isLt
    rw [ht2]
    omega
  isplitl [H5 H6 H7]
  · unfold inv1
    isplitl [H5]; · iexact H5
    isplitl [H6]; · iexact H6
    iexists f7
    isplitl [H7]; · iexact H7
    ipureintro
    intro y hy
    omega
  iintro %acc HI
  unfold inv1
  icases HI with ⟨H5, H6, %g7, H7, %hg7⟩
  have hg : g7 = gat d L f5 f6 hidx := funext fun y => hg7 y (by have h32 : (y 0).val < 32 := (y 0).isLt; rw [ht1]; exact h32)
  subst hg
  isplitl [H5]; · iexact H5
  isplitl [H6]; · iexact H6
  iexact H7

end Cert.Proof.GroupI

end
-- ==== Proof.GroupI.Views.lean ====
/-
  The three HBM rows a vector subcore's task moves, as the kernel slices them, and the one function of the whole
  arrays that every output row ends at. A task at offsets `(b, c)` fetches the index slab `b` (32 × 1024 words) once,
  then per channel row `c` fetches row `(b, c)` of the points (16384 numbers) and writes row `(b, c)` of the result
  (32 × 1024 numbers): entry `(s, q)` of it is the points' row at the index the slab holds at `(s, q)`. In
  coordinates of the whole arrays: the result at `(b, c, s, q)` is the points at `(b, c, I (b, s, q))`.
-/
import proofs.«208723_g16346645529139_cont_week2b_1265_5_alg».proof.Proof.GroupI.Nest
import Idealize.ShloMosaic.Lib.ValueIdx
import Idealize.ShloMosaic.Lib.ValueLayout

noncomputable section

namespace Cert.Proof.GroupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx
variable {F : FTy → Type}

local notation "pV" => (Memref.whole Cert.KernelIdeal.main_arg0_scv : Memref Cert.KernelIdeal.sig Kind.scVector Space.hbm Cert.KernelIdeal.S8x64x16384 EltTy.f32)
local notation "iV" => (Memref.whole Cert.KernelIdeal.main_v0_scv : Memref Cert.KernelIdeal.sig Kind.scVector Space.hbm Cert.KernelIdeal.S8x32x1024 EltTy.i32)
local notation "oV" => (Memref.whole Cert.KernelIdeal.main_v1_scv : Memref Cert.KernelIdeal.sig Kind.scVector Space.hbm Cert.KernelIdeal.S8x64x32x1024 EltTy.f32)
local notation "s5" => (Memref.whole Cert.KernelIdeal.cc0_scratch0 : Memref Cert.KernelIdeal.sig Kind.scVector Space.vmem Cert.KernelIdeal.S32x1024 EltTy.i32)
local notation "s6" => (Memref.whole Cert.KernelIdeal.cc0_scratch1 : Memref Cert.KernelIdeal.sig Kind.scVector Space.vmem Cert.KernelIdeal.S16384 EltTy.f32)
local notation "s7" => (Memref.whole Cert.KernelIdeal.cc0_scratch2 : Memref Cert.KernelIdeal.sig Kind.scVector Space.vmem Cert.KernelIdeal.S32x1024 EltTy.f32)
local notation "𝕄" => MT nD τ sig (HIx 1) (Elt F) ℕ UU ℕ

/-- The index slab at offsets `off`, the points' row and the result's row, squeezed to their own ranks. -/
abbrev iSlM (off : Fin 3 → Nat) (h : ∀ a, off a + S1x32x1024.size a ≤ S8x32x1024.size a) : Memref sig .scVector .hbm S32x1024 .i32 :=
  ((iV).slice (Rect.unit (s := S8x32x1024) off S1x32x1024.size h) (fun _ => rfl)).squeeze S32x1024 squeezes_S1x32x1024_S32x1024
abbrev pSlM (off : Fin 3 → Nat) (h : ∀ a, off a + S1x1x16384.size a ≤ S8x64x16384.size a) : Memref sig .scVector .hbm S16384 .f32 :=
  ((pV).slice (Rect.unit (s := S8x64x16384) off S1x1x16384.size h) (fun _ => rfl)).squeeze S16384 squeezes_S1x1x16384_S16384
abbrev oSlM (off : Fin 4 → Nat) (h : ∀ a, off a + S1x1x32x1024.size a ≤ S8x64x32x1024.size a) : Memref sig .scVector .hbm S32x1024 .f32 :=
  ((oV).slice (Rect.unit (s := S8x64x32x1024) off S1x1x32x1024.size h) (fun _ => rfl)).squeeze S32x1024 squeezes_S1x1x32x1024_S32x1024

/-- Entry `(s, q)` of the result's row at offsets `off` is the result's element `off + (0, 0, s, q)`. -/
theorem emb_out (off : Fin 4 → Nat) (h : ∀ a, off a + S1x1x32x1024.size a ≤ S8x64x32x1024.size a) (x : S32x1024.Idx) (k : Fin 4) :
    ((oSlM off h).view.emb x k).val = off k + (![0, 0, (x 0).val, (x 1).val] : Fin 4 → Nat) k := by
  obtain ⟨a, b, rfl⟩ : ∃ (a : Fin 32) (b : Fin 1024), x = ix2 a b := ⟨x 0, x 1, eq_ix2 x⟩
  show off k + 1 * ((Shape.reshapeEquiv squeezes_S1x1x32x1024_S32x1024.numel_eq (ix2 a b)) k).val = _
  rw [reshapeEquiv_ix2_11ab, Nat.one_mul]
  match k with
  | ⟨0, _⟩ => rfl
  | ⟨1, _⟩ => rfl
  | ⟨2, _⟩ => rfl
  | ⟨3, _⟩ => rfl

/-- Entry `(s, q)` of the index slab at offsets `off` is the indices' element `off + (0, s, q)`. -/
theorem emb_idx (off : Fin 3 → Nat) (h : ∀ a, off a + S1x32x1024.size a ≤ S8x32x1024.size a) (x : S32x1024.Idx) (k : Fin 3) :
    ((iSlM off h).view.emb x k).val = off k + (![0, (x 0).val, (x 1).val] : Fin 3 → Nat) k := by
  obtain ⟨a, b, rfl⟩ : ∃ (a : Fin 32) (b : Fin 1024), x = ix2 a b := ⟨x 0, x 1, eq_ix2 x⟩
  show off k + 1 * ((Shape.reshapeEquiv squeezes_S1x32x1024_S32x1024.numel_eq (ix2 a b)) k).val = _
  rw [reshapeEquiv_ix2_1ab, Nat.one_mul]
  match k with
  | ⟨0, _⟩ => rfl
  | ⟨1, _⟩ => rfl
  | ⟨2, _⟩ => rfl

/-- A lane `n` matched with shape `[1, 1, N]` is `(0, 0, n)`. -/
theorem reshape_lane {N : ℕ} (h : (⟨1, ![N]⟩ : Shape).numel = (⟨3, ![1, 1, N]⟩ : Shape).numel) (n : Fin N) :
    Shape.reshapeEquiv h (ix1 n) = ix3 (⟨0, Nat.one_pos⟩ : Fin 1) (⟨0, Nat.one_pos⟩ : Fin 1) n :=
  Shape.reshapeEquiv_eq_of_rowMajor h (by
    rw [Shape.rowMajor_val_three, Shape.rowMajor_val_one]
    show ((0 * 1 + 0) * N + n.val) = n.val
    simp only [Nat.zero_mul, Nat.zero_add])

/-- Lane `n` of the points' row at offsets `off` is the points' element `off + (0, 0, n)`. -/
theorem emb_pts (off : Fin 3 → Nat) (h : ∀ a, off a + S1x1x16384.size a ≤ S8x64x16384.size a) (z : S16384.Idx) (k : Fin 3) :
    ((pSlM off h).view.emb z k).val = off k + (![0, 0, (z 0).val] : Fin 3 → Nat) k := by
  obtain ⟨n, rfl⟩ : ∃ n : Fin 16384, z = ix1 n := ⟨z 0, eq_ix1 z⟩
  show off k + 1 * ((Shape.reshapeEquiv squeezes_S1x1x16384_S16384.numel_eq (ix1 n)) k).val = _
  rw [reshape_lane, Nat.one_mul]
  match k with
  | ⟨0, _⟩ => rfl
  | ⟨1, _⟩ => rfl
  | ⟨2, _⟩ => rfl

/-- What every row of the result ends at, as one function of the whole arrays: the points gathered along their last axis. -/
def Gout (d : Dev nD) (P : Buf (Elt F) (pLoc d)) (I0 : Buf (Elt F) (iLoc d)) (hI : ∀ q : S8x32x1024.Idx, (I0 q).toNat < 16384) :
    Buf (Elt F) (oLoc d) :=
  fun p => P (ix3 (p 0 : Fin 8) (p 1 : Fin 64) (⟨(I0 (ix3 (p 0 : Fin 8) (p 2 : Fin 32) (p 3 : Fin 1024))).toNat, hI _⟩ : Fin 16384))

/-- The index scratch, filled by a copy from the index slab, holds the slab's words. -/
theorem idx_scratch_val (d : Dev nD) (L : grid0.Coords) (offI : Fin 3 → Nat) (hIo : ∀ a, offI a + S1x32x1024.size a ≤ S8x32x1024.size a)
    (I0 : Buf (Elt F) (iLoc d)) (f5 : Buf (Elt F) ((thr d L).loc cc0_scratch0)) (w : S32x1024.Idx → Elt F .i32)
    (hw : w = (iSlM offI hIo).view.read (Elt F) I0) :
    ∀ y, View.write (Elt F) (s5).view f5 w Finset.univ y = I0 ((iSlM offI hIo).view.emb y) := by
  subst hw
  intro y
  exact (congrFun (View.write_whole_univ (Val := Elt F) cc0_scratch0 f5 _) y).trans ((View.read_apply _ _).trans (cast_eq _ _))

/-- The row scratch, filled by a copy from a row of the points, holds that row. -/
theorem row_scratch_val (d : Dev nD) (L : grid0.Coords) (offP : Fin 3 → Nat) (hP : ∀ a, offP a + S1x1x16384.size a ≤ S8x64x16384.size a)
    (P : Buf (Elt F) (pLoc d)) (f6 : Buf (Elt F) ((thr d L).loc cc0_scratch1)) (w : S16384.Idx → Elt F .f32)
    (hw : w = (pSlM offP hP).view.read (Elt F) P) :
    ∀ z, View.write (Elt F) (s6).view f6 w Finset.univ z = P ((pSlM offP hP).view.emb z) := by
  subst hw
  intro z
  exact (congrFun (View.write_whole_univ (Val := Elt F) cc0_scratch1 f6 _) z).trans ((View.read_apply _ _).trans (cast_eq _ _))

/-- A word of the index scratch is a word of the indices: it names a lane of the row scratch. -/
theorem idx_scratch_range (d : Dev nD) (L : grid0.Coords) (I0 : Buf (Elt F) (iLoc d)) (hI : ∀ q : S8x32x1024.Idx, (I0 q).toNat < 16384)
    (g5 : Buf (Elt F) ((thr d L).loc cc0_scratch0)) (v : S32x1024.Idx → S8x32x1024.Idx) (h5 : ∀ y, g5 y = I0 (v y)) :
    ∀ (a : Fin 1) (y : S32x1024.Idx), (g5 y).toNat < S16384.size a := by
  intro a y
  obtain rfl : a = (0 : Fin 1) := Subsingleton.elim _ _
  rw [h5]; exact hI _

/-- A row of the result, filled by a copy from the out scratch once the nest has gathered it, agrees with `Gout` on the
    row's elements: the row's, the points' row's and the index slab's offsets name the same `(b, c)`. -/
theorem out_val (d : Dev nD) (L : grid0.Coords) (P : Buf (Elt F) (pLoc d)) (I0 : Buf (Elt F) (iLoc d)) (hI : ∀ q : S8x32x1024.Idx, (I0 q).toNat < 16384)
    (offO : Fin 4 → Nat) (hO : ∀ a, offO a + S1x1x32x1024.size a ≤ S8x64x32x1024.size a)
    (offP : Fin 3 → Nat) (hP : ∀ a, offP a + S1x1x16384.size a ≤ S8x64x16384.size a)
    (offI : Fin 3 → Nat) (hIo : ∀ a, offI a + S1x32x1024.size a ≤ S8x32x1024.size a)
    (e0 : offP 0 = offO 0) (e1 : offP 1 = offO 1) (e2 : offO 2 = 0) (e3 : offO 3 = 0) (eP2 : offP 2 = 0)
    (eI0 : offI 0 = offO 0) (eI1 : offI 1 = 0) (eI2 : offI 2 = 0)
    (g5 : Buf (Elt F) ((thr d L).loc cc0_scratch0)) (g6 : Buf (Elt F) ((thr d L).loc cc0_scratch1))
    (hidx5 : ∀ (a : Fin 1) (y : S32x1024.Idx), (g5 y).toNat < S16384.size a)
    (h5 : ∀ y, g5 y = I0 ((iSlM offI hIo).view.emb y)) (h6 : ∀ z, g6 z = P ((pSlM offP hP).view.emb z))
    (J : Buf (Elt F) (oLoc d)) (w : S32x1024.Idx → Elt F .f32) (hw : w = (s7).view.read (Elt F) (gat d L g5 g6 hidx5)) :
    ∀ p ∈ (oSlM offO hO).view.set, (oSlM offO hO).view.writes (Elt F) J [⟨Rect.whole S32x1024, w⟩] p = Gout d P I0 hI p := by
  intro p hp
  obtain ⟨x, -, rfl⟩ := Finset.mem_map.mp hp
  have hr := View.read_writes_cons_emb (oSlM offO hO).view J (Rect.whole S32x1024) w [] x
  rw [Rect.emb_whole_apply, View.read_apply] at hr
  refine ((cast_eq _ _).symm.trans hr).trans ?_
  subst hw
  have E : ∀ k, (((oSlM offO hO).view.emb x) k).val = offO k + (![0, 0, (x 0).val, (x 1).val] : Fin 4 → Nat) k := emb_out offO hO x
  have E0 : (((oSlM offO hO).view.emb x) 0).val = offO 0 := by rw [E]; rfl
  have E1 : (((oSlM offO hO).view.emb x) 1).val = offO 1 := by rw [E]; rfl
  have E2 : (((oSlM offO hO).view.emb x) 2).val = (x 0).val := by rw [E, e2]; exact Nat.zero_add _
  have E3 : (((oSlM offO hO).view.emb x) 3).val = (x 1).val := by rw [E, e3]; exact Nat.zero_add _
  have hix : (iSlM offI hIo).view.emb x = ix3 (((oSlM offO hO).view.emb x) 0 : Fin 8) (((oSlM offO hO).view.emb x) 2 : Fin 32) (((oSlM offO hO).view.emb x) 3 : Fin 1024) := by
    funext k; apply Fin.ext; rw [emb_idx]
    match k with
    | ⟨0, _⟩ => show offI 0 = (((oSlM offO hO).view.emb x) 0).val; rw [E0, eI0]
    | ⟨1, _⟩ => show offI 1 + (x 0).val = (((oSlM offO hO).view.emb x) 2).val; rw [E2, eI1, Nat.zero_add]
    | ⟨2, _⟩ => show offI 2 + (x 1).val = (((oSlM offO hO).view.emb x) 3).val; rw [E3, eI2, Nat.zero_add]
  show g6 (fun a => ⟨(g5 x).toNat, hidx5 a x⟩) = P (ix3 (((oSlM offO hO).view.emb x) 0 : Fin 8) (((oSlM offO hO).view.emb x) 1 : Fin 64)
    (⟨(I0 (ix3 (((oSlM offO hO).view.emb x) 0 : Fin 8) (((oSlM offO hO).view.emb x) 2 : Fin 32) (((oSlM offO hO).view.emb x) 3 : Fin 1024))).toNat, hI _⟩ : Fin 16384))
  rw [h6]
  refine congrArg P (funext fun k => Fin.ext ?_)
  rw [emb_pts]
  match k with
  | ⟨0, _⟩ => show offP 0 = (((oSlM offO hO).view.emb x) 0).val; rw [E0, e0]
  | ⟨1, _⟩ => show offP 1 = (((oSlM offO hO).view.emb x) 1).val; rw [E1, e1]
  | ⟨2, _⟩ =>
    show offP 2 + (g5 x).toNat = (I0 (ix3 (((oSlM offO hO).view.emb x) 0 : Fin 8) (((oSlM offO hO).view.emb x) 2 : Fin 32) (((oSlM offO hO).view.emb x) 3 : Fin 1024))).toNat
    rw [eP2, Nat.zero_add, h5, hix]
    rfl

end Cert.Proof.GroupI

end
-- ==== Proof.GroupI.Nests.lean ====
/-
  The sixteen loop nests of a vector subcore's task are one program under sixteen sets of printed names (each
  channel row has its own loops, offsets and range checks, all defined alike; the last two are also handed three
  loop constants they do not use): nest 0's statement holds of each.
-/
import proofs.«208723_g16346645529139_cont_week2b_1265_5_alg».proof.Proof.GroupI.Nest

noncomputable section

namespace Cert.Proof.GroupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.KernelIdeal.main_arg0_scv : Memref Cert.KernelIdeal.sig Kind.scVector Space.hbm Cert.KernelIdeal.S8x64x16384 EltTy.f32)
local notation "iV" => (Memref.whole Cert.KernelIdeal.main_v0_scv : Memref Cert.KernelIdeal.sig Kind.scVector Space.hbm Cert.KernelIdeal.S8x32x1024 EltTy.i32)
local notation "oV" => (Memref.whole Cert.KernelIdeal.main_v1_scv : Memref Cert.KernelIdeal.sig Kind.scVector Space.hbm Cert.KernelIdeal.S8x64x32x1024 EltTy.f32)
local notation "s5" => (Memref.whole Cert.KernelIdeal.cc0_scratch0 : Memref Cert.KernelIdeal.sig Kind.scVector Space.vmem Cert.KernelIdeal.S32x1024 EltTy.i32)
local notation "s6" => (Memref.whole Cert.KernelIdeal.cc0_scratch1 : Memref Cert.KernelIdeal.sig Kind.scVector Space.vmem Cert.KernelIdeal.S16384 EltTy.f32)
local notation "s7" => (Memref.whole Cert.KernelIdeal.cc0_scratch2 : Memref Cert.KernelIdeal.sig Kind.scVector Space.vmem Cert.KernelIdeal.S32x1024 EltTy.f32)
local notation "𝕄" => MT nD τ sig (HIx 1) (Elt F) ℕ UU ℕ

variable [FloatOps F]

set_option maxRecDepth 65536 in
/-- Nest 1: the two counted loops fill the out scratch, row by row, with the row scratch gathered at the index scratch. -/
theorem nest1 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t3_loop k0_t3_ok 0#32 (k0_t3_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 2: the two counted loops fill the out scratch, row by row, with the row scratch gathered at the index scratch. -/
theorem nest2 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t5_loop k0_t5_ok 0#32 (k0_t5_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 3: the two counted loops fill the out scratch, row by row, with the row scratch gathered at the index scratch. -/
theorem nest3 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t7_loop k0_t7_ok 0#32 (k0_t7_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 4: the two counted loops fill the out scratch, row by row, with the row scratch gathered at the index scratch. -/
theorem nest4 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t9_loop k0_t9_ok 0#32 (k0_t9_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 5: the two counted loops fill the out scratch, row by row, with the row scratch gathered at the index scratch. -/
theorem nest5 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t11_loop k0_t11_ok 0#32 (k0_t11_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 6: the two counted loops fill the out scratch, row by row, with the row scratch gathered at the index scratch. -/
theorem nest6 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t13_loop k0_t13_ok 0#32 (k0_t13_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 7: the two counted loops fill the out scratch, row by row, with the row scratch gathered at the index scratch. -/
theorem nest7 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t15_loop k0_t15_ok 0#32 (k0_t15_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 8: the two counted loops fill the out scratch, row by row, with the row scratch gathered at the index scratch. -/
theorem nest8 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t17_loop k0_t17_ok 0#32 (k0_t17_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 9: the two counted loops fill the out scratch, row by row, with the row scratch gathered at the index scratch. -/
theorem nest9 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t19_loop k0_t19_ok 0#32 (k0_t19_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 10: the two counted loops fill the out scratch, row by row, with the row scratch gathered at the index scratch. -/
theorem nest10 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t21_loop k0_t21_ok 0#32 (k0_t21_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 11: the two counted loops fill the out scratch, row by row, with the row scratch gathered at the index scratch. -/
theorem nest11 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t23_loop k0_t23_ok 0#32 (k0_t23_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 12: the two counted loops fill the out scratch, row by row, with the row scratch gathered at the index scratch. -/
theorem nest12 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t25_loop k0_t25_ok 0#32 (k0_t25_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 13: the two counted loops fill the out scratch, row by row, with the row scratch gathered at the index scratch. -/
theorem nest13 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t27_loop k0_t27_ok 0#32 (k0_t27_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 14: the two counted loops fill the out scratch, row by row, with the row scratch gathered at the index scratch. -/
theorem nest14 (d : Dev nD) (L : grid0.Coords) (v29 c83 c84 c86 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t29_loop k0_t29_ok 0#32 (k0_t29_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29 c83 c84 c86))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 15: the two counted loops fill the out scratch, row by row, with the row scratch gathered at the index scratch. -/
theorem nest15 (d : Dev nD) (L : grid0.Coords) (v29 c83 c84 c86 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t31_loop k0_t31_ok 0#32 (k0_t31_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29 c83 c84 c86))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

end Cert.Proof.GroupI

end
-- ==== Proof.GroupI.Body.lean ====
/-
  One vector subcore's task, run through: the index slab fetched once; then, sixteen times, a row of the points fetched,
  the loop nest gathering it at the slab's indices into the out scratch, and the out scratch written to the result's
  row. Each copy is issued and waited for on a semaphore of its own, so nothing is in flight while the scratch buffers
  are read or written. Every row of the result ends at the one function `Gout` of the whole arrays.
-/
import proofs.«208723_g16346645529139_cont_week2b_1265_5_alg».proof.Proof.GroupI.Views
import proofs.«208723_g16346645529139_cont_week2b_1265_5_alg».proof.Proof.GroupI.Nests

noncomputable section

namespace Cert.Proof.GroupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.KernelIdeal.main_arg0_scv : Memref Cert.KernelIdeal.sig Kind.scVector Space.hbm Cert.KernelIdeal.S8x64x16384 EltTy.f32)
local notation "iV" => (Memref.whole Cert.KernelIdeal.main_v0_scv : Memref Cert.KernelIdeal.sig Kind.scVector Space.hbm Cert.KernelIdeal.S8x32x1024 EltTy.i32)
local notation "oV" => (Memref.whole Cert.KernelIdeal.main_v1_scv : Memref Cert.KernelIdeal.sig Kind.scVector Space.hbm Cert.KernelIdeal.S8x64x32x1024 EltTy.f32)
local notation "s5" => (Memref.whole Cert.KernelIdeal.cc0_scratch0 : Memref Cert.KernelIdeal.sig Kind.scVector Space.vmem Cert.KernelIdeal.S32x1024 EltTy.i32)
local notation "s6" => (Memref.whole Cert.KernelIdeal.cc0_scratch1 : Memref Cert.KernelIdeal.sig Kind.scVector Space.vmem Cert.KernelIdeal.S16384 EltTy.f32)
local notation "s7" => (Memref.whole Cert.KernelIdeal.cc0_scratch2 : Memref Cert.KernelIdeal.sig Kind.scVector Space.vmem Cert.KernelIdeal.S32x1024 EltTy.f32)
local notation "𝕄" => MT nD τ sig (HIx 1) (Elt F) ℕ UU ℕ

omit F in
/-- Waits recorded at the kernels' own index are admissible in what a task hands back. -/
theorem wok_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- Held contents, named: a variable equal to them. -/
theorem pts_name {ℓ : Loc nD τ sig} (S : Finset (Idx ℓ)) (q : PosShare TreeShare) (f : Buf (Elt F) ℓ) :
    (ℓ ↦[S]{q} f : sProp 𝕄) ⊢ iprop(∃ g : Buf (Elt F) ℓ, ⌜g = f⌝ ∗ ℓ ↦[S]{q} g) := by
  iintro H; iexists f; isplitr; · ipureintro; rfl
  iexact H

variable [FloatOps F]

/-- A program run to a post, then its continuation from that post. -/
theorem wp_seq {α β : Type} {thr' : Thread nD τ} {p : Prog (TpuEff nD τ sig (Elt F) Λ₀ thr'.2) α} {k : α → Prog (TpuEff nD τ sig (Elt F) Λ₀ thr'.2) β}
    {R : sProp 𝕄} {Q1 : α → sProp 𝕄} {Q : β → sProp 𝕄}
    (h : R ⊢ wp frame (wpE (defs₀ (F := F)) 𝒱₀ thr' none) Set.univ p Q1) :
    R ⊢ iprop((∀ a, Q1 a -∗ wp frame (wpE (defs₀ (F := F)) 𝒱₀ thr' none) Set.univ (k a) Q) -∗ wp frame (wpE (defs₀ (F := F)) 𝒱₀ thr' none) Set.univ (p >>= k) Q) := by
  rw [wp_bind]
  exact h.trans (wp_wand _ _ _)

set_option maxHeartbeats 8000000 in
/-- The task at grid point `L`: from read shares of the points and of the transposed indices (every word of which is
    below 16384), its sixteen rows of the result, its three scratch buffers and its semaphores at zero, to the same with
    the sixteen rows at `Gout`. -/
theorem tile_body (d : Dev nD) (L : grid0.Coords) (O : CellTallies nD τ sig (HIx 1)) (W : Waits sig (HIx 1))
    (P : Buf (Elt F) (pLoc d)) (I0 : Buf (Elt F) (iLoc d)) (O0 : Buf (Elt F) (oLoc d)) (qp qi : PosShare TreeShare)
    (hI : ∀ q : S8x32x1024.Idx, (I0 q).toNat < 16384) :
    iprop(Transfers.MayWaits (thr d L) (none : HIx 1) O
      ∗ (((pV).view.loc (thr d L) ↦{qp} P) ∗ ((iV).view.loc (thr d L) ↦{qi} I0)
      ∗ ((oSlM (k0_off12 L 0#32) (k0_off12_inb L 0)).view.loc (thr d L) ↦[(oSlM (k0_off12 L 0#32) (k0_off12_inb L 0)).view.set]{fullShare} O0)
      ∗ ((oSlM (k0_off12 L 1#32) (k0_off12_inb L 1)).view.loc (thr d L) ↦[(oSlM (k0_off12 L 1#32) (k0_off12_inb L 1)).view.set]{fullShare} O0)
      ∗ ((oSlM (k0_off12 L 2#32) (k0_off12_inb L 2)).view.loc (thr d L) ↦[(oSlM (k0_off12 L 2#32) (k0_off12_inb L 2)).view.set]{fullShare} O0)
      ∗ ((oSlM (k0_off12 L 3#32) (k0_off12_inb L 3)).view.loc (thr d L) ↦[(oSlM (k0_off12 L 3#32) (k0_off12_inb L 3)).view.set]{fullShare} O0)
      ∗ ((oSlM (k0_off12 L 4#32) (k0_off12_inb L 4)).view.loc (thr d L) ↦[(oSlM (k0_off12 L 4#32) (k0_off12_inb L 4)).view.set]{fullShare} O0)
      ∗ ((oSlM (k0_off12 L 5#32) (k0_off12_inb L 5)).view.loc (thr d L) ↦[(oSlM (k0_off12 L 5#32) (k0_off12_inb L 5)).view.set]{fullShare} O0)
      ∗ ((oSlM (k0_off12 L 6#32) (k0_off12_inb L 6)).view.loc (thr d L) ↦[(oSlM (k0_off12 L 6#32) (k0_off12_inb L 6)).view.set]{fullShare} O0)
      ∗ ((oSlM (k0_off12 L 7#32) (k0_off12_inb L 7)).view.loc (thr d L) ↦[(oSlM (k0_off12 L 7#32) (k0_off12_inb L 7)).view.set]{fullShare} O0)
      ∗ ((oSlM (k0_off12 L 8#32) (k0_off12_inb L 8)).view.loc (thr d L) ↦[(oSlM (k0_off12 L 8#32) (k0_off12_inb L 8)).view.set]{fullShare} O0)
      ∗ ((oSlM (k0_off12 L 9#32) (k0_off12_inb L 9)).view.loc (thr d L) ↦[(oSlM (k0_off12 L 9#32) (k0_off12_inb L 9)).view.set]{fullShare} O0)
      ∗ ((oSlM (k0_off12 L 10#32) (k0_off12_inb L 10)).view.loc (thr d L) ↦[(oSlM (k0_off12 L 10#32) (k0_off12_inb L 10)).view.set]{fullShare} O0)
      ∗ ((oSlM (k0_off12 L 11#32) (k0_off12_inb L 11)).view.loc (thr d L) ↦[(oSlM (k0_off12 L 11#32) (k0_off12_inb L 11)).view.set]{fullShare} O0)
      ∗ ((oSlM (k0_off12 L 12#32) (k0_off12_inb L 12)).view.loc (thr d L) ↦[(oSlM (k0_off12 L 12#32) (k0_off12_inb L 12)).view.set]{fullShare} O0)
      ∗ ((oSlM (k0_off12 L 13#32) (k0_off12_inb L 13)).view.loc (thr d L) ↦[(oSlM (k0_off12 L 13#32) (k0_off12_inb L 13)).view.set]{fullShare} O0)
      ∗ ((oSlM (k0_off12 L 14#32) (k0_off12_inb L 14)).view.loc (thr d L) ↦[(oSlM (k0_off12 L 14#32) (k0_off12_inb L 14)).view.set]{fullShare} O0)
      ∗ ((oSlM (k0_off12 L 15#32) (k0_off12_inb L 15)).view.loc (thr d L) ↦[(oSlM (k0_off12 L 15#32) (k0_off12_inb L 15)).view.set]{fullShare} O0))
      ∗ (∃ f, (s5).view.loc (thr d L) ↦{fullShare} f) ∗ (∃ f, (s6).view.loc (thr d L) ↦{fullShare} f) ∗ (∃ f, (s7).view.loc (thr d L) ↦{fullShare} f)
      ∗ (semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0 ∗ semVal (thr d L, SemLoc.dma cc0_scoped12.sem) 0 ∗ semVal (thr d L, SemLoc.dma cc0_scoped13.sem) 0 ∗ semVal (thr d L, SemLoc.dma cc0_scoped14.sem) 0 ∗ semVal (thr d L, SemLoc.dma cc0_scoped15.sem) 0 ∗ semVal (thr d L, SemLoc.dma cc0_scoped16.sem) 0 ∗ semVal (thr d L, SemLoc.dma cc0_scoped17.sem) 0 ∗ semVal (thr d L, SemLoc.dma cc0_scoped18.sem) 0 ∗ semVal (thr d L, SemLoc.dma cc0_scoped19.sem) 0 ∗ semVal (thr d L, SemLoc.dma cc0_scoped20.sem) 0 ∗ semVal (thr d L, SemLoc.dma cc0_scoped21.sem) 0 ∗ semVal (thr d L, SemLoc.dma cc0_scoped22.sem) 0 ∗ semVal (thr d L, SemLoc.dma cc0_scoped23.sem) 0 ∗ semVal (thr d L, SemLoc.dma cc0_scoped24.sem) 0 ∗ semVal (thr d L, SemLoc.dma cc0_scoped25.sem) 0 ∗ semVal (thr d L, SemLoc.dma cc0_scoped26.sem) 0 ∗ semVal (thr d L, SemLoc.dma cc0_scoped27.sem) 0 ∗ semVal (thr d L, SemLoc.dma cc0_scoped28.sem) 0 ∗ semVal (thr d L, SemLoc.dma cc0_scoped29.sem) 0 ∗ semVal (thr d L, SemLoc.dma cc0_scoped30.sem) 0 ∗ semVal (thr d L, SemLoc.dma cc0_scoped31.sem) 0 ∗ semVal (thr d L, SemLoc.dma cc0_scoped32.sem) 0)
      ∗ owes (thr d L) O W)
      ⊢ wp frame (wpE (defs₀ (F := F)) 𝒱₀ (thr d L) none) Set.univ
          (cc0__grouping_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32)
          fun _ => (iprop((((pV).view.loc (thr d L) ↦{qp} P) ∗ ((iV).view.loc (thr d L) ↦{qi} I0)
      ∗ ((oSlM (k0_off12 L 0#32) (k0_off12_inb L 0)).view.loc (thr d L) ↦[(oSlM (k0_off12 L 0#32) (k0_off12_inb L 0)).view.set]{fullShare} Gout d P I0 hI)
      ∗ ((oSlM (k0_off12 L 1#32) (k0_off12_inb L 1)).view.loc (thr d L) ↦[(oSlM (k0_off12 L 1#32) (k0_off12_inb L 1)).view.set]{fullShare} Gout d P I0 hI)
      ∗ ((oSlM (k0_off12 L 2#32) (k0_off12_inb L 2)).view.loc (thr d L) ↦[(oSlM (k0_off12 L 2#32) (k0_off12_inb L 2)).view.set]{fullShare} Gout d P I0 hI)
      ∗ ((oSlM (k0_off12 L 3#32) (k0_off12_inb L 3)).view.loc (thr d L) ↦[(oSlM (k0_off12 L 3#32) (k0_off12_inb L 3)).view.set]{fullShare} Gout d P I0 hI)
      ∗ ((oSlM (k0_off12 L 4#32) (k0_off12_inb L 4)).view.loc (thr d L) ↦[(oSlM (k0_off12 L 4#32) (k0_off12_inb L 4)).view.set]{fullShare} Gout d P I0 hI)
      ∗ ((oSlM (k0_off12 L 5#32) (k0_off12_inb L 5)).view.loc (thr d L) ↦[(oSlM (k0_off12 L 5#32) (k0_off12_inb L 5)).view.set]{fullShare} Gout d P I0 hI)
      ∗ ((oSlM (k0_off12 L 6#32) (k0_off12_inb L 6)).view.loc (thr d L) ↦[(oSlM (k0_off12 L 6#32) (k0_off12_inb L 6)).view.set]{fullShare} Gout d P I0 hI)
      ∗ ((oSlM (k0_off12 L 7#32) (k0_off12_inb L 7)).view.loc (thr d L) ↦[(oSlM (k0_off12 L 7#32) (k0_off12_inb L 7)).view.set]{fullShare} Gout d P I0 hI)
      ∗ ((oSlM (k0_off12 L 8#32) (k0_off12_inb L 8)).view.loc (thr d L) ↦[(oSlM (k0_off12 L 8#32) (k0_off12_inb L 8)).view.set]{fullShare} Gout d P I0 hI)
      ∗ ((oSlM (k0_off12 L 9#32) (k0_off12_inb L 9)).view.loc (thr d L) ↦[(oSlM (k0_off12 L 9#32) (k0_off12_inb L 9)).view.set]{fullShare} Gout d P I0 hI)
      ∗ ((oSlM (k0_off12 L 10#32) (k0_off12_inb L 10)).view.loc (thr d L) ↦[(oSlM (k0_off12 L 10#32) (k0_off12_inb L 10)).view.set]{fullShare} Gout d P I0 hI)
      ∗ ((oSlM (k0_off12 L 11#32) (k0_off12_inb L 11)).view.loc (thr d L) ↦[(oSlM (k0_off12 L 11#32) (k0_off12_inb L 11)).view.set]{fullShare} Gout d P I0 hI)
      ∗ ((oSlM (k0_off12 L 12#32) (k0_off12_inb L 12)).view.loc (thr d L) ↦[(oSlM (k0_off12 L 12#32) (k0_off12_inb L 12)).view.set]{fullShare} Gout d P I0 hI)
      ∗ ((oSlM (k0_off12 L 13#32) (k0_off12_inb L 13)).view.loc (thr d L) ↦[(oSlM (k0_off12 L 13#32) (k0_off12_inb L 13)).view.set]{fullShare} Gout d P I0 hI)
      ∗ ((oSlM (k0_off12 L 14#32) (k0_off12_inb L 14)).view.loc (thr d L) ↦[(oSlM (k0_off12 L 14#32) (k0_off12_inb L 14)).view.set]{fullShare} Gout d P I0 hI)
      ∗ ((oSlM (k0_off12 L 15#32) (k0_off12_inb L 15)).view.loc (thr d L) ↦[(oSlM (k0_off12 L 15#32) (k0_off12_inb L 15)).view.set]{fullShare} Gout d P I0 hI))
      ∗ (∃ f, (s5).view.loc (thr d L) ↦{fullShare} f) ∗ (∃ f, (s6).view.loc (thr d L) ↦{fullShare} f) ∗ (∃ f, (s7).view.loc (thr d L) ↦{fullShare} f)
      ∗ (semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0 ∗ semVal (thr d L, SemLoc.dma cc0_scoped12.sem) 0 ∗ semVal (thr d L, SemLoc.dma cc0_scoped13.sem) 0 ∗ semVal (thr d L, SemLoc.dma cc0_scoped14.sem) 0 ∗ semVal (thr d L, SemLoc.dma cc0_scoped15.sem) 0 ∗ semVal (thr d L, SemLoc.dma cc0_scoped16.sem) 0 ∗ semVal (thr d L, SemLoc.dma cc0_scoped17.sem) 0 ∗ semVal (thr d L, SemLoc.dma cc0_scoped18.sem) 0 ∗ semVal (thr d L, SemLoc.dma cc0_scoped19.sem) 0 ∗ semVal (thr d L, SemLoc.dma cc0_scoped20.sem) 0 ∗ semVal (thr d L, SemLoc.dma cc0_scoped21.sem) 0 ∗ semVal (thr d L, SemLoc.dma cc0_scoped22.sem) 0 ∗ semVal (thr d L, SemLoc.dma cc0_scoped23.sem) 0 ∗ semVal (thr d L, SemLoc.dma cc0_scoped24.sem) 0 ∗ semVal (thr d L, SemLoc.dma cc0_scoped25.sem) 0 ∗ semVal (thr d L, SemLoc.dma cc0_scoped26.sem) 0 ∗ semVal (thr d L, SemLoc.dma cc0_scoped27.sem) 0 ∗ semVal (thr d L, SemLoc.dma cc0_scoped28.sem) 0 ∗ semVal (thr d L, SemLoc.dma cc0_scoped29.sem) 0 ∗ semVal (thr d L, SemLoc.dma cc0_scoped30.sem) 0 ∗ semVal (thr d L, SemLoc.dma cc0_scoped31.sem) 0 ∗ semVal (thr d L, SemLoc.dma cc0_scoped32.sem) 0)
      ∗ ∃ W', ⌜∀ p ∈ W', p ∈ W ∨ p.2 = none⌝ ∗ owes (thr d L) O W') : sProp 𝕄) := by
  rw [cc0__grouping_body_eq_skeleton]; unfold cc0__grouping_body_skel
  iintro ⟨Hmw, ⟨Hp, Hi, Ho0, Ho1, Ho2, Ho3, Ho4, Ho5, Ho6, Ho7, Ho8, Ho9, Ho10, Ho11, Ho12, Ho13, Ho14, Ho15⟩, ⟨%f5, H5⟩, ⟨%f6, H6⟩, ⟨%f7, H7⟩, ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32⟩, HO⟩
  sl_exec
  -- the index scratch holds the index slab
  ihave H5 := (pts_name _ _ _) $$ H5; icases H5 with ⟨%g5, %hg5, H5⟩
  have h5 : ∀ y, g5 y = I0 ((iSlM (k0_off1 L) (k0_off1_inb L)).view.emb y) := by
    subst hg5; exact idx_scratch_val d L _ _ I0 f5 _ rfl
  have hidx5 : ∀ (a : Fin 1) (y : S32x1024.Idx), (g5 y).toNat < S16384.size a := idx_scratch_range d L I0 hI g5 _ h5

  -- channel row 0: the row scratch holds row 0 of the points; the nest gathers it; the result's row 0 is written out
  ihave H6 := (pts_name _ _ _) $$ H6; icases H6 with ⟨%g6_0, %hg6_0, H6⟩
  have h6_0 : ∀ z, g6_0 z = P ((pSlM (k0_off2 L 0#32) (k0_off2_inb L 0)).view.emb z) := by
    subst hg6_0; exact row_scratch_val d L _ _ P _ _ rfl
  iapply (wp_seq (nest0 d L 0#32 g5 g6_0 hidx5 f7)) $$ [H5 H6 H7]
  · isplitl [H5]; · iexact H5
    isplitl [H6]; · iexact H6
    iexact H7
  iintro %r0 ⟨H5, H6, H7⟩
  sl_exec
  ihave Ho0 := (pts_name _ _ _) $$ Ho0; icases Ho0 with ⟨%go0, %hgo0, Ho0⟩
  have hv0 : ∀ p ∈ (oSlM (k0_off12 L 0#32) (k0_off12_inb L 0)).view.set, go0 p = Gout d P I0 hI p := by
    subst hgo0
    exact out_val d L P I0 hI _ _ _ _ _ _ rfl rfl rfl rfl rfl rfl rfl rfl g5 g6_0 hidx5 h5 h6_0 _ _ rfl
  ihave Ho0 := (Entails.of_eq (pointsTo_congr (q := fullShare) hv0)) $$ Ho0

  -- channel row 1: the row scratch holds row 1 of the points; the nest gathers it; the result's row 1 is written out
  ihave H6 := (pts_name _ _ _) $$ H6; icases H6 with ⟨%g6_1, %hg6_1, H6⟩
  have h6_1 : ∀ z, g6_1 z = P ((pSlM (k0_off2 L 1#32) (k0_off2_inb L 1)).view.emb z) := by
    subst hg6_1; exact row_scratch_val d L _ _ P _ _ rfl
  iapply (wp_seq (nest1 d L 0#32 g5 g6_1 hidx5 (gat d L g5 g6_0 hidx5))) $$ [H5 H6 H7]
  · isplitl [H5]; · iexact H5
    isplitl [H6]; · iexact H6
    iexact H7
  iintro %r1 ⟨H5, H6, H7⟩
  sl_exec
  ihave Ho1 := (pts_name _ _ _) $$ Ho1; icases Ho1 with ⟨%go1, %hgo1, Ho1⟩
  have hv1 : ∀ p ∈ (oSlM (k0_off12 L 1#32) (k0_off12_inb L 1)).view.set, go1 p = Gout d P I0 hI p := by
    subst hgo1
    exact out_val d L P I0 hI _ _ _ _ _ _ rfl rfl rfl rfl rfl rfl rfl rfl g5 g6_1 hidx5 h5 h6_1 _ _ rfl
  ihave Ho1 := (Entails.of_eq (pointsTo_congr (q := fullShare) hv1)) $$ Ho1

  -- channel row 2: the row scratch holds row 2 of the points; the nest gathers it; the result's row 2 is written out
  ihave H6 := (pts_name _ _ _) $$ H6; icases H6 with ⟨%g6_2, %hg6_2, H6⟩
  have h6_2 : ∀ z, g6_2 z = P ((pSlM (k0_off2 L 2#32) (k0_off2_inb L 2)).view.emb z) := by
    subst hg6_2; exact row_scratch_val d L _ _ P _ _ rfl
  iapply (wp_seq (nest2 d L 0#32 g5 g6_2 hidx5 (gat d L g5 g6_1 hidx5))) $$ [H5 H6 H7]
  · isplitl [H5]; · iexact H5
    isplitl [H6]; · iexact H6
    iexact H7
  iintro %r2 ⟨H5, H6, H7⟩
  sl_exec
  ihave Ho2 := (pts_name _ _ _) $$ Ho2; icases Ho2 with ⟨%go2, %hgo2, Ho2⟩
  have hv2 : ∀ p ∈ (oSlM (k0_off12 L 2#32) (k0_off12_inb L 2)).view.set, go2 p = Gout d P I0 hI p := by
    subst hgo2
    exact out_val d L P I0 hI _ _ _ _ _ _ rfl rfl rfl rfl rfl rfl rfl rfl g5 g6_2 hidx5 h5 h6_2 _ _ rfl
  ihave Ho2 := (Entails.of_eq (pointsTo_congr (q := fullShare) hv2)) $$ Ho2

  -- channel row 3: the row scratch holds row 3 of the points; the nest gathers it; the result's row 3 is written out
  ihave H6 := (pts_name _ _ _) $$ H6; icases H6 with ⟨%g6_3, %hg6_3, H6⟩
  have h6_3 : ∀ z, g6_3 z = P ((pSlM (k0_off2 L 3#32) (k0_off2_inb L 3)).view.emb z) := by
    subst hg6_3; exact row_scratch_val d L _ _ P _ _ rfl
  iapply (wp_seq (nest3 d L 0#32 g5 g6_3 hidx5 (gat d L g5 g6_2 hidx5))) $$ [H5 H6 H7]
  · isplitl [H5]; · iexact H5
    isplitl [H6]; · iexact H6
    iexact H7
  iintro %r3 ⟨H5, H6, H7⟩
  sl_exec
  ihave Ho3 := (pts_name _ _ _) $$ Ho3; icases Ho3 with ⟨%go3, %hgo3, Ho3⟩
  have hv3 : ∀ p ∈ (oSlM (k0_off12 L 3#32) (k0_off12_inb L 3)).view.set, go3 p = Gout d P I0 hI p := by
    subst hgo3
    exact out_val d L P I0 hI _ _ _ _ _ _ rfl rfl rfl rfl rfl rfl rfl rfl g5 g6_3 hidx5 h5 h6_3 _ _ rfl
  ihave Ho3 := (Entails.of_eq (pointsTo_congr (q := fullShare) hv3)) $$ Ho3

  -- channel row 4: the row scratch holds row 4 of the points; the nest gathers it; the result's row 4 is written out
  ihave H6 := (pts_name _ _ _) $$ H6; icases H6 with ⟨%g6_4, %hg6_4, H6⟩
  have h6_4 : ∀ z, g6_4 z = P ((pSlM (k0_off2 L 4#32) (k0_off2_inb L 4)).view.emb z) := by
    subst hg6_4; exact row_scratch_val d L _ _ P _ _ rfl
  iapply (wp_seq (nest4 d L 0#32 g5 g6_4 hidx5 (gat d L g5 g6_3 hidx5))) $$ [H5 H6 H7]
  · isplitl [H5]; · iexact H5
    isplitl [H6]; · iexact H6
    iexact H7
  iintro %r4 ⟨H5, H6, H7⟩
  sl_exec
  ihave Ho4 := (pts_name _ _ _) $$ Ho4; icases Ho4 with ⟨%go4, %hgo4, Ho4⟩
  have hv4 : ∀ p ∈ (oSlM (k0_off12 L 4#32) (k0_off12_inb L 4)).view.set, go4 p = Gout d P I0 hI p := by
    subst hgo4
    exact out_val d L P I0 hI _ _ _ _ _ _ rfl rfl rfl rfl rfl rfl rfl rfl g5 g6_4 hidx5 h5 h6_4 _ _ rfl
  ihave Ho4 := (Entails.of_eq (pointsTo_congr (q := fullShare) hv4)) $$ Ho4

  -- channel row 5: the row scratch holds row 5 of the points; the nest gathers it; the result's row 5 is written out
  ihave H6 := (pts_name _ _ _) $$ H6; icases H6 with ⟨%g6_5, %hg6_5, H6⟩
  have h6_5 : ∀ z, g6_5 z = P ((pSlM (k0_off2 L 5#32) (k0_off2_inb L 5)).view.emb z) := by
    subst hg6_5; exact row_scratch_val d L _ _ P _ _ rfl
  iapply (wp_seq (nest5 d L 0#32 g5 g6_5 hidx5 (gat d L g5 g6_4 hidx5))) $$ [H5 H6 H7]
  · isplitl [H5]; · iexact H5
    isplitl [H6]; · iexact H6
    iexact H7
  iintro %r5 ⟨H5, H6, H7⟩
  sl_exec
  ihave Ho5 := (pts_name _ _ _) $$ Ho5; icases Ho5 with ⟨%go5, %hgo5, Ho5⟩
  have hv5 : ∀ p ∈ (oSlM (k0_off12 L 5#32) (k0_off12_inb L 5)).view.set, go5 p = Gout d P I0 hI p := by
    subst hgo5
    exact out_val d L P I0 hI _ _ _ _ _ _ rfl rfl rfl rfl rfl rfl rfl rfl g5 g6_5 hidx5 h5 h6_5 _ _ rfl
  ihave Ho5 := (Entails.of_eq (pointsTo_congr (q := fullShare) hv5)) $$ Ho5

  -- channel row 6: the row scratch holds row 6 of the points; the nest gathers it; the result's row 6 is written out
  ihave H6 := (pts_name _ _ _) $$ H6; icases H6 with ⟨%g6_6, %hg6_6, H6⟩
  have h6_6 : ∀ z, g6_6 z = P ((pSlM (k0_off2 L 6#32) (k0_off2_inb L 6)).view.emb z) := by
    subst hg6_6; exact row_scratch_val d L _ _ P _ _ rfl
  iapply (wp_seq (nest6 d L 0#32 g5 g6_6 hidx5 (gat d L g5 g6_5 hidx5))) $$ [H5 H6 H7]
  · isplitl [H5]; · iexact H5
    isplitl [H6]; · iexact H6
    iexact H7
  iintro %r6 ⟨H5, H6, H7⟩
  sl_exec
  ihave Ho6 := (pts_name _ _ _) $$ Ho6; icases Ho6 with ⟨%go6, %hgo6, Ho6⟩
  have hv6 : ∀ p ∈ (oSlM (k0_off12 L 6#32) (k0_off12_inb L 6)).view.set, go6 p = Gout d P I0 hI p := by
    subst hgo6
    exact out_val d L P I0 hI _ _ _ _ _ _ rfl rfl rfl rfl rfl rfl rfl rfl g5 g6_6 hidx5 h5 h6_6 _ _ rfl
  ihave Ho6 := (Entails.of_eq (pointsTo_congr (q := fullShare) hv6)) $$ Ho6

  -- channel row 7: the row scratch holds row 7 of the points; the nest gathers it; the result's row 7 is written out
  ihave H6 := (pts_name _ _ _) $$ H6; icases H6 with ⟨%g6_7, %hg6_7, H6⟩
  have h6_7 : ∀ z, g6_7 z = P ((pSlM (k0_off2 L 7#32) (k0_off2_inb L 7)).view.emb z) := by
    subst hg6_7; exact row_scratch_val d L _ _ P _ _ rfl
  iapply (wp_seq (nest7 d L 0#32 g5 g6_7 hidx5 (gat d L g5 g6_6 hidx5))) $$ [H5 H6 H7]
  · isplitl [H5]; · iexact H5
    isplitl [H6]; · iexact H6
    iexact H7
  iintro %r7 ⟨H5, H6, H7⟩
  sl_exec
  ihave Ho7 := (pts_name _ _ _) $$ Ho7; icases Ho7 with ⟨%go7, %hgo7, Ho7⟩
  have hv7 : ∀ p ∈ (oSlM (k0_off12 L 7#32) (k0_off12_inb L 7)).view.set, go7 p = Gout d P I0 hI p := by
    subst hgo7
    exact out_val d L P I0 hI _ _ _ _ _ _ rfl rfl rfl rfl rfl rfl rfl rfl g5 g6_7 hidx5 h5 h6_7 _ _ rfl
  ihave Ho7 := (Entails.of_eq (pointsTo_congr (q := fullShare) hv7)) $$ Ho7

  -- channel row 8: the row scratch holds row 8 of the points; the nest gathers it; the result's row 8 is written out
  ihave H6 := (pts_name _ _ _) $$ H6; icases H6 with ⟨%g6_8, %hg6_8, H6⟩
  have h6_8 : ∀ z, g6_8 z = P ((pSlM (k0_off2 L 8#32) (k0_off2_inb L 8)).view.emb z) := by
    subst hg6_8; exact row_scratch_val d L _ _ P _ _ rfl
  iapply (wp_seq (nest8 d L 0#32 g5 g6_8 hidx5 (gat d L g5 g6_7 hidx5))) $$ [H5 H6 H7]
  · isplitl [H5]; · iexact H5
    isplitl [H6]; · iexact H6
    iexact H7
  iintro %r8 ⟨H5, H6, H7⟩
  sl_exec
  ihave Ho8 := (pts_name _ _ _) $$ Ho8; icases Ho8 with ⟨%go8, %hgo8, Ho8⟩
  have hv8 : ∀ p ∈ (oSlM (k0_off12 L 8#32) (k0_off12_inb L 8)).view.set, go8 p = Gout d P I0 hI p := by
    subst hgo8
    exact out_val d L P I0 hI _ _ _ _ _ _ rfl rfl rfl rfl rfl rfl rfl rfl g5 g6_8 hidx5 h5 h6_8 _ _ rfl
  ihave Ho8 := (Entails.of_eq (pointsTo_congr (q := fullShare) hv8)) $$ Ho8

  -- channel row 9: the row scratch holds row 9 of the points; the nest gathers it; the result's row 9 is written out
  ihave H6 := (pts_name _ _ _) $$ H6; icases H6 with ⟨%g6_9, %hg6_9, H6⟩
  have h6_9 : ∀ z, g6_9 z = P ((pSlM (k0_off2 L 9#32) (k0_off2_inb L 9)).view.emb z) := by
    subst hg6_9; exact row_scratch_val d L _ _ P _ _ rfl
  iapply (wp_seq (nest9 d L 0#32 g5 g6_9 hidx5 (gat d L g5 g6_8 hidx5))) $$ [H5 H6 H7]
  · isplitl [H5]; · iexact H5
    isplitl [H6]; · iexact H6
    iexact H7
  iintro %r9 ⟨H5, H6, H7⟩
  sl_exec
  ihave Ho9 := (pts_name _ _ _) $$ Ho9; icases Ho9 with ⟨%go9, %hgo9, Ho9⟩
  have hv9 : ∀ p ∈ (oSlM (k0_off12 L 9#32) (k0_off12_inb L 9)).view.set, go9 p = Gout d P I0 hI p := by
    subst hgo9
    exact out_val d L P I0 hI _ _ _ _ _ _ rfl rfl rfl rfl rfl rfl rfl rfl g5 g6_9 hidx5 h5 h6_9 _ _ rfl
  ihave Ho9 := (Entails.of_eq (pointsTo_congr (q := fullShare) hv9)) $$ Ho9

  -- channel row 10: the row scratch holds row 10 of the points; the nest gathers it; the result's row 10 is written out
  ihave H6 := (pts_name _ _ _) $$ H6; icases H6 with ⟨%g6_10, %hg6_10, H6⟩
  have h6_10 : ∀ z, g6_10 z = P ((pSlM (k0_off2 L 10#32) (k0_off2_inb L 10)).view.emb z) := by
    subst hg6_10; exact row_scratch_val d L _ _ P _ _ rfl
  iapply (wp_seq (nest10 d L 0#32 g5 g6_10 hidx5 (gat d L g5 g6_9 hidx5))) $$ [H5 H6 H7]
  · isplitl [H5]; · iexact H5
    isplitl [H6]; · iexact H6
    iexact H7
  iintro %r10 ⟨H5, H6, H7⟩
  sl_exec
  ihave Ho10 := (pts_name _ _ _) $$ Ho10; icases Ho10 with ⟨%go10, %hgo10, Ho10⟩
  have hv10 : ∀ p ∈ (oSlM (k0_off12 L 10#32) (k0_off12_inb L 10)).view.set, go10 p = Gout d P I0 hI p := by
    subst hgo10
    exact out_val d L P I0 hI _ _ _ _ _ _ rfl rfl rfl rfl rfl rfl rfl rfl g5 g6_10 hidx5 h5 h6_10 _ _ rfl
  ihave Ho10 := (Entails.of_eq (pointsTo_congr (q := fullShare) hv10)) $$ Ho10

  -- channel row 11: the row scratch holds row 11 of the points; the nest gathers it; the result's row 11 is written out
  ihave H6 := (pts_name _ _ _) $$ H6; icases H6 with ⟨%g6_11, %hg6_11, H6⟩
  have h6_11 : ∀ z, g6_11 z = P ((pSlM (k0_off2 L 11#32) (k0_off2_inb L 11)).view.emb z) := by
    subst hg6_11; exact row_scratch_val d L _ _ P _ _ rfl
  iapply (wp_seq (nest11 d L 0#32 g5 g6_11 hidx5 (gat d L g5 g6_10 hidx5))) $$ [H5 H6 H7]
  · isplitl [H5]; · iexact H5
    isplitl [H6]; · iexact H6
    iexact H7
  iintro %r11 ⟨H5, H6, H7⟩
  sl_exec
  ihave Ho11 := (pts_name _ _ _) $$ Ho11; icases Ho11 with ⟨%go11, %hgo11, Ho11⟩
  have hv11 : ∀ p ∈ (oSlM (k0_off12 L 11#32) (k0_off12_inb L 11)).view.set, go11 p = Gout d P I0 hI p := by
    subst hgo11
    exact out_val d L P I0 hI _ _ _ _ _ _ rfl rfl rfl rfl rfl rfl rfl rfl g5 g6_11 hidx5 h5 h6_11 _ _ rfl
  ihave Ho11 := (Entails.of_eq (pointsTo_congr (q := fullShare) hv11)) $$ Ho11

  -- channel row 12: the row scratch holds row 12 of the points; the nest gathers it; the result's row 12 is written out
  ihave H6 := (pts_name _ _ _) $$ H6; icases H6 with ⟨%g6_12, %hg6_12, H6⟩
  have h6_12 : ∀ z, g6_12 z = P ((pSlM (k0_off2 L 12#32) (k0_off2_inb L 12)).view.emb z) := by
    subst hg6_12; exact row_scratch_val d L _ _ P _ _ rfl
  iapply (wp_seq (nest12 d L 0#32 g5 g6_12 hidx5 (gat d L g5 g6_11 hidx5))) $$ [H5 H6 H7]
  · isplitl [H5]; · iexact H5
    isplitl [H6]; · iexact H6
    iexact H7
  iintro %r12 ⟨H5, H6, H7⟩
  sl_exec
  ihave Ho12 := (pts_name _ _ _) $$ Ho12; icases Ho12 with ⟨%go12, %hgo12, Ho12⟩
  have hv12 : ∀ p ∈ (oSlM (k0_off12 L 12#32) (k0_off12_inb L 12)).view.set, go12 p = Gout d P I0 hI p := by
    subst hgo12
    exact out_val d L P I0 hI _ _ _ _ _ _ rfl rfl rfl rfl rfl rfl rfl rfl g5 g6_12 hidx5 h5 h6_12 _ _ rfl
  ihave Ho12 := (Entails.of_eq (pointsTo_congr (q := fullShare) hv12)) $$ Ho12

  -- channel row 13: the row scratch holds row 13 of the points; the nest gathers it; the result's row 13 is written out
  ihave H6 := (pts_name _ _ _) $$ H6; icases H6 with ⟨%g6_13, %hg6_13, H6⟩
  have h6_13 : ∀ z, g6_13 z = P ((pSlM (k0_off2 L 13#32) (k0_off2_inb L 13)).view.emb z) := by
    subst hg6_13; exact row_scratch_val d L _ _ P _ _ rfl
  iapply (wp_seq (nest13 d L 0#32 g5 g6_13 hidx5 (gat d L g5 g6_12 hidx5))) $$ [H5 H6 H7]
  · isplitl [H5]; · iexact H5
    isplitl [H6]; · iexact H6
    iexact H7
  iintro %r13 ⟨H5, H6, H7⟩
  sl_exec
  ihave Ho13 := (pts_name _ _ _) $$ Ho13; icases Ho13 with ⟨%go13, %hgo13, Ho13⟩
  have hv13 : ∀ p ∈ (oSlM (k0_off12 L 13#32) (k0_off12_inb L 13)).view.set, go13 p = Gout d P I0 hI p := by
    subst hgo13
    exact out_val d L P I0 hI _ _ _ _ _ _ rfl rfl rfl rfl rfl rfl rfl rfl g5 g6_13 hidx5 h5 h6_13 _ _ rfl
  ihave Ho13 := (Entails.of_eq (pointsTo_congr (q := fullShare) hv13)) $$ Ho13

  -- channel row 14: the row scratch holds row 14 of the points; the nest gathers it; the result's row 14 is written out
  ihave H6 := (pts_name _ _ _) $$ H6; icases H6 with ⟨%g6_14, %hg6_14, H6⟩
  have h6_14 : ∀ z, g6_14 z = P ((pSlM (k0_off2 L 14#32) (k0_off2_inb L 14)).view.emb z) := by
    subst hg6_14; exact row_scratch_val d L _ _ P _ _ rfl
  iapply (wp_seq (nest14 d L 0#32 0#32 0#32 0#32 g5 g6_14 hidx5 (gat d L g5 g6_13 hidx5))) $$ [H5 H6 H7]
  · isplitl [H5]; · iexact H5
    isplitl [H6]; · iexact H6
    iexact H7
  iintro %r14 ⟨H5, H6, H7⟩
  sl_exec
  ihave Ho14 := (pts_name _ _ _) $$ Ho14; icases Ho14 with ⟨%go14, %hgo14, Ho14⟩
  have hv14 : ∀ p ∈ (oSlM (k0_off12 L 14#32) (k0_off12_inb L 14)).view.set, go14 p = Gout d P I0 hI p := by
    subst hgo14
    exact out_val d L P I0 hI _ _ _ _ _ _ rfl rfl rfl rfl rfl rfl rfl rfl g5 g6_14 hidx5 h5 h6_14 _ _ rfl
  ihave Ho14 := (Entails.of_eq (pointsTo_congr (q := fullShare) hv14)) $$ Ho14

  -- channel row 15: the row scratch holds row 15 of the points; the nest gathers it; the result's row 15 is written out
  ihave H6 := (pts_name _ _ _) $$ H6; icases H6 with ⟨%g6_15, %hg6_15, H6⟩
  have h6_15 : ∀ z, g6_15 z = P ((pSlM (k0_off2 L 15#32) (k0_off2_inb L 15)).view.emb z) := by
    subst hg6_15; exact row_scratch_val d L _ _ P _ _ rfl
  iapply (wp_seq (nest15 d L 0#32 0#32 0#32 0#32 g5 g6_15 hidx5 (gat d L g5 g6_14 hidx5))) $$ [H5 H6 H7]
  · isplitl [H5]; · iexact H5
    isplitl [H6]; · iexact H6
    iexact H7
  iintro %r15 ⟨H5, H6, H7⟩
  sl_exec
  ihave Ho15 := (pts_name _ _ _) $$ Ho15; icases Ho15 with ⟨%go15, %hgo15, Ho15⟩
  have hv15 : ∀ p ∈ (oSlM (k0_off12 L 15#32) (k0_off12_inb L 15)).view.set, go15 p = Gout d P I0 hI p := by
    subst hgo15
    exact out_val d L P I0 hI _ _ _ _ _ _ rfl rfl rfl rfl rfl rfl rfl rfl g5 g6_15 hidx5 h5 h6_15 _ _ rfl
  ihave Ho15 := (Entails.of_eq (pointsTo_congr (q := fullShare) hv15)) $$ Ho15
  sl_step
  isplitl [Hp Hi Ho0 Ho1 Ho2 Ho3 Ho4 Ho5 Ho6 Ho7 Ho8 Ho9 Ho10 Ho11 Ho12 Ho13 Ho14 Ho15]
  · isplitl [Hp]; · iexact Hp
    isplitl [Hi]; · iexact Hi
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  isplitl [H5]; · iexists _; iexact H5
  isplitl [H6]; · iexists _; iexact H6
  isplitl [H7]; · iexists _; iexact H7
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    iexact Hs32
  iexists _
  isplitr
  rotate_left
  · iexact HO
  · ipureintro
    exact wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (fun p hp => Or.inl hp)))))))))))))))))))))))))))))))))

end Cert.Proof.GroupI

end
-- ==== Proof.GroupI.Pieces.lean ====
/-
  The result's rows, as sets. A task at grid point `(c, i)` writes, for each channel row `j`, the row of the result at
  `b = (2i + c) / 4`, `cc = 16 · ((2i + c) mod 4) + j`: all entries `(b, cc, s, q)`. Over the 2 × 16 tasks and their 16
  channel rows these 512 rows are pairwise disjoint and cover the result, so holding the result whole is holding each row.
-/
import proofs.«208723_g16346645529139_cont_week2b_1265_5_alg».proof.Proof.GroupI.Views

noncomputable section

namespace Cert.Proof.GroupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.KernelIdeal.main_arg0_scv : Memref Cert.KernelIdeal.sig Kind.scVector Space.hbm Cert.KernelIdeal.S8x64x16384 EltTy.f32)
local notation "iV" => (Memref.whole Cert.KernelIdeal.main_v0_scv : Memref Cert.KernelIdeal.sig Kind.scVector Space.hbm Cert.KernelIdeal.S8x32x1024 EltTy.i32)
local notation "oV" => (Memref.whole Cert.KernelIdeal.main_v1_scv : Memref Cert.KernelIdeal.sig Kind.scVector Space.hbm Cert.KernelIdeal.S8x64x32x1024 EltTy.f32)
local notation "s5" => (Memref.whole Cert.KernelIdeal.cc0_scratch0 : Memref Cert.KernelIdeal.sig Kind.scVector Space.vmem Cert.KernelIdeal.S32x1024 EltTy.i32)
local notation "s6" => (Memref.whole Cert.KernelIdeal.cc0_scratch1 : Memref Cert.KernelIdeal.sig Kind.scVector Space.vmem Cert.KernelIdeal.S16384 EltTy.f32)
local notation "s7" => (Memref.whole Cert.KernelIdeal.cc0_scratch2 : Memref Cert.KernelIdeal.sig Kind.scVector Space.vmem Cert.KernelIdeal.S32x1024 EltTy.f32)
local notation "𝕄" => MT nD τ sig (HIx 1) (Elt F) ℕ UU ℕ

/-- The offsets of the result's row `j` of the task at `(c, i)`, in closed form: evaluated at each of the 512. -/
theorem off12_cf : ∀ (c : Fin 2) (i : Fin 16) (j : Fin 16),
    k0_off12 (coordsV c i) (BitVec.ofNat 32 j.val) = ![(2 * i.val + c.val) / 4, ((2 * i.val + c.val) % 4) * 16 + j.val, 0, 0] := by
  decide +kernel

/-- The elements of the result's row at offsets `off` (zero on the last two axes): those with the first two coordinates `off`'s. -/
theorem mem_out_row (off : Fin 4 → Nat) (h : ∀ a, off a + S1x1x32x1024.size a ≤ S8x64x32x1024.size a) (e2 : off 2 = 0) (e3 : off 3 = 0)
    (p : S8x64x32x1024.Idx) : p ∈ (oSlM off h).view.set ↔ ((p 0).val = off 0 ∧ (p 1).val = off 1) := by
  have hs : (oSlM off h).view.set = (Rect.unit (s := S8x64x32x1024) off S1x1x32x1024.size h).set := by
    show (((View.whole (main_v1_scv : Ref sig .scVector)).slice (Rect.unit (s := S8x64x32x1024) off S1x1x32x1024.size h)).reshape S32x1024
      squeezes_S1x1x32x1024_S32x1024.numel_eq).set = _
    rw [View.set_reshape, View.set_slice]; exact Finset.map_refl
  rw [hs, Rect.mem_set_unit]
  have h2 : (p 2).val < 32 := (p 2).isLt
  have h3 : (p 3).val < 1024 := (p 3).isLt
  constructor
  · intro H
    have H0 : off 0 ≤ (p 0).val ∧ (p 0).val < off 0 + 1 := H 0
    have H1 : off 1 ≤ (p 1).val ∧ (p 1).val < off 1 + 1 := H 1
    omega
  · rintro ⟨H0, H1⟩ a
    match a with
    | ⟨0, _⟩ => show off 0 ≤ (p 0).val ∧ (p 0).val < off 0 + 1; omega
    | ⟨1, _⟩ => show off 1 ≤ (p 1).val ∧ (p 1).val < off 1 + 1; omega
    | ⟨2, _⟩ => show off 2 ≤ (p 2).val ∧ (p 2).val < off 2 + 32; omega
    | ⟨3, _⟩ => show off 3 ≤ (p 3).val ∧ (p 3).val < off 3 + 1024; omega

/-- Row `j` of the result as the task at grid point `L` addresses it. -/
abbrev pcL (L : grid0.Coords) (j : Fin 16) : Finset S8x64x32x1024.Idx :=
  (oSlM (k0_off12 L (BitVec.ofNat 32 j.val)) (k0_off12_inb L j)).view.set

/-- The 512 rows, indexed by SparseCore, vector subcore and channel row. -/
abbrev pcX (x : Fin 2 × Fin 16 × Fin 16) : Finset S8x64x32x1024.Idx := pcL (coordsV x.1 x.2.1) x.2.2

theorem mem_pcX (c : Fin 2) (i : Fin 16) (j : Fin 16) (p : S8x64x32x1024.Idx) :
    p ∈ pcX (c, i, j) ↔ ((p 0).val = (2 * i.val + c.val) / 4 ∧ (p 1).val = ((2 * i.val + c.val) % 4) * 16 + j.val) := by
  have e := off12_cf c i j
  rw [show pcX (c, i, j) = (oSlM (k0_off12 (coordsV c i) (BitVec.ofNat 32 j.val)) (k0_off12_inb (coordsV c i) j)).view.set from rfl,
    mem_out_row _ _ (by rw [e]; rfl) (by rw [e]; rfl), e]
  rfl

theorem pcX_disjoint : ∀ x ∈ (Finset.univ : Finset (Fin 2 × Fin 16 × Fin 16)), ∀ y ∈ (Finset.univ : Finset (Fin 2 × Fin 16 × Fin 16)),
    x ≠ y → Disjoint (pcX x) (pcX y) := by
  rintro ⟨c, i, j⟩ - ⟨c', i', j'⟩ - hne
  refine Finset.disjoint_left.mpr fun p hp hp' => hne ?_
  rw [mem_pcX] at hp hp'
  have hc := c.isLt; have hi := i.isLt; have hj := j.isLt
  have hc' := c'.isLt; have hi' := i'.isLt; have hj' := j'.isLt
  have h1 : c.val = c'.val := by omega
  have h2 : i.val = i'.val := by omega
  have h3 : j.val = j'.val := by omega
  exact Prod.ext (Fin.ext h1) (Prod.ext (Fin.ext h2) (Fin.ext h3))

theorem pcX_cover : (Finset.univ : Finset (Fin 2 × Fin 16 × Fin 16)).biUnion pcX = Finset.univ := by
  ext p
  simp only [Finset.mem_biUnion, Finset.mem_univ, true_and, iff_true]
  have h0 : (p 0).val < 8 := (p 0).isLt
  have h1 : (p 1).val < 64 := (p 1).isLt
  refine ⟨(⟨(4 * (p 0).val + (p 1).val / 16) % 2, by omega⟩, ⟨(4 * (p 0).val + (p 1).val / 16) / 2, by omega⟩, ⟨(p 1).val % 16, by omega⟩), ?_⟩
  rw [mem_pcX]
  show (p 0).val = (2 * ((4 * (p 0).val + (p 1).val / 16) / 2) + (4 * (p 0).val + (p 1).val / 16) % 2) / 4
    ∧ (p 1).val = ((2 * ((4 * (p 0).val + (p 1).val / 16) / 2) + (4 * (p 0).val + (p 1).val / 16) % 2) % 4) * 16 + (p 1).val % 16
  omega

variable (d : Dev nD)

/-- The result held whole is its 512 rows held. -/
theorem oPts_pieces (f : Buf (Elt F) (oLoc d)) :
    (oLoc d ↦{fullShare} f : sProp 𝕄) = bigSep Finset.univ fun x : Fin 2 × Fin 16 × Fin 16 => oLoc d ↦[pcX x]{fullShare} f := by
  rw [← pointsTo_biUnion Finset.univ (ℓ := oLoc d) pcX pcX_disjoint, pcX_cover]; try rfl

end Cert.Proof.GroupI

end
-- ==== Proof.GroupI.Launch.lean ====
/-
  The launch of the gathering kernel. The TensorCore transposes the indices, starts both SparseCores, waits for them and
  transposes the result. Each of the 32 vector subcores is handed a read share of the points and of the transposed
  indices (every task reads its own channel rows of the points, and four tasks read each index slab) and its sixteen
  rows of the result outright; it hands them back with the rows at `Gout`. The copies a task makes are its own: no
  thread signals another beyond the launch's handshakes, so the ghost state is the handshakes' beside the transfers' counters.
-/
import proofs.«208723_g16346645529139_cont_week2b_1265_5_alg».proof.Proof.GroupI.Body
import proofs.«208723_g16346645529139_cont_week2b_1265_5_alg».proof.Proof.GroupI.Pieces

noncomputable section

namespace Cert.Proof.GroupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.KernelIdeal.main_arg0_scv : Memref Cert.KernelIdeal.sig Kind.scVector Space.hbm Cert.KernelIdeal.S8x64x16384 EltTy.f32)
local notation "iV" => (Memref.whole Cert.KernelIdeal.main_v0_scv : Memref Cert.KernelIdeal.sig Kind.scVector Space.hbm Cert.KernelIdeal.S8x32x1024 EltTy.i32)
local notation "oV" => (Memref.whole Cert.KernelIdeal.main_v1_scv : Memref Cert.KernelIdeal.sig Kind.scVector Space.hbm Cert.KernelIdeal.S8x64x32x1024 EltTy.f32)
local notation "s5" => (Memref.whole Cert.KernelIdeal.cc0_scratch0 : Memref Cert.KernelIdeal.sig Kind.scVector Space.vmem Cert.KernelIdeal.S32x1024 EltTy.i32)
local notation "s6" => (Memref.whole Cert.KernelIdeal.cc0_scratch1 : Memref Cert.KernelIdeal.sig Kind.scVector Space.vmem Cert.KernelIdeal.S16384 EltTy.f32)
local notation "s7" => (Memref.whole Cert.KernelIdeal.cc0_scratch2 : Memref Cert.KernelIdeal.sig Kind.scVector Space.vmem Cert.KernelIdeal.S32x1024 EltTy.f32)
local notation "𝕄" => MT nD τ sig (HIx 1) (Elt F) ℕ UU ℕ

/-! ## What the arrays hold -/

/-- @main's two transposes, as the program writes them. -/
abbrev tr1 : (⟨S8x1024x32, .i32⟩ : BufTy).Contents (Elt F) → (⟨S8x32x1024, .i32⟩ : BufTy).Contents (Elt F) :=
  (transpose S8x32x1024 [0, 2, 1] · transposes_S8x1024x32_S8x32x1024_0_2_1)
abbrev tr2 : (⟨S8x64x32x1024, .f32⟩ : BufTy).Contents (Elt F) → (⟨S8x64x1024x32, .f32⟩ : BufTy).Contents (Elt F) :=
  (transpose S8x64x1024x32 [0, 1, 3, 2] · transposes_S8x64x32x1024_S8x64x1024x32_0_1_3_2)

variable (m : (ℓ : Loc nD τ sig) → Buf (Elt F) ℓ) (ρ : Dev nD → PrngReg)

/-- The transposed indices: what the kernel's second operand holds when the kernel starts. -/
abbrev Iv (d : Dev nD) : Buf (Elt F) (iLoc d) := tr1 (m (aLoc d))

/-- What the proof asks of the launch memory: every index names a point. -/
def PreOK : Prop := ∀ (d : Dev nD) (q : S8x32x1024.Idx), (Iv m d q).toNat < 16384

variable (hI : PreOK m)

/-- What the kernel leaves in its result. -/
abbrev GoutD (d : Dev nD) : Buf (Elt F) (oLoc d) := Gout d (m (pLoc d)) (Iv m d) (hI d)

/-! ## Shares and payloads -/

abbrev q2 (c : Fin 2) : PosShare TreeShare := Transfers.shareTok fullShare 2 c
abbrev q32 (c : Fin 2) (i : Fin 16) : PosShare TreeShare := Transfers.shareTok (q2 c) 16 i

/-- A task's operands: the two read shares and its sixteen rows of the result at `fo`. -/
def tileGo (d : Dev nD) (L : grid0.Coords) (q : PosShare TreeShare) (fo : Buf (Elt F) (oLoc d)) : sProp 𝕄 :=
  iprop((pLoc d ↦{q} m (pLoc d)) ∗ (iLoc d ↦{q} Iv m d) ∗ bigSep Finset.univ fun j : Fin 16 => oLoc d ↦[pcL L j]{fullShare} fo)
/-- A SparseCore's operands: its read shares and its sixteen tasks' rows. -/
def coreSt (d : Dev nD) (c : Fin 2) (fo : Buf (Elt F) (oLoc d)) : sProp 𝕄 :=
  iprop((pLoc d ↦{q2 c} m (pLoc d)) ∗ (iLoc d ↦{q2 c} Iv m d)
    ∗ bigSep Finset.univ fun i : Fin 16 => bigSep Finset.univ fun j : Fin 16 => oLoc d ↦[pcL (coordsV c i) j]{fullShare} fo)

/-- The operands of the task of vector subcore `i` of SparseCore `c`. -/
abbrev goOf (d : Dev nD) (c : Fin 2) (i : Fin 16) (fo : Buf (Elt F) (oLoc d)) : sProp 𝕄 := tileGo m d (coordsV c i) (q32 c i) fo

instance tileGo_storable (d : Dev nD) (L : grid0.Coords) (q : PosShare TreeShare) (fo : Buf (Elt F) (oLoc d)) :
    BI.Storable (upEmb : UEmb _ 𝕄) (tileGo m d L q fo) := by unfold tileGo; infer_instance
instance coreSt_storable (d : Dev nD) (c : Fin 2) (fo : Buf (Elt F) (oLoc d)) :
    BI.Storable (upEmb : UEmb _ 𝕄) (coreSt m d c fo) := by unfold coreSt; infer_instance

def P : (K (F := F)).Pay (nD := nD) (Val := Elt F) (Name := ℕ) (U := UU) where
  st := fun q d c => match q with | 0 => coreSt m d (Fin.cast nCore_zero c) (m (oLoc d))
  dn := fun q d c => match q with | 0 => coreSt m d (Fin.cast nCore_zero c) (GoutD m hI d)
  go := fun q d c i => match q with
    | 0 => goOf m d (Fin.cast nCore_zero c) (Fin.cast nSub_zero i) (m (oLoc d))
  td := fun q d c i => match q with
    | 0 => goOf m d (Fin.cast nCore_zero c) (Fin.cast nSub_zero i) (GoutD m hI d)
  x := fun _ _ => iprop(emp)

instance P_storable : (P (F := F) m hI).IsStorable where
  st q d c := match q with | 0 => coreSt_storable m d _ _
  dn q d c := match q with | 0 => coreSt_storable m d _ _
  go q d c i := match q with | 0 => tileGo_storable m d _ _ _
  td q d c i := match q with | 0 => tileGo_storable m d _ _ _

/-! ## Families over `Fin 16` and `Fin 33`, spelt out -/

omit m hI in
theorem bigSep_fin16 (Φ : Fin 16 → sProp 𝕄) :
    bigSep (Finset.univ : Finset (Fin 16)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit m hI in
theorem bigSep_fin33 (Φ : Fin 33 → sProp 𝕄) :
    bigSep (Finset.univ : Finset (Fin 33)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32) := by
  rw [show (Finset.univ : Finset (Fin 33)) = {0, 1, 2, 3, 4, 5, 6, 7, 8, 9, 10, 11, 12, 13, 14, 15, 16, 17, 18, 19, 20, 21, 22, 23, 24, 25, 26, 27, 28, 29, 30, 31, 32} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## A vector subcore's own semaphores and scratch -/

section Tile

variable (d : Dev nD) (L : grid0.Coords)

/-- The DMA semaphores of a thread, as cells. -/
abbrev dmaCells (t : Thread nD τ) : Finset (GSem nD τ sig) := Finset.univ.image fun k : Fin 33 => ((t, SemLoc.dma k) : GSem nD τ sig)

omit m hI in
/-- Every DMA semaphore of a vector subcore is scoped to its task. -/
theorem dma_scoped : ∀ k : Fin 33, (SemLoc.dma k : SemLoc sig).isScoped .scVector = true := by decide

omit m hI in
theorem dmaCells_sub : dmaCells (thr d L) ⊆ ownCells (thr d L) := by
  intro g hg
  obtain ⟨k, -, rfl⟩ := Finset.mem_image.mp hg
  exact mem_ownCells.mpr ⟨rfl, dma_scoped k⟩

omit m hI in
/-- The subcore's 33 DMA semaphores at zero, and its other scoped cells. -/
theorem ownSems0_V :
    (ownSems0 (thr d L) : sProp 𝕄)
      = iprop((semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0 ∗ semVal (thr d L, SemLoc.dma cc0_scoped12.sem) 0 ∗ semVal (thr d L, SemLoc.dma cc0_scoped13.sem) 0 ∗ semVal (thr d L, SemLoc.dma cc0_scoped14.sem) 0 ∗ semVal (thr d L, SemLoc.dma cc0_scoped15.sem) 0 ∗ semVal (thr d L, SemLoc.dma cc0_scoped16.sem) 0 ∗ semVal (thr d L, SemLoc.dma cc0_scoped17.sem) 0 ∗ semVal (thr d L, SemLoc.dma cc0_scoped18.sem) 0 ∗ semVal (thr d L, SemLoc.dma cc0_scoped19.sem) 0 ∗ semVal (thr d L, SemLoc.dma cc0_scoped20.sem) 0 ∗ semVal (thr d L, SemLoc.dma cc0_scoped21.sem) 0 ∗ semVal (thr d L, SemLoc.dma cc0_scoped22.sem) 0 ∗ semVal (thr d L, SemLoc.dma cc0_scoped23.sem) 0 ∗ semVal (thr d L, SemLoc.dma cc0_scoped24.sem) 0 ∗ semVal (thr d L, SemLoc.dma cc0_scoped25.sem) 0 ∗ semVal (thr d L, SemLoc.dma cc0_scoped26.sem) 0 ∗ semVal (thr d L, SemLoc.dma cc0_scoped27.sem) 0 ∗ semVal (thr d L, SemLoc.dma cc0_scoped28.sem) 0 ∗ semVal (thr d L, SemLoc.dma cc0_scoped29.sem) 0 ∗ semVal (thr d L, SemLoc.dma cc0_scoped30.sem) 0 ∗ semVal (thr d L, SemLoc.dma cc0_scoped31.sem) 0 ∗ semVal (thr d L, SemLoc.dma cc0_scoped32.sem) 0)
          ∗ bigSep (ownCells (thr d L) \ dmaCells (thr d L)) fun g => semVal g 0) := by
  unfold SparseCore.Cfg.ownSems0
  rw [SparseCore.bigSep_sdiff_split' (dmaCells_sub d L),
    show dmaCells (thr d L) = Finset.univ.image (fun k : Fin 33 => ((thr d L, SemLoc.dma k) : GSem nD τ sig)) from rfl,
    SparseCore.bigSep_image_of_injOn (s := (Finset.univ : Finset (Fin 33))) (f := fun k : Fin 33 => ((thr d L, SemLoc.dma k) : GSem nD τ sig))
      (fun a _ b _ e => SemLoc.dma.inj (Prod.mk.inj e).2) (fun g : GSem nD τ sig => (semVal g 0 : sProp 𝕄)), bigSep_fin33]
  rfl

omit m hI in
/-- The three scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- A task, from what the launch hands it to what it hands back. -/
theorem tile_task (hF : (K (F := F)).Facts) (q : PosShare TreeShare) (O : CellTallies nD τ sig (HIx 1)) (W : Waits sig (HIx 1))
    (hO : ∀ g, O g none = 0) :
    iprop(levAts (K (F := F)).L (K (F := F)).lev ∗ emp ∗ tileGo m d L q (m (oLoc d))
        ∗ scopedBufs (thr d L) ∗ scopedSems0 (thr d L) ∗ owes (thr d L) O W)
      ⊢ wp frame (wpE (defs₀ (F := F)) 𝒱₀ (thr d L) none) Set.univ
          (cc0__grouping_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32)
          fun _ => iprop(tileGo m d L q (GoutD m hI d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tileGo
  rw [bigSep_fin16, bigSep_fin16]
  iintro ⟨#Hlv, -, HG, ⟨H5, H6, H7, Hbufs⟩, ⟨HS, Hsems⟩, HO⟩
  ihave Hmw := ((K (F := F)).mayWaits_none (thr := thr d L) hO) $$ Hlv
  ihave Hwp := (tile_body d L O W (m (pLoc d)) (Iv m d) (m (oLoc d)) q q (hI d)) $$ [Hmw HG H5 H6 H7 HS HO]
  · isplitl [Hmw]; · iexact Hmw
    isplitl [HG]; · iexact HG
    isplitl [H5]; · iexact H5
    isplitl [H6]; · iexact H6
    isplitl [H7]; · iexact H7
    isplitl [HS]; · iexact HS
    iexact HO
  iapply (wp_wand frame _ _) $$ Hwp
  iintro %r ⟨HG, H5, H6, H7, HS, HW⟩
  isplitl [HG]; · iexact HG
  isplitl [H5 H6 H7 Hbufs]
  · isplitl [H5]; · iexact H5
    isplitl [H6]; · iexact H6
    isplitl [H7]; · iexact H7
    iexact Hbufs
  isplitl [HS Hsems]
  · isplitl [HS]; · iexact HS
    iexact Hsems
  iexact HW

end Tile

/-! ## The launch theorem's obligations -/

omit m hI in
theorem defs₀_vector [FloatOps F] (c : Fin τ.nSC) (s : Fin τ.nSub) :
    defs₀ (F := F) (.scVector c s) 0 ()
      = SparseCore.onTile hcore0 hsub0 (fun c s => cc0__grouping_body (coordsV c s) pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32) ⟨⟩ c s := rfl

omit m hI in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (hF : (K (F := F)).Facts) : (K (F := F)).TileObl (D (F := F)) 𝒱 (P m hI) v₀ 0 := by
  intro d c i O W hO _ _
  simp only [show (P m hI).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m hI d (coordsV ⟨_, hc.1⟩ ⟨_, hc.2⟩) hF _ O W hO).trans (wp_mono frame _ _ fun _ => obl_post)

omit m hI in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands split among its sixteen tasks, and gather from them. -/
theorem vecSplit : (K (F := F)).VecSplit' (P m hI) 0 := by
  intro d c
  show coreSt m d (Fin.cast nCore_zero c) (m (oLoc d)) ⊢ |={Set.univ}=> iprop(
      (bigSep Finset.univ fun i : Fin ((K (F := F)).nSub 0) => goOf m d (Fin.cast nCore_zero c) (Fin.cast nSub_zero i) (m (oLoc d)))
      ∗ ((bigSep Finset.univ fun i : Fin ((K (F := F)).nSub 0) => goOf m d (Fin.cast nCore_zero c) (Fin.cast nSub_zero i) (GoutD m hI d))
          -∗ coreSt m d (Fin.cast nCore_zero c) (GoutD m hI d)))
  generalize Fin.cast nCore_zero c = c'
  rw [bigSep_tasks (F := F) (fun i => goOf m d c' i (m (oLoc d))), bigSep_tasks (F := F) (fun i => goOf m d c' i (GoutD m hI d))]
  unfold coreSt goOf tileGo
  rw [bigSep_sep', bigSep_sep', bigSep_sep', bigSep_sep']
  iintro ⟨Hp, Hi, Ho⟩
  ihave Hp := (Transfers.pointsTo_toks_split (q2 c') 16) $$ Hp
  icases Hp with ⟨Hpr, Hpt⟩
  ihave Hi := (Transfers.pointsTo_toks_split (q2 c') 16) $$ Hi
  icases Hi with ⟨Hir, Hit⟩
  imodintro
  isplitl [Hpt Hit Ho]
  · isplitl [Hpt]; · iexact Hpt
    isplitl [Hit]; · iexact Hit
    iexact Ho
  iintro ⟨Hpt, Hit, Ho⟩
  isplitl [Hpr Hpt]
  · iapply (Transfers.pointsTo_toks_join (q2 c') 16)
    isplitl [Hpr]; · iexact Hpr
    iexact Hpt
  isplitl [Hir Hit]
  · iapply (Transfers.pointsTo_toks_join (q2 c') 16)
    isplitl [Hir]; · iexact Hir
    iexact Hit
  iexact Ho

/-! ## The launch element: the handshakes' rounds; nothing of the kernel's own -/

def u₀ : UU := (initOf (K (F := F)).hsCells (K (F := F)).hsToks, 1)

omit m hI in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hI).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev p' : DevRef τ sig := Proc.devRef .tc (main_arg0 : Ref sig .tc)
abbrev a' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev op1 : HloOp τ sig (Elt F) := StableHlo.unary main_arg1 main_v0 (tr1 (F := F))
abbrev op2 : HloOp τ sig (Elt F) := StableHlo.unary main_v1 main_v2 (tr2 (F := F))

/-- The launch valuation. -/
def V0 (d : Dev nD) : Valuation τ sig (Elt F) := fun b => m (d, b)

omit m hI in
theorem unscopedBufs_eq (d : Dev nD) (W : (b : Ref sig .tc) → Buf (Elt F) ((d.tc : Thread nD τ).loc b)) :
    (unscopedBufs d W : sProp 𝕄) = iprop((pLoc d ↦{fullShare} W main_arg0) ∗ (aLoc d ↦{fullShare} W main_arg1) ∗ (iLoc d ↦{fullShare} W main_v0)
      ∗ (oLoc d ↦{fullShare} W main_v1) ∗ (rLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit m hI in
/-- Two buffers held. -/
theorem held_two (d : Dev nD) (x y : DevRef τ sig) (h : x ≠ y) (V : Valuation τ sig (Elt F)) :
    (held (T d) {x, y} V : sProp 𝕄) = iprop((((d, x) : Loc nD τ sig) ↦{fullShare} V x) ∗ (((d, y) : Loc nD τ sig) ↦{fullShare} V y)) := by
  unfold held
  rw [SparseCore.bigSep_insert' (by rw [Finset.mem_singleton]; exact h), bigSep_singleton]

/-- What @main leaves the claim: the arguments at their launch contents, the result at the transposed `Gout`. -/
abbrev FIN (d : Dev nD) : sProp 𝕄 :=
  iprop((pLoc d ↦{fullShare} m (pLoc d)) ∗ (aLoc d ↦{fullShare} m (aLoc d)) ∗ (rLoc d ↦{fullShare} tr2 (GoutD m hI d)))

/-- After the first transpose the indices are unchanged and the kernel's second operand holds them transposed. -/
theorem res1_a (d : Dev nD) : (op1 (F := F)).result (V0 m d) a' = m (aLoc d) :=
  StableHlo.unary_result_ne (τ := τ) (x := main_arg1) (y := main_v0) (tr1 (F := F)) _ _ (V0 m d) (r := main_arg1) (by decide)
theorem res1_i (d : Dev nD) : (op1 (F := F)).result (V0 m d) i' = Iv m d :=
  StableHlo.unary_result main_arg1 main_v0 (tr1 (F := F)) _ _ (V0 m d)

/-- The valuation at the second transpose: the kernel's result at `Gout`. -/
def V2 (d : Dev nD) : Valuation τ sig (Elt F) := Function.update (V0 m d) o' (GoutD m hI d)
theorem V2_o (d : Dev nD) : V2 m hI d o' = GoutD m hI d := Function.update_self _ _ _
theorem V2_r (d : Dev nD) : V2 m hI d r' = m (rLoc d) := Function.update_of_ne (show r' ≠ o' by decide) _ _
theorem res2_o (d : Dev nD) : (op2 (F := F)).result (V2 m hI d) o' = GoutD m hI d :=
  (StableHlo.unary_result_ne (τ := τ) (x := main_v1) (y := main_v2) (tr2 (F := F)) _ _ (V2 m hI d) (r := main_v1) (by decide)).trans (V2_o m hI d)
theorem res2_r (d : Dev nD) : (op2 (F := F)).result (V2 m hI d) r' = tr2 (GoutD m hI d) :=
  (StableHlo.unary_result main_v1 main_v2 (tr2 (F := F)) _ _ (V2 m hI d)).trans (congrArg tr2 (V2_o m hI d))

omit hI in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The operands of the two SparseCores, from the three arrays held whole, with what is kept of the read shares; and back. -/
theorem cores_split (d : Dev nD) (fo : Buf (Elt F) (oLoc d)) :
    iprop((pLoc d ↦{fullShare} m (pLoc d)) ∗ (iLoc d ↦{fullShare} Iv m d) ∗ (oLoc d ↦{fullShare} fo))
      ⊣⊢ iprop(((pLoc d ↦{Transfers.shareDrop fullShare 2} m (pLoc d)) ∗ (iLoc d ↦{Transfers.shareDrop fullShare 2} Iv m d))
          ∗ bigSep Finset.univ fun c : Fin 2 => coreSt m d c fo) := by
  unfold coreSt
  rw [bigSep_sep', bigSep_sep', oPts_pieces d fo, bigSep_univ_prod, bigSep_congr (fun c _ => bigSep_univ_prod _)]
  constructor
  · iintro ⟨Hp, Hi, Ho⟩
    ihave Hp := (Transfers.pointsTo_toks_split fullShare 2) $$ Hp
    icases Hp with ⟨Hpr, Hpt⟩
    ihave Hi := (Transfers.pointsTo_toks_split fullShare 2) $$ Hi
    icases Hi with ⟨Hir, Hit⟩
    isplitl [Hpr Hir]
    · isplitl [Hpr]; · iexact Hpr
      iexact Hir
    isplitl [Hpt]; · iexact Hpt
    isplitl [Hit]; · iexact Hit
    iexact Ho
  · iintro ⟨⟨Hpr, Hir⟩, Hpt, Hit, Ho⟩
    isplitl [Hpr Hpt]
    · iapply (Transfers.pointsTo_toks_join fullShare 2)
      isplitl [Hpr]; · iexact Hpr
      iexact Hpt
    isplitl [Hir Hit]
    · iapply (Transfers.pointsTo_toks_join fullShare 2)
      isplitl [Hir]; · iexact Hir
      iexact Hit
    iexact Ho

theorem st0_eq (d : Dev nD) :
    (bigSep Finset.univ fun c : Fin ((K (F := F)).nCore 0) => (P m hI).st 0 d c) = bigSep Finset.univ fun c : Fin 2 => coreSt m d c (m (oLoc d)) :=
  bigSep_cores (F := F) (fun c => coreSt m d c (m (oLoc d)))
theorem dn0_eq (d : Dev nD) :
    (bigSep Finset.univ fun c : Fin ((K (F := F)).nCore 0) => (P m hI).dn 0 d c) = bigSep Finset.univ fun c : Fin 2 => coreSt m d c (GoutD m hI d) :=
  bigSep_cores (F := F) (fun c => coreSt m d c (GoutD m hI d))

/-- @main on device `d`'s TensorCore: the indices transposed, the call, the result transposed; the arguments kept. -/
theorem hmain [FloatOps F] (κ : GSem nD τ sig → ℕ) (d : Dev nD) :
    iprop((K (F := F)).ctx EH (P m hI) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hI d) := by
  unfold SparseCore.Cfg.tcRes
  rw [unscopedBufs_eq]
  simp only [main, wp_bind, wp_pure]
  iintro ⟨#Hctx, Hst, ⟨Hb, ⟨Hp, Ha, Hi, Ho, Hr⟩, -, -⟩, -⟩
  -- the first transpose
  iapply (wp_hlo_within 𝒱 (SparseCore.T d) none Set.univ (op := op1) (S := {a', i'}) (Finset.Subset.refl _) (V := V0 m d)) $$ [Hb Ha Hi]
  · isplitl [Hb]; · iexact Hb
    rw [held_two d a' i' (by decide)]
    isplitl [Ha]; · iexact Ha
    iexact Hi
  iintro ⟨Hb, Hh⟩
  ihave Hh := (Entails.of_eq (held_two (F := F) d a' i' (by decide) _)) $$ Hh
  icases Hh with ⟨Ha, Hi⟩
  rw [res1_a, res1_i, wp_ret]
  imodintro
  -- the call: each SparseCore its read shares and its tasks' rows; back with the rows at `Gout`
  ihave Hall := (cores_split m d (m (oLoc d))).1 $$ [Hp Hi Ho]
  · isplitl [Hp]; · iexact Hp
    isplitl [Hi]; · iexact Hi
    iexact Ho
  icases Hall with ⟨Hkeep, Hcores⟩
  iapply ((K (F := F)).wp_run (D (F := F)) 𝒱 (EH := EH) (P := P m hI) κ d 0) $$ [Hst Hcores Hkeep Ha Hb Hr]
  isplitr; · iexact Hctx
  isplitl [Hst]; · iexact Hst
  isplitl [Hcores]
  · rw [st0_eq]; iexact Hcores
  iintro ⟨Hst, Hdn⟩
  ihave Hdn := (Entails.of_eq (dn0_eq m hI d)) $$ Hdn
  ihave Hall := (cores_split m d (GoutD m hI d)).2 $$ [Hkeep Hdn]
  · isplitl [Hkeep]; · iexact Hkeep
    iexact Hdn
  icases Hall with ⟨Hp, Hi, Ho⟩
  -- the second transpose
  iapply (wp_hlo_within 𝒱 (SparseCore.T d) none Set.univ (op := op2) (S := {o', r'}) (Finset.Subset.refl _) (V := V2 m hI d)) $$ [Hb Ho Hr]
  · isplitl [Hb]; · iexact Hb
    rw [held_two d o' r' (by decide), V2_o, V2_r]
    isplitl [Ho]; · iexact Ho
    iexact Hr
  iintro ⟨Hb, Hh⟩
  ihave Hh := (Entails.of_eq (held_two (F := F) d o' r' (by decide) _)) $$ Hh
  icases Hh with ⟨Ho, Hr⟩
  rw [res2_r, wp_ret]
  imodintro; imodintro
  isplitl [Hst]; · iexact Hst
  isplitl [Hp]; · iexact Hp
  isplitl [Ha]; · iexact Ha
  iexact Hr

/-- What the final memory holds, read off what @main leaves. -/
def fq (d : Dev nD) (s' : Phys nD τ sig (Elt F)) : Prop :=
  s'.mem.mem (pLoc d) = m (pLoc d) ∧ s'.mem.mem (aLoc d) = m (aLoc d) ∧ s'.mem.mem (rLoc d) = tr2 (GoutD m hI d)

theorem hfin (d : Dev nD) (s' : Phys nD τ sig (Elt F)) : iprop(FIN m hI d ∗ SI s') ⊢ (⌜fq m hI d s'⌝ : sProp 𝕄) := by
  iintro ⟨⟨Hp, Ha, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := tr2 (GoutD m hI d))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The run's post: the result at the transposed `Gout`, the arguments unchanged. -/
def QC : PUnit × MemSt nD τ sig (Elt F) → Prop := fun r => ∀ c : Dev nD,
  r.2.mem (rLoc c) = tr2 (GoutD m hI c) ∧ r.2.mem (pLoc c) = m (pLoc c) ∧ r.2.mem (aLoc c) = m (aLoc c)

theorem run_main [FloatOps F] [∀ e, Nonempty (Elt F e)] :
    θ_run (Cert.KernelIdeal.defs (F := F)) (Cert.KernelIdeal.threads (F := F)) ⟨m, fun _ => 0, ρ⟩ (QC m hI) :=
  SparseCore.Cfg.θ_run_sc (K := K (F := F)) (D := D (F := F)) (𝒱 := 𝒱) (EH := EH) (P := P m hI) facts v₀
    (fun q hq => match q with | 0 => nomatch hq)
    (fun q _ => match q with | 0 => tileObl m hI facts)
    (fun q _ => match q with | 0 => SparseCore.Cfg.VecSplit.of_plain (vecSplit m hI))
    m ρ main (fun _ => iprop(emp)) (FIN m hI) (u₀ (F := F)) (sep_elim_left.trans (hu₀ m hI)) (hmain m ρ hI) (fq m hI) (hfin m hI) (QC m hI)
    (fun _ h c => ⟨(h c).2.2, (h c).1, (h c).2.1⟩)

end Cert.Proof.GroupI

end
-- ==== Proof.Spec.lean ====
/-
  The function both programs compute: for points `P` of shape [8, 64, 16384] and indices `A` of shape [8, 1024, 32]
  naming lanes of the last axis, the array of shape [8, 64, 1024, 32] whose entry `(b, c, q, s)` is `P (b, c, A (b, q, s))`.
-/
import Idealize.ShloMosaic.Lib.ValueIdx

namespace Cert.Proof.Spec

open Idealize.ShloMosaic Idealize.ShloMosaic.ValueIdx

/-- The points taken along their last axis at the indices. -/
def takeAlong {α : Type} (P : (⟨3, ![8, 64, 16384]⟩ : Shape).Idx → α) (A : (⟨3, ![8, 1024, 32]⟩ : Shape).Idx → BitVec 32)
    (hA : ∀ p, (A p).toNat < 16384) : (⟨4, ![8, 64, 1024, 32]⟩ : Shape).Idx → α :=
  fun i => P (ix3 (i 0 : Fin 8) (i 1 : Fin 64) (⟨(A (ix3 (i 0 : Fin 8) (i 2 : Fin 1024) (i 3 : Fin 32))).toNat, hA _⟩ : Fin 16384))

/-- A signed word between 0 and 16383 is its unsigned value, below 16384. -/
theorem word_range (w : BitVec 32) (h0 : IntOp.cmpi .sge w 0#32 = 1#1) (h1 : IntOp.cmpi .sle w 16383#32 = 1#1) :
    w.toNat < 16384 ∧ w.toInt = (w.toNat : Int) := by
  have hb : ∀ b : Bool, BitVec.ofBool b = 1#1 ↔ b = true := by decide
  unfold IntOp.cmpi at h0 h1
  rw [hb] at h0 h1
  simp only [BitVec.sle, decide_eq_true_eq] at h0 h1
  have h32 := w.isLt
  have e0 : (0#32 : BitVec 32).toInt = 0 := by decide
  have e1 : (16383#32 : BitVec 32).toInt = 16383 := by decide
  rw [e0] at h0; rw [e1] at h1
  unfold BitVec.toInt at h0 h1 ⊢
  split at h0 <;> split at h1 <;> simp at h0 h1 ⊢ <;> omega

end Cert.Proof.Spec
-- ==== Proof.GroupI.Result.lean ====
/-
  What the kernel's program leaves in its result, as the function both programs compute: transposing the indices,
  gathering the points at them row by row, and transposing the result back is taking the points along their last axis.
-/
import proofs.«208723_g16346645529139_cont_week2b_1265_5_alg».proof.Proof.GroupI.Launch
import proofs.«208723_g16346645529139_cont_week2b_1265_5_alg».proof.Proof.Spec
import Idealize.ShloMosaic.Lib.Pipeline.Value

noncomputable section

namespace Cert.Proof.GroupI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx
variable {F : FTy → Type}

/-- The transposed gather of the transposed indices is the take along the last axis. -/
theorem result_eq (d : Dev nD) (P : Buf (Elt F) (pLoc d)) (A : Buf (Elt F) (aLoc d)) (hA : ∀ p, (A p).toNat < 16384)
    (hI : ∀ q : S8x32x1024.Idx, (tr1 (F := F) A q).toNat < 16384) :
    tr2 (F := F) (Gout d P (tr1 (F := F) A) hI) = Cert.Proof.Spec.takeAlong P A hA := by
  funext i
  obtain ⟨b, c, q, s, rfl⟩ : ∃ (b : Fin 8) (c : Fin 64) (q : Fin 1024) (s : Fin 32), i = ix4 b c q s := ⟨i 0, i 1, i 2, i 3, eq_ix4 i⟩
  have h2 : tr2 (F := F) (Gout d P (tr1 (F := F) A) hI) (ix4 b c q s) = Gout d P (tr1 (F := F) A) hI (ix4 b c s q) :=
    transpose_apply _ _ _ _ (ix4 b c s q) (fun k => match k with | ⟨0, _⟩ => rfl | ⟨1, _⟩ => rfl | ⟨2, _⟩ => rfl | ⟨3, _⟩ => rfl)
  have h1 : tr1 (F := F) A (ix3 b s q) = A (ix3 b q s) :=
    transpose_apply _ _ _ _ (ix3 b q s) (fun k => match k with | ⟨0, _⟩ => rfl | ⟨1, _⟩ => rfl | ⟨2, _⟩ => rfl)
  rw [h2]
  show P (ix3 b c (⟨(tr1 (F := F) A (ix3 b s q)).toNat, hI _⟩ : Fin 16384)) = P (ix3 b c (⟨(A (ix3 b q s)).toNat, hA _⟩ : Fin 16384))
  exact congrArg P (congrArg (ix3 b c) (Fin.ext (congrArg BitVec.toNat h1)))

end Cert.Proof.GroupI

end
-- ==== Proof.GroupB.Setup.lean ====
/-
  Names shared by the modules about the kernel as printed: the launch configuration as the launch theorem reads it,
  the ghost state (the handshakes' rounds beside the transfers' counters), the thread of a vector subcore at a
  grid point, and the kernel's six memrefs spelt as the body table passes them.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«208723_g16346645529139_cont_week2b_1265_5_alg».proof.Proof.Gen.Kernel
import proofs.«208723_g16346645529139_cont_week2b_1265_5_alg».proof.Proof.Gen.Kernel.Skeleton

noncomputable section

namespace Cert.Proof.GroupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The vector subcore a grid point names. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

/-- The arrays as locations of device `d`: the points, the transposed indices, the kernel's result. -/
abbrev pLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.Proof.GroupB

end
-- ==== Proof.GroupB.Nest.lean ====
/-
  The loop nest of one channel row. The index scratch holds a slab of indices `f5` (32 × 1024 words, each below
  16384), the row scratch one row `f6` of the points (16384 numbers); the nest writes into the out scratch, sixteen
  lanes at a time, the row gathered at the indices: entry `(s, q)` becomes `f6 [f5 (s, q)]`. The inner loop's
  invariant says which entries are already that (rows above `k1`, and row `k1` left of column `128·k2`);
  eight stores of one trip extend it by 128 columns; thirty-two rows fill the scratch.
-/
import proofs.«208723_g16346645529139_cont_week2b_1265_5_alg».proof.Proof.GroupB.Setup

noncomputable section

namespace Cert.Proof.GroupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.Kernel.main_arg0_scv : Memref Cert.Kernel.sig Kind.scVector Space.hbm Cert.Kernel.S8x64x16384 EltTy.f32)
local notation "iV" => (Memref.whole Cert.Kernel.main_v0_scv : Memref Cert.Kernel.sig Kind.scVector Space.hbm Cert.Kernel.S8x32x1024 EltTy.i32)
local notation "oV" => (Memref.whole Cert.Kernel.main_v1_scv : Memref Cert.Kernel.sig Kind.scVector Space.hbm Cert.Kernel.S8x64x32x1024 EltTy.f32)
local notation "s5" => (Memref.whole Cert.Kernel.cc0_scratch0 : Memref Cert.Kernel.sig Kind.scVector Space.vmem Cert.Kernel.S32x1024 EltTy.i32)
local notation "s6" => (Memref.whole Cert.Kernel.cc0_scratch1 : Memref Cert.Kernel.sig Kind.scVector Space.vmem Cert.Kernel.S16384 EltTy.f32)
local notation "s7" => (Memref.whole Cert.Kernel.cc0_scratch2 : Memref Cert.Kernel.sig Kind.scVector Space.vmem Cert.Kernel.S32x1024 EltTy.f32)
local notation "𝕄" => MT nD τ sig (HIx 1) (Elt F) ℕ UU ℕ

/-- The out scratch once filled: entry `y` is the row scratch at the index the index scratch holds at `y`. -/
def gat (d : Dev nD) (L : grid0.Coords) (f5 : Buf (Elt F) ((thr d L).loc cc0_scratch0)) (f6 : Buf (Elt F) ((thr d L).loc cc0_scratch1))
    (hidx : ∀ (a : Fin 1) (y : S32x1024.Idx), (f5 y).toNat < S16384.size a) : Buf (Elt F) ((thr d L).loc cc0_scratch2) :=
  fun y => f6 (fun a => ⟨(f5 y).toNat, hidx a y⟩)

/-- The entries already filled before trip `k2` of row `k1`. -/
def filled (k1 k2 : Nat) (y : S32x1024.Idx) : Prop := (y 0).val < k1 ∨ ((y 0).val = k1 ∧ (y 1).val < 128 * k2)

/-- Sixteen words loaded from the index scratch are words of it: each names a lane of the row scratch. -/
theorem chk_range (d : Dev nD) (L : grid0.Coords) (f5 : Buf (Elt F) ((thr d L).loc cc0_scratch0))
    (hidx : ∀ (a : Fin 1) (y : S32x1024.Idx), (f5 y).toNat < S16384.size a)
    (off : Fin 2 → Nat) (h : ∀ a, off a + S1x16.size a ≤ S32x1024.size a) :
    ∀ a x, ((![shapeCast S16 ((s5).view.readAt (Elt F) (Rect.unit (s := S32x1024) off S1x16.size h).toLoadRect f5) shapeCasts_S1x16_S16] : Fin 1 → IVec S16 32) a x).toNat < S16384.size a := by
  intro a x
  obtain rfl : a = 0 := Subsingleton.elim _ _
  show ((s5).view.readAt (Elt F) (Rect.unit (s := S32x1024) off S1x16.size h).toLoadRect f5 (Shape.reshapeEquiv _ x)).toNat < S16384.size 0
  simp only [View.readAt_apply, Memref.view_whole, View.read_whole]
  exact hidx 0 _

/-- The sixteen numbers one chunk stores are the gathered row at the chunk's own entries. -/
theorem piece_gather (d : Dev nD) (L : grid0.Coords) (f5 : Buf (Elt F) ((thr d L).loc cc0_scratch0)) (f6 : Buf (Elt F) ((thr d L).loc cc0_scratch1))
    (hidx : ∀ (a : Fin 1) (y : S32x1024.Idx), (f5 y).toNat < S16384.size a)
    (off' off : Fin 2 → Nat) (h' : ∀ a, off' a + S1x16.size a ≤ S32x1024.size a) (h : ∀ a, off a + S1x16.size a ≤ S32x1024.size a) (e : off' = off)
    (hh : ∀ a x, ((![shapeCast S16 ((s5).view.readAt (Elt F) (Rect.unit (s := S32x1024) off' S1x16.size h').toLoadRect f5) shapeCasts_S1x16_S16] : Fin 1 → IVec S16 32) a x).toNat < S16384.size a)
    (x : (Rect.unit (s := S32x1024) off S1x16.size h).shape.Idx) :
    shapeCast S1x16 (loadIdx (View.read (Elt F) ((s6).access (Rect.whole cc0_scratch1.ty.shape)) f6)
        ![shapeCast S16 ((s5).view.readAt (Elt F) (Rect.unit (s := S32x1024) off' S1x16.size h').toLoadRect f5) shapeCasts_S1x16_S16] hh) shapeCasts_S16_S1x16 x
      = gat d L f5 f6 hidx ((Rect.unit (s := S32x1024) off S1x16.size h).emb x) := by
  subst e
  rw [Memref.read_access_whole]
  show f6 (idxAt _ hh (Shape.reshapeEquiv _ x)) = f6 _
  refine congrArg f6 (funext fun (a : Fin 1) => Fin.ext ?_)
  obtain rfl : a = (0 : Fin 1) := Subsingleton.elim _ _
  show ((s5).view.readAt (Elt F) (Rect.unit (s := S32x1024) off' S1x16.size h').toLoadRect f5 (Shape.reshapeEquiv _ (Shape.reshapeEquiv _ x))).toNat = (f5 _).toNat
  rw [Shape.reshapeEquiv_reshapeEquiv, Shape.reshapeEquiv_self]
  simp only [View.readAt_apply, Memref.view_whole, View.read_whole]
  rfl

/-- The entries of a sixteen-lane chunk at `(a, b)`: row `a`, columns `b … b + 15`. -/
theorem mem_row16 (off : Fin 2 → Nat) (h : ∀ a, off a + S1x16.size a ≤ S32x1024.size a) (a b : Nat) (e : off = ![a, b]) (y : S32x1024.Idx) :
    y ∈ (Rect.unit (s := S32x1024) off S1x16.size h).set ↔ ((y 0).val = a ∧ b ≤ (y 1).val ∧ (y 1).val < b + 16) := by
  subst e
  rw [Rect.mem_set_unit, Fin.forall_fin_two]
  show ((a ≤ (y 0).val ∧ (y 0).val < a + 1) ∧ (b ≤ (y 1).val ∧ (y 1).val < b + 16)) ↔ _
  omega

/-- Stores whose numbers all agree with one function `G` extend the set of entries known to be `G` by what they cover. -/
theorem writes_step (d : Dev nD) (L : grid0.Coords) (G f7 : Buf (Elt F) ((thr d L).loc cc0_scratch2))
    (Ls : List (View.Piece (Elt F) S32x1024 .f32)) (Dn Dn' : S32x1024.Idx → Prop)
    (hG : ∀ p ∈ Ls, ∀ x, p.2 x = G (p.1.emb x)) (hf : ∀ y, Dn y → f7 y = G y)
    (hD : ∀ y, Dn' y → Dn y ∨ ∃ p ∈ Ls, y ∈ p.1.set) :
    ∀ y, Dn' y → (s7).view.writes (Elt F) f7 Ls y = G y := by
  intro y hy
  by_cases hc : ∃ p ∈ Ls, y ∈ p.1.set
  · exact View.read_writes_apply_of_pieces (s7).view f7 G Ls hG y hc
  · have h1 := View.read_writes_apply_of_forall_not_mem (s7).view f7 y Ls (fun p hp hm => hc ⟨p, hp, hm⟩)
    rcases hD y hy with h | h
    · exact h1.trans (hf y h)
    · exact absurd h hc

variable [FloatOps F]

/-- Before trip `k` of the inner loop at row `k1`: the index and row scratch as they were, the out scratch gathered on the filled entries. -/
def inv2 (d : Dev nD) (L : grid0.Coords) (f5 : Buf (Elt F) ((thr d L).loc cc0_scratch0)) (f6 : Buf (Elt F) ((thr d L).loc cc0_scratch1))
    (hidx : ∀ (a : Fin 1) (y : S32x1024.Idx), (f5 y).toNat < S16384.size a) (k1 : Nat) (k : Nat) (_ : Unit) : sProp 𝕄 :=
  iprop(((s5).view.loc (thr d L) ↦{fullShare} f5) ∗ ((s6).view.loc (thr d L) ↦{fullShare} f6)
    ∗ ∃ f7 : Buf (Elt F) ((thr d L).loc cc0_scratch2), ((s7).view.loc (thr d L) ↦{fullShare} f7) ∗ ⌜∀ y, filled k1 k y → f7 y = gat d L f5 f6 hidx y⌝)

/-- Before row `k` of the outer loop: the rows above `k` gathered. -/
def inv1 (d : Dev nD) (L : grid0.Coords) (f5 : Buf (Elt F) ((thr d L).loc cc0_scratch0)) (f6 : Buf (Elt F) ((thr d L).loc cc0_scratch1))
    (hidx : ∀ (a : Fin 1) (y : S32x1024.Idx), (f5 y).toNat < S16384.size a) (k : Nat) (_ : BitVec 32) : sProp 𝕄 :=
  iprop(((s5).view.loc (thr d L) ↦{fullShare} f5) ∗ ((s6).view.loc (thr d L) ↦{fullShare} f6)
    ∗ ∃ f7 : Buf (Elt F) ((thr d L).loc cc0_scratch2), ((s7).view.loc (thr d L) ↦{fullShare} f7) ∗ ⌜∀ y : S32x1024.Idx, (y 0).val < k → f7 y = gat d L f5 f6 hidx y⌝)

/-- One trip of the inner loop of nest 0: eight sixteen-lane chunks of row `k1` of the out scratch, columns
    `128·k2 … 128·k2 + 127`, each filled with the row scratch gathered at the index scratch's words there. -/
theorem nest0_inner (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (k1 : Fin k0_t1_loop.trips) (arg8 : BitVec 32) (k2 : Fin k0_t2_loop.trips) (acc : Unit) :
    inv2 d L f5 f6 hidx k1.val k2.val acc
      ⊢ wp frame (wpE (defs₀ (F := F)) 𝒱₀ (thr d L) none) Set.univ
          (k0_t2_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29 k1 arg8 k2 acc) (inv2 d L f5 f6 hidx k1.val (k2.val + 1)) := by
  have cfL0 : k0_off3 k1 k2 = ![k1.val, 128 * k2.val + 0] := k0_off3_eq k1 k2
  have cfS0 : k0_off4 k1 k2 0#32 = ![k1.val, 128 * k2.val + 0] := k0_off4_eq k1 k2 0
  have cfL1 : k0_off4 k1 k2 16#32 = ![k1.val, 128 * k2.val + 16] := k0_off4_eq k1 k2 1
  have cfS1 : k0_off5 k1 k2 16#32 = ![k1.val, 128 * k2.val + 16] := k0_off5_eq k1 k2 0
  have cfL2 : k0_off5 k1 k2 32#32 = ![k1.val, 128 * k2.val + 32] := k0_off5_eq k1 k2 1
  have cfS2 : k0_off6 k1 k2 32#32 = ![k1.val, 128 * k2.val + 32] := k0_off6_eq k1 k2 0
  have cfL3 : k0_off6 k1 k2 48#32 = ![k1.val, 128 * k2.val + 48] := k0_off6_eq k1 k2 1
  have cfS3 : k0_off7 k1 k2 48#32 = ![k1.val, 128 * k2.val + 48] := k0_off7_eq k1 k2 0
  have cfL4 : k0_off7 k1 k2 64#32 = ![k1.val, 128 * k2.val + 64] := k0_off7_eq k1 k2 1
  have cfS4 : k0_off8 k1 k2 64#32 = ![k1.val, 128 * k2.val + 64] := k0_off8_eq k1 k2 0
  have cfL5 : k0_off8 k1 k2 80#32 = ![k1.val, 128 * k2.val + 80] := k0_off8_eq k1 k2 1
  have cfS5 : k0_off9 k1 k2 80#32 = ![k1.val, 128 * k2.val + 80] := k0_off9_eq k1 k2 0
  have cfL6 : k0_off9 k1 k2 96#32 = ![k1.val, 128 * k2.val + 96] := k0_off9_eq k1 k2 1
  have cfS6 : k0_off10 k1 k2 96#32 = ![k1.val, 128 * k2.val + 96] := k0_off10_eq k1 k2 0
  have cfL7 : k0_off10 k1 k2 112#32 = ![k1.val, 128 * k2.val + 112] := k0_off10_eq k1 k2 1
  have cfS7 : k0_off11 k1 k2 = ![k1.val, 128 * k2.val + 112] := k0_off11_eq k1 k2
  unfold k0_t2_body inv2
  iintro ⟨H5, H6, %f7, H7, %hf7⟩
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)

  ihave H6 := (Entails.of_eq (show (View.loc (thr d L) (s6).view ↦{fullShare} f6 : sProp 𝕄) = (((s6).access (.whole S16384)).loc (thr d L) ↦{fullShare} f6) from rfl)) $$ H6
  iapply (SparseCore.wp_vectorLoadIdx 𝒱₀ (thr d L) none Set.univ (base := s6) (S := Finset.univ) (q := fullShare) (Finset.subset_univ _)) $$ H6; iintro H6
  ihave H6 := (Entails.of_eq (show (((s6).access (.whole S16384)).loc (thr d L) ↦{fullShare} f6 : sProp 𝕄) = (View.loc (thr d L) (s6).view ↦{fullShare} f6) from rfl)) $$ H6
  sl_exec (disch := exact chk_range d L f5 hidx _ _)
  sl_step
  isplitl [H5]; · iexact H5
  isplitl [H6]; · iexact H6
  iexists _
  isplitl [H7]; · iexact H7
  ipureintro
  refine writes_step d L (gat d L f5 f6 hidx) f7 _ (filled k1.val k2.val) (filled k1.val (k2.val + 1)) ?hG hf7 ?hD
  case hG =>
    intro p hp x
    simp only [List.mem_cons, List.not_mem_nil, _root_.or_false] at hp
    rcases hp with rfl | rfl | rfl | rfl | rfl | rfl | rfl | rfl
    · dsimp only at x ⊢; exact piece_gather d L f5 f6 hidx _ _ _ _ (cfL7.trans cfS7.symm) _ x
    · dsimp only at x ⊢; exact piece_gather d L f5 f6 hidx _ _ _ _ (cfL6.trans cfS6.symm) _ x
    · dsimp only at x ⊢; exact piece_gather d L f5 f6 hidx _ _ _ _ (cfL5.trans cfS5.symm) _ x
    · dsimp only at x ⊢; exact piece_gather d L f5 f6 hidx _ _ _ _ (cfL4.trans cfS4.symm) _ x
    · dsimp only at x ⊢; exact piece_gather d L f5 f6 hidx _ _ _ _ (cfL3.trans cfS3.symm) _ x
    · dsimp only at x ⊢; exact piece_gather d L f5 f6 hidx _ _ _ _ (cfL2.trans cfS2.symm) _ x
    · dsimp only at x ⊢; exact piece_gather d L f5 f6 hidx _ _ _ _ (cfL1.trans cfS1.symm) _ x
    · dsimp only at x ⊢; exact piece_gather d L f5 f6 hidx _ _ _ _ (cfL0.trans cfS0.symm) _ x
  case hD =>
    intro y hy
    by_cases hlt : filled k1.val k2.val y
    · exact Or.inl hlt
    · right
      simp only [List.mem_cons, List.not_mem_nil, _root_.or_false, exists_eq_or_imp, exists_eq_left]
      rw [mem_row16 _ _ _ _ cfS7 y, mem_row16 _ _ _ _ cfS6 y, mem_row16 _ _ _ _ cfS5 y, mem_row16 _ _ _ _ cfS4 y,
        mem_row16 _ _ _ _ cfS3 y, mem_row16 _ _ _ _ cfS2 y, mem_row16 _ _ _ _ cfS1 y, mem_row16 _ _ _ _ cfS0 y]
      unfold filled at hy hlt
      omega

/-- Nest 0: the two counted loops fill the out scratch, row by row, with the row scratch gathered at the index scratch. -/
theorem nest0 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t1_loop k0_t1_ok 0#32 (k0_t1_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := by
  have ht1 : Scf.trips k0_t1_loop.lb k0_t1_loop.ub k0_t1_loop.st = 32 := by decide
  have ht2 : Scf.trips k0_t2_loop.lb k0_t2_loop.ub k0_t2_loop.st = 8 := by decide
  iintro ⟨H5, H6, H7⟩
  sl_for (inv1 d L f5 f6 hidx) $$ [H5 H6 H7]
  case region =>
    intro k1 acc
    unfold nest0.sl.prog.body_1 k0_t1_body inv1
    iintro ⟨H5, H6, %g7, H7, %hg7⟩
    sl_exec
    sl_for (inv2 d L f5 f6 hidx k1.val) $$ [H5 H6 H7]
    case region =>
      intro k2 acc2
      exact nest0_inner d L v29 f5 f6 hidx k1 _ k2 acc2
    · unfold inv2
      isplitl [H5]; · iexact H5
      isplitl [H6]; · iexact H6
      iexists g7
      isplitl [H7]; · iexact H7
      ipureintro
      intro y hy
      refine hg7 y ?_
      unfold filled at hy
      omega
    iintro %acc2 HI
    unfold inv2
    icases HI with ⟨H5, H6, %g7', H7, %hg7'⟩
    sl_exec
    sl_step
    isplitl [H5]; · iexact H5
    isplitl [H6]; · iexact H6
    iexists g7'
    isplitl [H7]; · iexact H7
    ipureintro
    intro y hy
    refine hg7' y ?_
    unfold filled
    have hy1 : (y 1).val < 1024 := (y 1).isLt
    rw [ht2]
    omega
  isplitl [H5 H6 H7]
  · unfold inv1
    isplitl [H5]; · iexact H5
    isplitl [H6]; · iexact H6
    iexists f7
    isplitl [H7]; · iexact H7
    ipureintro
    intro y hy
    omega
  iintro %acc HI
  unfold inv1
  icases HI with ⟨H5, H6, %g7, H7, %hg7⟩
  have hg : g7 = gat d L f5 f6 hidx := funext fun y => hg7 y (by have h32 : (y 0).val < 32 := (y 0).isLt; rw [ht1]; exact h32)
  subst hg
  isplitl [H5]; · iexact H5
  isplitl [H6]; · iexact H6
  iexact H7

end Cert.Proof.GroupB

end
-- ==== Proof.GroupB.Views.lean ====
/-
  The three HBM rows a vector subcore's task moves, as the kernel slices them, and the one function of the whole
  arrays that every output row ends at. A task at offsets `(b, c)` fetches the index slab `b` (32 × 1024 words) once,
  then per channel row `c` fetches row `(b, c)` of the points (16384 numbers) and writes row `(b, c)` of the result
  (32 × 1024 numbers): entry `(s, q)` of it is the points' row at the index the slab holds at `(s, q)`. In
  coordinates of the whole arrays: the result at `(b, c, s, q)` is the points at `(b, c, I (b, s, q))`.
-/
import proofs.«208723_g16346645529139_cont_week2b_1265_5_alg».proof.Proof.GroupB.Nest
import Idealize.ShloMosaic.Lib.ValueIdx
import Idealize.ShloMosaic.Lib.ValueLayout

noncomputable section

namespace Cert.Proof.GroupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx
variable {F : FTy → Type}

local notation "pV" => (Memref.whole Cert.Kernel.main_arg0_scv : Memref Cert.Kernel.sig Kind.scVector Space.hbm Cert.Kernel.S8x64x16384 EltTy.f32)
local notation "iV" => (Memref.whole Cert.Kernel.main_v0_scv : Memref Cert.Kernel.sig Kind.scVector Space.hbm Cert.Kernel.S8x32x1024 EltTy.i32)
local notation "oV" => (Memref.whole Cert.Kernel.main_v1_scv : Memref Cert.Kernel.sig Kind.scVector Space.hbm Cert.Kernel.S8x64x32x1024 EltTy.f32)
local notation "s5" => (Memref.whole Cert.Kernel.cc0_scratch0 : Memref Cert.Kernel.sig Kind.scVector Space.vmem Cert.Kernel.S32x1024 EltTy.i32)
local notation "s6" => (Memref.whole Cert.Kernel.cc0_scratch1 : Memref Cert.Kernel.sig Kind.scVector Space.vmem Cert.Kernel.S16384 EltTy.f32)
local notation "s7" => (Memref.whole Cert.Kernel.cc0_scratch2 : Memref Cert.Kernel.sig Kind.scVector Space.vmem Cert.Kernel.S32x1024 EltTy.f32)
local notation "𝕄" => MT nD τ sig (HIx 1) (Elt F) ℕ UU ℕ

/-- The index slab at offsets `off`, the points' row and the result's row, squeezed to their own ranks. -/
abbrev iSlM (off : Fin 3 → Nat) (h : ∀ a, off a + S1x32x1024.size a ≤ S8x32x1024.size a) : Memref sig .scVector .hbm S32x1024 .i32 :=
  ((iV).slice (Rect.unit (s := S8x32x1024) off S1x32x1024.size h) (fun _ => rfl)).squeeze S32x1024 squeezes_S1x32x1024_S32x1024
abbrev pSlM (off : Fin 3 → Nat) (h : ∀ a, off a + S1x1x16384.size a ≤ S8x64x16384.size a) : Memref sig .scVector .hbm S16384 .f32 :=
  ((pV).slice (Rect.unit (s := S8x64x16384) off S1x1x16384.size h) (fun _ => rfl)).squeeze S16384 squeezes_S1x1x16384_S16384
abbrev oSlM (off : Fin 4 → Nat) (h : ∀ a, off a + S1x1x32x1024.size a ≤ S8x64x32x1024.size a) : Memref sig .scVector .hbm S32x1024 .f32 :=
  ((oV).slice (Rect.unit (s := S8x64x32x1024) off S1x1x32x1024.size h) (fun _ => rfl)).squeeze S32x1024 squeezes_S1x1x32x1024_S32x1024

/-- Entry `(s, q)` of the result's row at offsets `off` is the result's element `off + (0, 0, s, q)`. -/
theorem emb_out (off : Fin 4 → Nat) (h : ∀ a, off a + S1x1x32x1024.size a ≤ S8x64x32x1024.size a) (x : S32x1024.Idx) (k : Fin 4) :
    ((oSlM off h).view.emb x k).val = off k + (![0, 0, (x 0).val, (x 1).val] : Fin 4 → Nat) k := by
  obtain ⟨a, b, rfl⟩ : ∃ (a : Fin 32) (b : Fin 1024), x = ix2 a b := ⟨x 0, x 1, eq_ix2 x⟩
  show off k + 1 * ((Shape.reshapeEquiv squeezes_S1x1x32x1024_S32x1024.numel_eq (ix2 a b)) k).val = _
  rw [reshapeEquiv_ix2_11ab, Nat.one_mul]
  match k with
  | ⟨0, _⟩ => rfl
  | ⟨1, _⟩ => rfl
  | ⟨2, _⟩ => rfl
  | ⟨3, _⟩ => rfl

/-- Entry `(s, q)` of the index slab at offsets `off` is the indices' element `off + (0, s, q)`. -/
theorem emb_idx (off : Fin 3 → Nat) (h : ∀ a, off a + S1x32x1024.size a ≤ S8x32x1024.size a) (x : S32x1024.Idx) (k : Fin 3) :
    ((iSlM off h).view.emb x k).val = off k + (![0, (x 0).val, (x 1).val] : Fin 3 → Nat) k := by
  obtain ⟨a, b, rfl⟩ : ∃ (a : Fin 32) (b : Fin 1024), x = ix2 a b := ⟨x 0, x 1, eq_ix2 x⟩
  show off k + 1 * ((Shape.reshapeEquiv squeezes_S1x32x1024_S32x1024.numel_eq (ix2 a b)) k).val = _
  rw [reshapeEquiv_ix2_1ab, Nat.one_mul]
  match k with
  | ⟨0, _⟩ => rfl
  | ⟨1, _⟩ => rfl
  | ⟨2, _⟩ => rfl

/-- A lane `n` matched with shape `[1, 1, N]` is `(0, 0, n)`. -/
theorem reshape_lane {N : ℕ} (h : (⟨1, ![N]⟩ : Shape).numel = (⟨3, ![1, 1, N]⟩ : Shape).numel) (n : Fin N) :
    Shape.reshapeEquiv h (ix1 n) = ix3 (⟨0, Nat.one_pos⟩ : Fin 1) (⟨0, Nat.one_pos⟩ : Fin 1) n :=
  Shape.reshapeEquiv_eq_of_rowMajor h (by
    rw [Shape.rowMajor_val_three, Shape.rowMajor_val_one]
    show ((0 * 1 + 0) * N + n.val) = n.val
    simp only [Nat.zero_mul, Nat.zero_add])

/-- Lane `n` of the points' row at offsets `off` is the points' element `off + (0, 0, n)`. -/
theorem emb_pts (off : Fin 3 → Nat) (h : ∀ a, off a + S1x1x16384.size a ≤ S8x64x16384.size a) (z : S16384.Idx) (k : Fin 3) :
    ((pSlM off h).view.emb z k).val = off k + (![0, 0, (z 0).val] : Fin 3 → Nat) k := by
  obtain ⟨n, rfl⟩ : ∃ n : Fin 16384, z = ix1 n := ⟨z 0, eq_ix1 z⟩
  show off k + 1 * ((Shape.reshapeEquiv squeezes_S1x1x16384_S16384.numel_eq (ix1 n)) k).val = _
  rw [reshape_lane, Nat.one_mul]
  match k with
  | ⟨0, _⟩ => rfl
  | ⟨1, _⟩ => rfl
  | ⟨2, _⟩ => rfl

/-- What every row of the result ends at, as one function of the whole arrays: the points gathered along their last axis. -/
def Gout (d : Dev nD) (P : Buf (Elt F) (pLoc d)) (I0 : Buf (Elt F) (iLoc d)) (hI : ∀ q : S8x32x1024.Idx, (I0 q).toNat < 16384) :
    Buf (Elt F) (oLoc d) :=
  fun p => P (ix3 (p 0 : Fin 8) (p 1 : Fin 64) (⟨(I0 (ix3 (p 0 : Fin 8) (p 2 : Fin 32) (p 3 : Fin 1024))).toNat, hI _⟩ : Fin 16384))

/-- The index scratch, filled by a copy from the index slab, holds the slab's words. -/
theorem idx_scratch_val (d : Dev nD) (L : grid0.Coords) (offI : Fin 3 → Nat) (hIo : ∀ a, offI a + S1x32x1024.size a ≤ S8x32x1024.size a)
    (I0 : Buf (Elt F) (iLoc d)) (f5 : Buf (Elt F) ((thr d L).loc cc0_scratch0)) (w : S32x1024.Idx → Elt F .i32)
    (hw : w = (iSlM offI hIo).view.read (Elt F) I0) :
    ∀ y, View.write (Elt F) (s5).view f5 w Finset.univ y = I0 ((iSlM offI hIo).view.emb y) := by
  subst hw
  intro y
  exact (congrFun (View.write_whole_univ (Val := Elt F) cc0_scratch0 f5 _) y).trans ((View.read_apply _ _).trans (cast_eq _ _))

/-- The row scratch, filled by a copy from a row of the points, holds that row. -/
theorem row_scratch_val (d : Dev nD) (L : grid0.Coords) (offP : Fin 3 → Nat) (hP : ∀ a, offP a + S1x1x16384.size a ≤ S8x64x16384.size a)
    (P : Buf (Elt F) (pLoc d)) (f6 : Buf (Elt F) ((thr d L).loc cc0_scratch1)) (w : S16384.Idx → Elt F .f32)
    (hw : w = (pSlM offP hP).view.read (Elt F) P) :
    ∀ z, View.write (Elt F) (s6).view f6 w Finset.univ z = P ((pSlM offP hP).view.emb z) := by
  subst hw
  intro z
  exact (congrFun (View.write_whole_univ (Val := Elt F) cc0_scratch1 f6 _) z).trans ((View.read_apply _ _).trans (cast_eq _ _))

/-- A word of the index scratch is a word of the indices: it names a lane of the row scratch. -/
theorem idx_scratch_range (d : Dev nD) (L : grid0.Coords) (I0 : Buf (Elt F) (iLoc d)) (hI : ∀ q : S8x32x1024.Idx, (I0 q).toNat < 16384)
    (g5 : Buf (Elt F) ((thr d L).loc cc0_scratch0)) (v : S32x1024.Idx → S8x32x1024.Idx) (h5 : ∀ y, g5 y = I0 (v y)) :
    ∀ (a : Fin 1) (y : S32x1024.Idx), (g5 y).toNat < S16384.size a := by
  intro a y
  obtain rfl : a = (0 : Fin 1) := Subsingleton.elim _ _
  rw [h5]; exact hI _

/-- A row of the result, filled by a copy from the out scratch once the nest has gathered it, agrees with `Gout` on the
    row's elements: the row's, the points' row's and the index slab's offsets name the same `(b, c)`. -/
theorem out_val (d : Dev nD) (L : grid0.Coords) (P : Buf (Elt F) (pLoc d)) (I0 : Buf (Elt F) (iLoc d)) (hI : ∀ q : S8x32x1024.Idx, (I0 q).toNat < 16384)
    (offO : Fin 4 → Nat) (hO : ∀ a, offO a + S1x1x32x1024.size a ≤ S8x64x32x1024.size a)
    (offP : Fin 3 → Nat) (hP : ∀ a, offP a + S1x1x16384.size a ≤ S8x64x16384.size a)
    (offI : Fin 3 → Nat) (hIo : ∀ a, offI a + S1x32x1024.size a ≤ S8x32x1024.size a)
    (e0 : offP 0 = offO 0) (e1 : offP 1 = offO 1) (e2 : offO 2 = 0) (e3 : offO 3 = 0) (eP2 : offP 2 = 0)
    (eI0 : offI 0 = offO 0) (eI1 : offI 1 = 0) (eI2 : offI 2 = 0)
    (g5 : Buf (Elt F) ((thr d L).loc cc0_scratch0)) (g6 : Buf (Elt F) ((thr d L).loc cc0_scratch1))
    (hidx5 : ∀ (a : Fin 1) (y : S32x1024.Idx), (g5 y).toNat < S16384.size a)
    (h5 : ∀ y, g5 y = I0 ((iSlM offI hIo).view.emb y)) (h6 : ∀ z, g6 z = P ((pSlM offP hP).view.emb z))
    (J : Buf (Elt F) (oLoc d)) (w : S32x1024.Idx → Elt F .f32) (hw : w = (s7).view.read (Elt F) (gat d L g5 g6 hidx5)) :
    ∀ p ∈ (oSlM offO hO).view.set, (oSlM offO hO).view.writes (Elt F) J [⟨Rect.whole S32x1024, w⟩] p = Gout d P I0 hI p := by
  intro p hp
  obtain ⟨x, -, rfl⟩ := Finset.mem_map.mp hp
  have hr := View.read_writes_cons_emb (oSlM offO hO).view J (Rect.whole S32x1024) w [] x
  rw [Rect.emb_whole_apply, View.read_apply] at hr
  refine ((cast_eq _ _).symm.trans hr).trans ?_
  subst hw
  have E : ∀ k, (((oSlM offO hO).view.emb x) k).val = offO k + (![0, 0, (x 0).val, (x 1).val] : Fin 4 → Nat) k := emb_out offO hO x
  have E0 : (((oSlM offO hO).view.emb x) 0).val = offO 0 := by rw [E]; rfl
  have E1 : (((oSlM offO hO).view.emb x) 1).val = offO 1 := by rw [E]; rfl
  have E2 : (((oSlM offO hO).view.emb x) 2).val = (x 0).val := by rw [E, e2]; exact Nat.zero_add _
  have E3 : (((oSlM offO hO).view.emb x) 3).val = (x 1).val := by rw [E, e3]; exact Nat.zero_add _
  have hix : (iSlM offI hIo).view.emb x = ix3 (((oSlM offO hO).view.emb x) 0 : Fin 8) (((oSlM offO hO).view.emb x) 2 : Fin 32) (((oSlM offO hO).view.emb x) 3 : Fin 1024) := by
    funext k; apply Fin.ext; rw [emb_idx]
    match k with
    | ⟨0, _⟩ => show offI 0 = (((oSlM offO hO).view.emb x) 0).val; rw [E0, eI0]
    | ⟨1, _⟩ => show offI 1 + (x 0).val = (((oSlM offO hO).view.emb x) 2).val; rw [E2, eI1, Nat.zero_add]
    | ⟨2, _⟩ => show offI 2 + (x 1).val = (((oSlM offO hO).view.emb x) 3).val; rw [E3, eI2, Nat.zero_add]
  show g6 (fun a => ⟨(g5 x).toNat, hidx5 a x⟩) = P (ix3 (((oSlM offO hO).view.emb x) 0 : Fin 8) (((oSlM offO hO).view.emb x) 1 : Fin 64)
    (⟨(I0 (ix3 (((oSlM offO hO).view.emb x) 0 : Fin 8) (((oSlM offO hO).view.emb x) 2 : Fin 32) (((oSlM offO hO).view.emb x) 3 : Fin 1024))).toNat, hI _⟩ : Fin 16384))
  rw [h6]
  refine congrArg P (funext fun k => Fin.ext ?_)
  rw [emb_pts]
  match k with
  | ⟨0, _⟩ => show offP 0 = (((oSlM offO hO).view.emb x) 0).val; rw [E0, e0]
  | ⟨1, _⟩ => show offP 1 = (((oSlM offO hO).view.emb x) 1).val; rw [E1, e1]
  | ⟨2, _⟩ =>
    show offP 2 + (g5 x).toNat = (I0 (ix3 (((oSlM offO hO).view.emb x) 0 : Fin 8) (((oSlM offO hO).view.emb x) 2 : Fin 32) (((oSlM offO hO).view.emb x) 3 : Fin 1024))).toNat
    rw [eP2, Nat.zero_add, h5, hix]
    rfl

end Cert.Proof.GroupB

end
-- ==== Proof.GroupB.Nests.lean ====
/-
  The sixteen loop nests of a vector subcore's task are one program under sixteen sets of printed names (each
  channel row has its own loops, offsets and range checks, all defined alike; the last two are also handed three
  loop constants they do not use): nest 0's statement holds of each.
-/
import proofs.«208723_g16346645529139_cont_week2b_1265_5_alg».proof.Proof.GroupB.Nest

noncomputable section

namespace Cert.Proof.GroupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.Kernel.main_arg0_scv : Memref Cert.Kernel.sig Kind.scVector Space.hbm Cert.Kernel.S8x64x16384 EltTy.f32)
local notation "iV" => (Memref.whole Cert.Kernel.main_v0_scv : Memref Cert.Kernel.sig Kind.scVector Space.hbm Cert.Kernel.S8x32x1024 EltTy.i32)
local notation "oV" => (Memref.whole Cert.Kernel.main_v1_scv : Memref Cert.Kernel.sig Kind.scVector Space.hbm Cert.Kernel.S8x64x32x1024 EltTy.f32)
local notation "s5" => (Memref.whole Cert.Kernel.cc0_scratch0 : Memref Cert.Kernel.sig Kind.scVector Space.vmem Cert.Kernel.S32x1024 EltTy.i32)
local notation "s6" => (Memref.whole Cert.Kernel.cc0_scratch1 : Memref Cert.Kernel.sig Kind.scVector Space.vmem Cert.Kernel.S16384 EltTy.f32)
local notation "s7" => (Memref.whole Cert.Kernel.cc0_scratch2 : Memref Cert.Kernel.sig Kind.scVector Space.vmem Cert.Kernel.S32x1024 EltTy.f32)
local notation "𝕄" => MT nD τ sig (HIx 1) (Elt F) ℕ UU ℕ

variable [FloatOps F]

set_option maxRecDepth 65536 in
/-- Nest 1: the two counted loops fill the out scratch, row by row, with the row scratch gathered at the index scratch. -/
theorem nest1 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t3_loop k0_t3_ok 0#32 (k0_t3_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 2: the two counted loops fill the out scratch, row by row, with the row scratch gathered at the index scratch. -/
theorem nest2 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t5_loop k0_t5_ok 0#32 (k0_t5_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 3: the two counted loops fill the out scratch, row by row, with the row scratch gathered at the index scratch. -/
theorem nest3 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t7_loop k0_t7_ok 0#32 (k0_t7_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 4: the two counted loops fill the out scratch, row by row, with the row scratch gathered at the index scratch. -/
theorem nest4 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t9_loop k0_t9_ok 0#32 (k0_t9_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 5: the two counted loops fill the out scratch, row by row, with the row scratch gathered at the index scratch. -/
theorem nest5 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t11_loop k0_t11_ok 0#32 (k0_t11_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 6: the two counted loops fill the out scratch, row by row, with the row scratch gathered at the index scratch. -/
theorem nest6 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t13_loop k0_t13_ok 0#32 (k0_t13_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 7: the two counted loops fill the out scratch, row by row, with the row scratch gathered at the index scratch. -/
theorem nest7 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t15_loop k0_t15_ok 0#32 (k0_t15_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 8: the two counted loops fill the out scratch, row by row, with the row scratch gathered at the index scratch. -/
theorem nest8 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t17_loop k0_t17_ok 0#32 (k0_t17_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 9: the two counted loops fill the out scratch, row by row, with the row scratch gathered at the index scratch. -/
theorem nest9 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t19_loop k0_t19_ok 0#32 (k0_t19_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 10: the two counted loops fill the out scratch, row by row, with the row scratch gathered at the index scratch. -/
theorem nest10 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t21_loop k0_t21_ok 0#32 (k0_t21_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 11: the two counted loops fill the out scratch, row by row, with the row scratch gathered at the index scratch. -/
theorem nest11 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t23_loop k0_t23_ok 0#32 (k0_t23_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 12: the two counted loops fill the out scratch, row by row, with the row scratch gathered at the index scratch. -/
theorem nest12 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t25_loop k0_t25_ok 0#32 (k0_t25_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 13: the two counted loops fill the out scratch, row by row, with the row scratch gathered at the index scratch. -/
theorem nest13 (d : Dev nD) (L : grid0.Coords) (v29 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t27_loop k0_t27_ok 0#32 (k0_t27_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 14: the two counted loops fill the out scratch, row by row, with the row scratch gathered at the index scratch. -/
theorem nest14 (d : Dev nD) (L : grid0.Coords) (v29 c83 c84 c86 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t29_loop k0_t29_ok 0#32 (k0_t29_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29 c83 c84 c86))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

set_option maxRecDepth 65536 in
/-- Nest 15: the two counted loops fill the out scratch, row by row, with the row scratch gathered at the index scratch. -/
theorem nest15 (d : Dev nD) (L : grid0.Coords) (v29 c83 c84 c86 : BitVec 32)
    (f5 : Buf (Elt F) ((thr d L).loc cc0_scratch0)) (f6 : Buf (Elt F) ((thr d L).loc cc0_scratch1))
    (hidx : ∀ (a : Fin 1) (y : S32x1024.Idx), (f5 y).toNat < S16384.size a)
    (f7 : Buf (Elt F) ((thr d L).loc cc0_scratch2)) :
    iprop(((s5).view.loc (thr d L) ↦{fullShare} f5) ∗ ((s6).view.loc (thr d L) ↦{fullShare} f6) ∗ ((s7).view.loc (thr d L) ↦{fullShare} f7))
      ⊢ wp frame (wpE (defs₀ (F := F)) 𝒱₀ (thr d L) none) Set.univ
          (Scf.Loop.for k0_t31_loop k0_t31_ok 0#32 (k0_t31_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v29 c83 c84 c86))
          fun _ => (iprop(((s5).view.loc (thr d L) ↦{fullShare} f5) ∗ ((s6).view.loc (thr d L) ↦{fullShare} f6)
            ∗ ((s7).view.loc (thr d L) ↦{fullShare} gat d L f5 f6 hidx)) : sProp 𝕄) := nest0 d L v29 f5 f6 hidx f7

end Cert.Proof.GroupB

end
-- ==== Proof.GroupB.Body.lean ====
/-
  One vector subcore's task, run through: the index slab fetched once; then, sixteen times, a row of the points fetched,
  the loop nest gathering it at the slab's indices into the out scratch, and the out scratch written to the result's
  row. Each copy is issued and waited for on a semaphore of its own, so nothing is in flight while the scratch buffers
  are read or written. Every row of the result ends at the one function `Gout` of the whole arrays.
-/
import proofs.«208723_g16346645529139_cont_week2b_1265_5_alg».proof.Proof.GroupB.Views
import proofs.«208723_g16346645529139_cont_week2b_1265_5_alg».proof.Proof.GroupB.Nests

noncomputable section

namespace Cert.Proof.GroupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.Kernel.main_arg0_scv : Memref Cert.Kernel.sig Kind.scVector Space.hbm Cert.Kernel.S8x64x16384 EltTy.f32)
local notation "iV" => (Memref.whole Cert.Kernel.main_v0_scv : Memref Cert.Kernel.sig Kind.scVector Space.hbm Cert.Kernel.S8x32x1024 EltTy.i32)
local notation "oV" => (Memref.whole Cert.Kernel.main_v1_scv : Memref Cert.Kernel.sig Kind.scVector Space.hbm Cert.Kernel.S8x64x32x1024 EltTy.f32)
local notation "s5" => (Memref.whole Cert.Kernel.cc0_scratch0 : Memref Cert.Kernel.sig Kind.scVector Space.vmem Cert.Kernel.S32x1024 EltTy.i32)
local notation "s6" => (Memref.whole Cert.Kernel.cc0_scratch1 : Memref Cert.Kernel.sig Kind.scVector Space.vmem Cert.Kernel.S16384 EltTy.f32)
local notation "s7" => (Memref.whole Cert.Kernel.cc0_scratch2 : Memref Cert.Kernel.sig Kind.scVector Space.vmem Cert.Kernel.S32x1024 EltTy.f32)
local notation "𝕄" => MT nD τ sig (HIx 1) (Elt F) ℕ UU ℕ

omit F in
/-- Waits recorded at the kernels' own index are admissible in what a task hands back. -/
theorem wok_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- Held contents, named: a variable equal to them. -/
theorem pts_name {ℓ : Loc nD τ sig} (S : Finset (Idx ℓ)) (q : PosShare TreeShare) (f : Buf (Elt F) ℓ) :
    (ℓ ↦[S]{q} f : sProp 𝕄) ⊢ iprop(∃ g : Buf (Elt F) ℓ, ⌜g = f⌝ ∗ ℓ ↦[S]{q} g) := by
  iintro H; iexists f; isplitr; · ipureintro; rfl
  iexact H

variable [FloatOps F]

/-- A program run to a post, then its continuation from that post. -/
theorem wp_seq {α β : Type} {thr' : Thread nD τ} {p : Prog (TpuEff nD τ sig (Elt F) Λ₀ thr'.2) α} {k : α → Prog (TpuEff nD τ sig (Elt F) Λ₀ thr'.2) β}
    {R : sProp 𝕄} {Q1 : α → sProp 𝕄} {Q : β → sProp 𝕄}
    (h : R ⊢ wp frame (wpE (defs₀ (F := F)) 𝒱₀ thr' none) Set.univ p Q1) :
    R ⊢ iprop((∀ a, Q1 a -∗ wp frame (wpE (defs₀ (F := F)) 𝒱₀ thr' none) Set.univ (k a) Q) -∗ wp frame (wpE (defs₀ (F := F)) 𝒱₀ thr' none) Set.univ (p >>= k) Q) := by
  rw [wp_bind]
  exact h.trans (wp_wand _ _ _)

set_option maxHeartbeats 8000000 in
/-- The task at grid point `L`: from read shares of the points and of the transposed indices (every word of which is
    below 16384), its sixteen rows of the result, its three scratch buffers and its semaphores at zero, to the same with
    the sixteen rows at `Gout`. -/
theorem tile_body (d : Dev nD) (L : grid0.Coords) (O : CellTallies nD τ sig (HIx 1)) (W : Waits sig (HIx 1))
    (P : Buf (Elt F) (pLoc d)) (I0 : Buf (Elt F) (iLoc d)) (O0 : Buf (Elt F) (oLoc d)) (qp qi : PosShare TreeShare)
    (hI : ∀ q : S8x32x1024.Idx, (I0 q).toNat < 16384) :
    iprop(Transfers.MayWaits (thr d L) (none : HIx 1) O
      ∗ (((pV).view.loc (thr d L) ↦{qp} P) ∗ ((iV).view.loc (thr d L) ↦{qi} I0)
      ∗ ((oSlM (k0_off12 L 0#32) (k0_off12_inb L 0)).view.loc (thr d L) ↦[(oSlM (k0_off12 L 0#32) (k0_off12_inb L 0)).view.set]{fullShare} O0)
      ∗ ((oSlM (k0_off12 L 1#32) (k0_off12_inb L 1)).view.loc (thr d L) ↦[(oSlM (k0_off12 L 1#32) (k0_off12_inb L 1)).view.set]{fullShare} O0)
      ∗ ((oSlM (k0_off12 L 2#32) (k0_off12_inb L 2)).view.loc (thr d L) ↦[(oSlM (k0_off12 L 2#32) (k0_off12_inb L 2)).view.set]{fullShare} O0)
      ∗ ((oSlM (k0_off12 L 3#32) (k0_off12_inb L 3)).view.loc (thr d L) ↦[(oSlM (k0_off12 L 3#32) (k0_off12_inb L 3)).view.set]{fullShare} O0)
      ∗ ((oSlM (k0_off12 L 4#32) (k0_off12_inb L 4)).view.loc (thr d L) ↦[(oSlM (k0_off12 L 4#32) (k0_off12_inb L 4)).view.set]{fullShare} O0)
      ∗ ((oSlM (k0_off12 L 5#32) (k0_off12_inb L 5)).view.loc (thr d L) ↦[(oSlM (k0_off12 L 5#32) (k0_off12_inb L 5)).view.set]{fullShare} O0)
      ∗ ((oSlM (k0_off12 L 6#32) (k0_off12_inb L 6)).view.loc (thr d L) ↦[(oSlM (k0_off12 L 6#32) (k0_off12_inb L 6)).view.set]{fullShare} O0)
      ∗ ((oSlM (k0_off12 L 7#32) (k0_off12_inb L 7)).view.loc (thr d L) ↦[(oSlM (k0_off12 L 7#32) (k0_off12_inb L 7)).view.set]{fullShare} O0)
      ∗ ((oSlM (k0_off12 L 8#32) (k0_off12_inb L 8)).view.loc (thr d L) ↦[(oSlM (k0_off12 L 8#32) (k0_off12_inb L 8)).view.set]{fullShare} O0)
      ∗ ((oSlM (k0_off12 L 9#32) (k0_off12_inb L 9)).view.loc (thr d L) ↦[(oSlM (k0_off12 L 9#32) (k0_off12_inb L 9)).view.set]{fullShare} O0)
      ∗ ((oSlM (k0_off12 L 10#32) (k0_off12_inb L 10)).view.loc (thr d L) ↦[(oSlM (k0_off12 L 10#32) (k0_off12_inb L 10)).view.set]{fullShare} O0)
      ∗ ((oSlM (k0_off12 L 11#32) (k0_off12_inb L 11)).view.loc (thr d L) ↦[(oSlM (k0_off12 L 11#32) (k0_off12_inb L 11)).view.set]{fullShare} O0)
      ∗ ((oSlM (k0_off12 L 12#32) (k0_off12_inb L 12)).view.loc (thr d L) ↦[(oSlM (k0_off12 L 12#32) (k0_off12_inb L 12)).view.set]{fullShare} O0)
      ∗ ((oSlM (k0_off12 L 13#32) (k0_off12_inb L 13)).view.loc (thr d L) ↦[(oSlM (k0_off12 L 13#32) (k0_off12_inb L 13)).view.set]{fullShare} O0)
      ∗ ((oSlM (k0_off12 L 14#32) (k0_off12_inb L 14)).view.loc (thr d L) ↦[(oSlM (k0_off12 L 14#32) (k0_off12_inb L 14)).view.set]{fullShare} O0)
      ∗ ((oSlM (k0_off12 L 15#32) (k0_off12_inb L 15)).view.loc (thr d L) ↦[(oSlM (k0_off12 L 15#32) (k0_off12_inb L 15)).view.set]{fullShare} O0))
      ∗ (∃ f, (s5).view.loc (thr d L) ↦{fullShare} f) ∗ (∃ f, (s6).view.loc (thr d L) ↦{fullShare} f) ∗ (∃ f, (s7).view.loc (thr d L) ↦{fullShare} f)
      ∗ (semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0 ∗ semVal (thr d L, SemLoc.dma cc0_scoped12.sem) 0 ∗ semVal (thr d L, SemLoc.dma cc0_scoped13.sem) 0 ∗ semVal (thr d L, SemLoc.dma cc0_scoped14.sem) 0 ∗ semVal (thr d L, SemLoc.dma cc0_scoped15.sem) 0 ∗ semVal (thr d L, SemLoc.dma cc0_scoped16.sem) 0 ∗ semVal (thr d L, SemLoc.dma cc0_scoped17.sem) 0 ∗ semVal (thr d L, SemLoc.dma cc0_scoped18.sem) 0 ∗ semVal (thr d L, SemLoc.dma cc0_scoped19.sem) 0 ∗ semVal (thr d L, SemLoc.dma cc0_scoped20.sem) 0 ∗ semVal (thr d L, SemLoc.dma cc0_scoped21.sem) 0 ∗ semVal (thr d L, SemLoc.dma cc0_scoped22.sem) 0 ∗ semVal (thr d L, SemLoc.dma cc0_scoped23.sem) 0 ∗ semVal (thr d L, SemLoc.dma cc0_scoped24.sem) 0 ∗ semVal (thr d L, SemLoc.dma cc0_scoped25.sem) 0 ∗ semVal (thr d L, SemLoc.dma cc0_scoped26.sem) 0 ∗ semVal (thr d L, SemLoc.dma cc0_scoped27.sem) 0 ∗ semVal (thr d L, SemLoc.dma cc0_scoped28.sem) 0 ∗ semVal (thr d L, SemLoc.dma cc0_scoped29.sem) 0 ∗ semVal (thr d L, SemLoc.dma cc0_scoped30.sem) 0 ∗ semVal (thr d L, SemLoc.dma cc0_scoped31.sem) 0 ∗ semVal (thr d L, SemLoc.dma cc0_scoped32.sem) 0)
      ∗ owes (thr d L) O W)
      ⊢ wp frame (wpE (defs₀ (F := F)) 𝒱₀ (thr d L) none) Set.univ
          (cc0__grouping_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32)
          fun _ => (iprop((((pV).view.loc (thr d L) ↦{qp} P) ∗ ((iV).view.loc (thr d L) ↦{qi} I0)
      ∗ ((oSlM (k0_off12 L 0#32) (k0_off12_inb L 0)).view.loc (thr d L) ↦[(oSlM (k0_off12 L 0#32) (k0_off12_inb L 0)).view.set]{fullShare} Gout d P I0 hI)
      ∗ ((oSlM (k0_off12 L 1#32) (k0_off12_inb L 1)).view.loc (thr d L) ↦[(oSlM (k0_off12 L 1#32) (k0_off12_inb L 1)).view.set]{fullShare} Gout d P I0 hI)
      ∗ ((oSlM (k0_off12 L 2#32) (k0_off12_inb L 2)).view.loc (thr d L) ↦[(oSlM (k0_off12 L 2#32) (k0_off12_inb L 2)).view.set]{fullShare} Gout d P I0 hI)
      ∗ ((oSlM (k0_off12 L 3#32) (k0_off12_inb L 3)).view.loc (thr d L) ↦[(oSlM (k0_off12 L 3#32) (k0_off12_inb L 3)).view.set]{fullShare} Gout d P I0 hI)
      ∗ ((oSlM (k0_off12 L 4#32) (k0_off12_inb L 4)).view.loc (thr d L) ↦[(oSlM (k0_off12 L 4#32) (k0_off12_inb L 4)).view.set]{fullShare} Gout d P I0 hI)
      ∗ ((oSlM (k0_off12 L 5#32) (k0_off12_inb L 5)).view.loc (thr d L) ↦[(oSlM (k0_off12 L 5#32) (k0_off12_inb L 5)).view.set]{fullShare} Gout d P I0 hI)
      ∗ ((oSlM (k0_off12 L 6#32) (k0_off12_inb L 6)).view.loc (thr d L) ↦[(oSlM (k0_off12 L 6#32) (k0_off12_inb L 6)).view.set]{fullShare} Gout d P I0 hI)
      ∗ ((oSlM (k0_off12 L 7#32) (k0_off12_inb L 7)).view.loc (thr d L) ↦[(oSlM (k0_off12 L 7#32) (k0_off12_inb L 7)).view.set]{fullShare} Gout d P I0 hI)
      ∗ ((oSlM (k0_off12 L 8#32) (k0_off12_inb L 8)).view.loc (thr d L) ↦[(oSlM (k0_off12 L 8#32) (k0_off12_inb L 8)).view.set]{fullShare} Gout d P I0 hI)
      ∗ ((oSlM (k0_off12 L 9#32) (k0_off12_inb L 9)).view.loc (thr d L) ↦[(oSlM (k0_off12 L 9#32) (k0_off12_inb L 9)).view.set]{fullShare} Gout d P I0 hI)
      ∗ ((oSlM (k0_off12 L 10#32) (k0_off12_inb L 10)).view.loc (thr d L) ↦[(oSlM (k0_off12 L 10#32) (k0_off12_inb L 10)).view.set]{fullShare} Gout d P I0 hI)
      ∗ ((oSlM (k0_off12 L 11#32) (k0_off12_inb L 11)).view.loc (thr d L) ↦[(oSlM (k0_off12 L 11#32) (k0_off12_inb L 11)).view.set]{fullShare} Gout d P I0 hI)
      ∗ ((oSlM (k0_off12 L 12#32) (k0_off12_inb L 12)).view.loc (thr d L) ↦[(oSlM (k0_off12 L 12#32) (k0_off12_inb L 12)).view.set]{fullShare} Gout d P I0 hI)
      ∗ ((oSlM (k0_off12 L 13#32) (k0_off12_inb L 13)).view.loc (thr d L) ↦[(oSlM (k0_off12 L 13#32) (k0_off12_inb L 13)).view.set]{fullShare} Gout d P I0 hI)
      ∗ ((oSlM (k0_off12 L 14#32) (k0_off12_inb L 14)).view.loc (thr d L) ↦[(oSlM (k0_off12 L 14#32) (k0_off12_inb L 14)).view.set]{fullShare} Gout d P I0 hI)
      ∗ ((oSlM (k0_off12 L 15#32) (k0_off12_inb L 15)).view.loc (thr d L) ↦[(oSlM (k0_off12 L 15#32) (k0_off12_inb L 15)).view.set]{fullShare} Gout d P I0 hI))
      ∗ (∃ f, (s5).view.loc (thr d L) ↦{fullShare} f) ∗ (∃ f, (s6).view.loc (thr d L) ↦{fullShare} f) ∗ (∃ f, (s7).view.loc (thr d L) ↦{fullShare} f)
      ∗ (semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0 ∗ semVal (thr d L, SemLoc.dma cc0_scoped12.sem) 0 ∗ semVal (thr d L, SemLoc.dma cc0_scoped13.sem) 0 ∗ semVal (thr d L, SemLoc.dma cc0_scoped14.sem) 0 ∗ semVal (thr d L, SemLoc.dma cc0_scoped15.sem) 0 ∗ semVal (thr d L, SemLoc.dma cc0_scoped16.sem) 0 ∗ semVal (thr d L, SemLoc.dma cc0_scoped17.sem) 0 ∗ semVal (thr d L, SemLoc.dma cc0_scoped18.sem) 0 ∗ semVal (thr d L, SemLoc.dma cc0_scoped19.sem) 0 ∗ semVal (thr d L, SemLoc.dma cc0_scoped20.sem) 0 ∗ semVal (thr d L, SemLoc.dma cc0_scoped21.sem) 0 ∗ semVal (thr d L, SemLoc.dma cc0_scoped22.sem) 0 ∗ semVal (thr d L, SemLoc.dma cc0_scoped23.sem) 0 ∗ semVal (thr d L, SemLoc.dma cc0_scoped24.sem) 0 ∗ semVal (thr d L, SemLoc.dma cc0_scoped25.sem) 0 ∗ semVal (thr d L, SemLoc.dma cc0_scoped26.sem) 0 ∗ semVal (thr d L, SemLoc.dma cc0_scoped27.sem) 0 ∗ semVal (thr d L, SemLoc.dma cc0_scoped28.sem) 0 ∗ semVal (thr d L, SemLoc.dma cc0_scoped29.sem) 0 ∗ semVal (thr d L, SemLoc.dma cc0_scoped30.sem) 0 ∗ semVal (thr d L, SemLoc.dma cc0_scoped31.sem) 0 ∗ semVal (thr d L, SemLoc.dma cc0_scoped32.sem) 0)
      ∗ ∃ W', ⌜∀ p ∈ W', p ∈ W ∨ p.2 = none⌝ ∗ owes (thr d L) O W') : sProp 𝕄) := by
  rw [cc0__grouping_body_eq_skeleton]; unfold cc0__grouping_body_skel
  iintro ⟨Hmw, ⟨Hp, Hi, Ho0, Ho1, Ho2, Ho3, Ho4, Ho5, Ho6, Ho7, Ho8, Ho9, Ho10, Ho11, Ho12, Ho13, Ho14, Ho15⟩, ⟨%f5, H5⟩, ⟨%f6, H6⟩, ⟨%f7, H7⟩, ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32⟩, HO⟩
  sl_exec
  -- the index scratch holds the index slab
  ihave H5 := (pts_name _ _ _) $$ H5; icases H5 with ⟨%g5, %hg5, H5⟩
  have h5 : ∀ y, g5 y = I0 ((iSlM (k0_off1 L) (k0_off1_inb L)).view.emb y) := by
    subst hg5; exact idx_scratch_val d L _ _ I0 f5 _ rfl
  have hidx5 : ∀ (a : Fin 1) (y : S32x1024.Idx), (g5 y).toNat < S16384.size a := idx_scratch_range d L I0 hI g5 _ h5

  -- channel row 0: the row scratch holds row 0 of the points; the nest gathers it; the result's row 0 is written out
  ihave H6 := (pts_name _ _ _) $$ H6; icases H6 with ⟨%g6_0, %hg6_0, H6⟩
  have h6_0 : ∀ z, g6_0 z = P ((pSlM (k0_off2 L 0#32) (k0_off2_inb L 0)).view.emb z) := by
    subst hg6_0; exact row_scratch_val d L _ _ P _ _ rfl
  iapply (wp_seq (nest0 d L 0#32 g5 g6_0 hidx5 f7)) $$ [H5 H6 H7]
  · isplitl [H5]; · iexact H5
    isplitl [H6]; · iexact H6
    iexact H7
  iintro %r0 ⟨H5, H6, H7⟩
  sl_exec
  ihave Ho0 := (pts_name _ _ _) $$ Ho0; icases Ho0 with ⟨%go0, %hgo0, Ho0⟩
  have hv0 : ∀ p ∈ (oSlM (k0_off12 L 0#32) (k0_off12_inb L 0)).view.set, go0 p = Gout d P I0 hI p := by
    subst hgo0
    exact out_val d L P I0 hI _ _ _ _ _ _ rfl rfl rfl rfl rfl rfl rfl rfl g5 g6_0 hidx5 h5 h6_0 _ _ rfl
  ihave Ho0 := (Entails.of_eq (pointsTo_congr (q := fullShare) hv0)) $$ Ho0

  -- channel row 1: the row scratch holds row 1 of the points; the nest gathers it; the result's row 1 is written out
  ihave H6 := (pts_name _ _ _) $$ H6; icases H6 with ⟨%g6_1, %hg6_1, H6⟩
  have h6_1 : ∀ z, g6_1 z = P ((pSlM (k0_off2 L 1#32) (k0_off2_inb L 1)).view.emb z) := by
    subst hg6_1; exact row_scratch_val d L _ _ P _ _ rfl
  iapply (wp_seq (nest1 d L 0#32 g5 g6_1 hidx5 (gat d L g5 g6_0 hidx5))) $$ [H5 H6 H7]
  · isplitl [H5]; · iexact H5
    isplitl [H6]; · iexact H6
    iexact H7
  iintro %r1 ⟨H5, H6, H7⟩
  sl_exec
  ihave Ho1 := (pts_name _ _ _) $$ Ho1; icases Ho1 with ⟨%go1, %hgo1, Ho1⟩
  have hv1 : ∀ p ∈ (oSlM (k0_off12 L 1#32) (k0_off12_inb L 1)).view.set, go1 p = Gout d P I0 hI p := by
    subst hgo1
    exact out_val d L P I0 hI _ _ _ _ _ _ rfl rfl rfl rfl rfl rfl rfl rfl g5 g6_1 hidx5 h5 h6_1 _ _ rfl
  ihave Ho1 := (Entails.of_eq (pointsTo_congr (q := fullShare) hv1)) $$ Ho1

  -- channel row 2: the row scratch holds row 2 of the points; the nest gathers it; the result's row 2 is written out
  ihave H6 := (pts_name _ _ _) $$ H6; icases H6 with ⟨%g6_2, %hg6_2, H6⟩
  have h6_2 : ∀ z, g6_2 z = P ((pSlM (k0_off2 L 2#32) (k0_off2_inb L 2)).view.emb z) := by
    subst hg6_2; exact row_scratch_val d L _ _ P _ _ rfl
  iapply (wp_seq (nest2 d L 0#32 g5 g6_2 hidx5 (gat d L g5 g6_1 hidx5))) $$ [H5 H6 H7]
  · isplitl [H5]; · iexact H5
    isplitl [H6]; · iexact H6
    iexact H7
  iintro %r2 ⟨H5, H6, H7⟩
  sl_exec
  ihave Ho2 := (pts_name _ _ _) $$ Ho2; icases Ho2 with ⟨%go2, %hgo2, Ho2⟩
  have hv2 : ∀ p ∈ (oSlM (k0_off12 L 2#32) (k0_off12_inb L 2)).view.set, go2 p = Gout d P I0 hI p := by
    subst hgo2
    exact out_val d L P I0 hI _ _ _ _ _ _ rfl rfl rfl rfl rfl rfl rfl rfl g5 g6_2 hidx5 h5 h6_2 _ _ rfl
  ihave Ho2 := (Entails.of_eq (pointsTo_congr (q := fullShare) hv2)) $$ Ho2

  -- channel row 3: the row scratch holds row 3 of the points; the nest gathers it; the result's row 3 is written out
  ihave H6 := (pts_name _ _ _) $$ H6; icases H6 with ⟨%g6_3, %hg6_3, H6⟩
  have h6_3 : ∀ z, g6_3 z = P ((pSlM (k0_off2 L 3#32) (k0_off2_inb L 3)).view.emb z) := by
    subst hg6_3; exact row_scratch_val d L _ _ P _ _ rfl
  iapply (wp_seq (nest3 d L 0#32 g5 g6_3 hidx5 (gat d L g5 g6_2 hidx5))) $$ [H5 H6 H7]
  · isplitl [H5]; · iexact H5
    isplitl [H6]; · iexact H6
    iexact H7
  iintro %r3 ⟨H5, H6, H7⟩
  sl_exec
  ihave Ho3 := (pts_name _ _ _) $$ Ho3; icases Ho3 with ⟨%go3, %hgo3, Ho3⟩
  have hv3 : ∀ p ∈ (oSlM (k0_off12 L 3#32) (k0_off12_inb L 3)).view.set, go3 p = Gout d P I0 hI p := by
    subst hgo3
    exact out_val d L P I0 hI _ _ _ _ _ _ rfl rfl rfl rfl rfl rfl rfl rfl g5 g6_3 hidx5 h5 h6_3 _ _ rfl
  ihave Ho3 := (Entails.of_eq (pointsTo_congr (q := fullShare) hv3)) $$ Ho3

  -- channel row 4: the row scratch holds row 4 of the points; the nest gathers it; the result's row 4 is written out
  ihave H6 := (pts_name _ _ _) $$ H6; icases H6 with ⟨%g6_4, %hg6_4, H6⟩
  have h6_4 : ∀ z, g6_4 z = P ((pSlM (k0_off2 L 4#32) (k0_off2_inb L 4)).view.emb z) := by
    subst hg6_4; exact row_scratch_val d L _ _ P _ _ rfl
  iapply (wp_seq (nest4 d L 0#32 g5 g6_4 hidx5 (gat d L g5 g6_3 hidx5))) $$ [H5 H6 H7]
  · isplitl [H5]; · iexact H5
    isplitl [H6]; · iexact H6
    iexact H7
  iintro %r4 ⟨H5, H6, H7⟩
  sl_exec
  ihave Ho4 := (pts_name _ _ _) $$ Ho4; icases Ho4 with ⟨%go4, %hgo4, Ho4⟩
  have hv4 : ∀ p ∈ (oSlM (k0_off12 L 4#32) (k0_off12_inb L 4)).view.set, go4 p = Gout d P I0 hI p := by
    subst hgo4
    exact out_val d L P I0 hI _ _ _ _ _ _ rfl rfl rfl rfl rfl rfl rfl rfl g5 g6_4 hidx5 h5 h6_4 _ _ rfl
  ihave Ho4 := (Entails.of_eq (pointsTo_congr (q := fullShare) hv4)) $$ Ho4

  -- channel row 5: the row scratch holds row 5 of the points; the nest gathers it; the result's row 5 is written out
  ihave H6 := (pts_name _ _ _) $$ H6; icases H6 with ⟨%g6_5, %hg6_5, H6⟩
  have h6_5 : ∀ z, g6_5 z = P ((pSlM (k0_off2 L 5#32) (k0_off2_inb L 5)).view.emb z) := by
    subst hg6_5; exact row_scratch_val d L _ _ P _ _ rfl
  iapply (wp_seq (nest5 d L 0#32 g5 g6_5 hidx5 (gat d L g5 g6_4 hidx5))) $$ [H5 H6 H7]
  · isplitl [H5]; · iexact H5
    isplitl [H6]; · iexact H6
    iexact H7
  iintro %r5 ⟨H5, H6, H7⟩
  sl_exec
  ihave Ho5 := (pts_name _ _ _) $$ Ho5; icases Ho5 with ⟨%go5, %hgo5, Ho5⟩
  have hv5 : ∀ p ∈ (oSlM (k0_off12 L 5#32) (k0_off12_inb L 5)).view.set, go5 p = Gout d P I0 hI p := by
    subst hgo5
    exact out_val d L P I0 hI _ _ _ _ _ _ rfl rfl rfl rfl rfl rfl rfl rfl g5 g6_5 hidx5 h5 h6_5 _ _ rfl
  ihave Ho5 := (Entails.of_eq (pointsTo_congr (q := fullShare) hv5)) $$ Ho5

  -- channel row 6: the row scratch holds row 6 of the points; the nest gathers it; the result's row 6 is written out
  ihave H6 := (pts_name _ _ _) $$ H6; icases H6 with ⟨%g6_6, %hg6_6, H6⟩
  have h6_6 : ∀ z, g6_6 z = P ((pSlM (k0_off2 L 6#32) (k0_off2_inb L 6)).view.emb z) := by
    subst hg6_6; exact row_scratch_val d L _ _ P _ _ rfl
  iapply (wp_seq (nest6 d L 0#32 g5 g6_6 hidx5 (gat d L g5 g6_5 hidx5))) $$ [H5 H6 H7]
  · isplitl [H5]; · iexact H5
    isplitl [H6]; · iexact H6
    iexact H7
  iintro %r6 ⟨H5, H6, H7⟩
  sl_exec
  ihave Ho6 := (pts_name _ _ _) $$ Ho6; icases Ho6 with ⟨%go6, %hgo6, Ho6⟩
  have hv6 : ∀ p ∈ (oSlM (k0_off12 L 6#32) (k0_off12_inb L 6)).view.set, go6 p = Gout d P I0 hI p := by
    subst hgo6
    exact out_val d L P I0 hI _ _ _ _ _ _ rfl rfl rfl rfl rfl rfl rfl rfl g5 g6_6 hidx5 h5 h6_6 _ _ rfl
  ihave Ho6 := (Entails.of_eq (pointsTo_congr (q := fullShare) hv6)) $$ Ho6

  -- channel row 7: the row scratch holds row 7 of the points; the nest gathers it; the result's row 7 is written out
  ihave H6 := (pts_name _ _ _) $$ H6; icases H6 with ⟨%g6_7, %hg6_7, H6⟩
  have h6_7 : ∀ z, g6_7 z = P ((pSlM (k0_off2 L 7#32) (k0_off2_inb L 7)).view.emb z) := by
    subst hg6_7; exact row_scratch_val d L _ _ P _ _ rfl
  iapply (wp_seq (nest7 d L 0#32 g5 g6_7 hidx5 (gat d L g5 g6_6 hidx5))) $$ [H5 H6 H7]
  · isplitl [H5]; · iexact H5
    isplitl [H6]; · iexact H6
    iexact H7
  iintro %r7 ⟨H5, H6, H7⟩
  sl_exec
  ihave Ho7 := (pts_name _ _ _) $$ Ho7; icases Ho7 with ⟨%go7, %hgo7, Ho7⟩
  have hv7 : ∀ p ∈ (oSlM (k0_off12 L 7#32) (k0_off12_inb L 7)).view.set, go7 p = Gout d P I0 hI p := by
    subst hgo7
    exact out_val d L P I0 hI _ _ _ _ _ _ rfl rfl rfl rfl rfl rfl rfl rfl g5 g6_7 hidx5 h5 h6_7 _ _ rfl
  ihave Ho7 := (Entails.of_eq (pointsTo_congr (q := fullShare) hv7)) $$ Ho7

  -- channel row 8: the row scratch holds row 8 of the points; the nest gathers it; the result's row 8 is written out
  ihave H6 := (pts_name _ _ _) $$ H6; icases H6 with ⟨%g6_8, %hg6_8, H6⟩
  have h6_8 : ∀ z, g6_8 z = P ((pSlM (k0_off2 L 8#32) (k0_off2_inb L 8)).view.emb z) := by
    subst hg6_8; exact row_scratch_val d L _ _ P _ _ rfl
  iapply (wp_seq (nest8 d L 0#32 g5 g6_8 hidx5 (gat d L g5 g6_7 hidx5))) $$ [H5 H6 H7]
  · isplitl [H5]; · iexact H5
    isplitl [H6]; · iexact H6
    iexact H7
  iintro %r8 ⟨H5, H6, H7⟩
  sl_exec
  ihave Ho8 := (pts_name _ _ _) $$ Ho8; icases Ho8 with ⟨%go8, %hgo8, Ho8⟩
  have hv8 : ∀ p ∈ (oSlM (k0_off12 L 8#32) (k0_off12_inb L 8)).view.set, go8 p = Gout d P I0 hI p := by
    subst hgo8
    exact out_val d L P I0 hI _ _ _ _ _ _ rfl rfl rfl rfl rfl rfl rfl rfl g5 g6_8 hidx5 h5 h6_8 _ _ rfl
  ihave Ho8 := (Entails.of_eq (pointsTo_congr (q := fullShare) hv8)) $$ Ho8

  -- channel row 9: the row scratch holds row 9 of the points; the nest gathers it; the result's row 9 is written out
  ihave H6 := (pts_name _ _ _) $$ H6; icases H6 with ⟨%g6_9, %hg6_9, H6⟩
  have h6_9 : ∀ z, g6_9 z = P ((pSlM (k0_off2 L 9#32) (k0_off2_inb L 9)).view.emb z) := by
    subst hg6_9; exact row_scratch_val d L _ _ P _ _ rfl
  iapply (wp_seq (nest9 d L 0#32 g5 g6_9 hidx5 (gat d L g5 g6_8 hidx5))) $$ [H5 H6 H7]
  · isplitl [H5]; · iexact H5
    isplitl [H6]; · iexact H6
    iexact H7
  iintro %r9 ⟨H5, H6, H7⟩
  sl_exec
  ihave Ho9 := (pts_name _ _ _) $$ Ho9; icases Ho9 with ⟨%go9, %hgo9, Ho9⟩
  have hv9 : ∀ p ∈ (oSlM (k0_off12 L 9#32) (k0_off12_inb L 9)).view.set, go9 p = Gout d P I0 hI p := by
    subst hgo9
    exact out_val d L P I0 hI _ _ _ _ _ _ rfl rfl rfl rfl rfl rfl rfl rfl g5 g6_9 hidx5 h5 h6_9 _ _ rfl
  ihave Ho9 := (Entails.of_eq (pointsTo_congr (q := fullShare) hv9)) $$ Ho9

  -- channel row 10: the row scratch holds row 10 of the points; the nest gathers it; the result's row 10 is written out
  ihave H6 := (pts_name _ _ _) $$ H6; icases H6 with ⟨%g6_10, %hg6_10, H6⟩
  have h6_10 : ∀ z, g6_10 z = P ((pSlM (k0_off2 L 10#32) (k0_off2_inb L 10)).view.emb z) := by
    subst hg6_10; exact row_scratch_val d L _ _ P _ _ rfl
  iapply (wp_seq (nest10 d L 0#32 g5 g6_10 hidx5 (gat d L g5 g6_9 hidx5))) $$ [H5 H6 H7]
  · isplitl [H5]; · iexact H5
    isplitl [H6]; · iexact H6
    iexact H7
  iintro %r10 ⟨H5, H6, H7⟩
  sl_exec
  ihave Ho10 := (pts_name _ _ _) $$ Ho10; icases Ho10 with ⟨%go10, %hgo10, Ho10⟩
  have hv10 : ∀ p ∈ (oSlM (k0_off12 L 10#32) (k0_off12_inb L 10)).view.set, go10 p = Gout d P I0 hI p := by
    subst hgo10
    exact out_val d L P I0 hI _ _ _ _ _ _ rfl rfl rfl rfl rfl rfl rfl rfl g5 g6_10 hidx5 h5 h6_10 _ _ rfl
  ihave Ho10 := (Entails.of_eq (pointsTo_congr (q := fullShare) hv10)) $$ Ho10

  -- channel row 11: the row scratch holds row 11 of the points; the nest gathers it; the result's row 11 is written out
  ihave H6 := (pts_name _ _ _) $$ H6; icases H6 with ⟨%g6_11, %hg6_11, H6⟩
  have h6_11 : ∀ z, g6_11 z = P ((pSlM (k0_off2 L 11#32) (k0_off2_inb L 11)).view.emb z) := by
    subst hg6_11; exact row_scratch_val d L _ _ P _ _ rfl
  iapply (wp_seq (nest11 d L 0#32 g5 g6_11 hidx5 (gat d L g5 g6_10 hidx5))) $$ [H5 H6 H7]
  · isplitl [H5]; · iexact H5
    isplitl [H6]; · iexact H6
    iexact H7
  iintro %r11 ⟨H5, H6, H7⟩
  sl_exec
  ihave Ho11 := (pts_name _ _ _) $$ Ho11; icases Ho11 with ⟨%go11, %hgo11, Ho11⟩
  have hv11 : ∀ p ∈ (oSlM (k0_off12 L 11#32) (k0_off12_inb L 11)).view.set, go11 p = Gout d P I0 hI p := by
    subst hgo11
    exact out_val d L P I0 hI _ _ _ _ _ _ rfl rfl rfl rfl rfl rfl rfl rfl g5 g6_11 hidx5 h5 h6_11 _ _ rfl
  ihave Ho11 := (Entails.of_eq (pointsTo_congr (q := fullShare) hv11)) $$ Ho11

  -- channel row 12: the row scratch holds row 12 of the points; the nest gathers it; the result's row 12 is written out
  ihave H6 := (pts_name _ _ _) $$ H6; icases H6 with ⟨%g6_12, %hg6_12, H6⟩
  have h6_12 : ∀ z, g6_12 z = P ((pSlM (k0_off2 L 12#32) (k0_off2_inb L 12)).view.emb z) := by
    subst hg6_12; exact row_scratch_val d L _ _ P _ _ rfl
  iapply (wp_seq (nest12 d L 0#32 g5 g6_12 hidx5 (gat d L g5 g6_11 hidx5))) $$ [H5 H6 H7]
  · isplitl [H5]; · iexact H5
    isplitl [H6]; · iexact H6
    iexact H7
  iintro %r12 ⟨H5, H6, H7⟩
  sl_exec
  ihave Ho12 := (pts_name _ _ _) $$ Ho12; icases Ho12 with ⟨%go12, %hgo12, Ho12⟩
  have hv12 : ∀ p ∈ (oSlM (k0_off12 L 12#32) (k0_off12_inb L 12)).view.set, go12 p = Gout d P I0 hI p := by
    subst hgo12
    exact out_val d L P I0 hI _ _ _ _ _ _ rfl rfl rfl rfl rfl rfl rfl rfl g5 g6_12 hidx5 h5 h6_12 _ _ rfl
  ihave Ho12 := (Entails.of_eq (pointsTo_congr (q := fullShare) hv12)) $$ Ho12

  -- channel row 13: the row scratch holds row 13 of the points; the nest gathers it; the result's row 13 is written out
  ihave H6 := (pts_name _ _ _) $$ H6; icases H6 with ⟨%g6_13, %hg6_13, H6⟩
  have h6_13 : ∀ z, g6_13 z = P ((pSlM (k0_off2 L 13#32) (k0_off2_inb L 13)).view.emb z) := by
    subst hg6_13; exact row_scratch_val d L _ _ P _ _ rfl
  iapply (wp_seq (nest13 d L 0#32 g5 g6_13 hidx5 (gat d L g5 g6_12 hidx5))) $$ [H5 H6 H7]
  · isplitl [H5]; · iexact H5
    isplitl [H6]; · iexact H6
    iexact H7
  iintro %r13 ⟨H5, H6, H7⟩
  sl_exec
  ihave Ho13 := (pts_name _ _ _) $$ Ho13; icases Ho13 with ⟨%go13, %hgo13, Ho13⟩
  have hv13 : ∀ p ∈ (oSlM (k0_off12 L 13#32) (k0_off12_inb L 13)).view.set, go13 p = Gout d P I0 hI p := by
    subst hgo13
    exact out_val d L P I0 hI _ _ _ _ _ _ rfl rfl rfl rfl rfl rfl rfl rfl g5 g6_13 hidx5 h5 h6_13 _ _ rfl
  ihave Ho13 := (Entails.of_eq (pointsTo_congr (q := fullShare) hv13)) $$ Ho13

  -- channel row 14: the row scratch holds row 14 of the points; the nest gathers it; the result's row 14 is written out
  ihave H6 := (pts_name _ _ _) $$ H6; icases H6 with ⟨%g6_14, %hg6_14, H6⟩
  have h6_14 : ∀ z, g6_14 z = P ((pSlM (k0_off2 L 14#32) (k0_off2_inb L 14)).view.emb z) := by
    subst hg6_14; exact row_scratch_val d L _ _ P _ _ rfl
  iapply (wp_seq (nest14 d L 0#32 0#32 0#32 0#32 g5 g6_14 hidx5 (gat d L g5 g6_13 hidx5))) $$ [H5 H6 H7]
  · isplitl [H5]; · iexact H5
    isplitl [H6]; · iexact H6
    iexact H7
  iintro %r14 ⟨H5, H6, H7⟩
  sl_exec
  ihave Ho14 := (pts_name _ _ _) $$ Ho14; icases Ho14 with ⟨%go14, %hgo14, Ho14⟩
  have hv14 : ∀ p ∈ (oSlM (k0_off12 L 14#32) (k0_off12_inb L 14)).view.set, go14 p = Gout d P I0 hI p := by
    subst hgo14
    exact out_val d L P I0 hI _ _ _ _ _ _ rfl rfl rfl rfl rfl rfl rfl rfl g5 g6_14 hidx5 h5 h6_14 _ _ rfl
  ihave Ho14 := (Entails.of_eq (pointsTo_congr (q := fullShare) hv14)) $$ Ho14

  -- channel row 15: the row scratch holds row 15 of the points; the nest gathers it; the result's row 15 is written out
  ihave H6 := (pts_name _ _ _) $$ H6; icases H6 with ⟨%g6_15, %hg6_15, H6⟩
  have h6_15 : ∀ z, g6_15 z = P ((pSlM (k0_off2 L 15#32) (k0_off2_inb L 15)).view.emb z) := by
    subst hg6_15; exact row_scratch_val d L _ _ P _ _ rfl
  iapply (wp_seq (nest15 d L 0#32 0#32 0#32 0#32 g5 g6_15 hidx5 (gat d L g5 g6_14 hidx5))) $$ [H5 H6 H7]
  · isplitl [H5]; · iexact H5
    isplitl [H6]; · iexact H6
    iexact H7
  iintro %r15 ⟨H5, H6, H7⟩
  sl_exec
  ihave Ho15 := (pts_name _ _ _) $$ Ho15; icases Ho15 with ⟨%go15, %hgo15, Ho15⟩
  have hv15 : ∀ p ∈ (oSlM (k0_off12 L 15#32) (k0_off12_inb L 15)).view.set, go15 p = Gout d P I0 hI p := by
    subst hgo15
    exact out_val d L P I0 hI _ _ _ _ _ _ rfl rfl rfl rfl rfl rfl rfl rfl g5 g6_15 hidx5 h5 h6_15 _ _ rfl
  ihave Ho15 := (Entails.of_eq (pointsTo_congr (q := fullShare) hv15)) $$ Ho15
  sl_step
  isplitl [Hp Hi Ho0 Ho1 Ho2 Ho3 Ho4 Ho5 Ho6 Ho7 Ho8 Ho9 Ho10 Ho11 Ho12 Ho13 Ho14 Ho15]
  · isplitl [Hp]; · iexact Hp
    isplitl [Hi]; · iexact Hi
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  isplitl [H5]; · iexists _; iexact H5
  isplitl [H6]; · iexists _; iexact H6
  isplitl [H7]; · iexists _; iexact H7
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    iexact Hs32
  iexists _
  isplitr
  rotate_left
  · iexact HO
  · ipureintro
    exact wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (wok_insert _ (fun p hp => Or.inl hp)))))))))))))))))))))))))))))))))

end Cert.Proof.GroupB

end
-- ==== Proof.GroupB.Pieces.lean ====
/-
  The result's rows, as sets. A task at grid point `(c, i)` writes, for each channel row `j`, the row of the result at
  `b = (2i + c) / 4`, `cc = 16 · ((2i + c) mod 4) + j`: all entries `(b, cc, s, q)`. Over the 2 × 16 tasks and their 16
  channel rows these 512 rows are pairwise disjoint and cover the result, so holding the result whole is holding each row.
-/
import proofs.«208723_g16346645529139_cont_week2b_1265_5_alg».proof.Proof.GroupB.Views

noncomputable section

namespace Cert.Proof.GroupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.Kernel.main_arg0_scv : Memref Cert.Kernel.sig Kind.scVector Space.hbm Cert.Kernel.S8x64x16384 EltTy.f32)
local notation "iV" => (Memref.whole Cert.Kernel.main_v0_scv : Memref Cert.Kernel.sig Kind.scVector Space.hbm Cert.Kernel.S8x32x1024 EltTy.i32)
local notation "oV" => (Memref.whole Cert.Kernel.main_v1_scv : Memref Cert.Kernel.sig Kind.scVector Space.hbm Cert.Kernel.S8x64x32x1024 EltTy.f32)
local notation "s5" => (Memref.whole Cert.Kernel.cc0_scratch0 : Memref Cert.Kernel.sig Kind.scVector Space.vmem Cert.Kernel.S32x1024 EltTy.i32)
local notation "s6" => (Memref.whole Cert.Kernel.cc0_scratch1 : Memref Cert.Kernel.sig Kind.scVector Space.vmem Cert.Kernel.S16384 EltTy.f32)
local notation "s7" => (Memref.whole Cert.Kernel.cc0_scratch2 : Memref Cert.Kernel.sig Kind.scVector Space.vmem Cert.Kernel.S32x1024 EltTy.f32)
local notation "𝕄" => MT nD τ sig (HIx 1) (Elt F) ℕ UU ℕ

/-- The offsets of the result's row `j` of the task at `(c, i)`, in closed form: evaluated at each of the 512. -/
theorem off12_cf : ∀ (c : Fin 2) (i : Fin 16) (j : Fin 16),
    k0_off12 (coordsV c i) (BitVec.ofNat 32 j.val) = ![(2 * i.val + c.val) / 4, ((2 * i.val + c.val) % 4) * 16 + j.val, 0, 0] := by
  decide +kernel

/-- The elements of the result's row at offsets `off` (zero on the last two axes): those with the first two coordinates `off`'s. -/
theorem mem_out_row (off : Fin 4 → Nat) (h : ∀ a, off a + S1x1x32x1024.size a ≤ S8x64x32x1024.size a) (e2 : off 2 = 0) (e3 : off 3 = 0)
    (p : S8x64x32x1024.Idx) : p ∈ (oSlM off h).view.set ↔ ((p 0).val = off 0 ∧ (p 1).val = off 1) := by
  have hs : (oSlM off h).view.set = (Rect.unit (s := S8x64x32x1024) off S1x1x32x1024.size h).set := by
    show (((View.whole (main_v1_scv : Ref sig .scVector)).slice (Rect.unit (s := S8x64x32x1024) off S1x1x32x1024.size h)).reshape S32x1024
      squeezes_S1x1x32x1024_S32x1024.numel_eq).set = _
    rw [View.set_reshape, View.set_slice]; exact Finset.map_refl
  rw [hs, Rect.mem_set_unit]
  have h2 : (p 2).val < 32 := (p 2).isLt
  have h3 : (p 3).val < 1024 := (p 3).isLt
  constructor
  · intro H
    have H0 : off 0 ≤ (p 0).val ∧ (p 0).val < off 0 + 1 := H 0
    have H1 : off 1 ≤ (p 1).val ∧ (p 1).val < off 1 + 1 := H 1
    omega
  · rintro ⟨H0, H1⟩ a
    match a with
    | ⟨0, _⟩ => show off 0 ≤ (p 0).val ∧ (p 0).val < off 0 + 1; omega
    | ⟨1, _⟩ => show off 1 ≤ (p 1).val ∧ (p 1).val < off 1 + 1; omega
    | ⟨2, _⟩ => show off 2 ≤ (p 2).val ∧ (p 2).val < off 2 + 32; omega
    | ⟨3, _⟩ => show off 3 ≤ (p 3).val ∧ (p 3).val < off 3 + 1024; omega

/-- Row `j` of the result as the task at grid point `L` addresses it. -/
abbrev pcL (L : grid0.Coords) (j : Fin 16) : Finset S8x64x32x1024.Idx :=
  (oSlM (k0_off12 L (BitVec.ofNat 32 j.val)) (k0_off12_inb L j)).view.set

/-- The 512 rows, indexed by SparseCore, vector subcore and channel row. -/
abbrev pcX (x : Fin 2 × Fin 16 × Fin 16) : Finset S8x64x32x1024.Idx := pcL (coordsV x.1 x.2.1) x.2.2

theorem mem_pcX (c : Fin 2) (i : Fin 16) (j : Fin 16) (p : S8x64x32x1024.Idx) :
    p ∈ pcX (c, i, j) ↔ ((p 0).val = (2 * i.val + c.val) / 4 ∧ (p 1).val = ((2 * i.val + c.val) % 4) * 16 + j.val) := by
  have e := off12_cf c i j
  rw [show pcX (c, i, j) = (oSlM (k0_off12 (coordsV c i) (BitVec.ofNat 32 j.val)) (k0_off12_inb (coordsV c i) j)).view.set from rfl,
    mem_out_row _ _ (by rw [e]; rfl) (by rw [e]; rfl), e]
  rfl

theorem pcX_disjoint : ∀ x ∈ (Finset.univ : Finset (Fin 2 × Fin 16 × Fin 16)), ∀ y ∈ (Finset.univ : Finset (Fin 2 × Fin 16 × Fin 16)),
    x ≠ y → Disjoint (pcX x) (pcX y) := by
  rintro ⟨c, i, j⟩ - ⟨c', i', j'⟩ - hne
  refine Finset.disjoint_left.mpr fun p hp hp' => hne ?_
  rw [mem_pcX] at hp hp'
  have hc := c.isLt; have hi := i.isLt; have hj := j.isLt
  have hc' := c'.isLt; have hi' := i'.isLt; have hj' := j'.isLt
  have h1 : c.val = c'.val := by omega
  have h2 : i.val = i'.val := by omega
  have h3 : j.val = j'.val := by omega
  exact Prod.ext (Fin.ext h1) (Prod.ext (Fin.ext h2) (Fin.ext h3))

theorem pcX_cover : (Finset.univ : Finset (Fin 2 × Fin 16 × Fin 16)).biUnion pcX = Finset.univ := by
  ext p
  simp only [Finset.mem_biUnion, Finset.mem_univ, true_and, iff_true]
  have h0 : (p 0).val < 8 := (p 0).isLt
  have h1 : (p 1).val < 64 := (p 1).isLt
  refine ⟨(⟨(4 * (p 0).val + (p 1).val / 16) % 2, by omega⟩, ⟨(4 * (p 0).val + (p 1).val / 16) / 2, by omega⟩, ⟨(p 1).val % 16, by omega⟩), ?_⟩
  rw [mem_pcX]
  show (p 0).val = (2 * ((4 * (p 0).val + (p 1).val / 16) / 2) + (4 * (p 0).val + (p 1).val / 16) % 2) / 4
    ∧ (p 1).val = ((2 * ((4 * (p 0).val + (p 1).val / 16) / 2) + (4 * (p 0).val + (p 1).val / 16) % 2) % 4) * 16 + (p 1).val % 16
  omega

variable (d : Dev nD)

/-- The result held whole is its 512 rows held. -/
theorem oPts_pieces (f : Buf (Elt F) (oLoc d)) :
    (oLoc d ↦{fullShare} f : sProp 𝕄) = bigSep Finset.univ fun x : Fin 2 × Fin 16 × Fin 16 => oLoc d ↦[pcX x]{fullShare} f := by
  rw [← pointsTo_biUnion Finset.univ (ℓ := oLoc d) pcX pcX_disjoint, pcX_cover]; try rfl

end Cert.Proof.GroupB

end
-- ==== Proof.GroupB.Launch.lean ====
/-
  The launch of the gathering kernel. The TensorCore transposes the indices, starts both SparseCores, waits for them and
  transposes the result. Each of the 32 vector subcores is handed a read share of the points and of the transposed
  indices (every task reads its own channel rows of the points, and four tasks read each index slab) and its sixteen
  rows of the result outright; it hands them back with the rows at `Gout`. The copies a task makes are its own: no
  thread signals another beyond the launch's handshakes, so the ghost state is the handshakes' beside the transfers' counters.
-/
import proofs.«208723_g16346645529139_cont_week2b_1265_5_alg».proof.Proof.GroupB.Body
import proofs.«208723_g16346645529139_cont_week2b_1265_5_alg».proof.Proof.GroupB.Pieces

noncomputable section

namespace Cert.Proof.GroupB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "pV" => (Memref.whole Cert.Kernel.main_arg0_scv : Memref Cert.Kernel.sig Kind.scVector Space.hbm Cert.Kernel.S8x64x16384 EltTy.f32)
local notation "iV" => (Memref.whole Cert.Kernel.main_v0_scv : Memref Cert.Kernel.sig Kind.scVector Space.hbm Cert.Kernel.S8x32x1024 EltTy.i32)
local notation "oV" => (Memref.whole Cert.Kernel.main_v1_scv : Memref Cert.Kernel.sig Kind.scVector Space.hbm Cert.Kernel.S8x64x32x1024 EltTy.f32)
local notation "s5" => (Memref.whole Cert.Kernel.cc0_scratch0 : Memref Cert.Kernel.sig Kind.scVector Space.vmem Cert.Kernel.S32x1024 EltTy.i32)
local notation "s6" => (Memref.whole Cert.Kernel.cc0_scratch1 : Memref Cert.Kernel.sig Kind.scVector Space.vmem Cert.Kernel.S16384 EltTy.f32)
local notation "s7" => (Memref.whole Cert.Kernel.cc0_scratch2 : Memref Cert.Kernel.sig Kind.scVector Space.vmem Cert.Kernel.S32x1024 EltTy.f32)
local notation "𝕄" => MT nD τ sig (HIx 1) (Elt F) ℕ UU ℕ

/-! ## What the arrays hold -/

/-- @main's two transposes, as the program writes them. -/
abbrev tr1 : (⟨S8x1024x32, .i32⟩ : BufTy).Contents (Elt F) → (⟨S8x32x1024, .i32⟩ : BufTy).Contents (Elt F) :=
  (transpose S8x32x1024 [0, 2, 1] · transposes_S8x1024x32_S8x32x1024_0_2_1)
abbrev tr2 : (⟨S8x64x32x1024, .f32⟩ : BufTy).Contents (Elt F) → (⟨S8x64x1024x32, .f32⟩ : BufTy).Contents (Elt F) :=
  (transpose S8x64x1024x32 [0, 1, 3, 2] · transposes_S8x64x32x1024_S8x64x1024x32_0_1_3_2)

variable (m : (ℓ : Loc nD τ sig) → Buf (Elt F) ℓ) (ρ : Dev nD → PrngReg)

/-- The transposed indices: what the kernel's second operand holds when the kernel starts. -/
abbrev Iv (d : Dev nD) : Buf (Elt F) (iLoc d) := tr1 (m (aLoc d))

/-- What the proof asks of the launch memory: every index names a point. -/
def PreOK : Prop := ∀ (d : Dev nD) (q : S8x32x1024.Idx), (Iv m d q).toNat < 16384

variable (hI : PreOK m)

/-- What the kernel leaves in its result. -/
abbrev GoutD (d : Dev nD) : Buf (Elt F) (oLoc d) := Gout d (m (pLoc d)) (Iv m d) (hI d)

/-! ## Shares and payloads -/

abbrev q2 (c : Fin 2) : PosShare TreeShare := Transfers.shareTok fullShare 2 c
abbrev q32 (c : Fin 2) (i : Fin 16) : PosShare TreeShare := Transfers.shareTok (q2 c) 16 i

/-- A task's operands: the two read shares and its sixteen rows of the result at `fo`. -/
def tileGo (d : Dev nD) (L : grid0.Coords) (q : PosShare TreeShare) (fo : Buf (Elt F) (oLoc d)) : sProp 𝕄 :=
  iprop((pLoc d ↦{q} m (pLoc d)) ∗ (iLoc d ↦{q} Iv m d) ∗ bigSep Finset.univ fun j : Fin 16 => oLoc d ↦[pcL L j]{fullShare} fo)
/-- A SparseCore's operands: its read shares and its sixteen tasks' rows. -/
def coreSt (d : Dev nD) (c : Fin 2) (fo : Buf (Elt F) (oLoc d)) : sProp 𝕄 :=
  iprop((pLoc d ↦{q2 c} m (pLoc d)) ∗ (iLoc d ↦{q2 c} Iv m d)
    ∗ bigSep Finset.univ fun i : Fin 16 => bigSep Finset.univ fun j : Fin 16 => oLoc d ↦[pcL (coordsV c i) j]{fullShare} fo)

/-- The operands of the task of vector subcore `i` of SparseCore `c`. -/
abbrev goOf (d : Dev nD) (c : Fin 2) (i : Fin 16) (fo : Buf (Elt F) (oLoc d)) : sProp 𝕄 := tileGo m d (coordsV c i) (q32 c i) fo

instance tileGo_storable (d : Dev nD) (L : grid0.Coords) (q : PosShare TreeShare) (fo : Buf (Elt F) (oLoc d)) :
    BI.Storable (upEmb : UEmb _ 𝕄) (tileGo m d L q fo) := by unfold tileGo; infer_instance
instance coreSt_storable (d : Dev nD) (c : Fin 2) (fo : Buf (Elt F) (oLoc d)) :
    BI.Storable (upEmb : UEmb _ 𝕄) (coreSt m d c fo) := by unfold coreSt; infer_instance

def P : (K (F := F)).Pay (nD := nD) (Val := Elt F) (Name := ℕ) (U := UU) where
  st := fun q d c => match q with | 0 => coreSt m d (Fin.cast nCore_zero c) (m (oLoc d))
  dn := fun q d c => match q with | 0 => coreSt m d (Fin.cast nCore_zero c) (GoutD m hI d)
  go := fun q d c i => match q with
    | 0 => goOf m d (Fin.cast nCore_zero c) (Fin.cast nSub_zero i) (m (oLoc d))
  td := fun q d c i => match q with
    | 0 => goOf m d (Fin.cast nCore_zero c) (Fin.cast nSub_zero i) (GoutD m hI d)
  x := fun _ _ => iprop(emp)

instance P_storable : (P (F := F) m hI).IsStorable where
  st q d c := match q with | 0 => coreSt_storable m d _ _
  dn q d c := match q with | 0 => coreSt_storable m d _ _
  go q d c i := match q with | 0 => tileGo_storable m d _ _ _
  td q d c i := match q with | 0 => tileGo_storable m d _ _ _

/-! ## Families over `Fin 16` and `Fin 33`, spelt out -/

omit m hI in
theorem bigSep_fin16 (Φ : Fin 16 → sProp 𝕄) :
    bigSep (Finset.univ : Finset (Fin 16)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit m hI in
theorem bigSep_fin33 (Φ : Fin 33 → sProp 𝕄) :
    bigSep (Finset.univ : Finset (Fin 33)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32) := by
  rw [show (Finset.univ : Finset (Fin 33)) = {0, 1, 2, 3, 4, 5, 6, 7, 8, 9, 10, 11, 12, 13, 14, 15, 16, 17, 18, 19, 20, 21, 22, 23, 24, 25, 26, 27, 28, 29, 30, 31, 32} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## A vector subcore's own semaphores and scratch -/

section Tile

variable (d : Dev nD) (L : grid0.Coords)

/-- The DMA semaphores of a thread, as cells. -/
abbrev dmaCells (t : Thread nD τ) : Finset (GSem nD τ sig) := Finset.univ.image fun k : Fin 33 => ((t, SemLoc.dma k) : GSem nD τ sig)

omit m hI in
/-- Every DMA semaphore of a vector subcore is scoped to its task. -/
theorem dma_scoped : ∀ k : Fin 33, (SemLoc.dma k : SemLoc sig).isScoped .scVector = true := by decide

omit m hI in
theorem dmaCells_sub : dmaCells (thr d L) ⊆ ownCells (thr d L) := by
  intro g hg
  obtain ⟨k, -, rfl⟩ := Finset.mem_image.mp hg
  exact mem_ownCells.mpr ⟨rfl, dma_scoped k⟩

omit m hI in
/-- The subcore's 33 DMA semaphores at zero, and its other scoped cells. -/
theorem ownSems0_V :
    (ownSems0 (thr d L) : sProp 𝕄)
      = iprop((semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0 ∗ semVal (thr d L, SemLoc.dma cc0_scoped9.sem) 0 ∗ semVal (thr d L, SemLoc.dma cc0_scoped10.sem) 0 ∗ semVal (thr d L, SemLoc.dma cc0_scoped11.sem) 0 ∗ semVal (thr d L, SemLoc.dma cc0_scoped12.sem) 0 ∗ semVal (thr d L, SemLoc.dma cc0_scoped13.sem) 0 ∗ semVal (thr d L, SemLoc.dma cc0_scoped14.sem) 0 ∗ semVal (thr d L, SemLoc.dma cc0_scoped15.sem) 0 ∗ semVal (thr d L, SemLoc.dma cc0_scoped16.sem) 0 ∗ semVal (thr d L, SemLoc.dma cc0_scoped17.sem) 0 ∗ semVal (thr d L, SemLoc.dma cc0_scoped18.sem) 0 ∗ semVal (thr d L, SemLoc.dma cc0_scoped19.sem) 0 ∗ semVal (thr d L, SemLoc.dma cc0_scoped20.sem) 0 ∗ semVal (thr d L, SemLoc.dma cc0_scoped21.sem) 0 ∗ semVal (thr d L, SemLoc.dma cc0_scoped22.sem) 0 ∗ semVal (thr d L, SemLoc.dma cc0_scoped23.sem) 0 ∗ semVal (thr d L, SemLoc.dma cc0_scoped24.sem) 0 ∗ semVal (thr d L, SemLoc.dma cc0_scoped25.sem) 0 ∗ semVal (thr d L, SemLoc.dma cc0_scoped26.sem) 0 ∗ semVal (thr d L, SemLoc.dma cc0_scoped27.sem) 0 ∗ semVal (thr d L, SemLoc.dma cc0_scoped28.sem) 0 ∗ semVal (thr d L, SemLoc.dma cc0_scoped29.sem) 0 ∗ semVal (thr d L, SemLoc.dma cc0_scoped30.sem) 0 ∗ semVal (thr d L, SemLoc.dma cc0_scoped31.sem) 0 ∗ semVal (thr d L, SemLoc.dma cc0_scoped32.sem) 0)
          ∗ bigSep (ownCells (thr d L) \ dmaCells (thr d L)) fun g => semVal g 0) := by
  unfold SparseCore.Cfg.ownSems0
  rw [SparseCore.bigSep_sdiff_split' (dmaCells_sub d L),
    show dmaCells (thr d L) = Finset.univ.image (fun k : Fin 33 => ((thr d L, SemLoc.dma k) : GSem nD τ sig)) from rfl,
    SparseCore.bigSep_image_of_injOn (s := (Finset.univ : Finset (Fin 33))) (f := fun k : Fin 33 => ((thr d L, SemLoc.dma k) : GSem nD τ sig))
      (fun a _ b _ e => SemLoc.dma.inj (Prod.mk.inj e).2) (fun g : GSem nD τ sig => (semVal g 0 : sProp 𝕄)), bigSep_fin33]
  rfl

omit m hI in
/-- The three scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- A task, from what the launch hands it to what it hands back. -/
theorem tile_task (hF : (K (F := F)).Facts) (q : PosShare TreeShare) (O : CellTallies nD τ sig (HIx 1)) (W : Waits sig (HIx 1))
    (hO : ∀ g, O g none = 0) :
    iprop(levAts (K (F := F)).L (K (F := F)).lev ∗ emp ∗ tileGo m d L q (m (oLoc d))
        ∗ scopedBufs (thr d L) ∗ scopedSems0 (thr d L) ∗ owes (thr d L) O W)
      ⊢ wp frame (wpE (defs₀ (F := F)) 𝒱₀ (thr d L) none) Set.univ
          (cc0__grouping_body L pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32)
          fun _ => iprop(tileGo m d L q (GoutD m hI d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tileGo
  rw [bigSep_fin16, bigSep_fin16]
  iintro ⟨#Hlv, -, HG, ⟨H5, H6, H7, Hbufs⟩, ⟨HS, Hsems⟩, HO⟩
  ihave Hmw := ((K (F := F)).mayWaits_none (thr := thr d L) hO) $$ Hlv
  ihave Hwp := (tile_body d L O W (m (pLoc d)) (Iv m d) (m (oLoc d)) q q (hI d)) $$ [Hmw HG H5 H6 H7 HS HO]
  · isplitl [Hmw]; · iexact Hmw
    isplitl [HG]; · iexact HG
    isplitl [H5]; · iexact H5
    isplitl [H6]; · iexact H6
    isplitl [H7]; · iexact H7
    isplitl [HS]; · iexact HS
    iexact HO
  iapply (wp_wand frame _ _) $$ Hwp
  iintro %r ⟨HG, H5, H6, H7, HS, HW⟩
  isplitl [HG]; · iexact HG
  isplitl [H5 H6 H7 Hbufs]
  · isplitl [H5]; · iexact H5
    isplitl [H6]; · iexact H6
    isplitl [H7]; · iexact H7
    iexact Hbufs
  isplitl [HS Hsems]
  · isplitl [HS]; · iexact HS
    iexact Hsems
  iexact HW

end Tile

/-! ## The launch theorem's obligations -/

omit m hI in
theorem defs₀_vector [FloatOps F] (c : Fin τ.nSC) (s : Fin τ.nSub) :
    defs₀ (F := F) (.scVector c s) 0 ()
      = SparseCore.onTile hcore0 hsub0 (fun c s => cc0__grouping_body (coordsV c s) pV (Memref.isWhole_whole _) iV (Memref.isWhole_whole _) oV (Memref.isWhole_whole _) s5 (Memref.isWhole_whole _) s6 (Memref.isWhole_whole _) s7 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32) ⟨⟩ c s := rfl

omit m hI in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (hF : (K (F := F)).Facts) : (K (F := F)).TileObl (D (F := F)) 𝒱 (P m hI) v₀ 0 := by
  intro d c i O W hO _ _
  simp only [show (P m hI).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m hI d (coordsV ⟨_, hc.1⟩ ⟨_, hc.2⟩) hF _ O W hO).trans (wp_mono frame _ _ fun _ => obl_post)

omit m hI in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands split among its sixteen tasks, and gather from them. -/
theorem vecSplit : (K (F := F)).VecSplit' (P m hI) 0 := by
  intro d c
  show coreSt m d (Fin.cast nCore_zero c) (m (oLoc d)) ⊢ |={Set.univ}=> iprop(
      (bigSep Finset.univ fun i : Fin ((K (F := F)).nSub 0) => goOf m d (Fin.cast nCore_zero c) (Fin.cast nSub_zero i) (m (oLoc d)))
      ∗ ((bigSep Finset.univ fun i : Fin ((K (F := F)).nSub 0) => goOf m d (Fin.cast nCore_zero c) (Fin.cast nSub_zero i) (GoutD m hI d))
          -∗ coreSt m d (Fin.cast nCore_zero c) (GoutD m hI d)))
  generalize Fin.cast nCore_zero c = c'
  rw [bigSep_tasks (F := F) (fun i => goOf m d c' i (m (oLoc d))), bigSep_tasks (F := F) (fun i => goOf m d c' i (GoutD m hI d))]
  unfold coreSt goOf tileGo
  rw [bigSep_sep', bigSep_sep', bigSep_sep', bigSep_sep']
  iintro ⟨Hp, Hi, Ho⟩
  ihave Hp := (Transfers.pointsTo_toks_split (q2 c') 16) $$ Hp
  icases Hp with ⟨Hpr, Hpt⟩
  ihave Hi := (Transfers.pointsTo_toks_split (q2 c') 16) $$ Hi
  icases Hi with ⟨Hir, Hit⟩
  imodintro
  isplitl [Hpt Hit Ho]
  · isplitl [Hpt]; · iexact Hpt
    isplitl [Hit]; · iexact Hit
    iexact Ho
  iintro ⟨Hpt, Hit, Ho⟩
  isplitl [Hpr Hpt]
  · iapply (Transfers.pointsTo_toks_join (q2 c') 16)
    isplitl [Hpr]; · iexact Hpr
    iexact Hpt
  isplitl [Hir Hit]
  · iapply (Transfers.pointsTo_toks_join (q2 c') 16)
    isplitl [Hir]; · iexact Hir
    iexact Hit
  iexact Ho

/-! ## The launch element: the handshakes' rounds; nothing of the kernel's own -/

def u₀ : UU := (initOf (K (F := F)).hsCells (K (F := F)).hsToks, 1)

omit m hI in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hI).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev p' : DevRef τ sig := Proc.devRef .tc (main_arg0 : Ref sig .tc)
abbrev a' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev op1 : HloOp τ sig (Elt F) := StableHlo.unary main_arg1 main_v0 (tr1 (F := F))
abbrev op2 : HloOp τ sig (Elt F) := StableHlo.unary main_v1 main_v2 (tr2 (F := F))

/-- The launch valuation. -/
def V0 (d : Dev nD) : Valuation τ sig (Elt F) := fun b => m (d, b)

omit m hI in
theorem unscopedBufs_eq (d : Dev nD) (W : (b : Ref sig .tc) → Buf (Elt F) ((d.tc : Thread nD τ).loc b)) :
    (unscopedBufs d W : sProp 𝕄) = iprop((pLoc d ↦{fullShare} W main_arg0) ∗ (aLoc d ↦{fullShare} W main_arg1) ∗ (iLoc d ↦{fullShare} W main_v0)
      ∗ (oLoc d ↦{fullShare} W main_v1) ∗ (rLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit m hI in
/-- Two buffers held. -/
theorem held_two (d : Dev nD) (x y : DevRef τ sig) (h : x ≠ y) (V : Valuation τ sig (Elt F)) :
    (held (T d) {x, y} V : sProp 𝕄) = iprop((((d, x) : Loc nD τ sig) ↦{fullShare} V x) ∗ (((d, y) : Loc nD τ sig) ↦{fullShare} V y)) := by
  unfold held
  rw [SparseCore.bigSep_insert' (by rw [Finset.mem_singleton]; exact h), bigSep_singleton]

/-- What @main leaves the claim: the arguments at their launch contents, the result at the transposed `Gout`. -/
abbrev FIN (d : Dev nD) : sProp 𝕄 :=
  iprop((pLoc d ↦{fullShare} m (pLoc d)) ∗ (aLoc d ↦{fullShare} m (aLoc d)) ∗ (rLoc d ↦{fullShare} tr2 (GoutD m hI d)))

/-- After the first transpose the indices are unchanged and the kernel's second operand holds them transposed. -/
theorem res1_a (d : Dev nD) : (op1 (F := F)).result (V0 m d) a' = m (aLoc d) :=
  StableHlo.unary_result_ne (τ := τ) (x := main_arg1) (y := main_v0) (tr1 (F := F)) _ _ (V0 m d) (r := main_arg1) (by decide)
theorem res1_i (d : Dev nD) : (op1 (F := F)).result (V0 m d) i' = Iv m d :=
  StableHlo.unary_result main_arg1 main_v0 (tr1 (F := F)) _ _ (V0 m d)

/-- The valuation at the second transpose: the kernel's result at `Gout`. -/
def V2 (d : Dev nD) : Valuation τ sig (Elt F) := Function.update (V0 m d) o' (GoutD m hI d)
theorem V2_o (d : Dev nD) : V2 m hI d o' = GoutD m hI d := Function.update_self _ _ _
theorem V2_r (d : Dev nD) : V2 m hI d r' = m (rLoc d) := Function.update_of_ne (show r' ≠ o' by decide) _ _
theorem res2_o (d : Dev nD) : (op2 (F := F)).result (V2 m hI d) o' = GoutD m hI d :=
  (StableHlo.unary_result_ne (τ := τ) (x := main_v1) (y := main_v2) (tr2 (F := F)) _ _ (V2 m hI d) (r := main_v1) (by decide)).trans (V2_o m hI d)
theorem res2_r (d : Dev nD) : (op2 (F := F)).result (V2 m hI d) r' = tr2 (GoutD m hI d) :=
  (StableHlo.unary_result main_v1 main_v2 (tr2 (F := F)) _ _ (V2 m hI d)).trans (congrArg tr2 (V2_o m hI d))

omit hI in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The operands of the two SparseCores, from the three arrays held whole, with what is kept of the read shares; and back. -/
theorem cores_split (d : Dev nD) (fo : Buf (Elt F) (oLoc d)) :
    iprop((pLoc d ↦{fullShare} m (pLoc d)) ∗ (iLoc d ↦{fullShare} Iv m d) ∗ (oLoc d ↦{fullShare} fo))
      ⊣⊢ iprop(((pLoc d ↦{Transfers.shareDrop fullShare 2} m (pLoc d)) ∗ (iLoc d ↦{Transfers.shareDrop fullShare 2} Iv m d))
          ∗ bigSep Finset.univ fun c : Fin 2 => coreSt m d c fo) := by
  unfold coreSt
  rw [bigSep_sep', bigSep_sep', oPts_pieces d fo, bigSep_univ_prod, bigSep_congr (fun c _ => bigSep_univ_prod _)]
  constructor
  · iintro ⟨Hp, Hi, Ho⟩
    ihave Hp := (Transfers.pointsTo_toks_split fullShare 2) $$ Hp
    icases Hp with ⟨Hpr, Hpt⟩
    ihave Hi := (Transfers.pointsTo_toks_split fullShare 2) $$ Hi
    icases Hi with ⟨Hir, Hit⟩
    isplitl [Hpr Hir]
    · isplitl [Hpr]; · iexact Hpr
      iexact Hir
    isplitl [Hpt]; · iexact Hpt
    isplitl [Hit]; · iexact Hit
    iexact Ho
  · iintro ⟨⟨Hpr, Hir⟩, Hpt, Hit, Ho⟩
    isplitl [Hpr Hpt]
    · iapply (Transfers.pointsTo_toks_join fullShare 2)
      isplitl [Hpr]; · iexact Hpr
      iexact Hpt
    isplitl [Hir Hit]
    · iapply (Transfers.pointsTo_toks_join fullShare 2)
      isplitl [Hir]; · iexact Hir
      iexact Hit
    iexact Ho

theorem st0_eq (d : Dev nD) :
    (bigSep Finset.univ fun c : Fin ((K (F := F)).nCore 0) => (P m hI).st 0 d c) = bigSep Finset.univ fun c : Fin 2 => coreSt m d c (m (oLoc d)) :=
  bigSep_cores (F := F) (fun c => coreSt m d c (m (oLoc d)))
theorem dn0_eq (d : Dev nD) :
    (bigSep Finset.univ fun c : Fin ((K (F := F)).nCore 0) => (P m hI).dn 0 d c) = bigSep Finset.univ fun c : Fin 2 => coreSt m d c (GoutD m hI d) :=
  bigSep_cores (F := F) (fun c => coreSt m d c (GoutD m hI d))

/-- @main on device `d`'s TensorCore: the indices transposed, the call, the result transposed; the arguments kept. -/
theorem hmain [FloatOps F] (κ : GSem nD τ sig → ℕ) (d : Dev nD) :
    iprop((K (F := F)).ctx EH (P m hI) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hI d) := by
  unfold SparseCore.Cfg.tcRes
  rw [unscopedBufs_eq]
  simp only [main, wp_bind, wp_pure]
  iintro ⟨#Hctx, Hst, ⟨Hb, ⟨Hp, Ha, Hi, Ho, Hr⟩, -, -⟩, -⟩
  -- the first transpose
  iapply (wp_hlo_within 𝒱 (SparseCore.T d) none Set.univ (op := op1) (S := {a', i'}) (Finset.Subset.refl _) (V := V0 m d)) $$ [Hb Ha Hi]
  · isplitl [Hb]; · iexact Hb
    rw [held_two d a' i' (by decide)]
    isplitl [Ha]; · iexact Ha
    iexact Hi
  iintro ⟨Hb, Hh⟩
  ihave Hh := (Entails.of_eq (held_two (F := F) d a' i' (by decide) _)) $$ Hh
  icases Hh with ⟨Ha, Hi⟩
  rw [res1_a, res1_i, wp_ret]
  imodintro
  -- the call: each SparseCore its read shares and its tasks' rows; back with the rows at `Gout`
  ihave Hall := (cores_split m d (m (oLoc d))).1 $$ [Hp Hi Ho]
  · isplitl [Hp]; · iexact Hp
    isplitl [Hi]; · iexact Hi
    iexact Ho
  icases Hall with ⟨Hkeep, Hcores⟩
  iapply ((K (F := F)).wp_run (D (F := F)) 𝒱 (EH := EH) (P := P m hI) κ d 0) $$ [Hst Hcores Hkeep Ha Hb Hr]
  isplitr; · iexact Hctx
  isplitl [Hst]; · iexact Hst
  isplitl [Hcores]
  · rw [st0_eq]; iexact Hcores
  iintro ⟨Hst, Hdn⟩
  ihave Hdn := (Entails.of_eq (dn0_eq m hI d)) $$ Hdn
  ihave Hall := (cores_split m d (GoutD m hI d)).2 $$ [Hkeep Hdn]
  · isplitl [Hkeep]; · iexact Hkeep
    iexact Hdn
  icases Hall with ⟨Hp, Hi, Ho⟩
  -- the second transpose
  iapply (wp_hlo_within 𝒱 (SparseCore.T d) none Set.univ (op := op2) (S := {o', r'}) (Finset.Subset.refl _) (V := V2 m hI d)) $$ [Hb Ho Hr]
  · isplitl [Hb]; · iexact Hb
    rw [held_two d o' r' (by decide), V2_o, V2_r]
    isplitl [Ho]; · iexact Ho
    iexact Hr
  iintro ⟨Hb, Hh⟩
  ihave Hh := (Entails.of_eq (held_two (F := F) d o' r' (by decide) _)) $$ Hh
  icases Hh with ⟨Ho, Hr⟩
  rw [res2_r, wp_ret]
  imodintro; imodintro
  isplitl [Hst]; · iexact Hst
  isplitl [Hp]; · iexact Hp
  isplitl [Ha]; · iexact Ha
  iexact Hr

/-- What the final memory holds, read off what @main leaves. -/
def fq (d : Dev nD) (s' : Phys nD τ sig (Elt F)) : Prop :=
  s'.mem.mem (pLoc d) = m (pLoc d) ∧ s'.mem.mem (aLoc d) = m (aLoc d) ∧ s'.mem.mem (rLoc d) = tr2 (GoutD m hI d)

theorem hfin (d : Dev nD) (s' : Phys nD τ sig (Elt F)) : iprop(FIN m hI d ∗ SI s') ⊢ (⌜fq m hI d s'⌝ : sProp 𝕄) := by
  iintro ⟨⟨Hp, Ha, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := tr2 (GoutD m hI d))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The run's post: the result at the transposed `Gout`, the arguments unchanged. -/
def QC : PUnit × MemSt nD τ sig (Elt F) → Prop := fun r => ∀ c : Dev nD,
  r.2.mem (rLoc c) = tr2 (GoutD m hI c) ∧ r.2.mem (pLoc c) = m (pLoc c) ∧ r.2.mem (aLoc c) = m (aLoc c)

theorem run_main [FloatOps F] [∀ e, Nonempty (Elt F e)] :
    θ_run (Cert.Kernel.defs (F := F)) (Cert.Kernel.threads (F := F)) ⟨m, fun _ => 0, ρ⟩ (QC m hI) :=
  SparseCore.Cfg.θ_run_sc (K := K (F := F)) (D := D (F := F)) (𝒱 := 𝒱) (EH := EH) (P := P m hI) facts v₀
    (fun q hq => match q with | 0 => nomatch hq)
    (fun q _ => match q with | 0 => tileObl m hI facts)
    (fun q _ => match q with | 0 => SparseCore.Cfg.VecSplit.of_plain (vecSplit m hI))
    m ρ main (fun _ => iprop(emp)) (FIN m hI) (u₀ (F := F)) (sep_elim_left.trans (hu₀ m hI)) (hmain m ρ hI) (fq m hI) (hfin m hI) (QC m hI)
    (fun _ h c => ⟨(h c).2.2, (h c).1, (h c).2.1⟩)

end Cert.Proof.GroupB

end
-- ==== Proof.PreDecode.lean ====
/-
  The precondition, read back: `input_domain` all ones says, of the integer input, that every index is between 0 and
  16383 as a signed word (its second conjunct, a reduction by `and` over all axes of the two comparisons' conjunction).
-/
import proofs.«208723_g16346645529139_cont_week2b_1265_5_alg».proof.Pre_input_domain
import proofs.«208723_g16346645529139_cont_week2b_1265_5_alg».proof.Proof.Gen.Pre_input_domain
import proofs.«208723_g16346645529139_cont_week2b_1265_5_alg».proof.Proof.Spec
import Idealize.ShloMosaic.Lib.ReduceAll

noncomputable section

namespace Cert.Proof.PreDecode

open Idealize.ShloMosaic Cert.Pre_input_domain Cert.Pre_input_domain.Facts

variable {F : FTy → Type} [FloatOps F] [Cert.Pre_input_domain.Facts]

instance : Subsingleton S_.Idx := ⟨fun a b => funext fun d => d.elim0⟩

/-- Every index is in range: both comparisons hold of every word. -/
theorem idx_cmp (x0 : FVec F S8x64x16384 .f32) (x1 : IVec S8x1024x32 32)
    (h : Cert.Pre_input_domain.fn (F := F) x0 x1 = fun _ => 1#1) (p : S8x1024x32.Idx) :
    IntOp.cmpi .sge (x1 p) 0#32 = 1#1 ∧ IntOp.cmpi .sle (x1 p) 16383#32 = 1#1 := by
  have e := congrFun h (fun a => a.elim0)
  have e' : IntOp.andi
      (Host.reduce IntOp.andi (cmpf .olt (Host.absf x0) (broadcastInDim S8x64x16384 ![] bcast_S_S8x64x16384 (constant S_ .f32 0x7F800000#32)))
        (constantI S_ 1 1#1) reducesTo_S8x64x16384_S_d0_1_2 h_S_ (fun a => a.elim0))
      (Host.reduce IntOp.andi (andi (cmpi .sge x1 (broadcastInDim S8x1024x32 ![] bcast_S_S8x1024x32 (constantI S_ 32 0#32)))
          (cmpi .sle x1 (broadcastInDim S8x1024x32 ![] bcast_S_S8x1024x32 (constantI S_ 32 16383#32))))
        (constantI S_ 1 1#1) reducesTo_S8x1024x32_S_d0_1_2 h_S_ (fun a => a.elim0)) = 1#1 := e
  obtain ⟨-, e9⟩ := IntOp.andi_eq_one.1 e'
  have e8 := Host.reduce_andi_all _ _ _ _ _ e9 p
  exact IntOp.andi_eq_one.1 e8

/-- Every index names a lane of the points' last axis, and is its own unsigned value. -/
theorem idx_range (x0 : FVec F S8x64x16384 .f32) (x1 : IVec S8x1024x32 32)
    (h : Cert.Pre_input_domain.fn (F := F) x0 x1 = fun _ => 1#1) (p : S8x1024x32.Idx) :
    (x1 p).toNat < 16384 ∧ (x1 p).toInt = ((x1 p).toNat : Int) :=
  Cert.Proof.Spec.word_range _ (idx_cmp x0 x1 h p).1 (idx_cmp x0 x1 h p).2

end Cert.Proof.PreDecode

end
-- ==== Proof.RefRun.lean ====
/-
  The reference's run, segment by segment. Its 28 host operations are cut into five runs of consecutive operations —
  the reshapes and broadcasts of the arguments; the index normalisation; the range mask; the gather and the select; the
  final reshape — and each segment's results are stated over an ARBITRARY valuation of the buffers before it, as the
  stage values of the reference read one operation at a time (`val_<buffer>`), given that its inputs are. The whole
  run is the segments composed: every weakly fair execution ends with the result at `val_main_v6` of the arguments'
  launch contents and the arguments unchanged.
-/
import proofs.«208723_g16346645529139_cont_week2b_1265_5_alg».proof.Proof.RefRead

noncomputable section

namespace Cert.Proof.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The arguments reshaped and the indices repeated per channel row. -/
abbrev opsA : List (HloOp τ sig (Elt F)) :=
  [ reshape main_arg0 main_v0 rfl shapeCasts_S8x64x16384_S512x16384,
    reshape main_arg1 main_v1 rfl shapeCasts_S8x1024x32_S8x32768,
    unary main_v1 main_v2 (broadcastInDim S8x1x32768 ![0, 2] bcast_S8x32768_S8x1x32768_0_2 : (⟨S8x32768, .i32⟩ : BufTy).Contents (Elt F) → (⟨S8x1x32768, .i32⟩ : BufTy).Contents (Elt F)),
    unary main_v2 main_v3 (broadcastInDim S8x64x32768 ![0, 1, 2] bcast_S8x1x32768_S8x64x32768_0_1_2 : (⟨S8x1x32768, .i32⟩ : BufTy).Contents (Elt F) → (⟨S8x64x32768, .i32⟩ : BufTy).Contents (Elt F)),
    reshape main_v3 main_v4 rfl shapeCasts_S8x64x32768_S512x32768 ]
/-- `take_along_axis`: a negative index moved up by 16384, as a column of start indices. -/
abbrev opsB1 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S512x32768, .i32⟩) main_call0_v0) (broadcastInDim S512x32768 ![] bcast_S_S512x32768),
    TRef.binary (TRef.of (T := ⟨S512x32768, .i32⟩) main_v4) (TRef.of (T := ⟨S512x32768, .i32⟩) main_call0_v0) (TRef.of (T := ⟨S512x32768, .i1⟩) main_call0_v1) (cmpi .slt),
    TRef.nullary (TRef.of (T := ⟨S_, .i32⟩) main_call0_c_0) (constantI S_ 32 16384#32),
    TRef.unary (TRef.of (T := ⟨S_, .i32⟩) main_call0_c_0) (TRef.of (T := ⟨S512x32768, .i32⟩) main_call0_v2) (broadcastInDim S512x32768 ![] bcast_S_S512x32768),
    TRef.binary (TRef.of (T := ⟨S512x32768, .i32⟩) main_v4) (TRef.of (T := ⟨S512x32768, .i32⟩) main_call0_v2) (TRef.of (T := ⟨S512x32768, .i32⟩) main_call0_v3) addi,
    TRef.ternary (TRef.of (T := ⟨S512x32768, .i1⟩) main_call0_v1) (TRef.of (T := ⟨S512x32768, .i32⟩) main_call0_v3) (TRef.of (T := ⟨S512x32768, .i32⟩) main_v4) (TRef.of (T := ⟨S512x32768, .i32⟩) main_call0_v4) select,
    TRef.reshape (TRef.of (T := ⟨S512x32768, .i32⟩) main_call0_v4) (TRef.of (T := ⟨S512x32768x1, .i32⟩) main_call0_v5) rfl shapeCasts_S512x32768_S512x32768x1 ]
/-- The mask: 0 ≤ index ≤ 16383. -/
abbrev opsB2 : List (HloOp τ sig (Elt F)) :=
  [ TRef.nullary (TRef.of (T := ⟨S1, .i32⟩) main_call0_c_1) (constantI S1 32 16383#32),
    TRef.nullary (TRef.of (T := ⟨S_, .i32⟩) main_call0_c_2) (constantI S_ 32 0#32),
    TRef.unary (TRef.of (T := ⟨S_, .i32⟩) main_call0_c_2) (TRef.of (T := ⟨S512x32768x1, .i32⟩) main_call0_v6) (broadcastInDim S512x32768x1 ![] bcast_S_S512x32768x1),
    TRef.binary (TRef.of (T := ⟨S512x32768x1, .i32⟩) main_call0_v5) (TRef.of (T := ⟨S512x32768x1, .i32⟩) main_call0_v6) (TRef.of (T := ⟨S512x32768x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S512x32768x1, .i32⟩) main_call0_v9) (broadcastInDim S512x32768x1 ![0, 1, 2] bcast_S1x1x1_S512x32768x1_0_1_2),
    TRef.binary (TRef.of (T := ⟨S512x32768x1, .i32⟩) main_call0_v5) (TRef.of (T := ⟨S512x32768x1, .i32⟩) main_call0_v9) (TRef.of (T := ⟨S512x32768x1, .i1⟩) main_call0_v10) (cmpi .sle),
    TRef.binary (TRef.of (T := ⟨S512x32768x1, .i1⟩) main_call0_v7) (TRef.of (T := ⟨S512x32768x1, .i1⟩) main_call0_v10) (TRef.of (T := ⟨S512x32768x1, .i1⟩) main_call0_v11) andi,
    TRef.nullary (TRef.of (T := ⟨S_, .i1⟩) main_call0_c_3) (constantI S_ 1 1#1),
    TRef.binary (TRef.of (T := ⟨S512x32768x1, .i1⟩) main_call0_v11) (TRef.of (T := ⟨S_, .i1⟩) main_call0_c_3) (TRef.of (T := ⟨S512x32768, .i1⟩) main_call0_v12) (fun x v => Host.reduce IntOp.andi x v reducesTo_S512x32768x1_S512x32768_d2 h_S_) ]
/-- The gather, and NaN where the mask fails. -/
abbrev opsB3 : List (HloOp τ sig (Elt F)) :=
  [ TRef.binary (TRef.of (T := ⟨S512x16384, .f32⟩) main_v0) (TRef.of (T := ⟨S512x32768x1, .i32⟩) main_call0_v5) (TRef.of (T := ⟨S512x32768, .f32⟩) main_call0_v13) (fun x i => Host.gather gather_S512x16384_S512x32768x1_S512x32768_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S512x32768, .f32⟩) main_call0_v14) (broadcastInDim S512x32768 ![] bcast_S_S512x32768),
    TRef.ternary (TRef.of (T := ⟨S512x32768, .i1⟩) main_call0_v12) (TRef.of (T := ⟨S512x32768, .f32⟩) main_call0_v13) (TRef.of (T := ⟨S512x32768, .f32⟩) main_call0_v14) (TRef.of (T := ⟨S512x32768, .f32⟩) main_v5) select ]
/-- The result reshaped. -/
abbrev opsC : List (HloOp τ sig (Elt F)) :=
  [ reshape main_v5 main_v6 rfl shapeCasts_S512x32768_S8x64x1024x32 ]

theorem ops_eq : (ops : List (HloOp τ sig (Elt F))) = opsA ++ (opsB1 ++ (opsB2 ++ (opsB3 ++ opsC))) := rfl

omit [FloatOps F] in
theorem after_append (l₁ l₂ : List (HloOp τ sig (Elt F))) (V : Valuation τ sig (Elt F)) : after (l₁ ++ l₂) V = after l₂ (after l₁ V) := by
  induction l₁ generalizing V with
  | nil => rfl
  | cons op l ih => exact ih _

variable (V : Valuation τ sig (Elt F))
  (x0 : (⟨S8x64x16384, .f32⟩ : BufTy).Contents (Elt F)) (x1 : (⟨S8x1024x32, .i32⟩ : BufTy).Contents (Elt F))

theorem segA_v0 : after (opsA (F := F)) V (Proc.devRef .tc main_v0 : DevRef τ sig) = val_main_v0 (F := F) (V (Proc.devRef .tc main_arg0 : DevRef τ sig)) := by
  after_results_simp <;> rfl
theorem segA_v4 : after (opsA (F := F)) V (Proc.devRef .tc main_v4 : DevRef τ sig) = val_main_v4 (F := F) (V (Proc.devRef .tc main_arg1 : DevRef τ sig)) := by
  after_results_simp <;> rfl

theorem segB1_v0 : after (opsB1 (F := F)) V (Proc.devRef .tc main_v0 : DevRef τ sig) = V (Proc.devRef .tc main_v0 : DevRef τ sig) := by
  after_results_simp <;> rfl
theorem segB1_c5 (h4 : V (Proc.devRef .tc main_v4 : DevRef τ sig) = val_main_v4 (F := F) x1) :
    after (opsB1 (F := F)) V (Proc.devRef .tc main_call0_v5 : DevRef τ sig) = val_main_call0_v5 (F := F) x1 := by
  after_results_simp
  simp only [TRef.toBuf, TRef.ofBuf, cast_cast, cast_eq]
  rw [h4]
  rfl

theorem segB2_v0 : after (opsB2 (F := F)) V (Proc.devRef .tc main_v0 : DevRef τ sig) = V (Proc.devRef .tc main_v0 : DevRef τ sig) := by
  after_results_simp <;> rfl
theorem segB2_c5 : after (opsB2 (F := F)) V (Proc.devRef .tc main_call0_v5 : DevRef τ sig) = V (Proc.devRef .tc main_call0_v5 : DevRef τ sig) := by
  after_results_simp <;> rfl
theorem segB2_c12 (h5 : V (Proc.devRef .tc main_call0_v5 : DevRef τ sig) = val_main_call0_v5 (F := F) x1) :
    after (opsB2 (F := F)) V (Proc.devRef .tc main_call0_v12 : DevRef τ sig) = val_main_call0_v12 (F := F) x1 := by
  after_results_simp
  simp only [TRef.toBuf, TRef.ofBuf, cast_cast, cast_eq]
  rw [h5]
  rfl

theorem segB3_v5 (h0 : V (Proc.devRef .tc main_v0 : DevRef τ sig) = val_main_v0 (F := F) x0) (h5 : V (Proc.devRef .tc main_call0_v5 : DevRef τ sig) = val_main_call0_v5 (F := F) x1)
    (h12 : V (Proc.devRef .tc main_call0_v12 : DevRef τ sig) = val_main_call0_v12 (F := F) x1) :
    after (opsB3 (F := F)) V (Proc.devRef .tc main_v5 : DevRef τ sig) = val_main_v5 (F := F) x0 x1 := by
  after_results_simp
  simp only [TRef.toBuf, TRef.ofBuf, cast_cast, cast_eq]
  rw [h0, h5, h12]
  rfl

theorem segC_v6 (h : V (Proc.devRef .tc main_v5 : DevRef τ sig) = val_main_v5 (F := F) x0 x1) :
    after (opsC (F := F)) V (Proc.devRef .tc main_v6 : DevRef τ sig) = val_main_v6 (F := F) x0 x1 := by
  after_results_simp
  rw [h]
  rfl

/-- The 28 operations leave the result at its stage value of the arguments. -/
theorem after_ops_v6 :
    after (ops (F := F)) V (Proc.devRef .tc main_v6 : DevRef τ sig) = val_main_v6 (F := F) (V (Proc.devRef .tc main_arg0 : DevRef τ sig)) (V (Proc.devRef .tc main_arg1 : DevRef τ sig)) := by
  rw [ops_eq, after_append, after_append, after_append, after_append]
  have a0 := segA_v0 (F := F) V
  have a4 := segA_v4 (F := F) V
  generalize after (opsA (F := F)) V = W1 at a0 a4 ⊢
  have b0 := (segB1_v0 (F := F) W1).trans a0
  have b5 := segB1_c5 (F := F) W1 _ a4
  generalize after (opsB1 (F := F)) W1 = W2 at b0 b5 ⊢
  have c0 := (segB2_v0 (F := F) W2).trans b0
  have c5 := (segB2_c5 (F := F) W2).trans b5
  have c12 := segB2_c12 (F := F) W2 _ b5
  generalize after (opsB2 (F := F)) W2 = W3 at c0 c5 c12 ⊢
  have d5 := segB3_v5 (F := F) W3 _ _ c0 c5 c12
  generalize after (opsB3 (F := F)) W3 = W4 at d5 ⊢
  exact segC_v6 (F := F) W4 _ _ d5

/-- On every device, for any float values, from any memory with zero counters: every weakly fair execution of the
    reference terminates with its result at the stage value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = val_main_v6 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (after_ops_v6 (F := F) (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.Proof.RefRun

end
-- ==== Proof.RefValue.lean ====
/-
  The reference's run, read at an index. The reference flattens the points to [512, 16384] and the indices to
  [512, 32768] (each batch's indices repeated for its 64 channel rows), takes along the last axis, and reshapes back. Its
  `take_along_axis` adds 16384 to a negative index, gathers in fill mode, and replaces by NaN what a mask (0 ≤ index ≤
  16383) rejects; under the range facts of the precondition the index is unchanged, the mask is all ones and the clamp is
  the identity, so entry `(b, c, q, s)` of the result is the points at `(b, c, idx (b, q, s))`.
-/
import proofs.«208723_g16346645529139_cont_week2b_1265_5_alg».proof.Proof.RefRead
import proofs.«208723_g16346645529139_cont_week2b_1265_5_alg».proof.Proof.Spec
import Idealize.ShloMosaic.Lib.ValueIdx
import Idealize.ShloMosaic.PureOps.Reduce

noncomputable section

namespace Cert.Proof.RefValue

open Idealize.ShloMosaic Idealize.ShloMosaic.ValueIdx Cert.ReferenceIdeal Cert.ReferenceIdeal.Gen Cert.ReferenceIdeal.ReadP Cert.Proof.Spec

variable {F : FTy → Type} [FloatOps F]

/-- A fold by `and` of ones from one is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_ones x _ fun n _ => hx n

/-- A word that is not below zero, signed, fails the comparison "less than zero". -/
theorem not_slt_zero (w : BitVec 32) (h0 : IntOp.cmpi .sge w 0#32 = 1#1) : IntOp.cmpi .slt w 0#32 = 0#1 := by
  have hb : ∀ b : Bool, BitVec.ofBool b = 1#1 ↔ b = true := by decide
  have e0 : (0#32 : BitVec 32).toInt = 0 := by decide
  unfold IntOp.cmpi at h0 ⊢
  rw [hb] at h0
  simp only [BitVec.sle, BitVec.slt, decide_eq_true_eq, e0] at h0 ⊢
  have hn : ¬ w.toInt < 0 := by omega
  rw [decide_eq_false hn]
  rfl

abbrev dG := gather_S512x16384_S512x32768x1_S512x32768_n_1_0_0_1_2_11

/-- The batched gather read at `(t, j)`: row `t` of the operand at the start index `idx[t, j, 0]`, read signed and clamped. -/
theorem gather_apply {α : Type} (x : S512x16384.Idx → α) (idx : IVec S512x32768x1 32) (y : S512x32768.Idx) :
    Host.gather dG x idx y
      = x (ix2 (y 0 : Fin 512) (⟨min (idx (ix3 (y 0 : Fin 512) (y 1 : Fin 32768) (⟨0, Nat.one_pos⟩ : Fin 1))).toInt.toNat 16383, by omega⟩ : Fin 16384)) := by
  unfold Host.gather
  refine congrArg x (funext fun a => Fin.ext ?_)
  match a with
  | ⟨0, _⟩ =>
    show dG.start y idx 0 + dG.batchCoord y 0 + dG.offCoord y 0 = (y 0).val
    rw [GatherDims.start_batching _ _ _ _ (by decide), GatherDims.offCoord_eq_zero _ _ _ (by decide)]
    simp only [Nat.zero_add, Nat.add_zero]
    rfl
  | ⟨1, _⟩ =>
    show dG.start y idx 1 + dG.batchCoord y 1 + dG.offCoord y 1 = min (idx (ix3 (y 0 : Fin 512) (y 1 : Fin 32768) (⟨0, Nat.one_pos⟩ : Fin 1))).toInt.toNat 16383
    rw [GatherDims.batchCoord_eq_zero _ _ _ (by decide), GatherDims.offCoord_eq_zero _ _ _ (by decide)]
    simp only [Nat.add_zero]
    unfold GatherDims.start
    rw [dif_pos (show (1 : Fin 2) ∈ dG.startIndexMap from by decide)]
    have hsi : dG.siIdx y ⟨List.idxOf (1 : Fin 2) dG.startIndexMap, List.idxOf_lt_length_iff.2 (by decide)⟩
        = ix3 (y 0 : Fin 512) (y 1 : Fin 32768) (⟨0, Nat.one_pos⟩ : Fin 1) := by
      funext b; refine Fin.ext ?_
      match b with
      | ⟨0, _⟩ => rfl
      | ⟨1, _⟩ => rfl
      | ⟨2, _⟩ => rfl
    rw [hsi]
    rfl

variable (x0 : (⟨S8x64x16384, .f32⟩ : BufTy).Contents (Elt F)) (x1 : (⟨S8x1024x32, .i32⟩ : BufTy).Contents (Elt F))
  (hc : ∀ p : S8x1024x32.Idx, IntOp.cmpi .sge (x1 p) 0#32 = 1#1 ∧ IntOp.cmpi .sle (x1 p) 16383#32 = 1#1)

/-- The index of the indices that entry `j` of the flattened, repeated indices reads. -/
abbrev K4 (j : S512x32768.Idx) : S8x1024x32.Idx := idx_main_v1 (idx_main_v2 (idx_main_v3 (idx_main_v4 j)))

omit hc in
theorem v4_val (j : S512x32768.Idx) : val_main_v4 (F := F) x1 j = x1 (K4 j) := by
  rw [val_main_v4_apply, val_main_v3_apply, val_main_v2_apply, val_main_v1_apply]

include hc in
/-- No index is negative: the normalised index is the index. -/
theorem c4_val (j : S512x32768.Idx) : val_main_call0_v4 (F := F) x1 j = x1 (K4 j) := by
  rw [val_main_call0_v4_apply, val_main_call0_v1_apply, val_main_call0_v0_apply, val_main_call0_c_apply, v4_val,
    not_slt_zero _ (hc _).1, select_zero]

include hc in
theorem c5_val (k : S512x32768x1.Idx) : val_main_call0_v5 (F := F) x1 k = x1 (K4 (idx_main_call0_v5 k)) := by
  rw [val_main_call0_v5_apply, c4_val x1 hc]

include hc in
/-- Every index is in range: the mask is all ones. -/
theorem mask_one (j : S512x32768.Idx) : val_main_call0_v12 (F := F) x1 j = 1#1 := by
  unfold val_main_call0_v12
  refine reduce_andi_ones _ _ _ _ _ (fun k => ?_) (fun _ => rfl)
  rw [val_main_call0_v11_apply, val_main_call0_v7_apply, val_main_call0_v10_apply, val_main_call0_v6_apply, val_main_call0_c_2_apply,
    val_main_call0_v9_apply, val_main_call0_v8_apply, val_main_call0_c_1_apply, c5_val x1 hc, (hc _).1, (hc _).2]
  decide

include hc in
/-- The reference's result is the points taken along their last axis at the indices. -/
theorem ref_value : val_main_v6 (F := F) x0 x1 = takeAlong x0 x1 (fun p => (word_range _ (hc p).1 (hc p).2).1) := by
  funext i
  have hi0 : (i 0).val < 8 := (i 0).isLt
  have hi1 : (i 1).val < 64 := (i 1).isLt
  have hi2 : (i 2).val < 1024 := (i 2).isLt
  have hi3 : (i 3).val < 32 := (i 3).isLt
  have hw := word_range _ (hc (ix3 (i 0 : Fin 8) (i 2 : Fin 1024) (i 3 : Fin 32))).1 (hc (ix3 (i 0 : Fin 8) (i 2 : Fin 1024) (i 3 : Fin 32))).2
  have hK : K4 (idx_main_call0_v5 (ix3 (idx_main_v6 i 0) (idx_main_v6 i 1) (⟨0, Nat.one_pos⟩ : Fin 1))) = (ix3 (i 0 : Fin 8) (i 2 : Fin 1024) (i 3 : Fin 32)) := by
    funext b; refine Fin.ext ?_
    match b with
    | ⟨0, _⟩ =>
      simp only [K4, idx_main_v1, idx_main_v2, idx_main_v3, idx_main_v4, idx_main_call0_v5, idx_main_v6, ix3]
      omega
    | ⟨1, _⟩ =>
      simp only [K4, idx_main_v1, idx_main_v2, idx_main_v3, idx_main_v4, idx_main_call0_v5, idx_main_v6, ix3]
      omega
    | ⟨2, _⟩ =>
      simp only [K4, idx_main_v1, idx_main_v2, idx_main_v3, idx_main_v4, idx_main_call0_v5, idx_main_v6, ix3]
      omega
  have hs : val_main_call0_v5 (F := F) x1 (ix3 (idx_main_v6 i 0) (idx_main_v6 i 1) (⟨0, Nat.one_pos⟩ : Fin 1)) = x1 (ix3 (i 0 : Fin 8) (i 2 : Fin 1024) (i 3 : Fin 32)) := by rw [c5_val x1 hc, hK]; rfl
  have hn : (x1 (ix3 (i 0 : Fin 8) (i 2 : Fin 1024) (i 3 : Fin 32))).toInt.toNat = (x1 (ix3 (i 0 : Fin 8) (i 2 : Fin 1024) (i 3 : Fin 32))).toNat := by have := hw.2; omega
  rw [val_main_v6_apply, val_main_v5_apply, mask_one x1 hc, select_one]
  unfold val_main_call0_v13
  rw [gather_apply, val_main_v0_apply]
  unfold takeAlong
  refine congrArg x0 (funext fun a => Fin.ext ?_)
  match a with
  | ⟨0, _⟩ =>
    simp only [idx_main_v0, idx_main_v6, ix2, ix3, hs, hn]
    have := hw.1
    omega
  | ⟨1, _⟩ =>
    simp only [idx_main_v0, idx_main_v6, ix2, ix3, hs, hn]
    have := hw.1
    omega
  | ⟨2, _⟩ =>
    simp only [idx_main_v0, idx_main_v6, ix2, ix3, hs, hn]
    have := hw.1
    omega

end Cert.Proof.RefValue

end
-- ==== Proof.lean ====
/-
  Gathering points along their last axis, two ways. The points `P` have shape [8, 64, 16384] and the indices `A` shape
  [8, 1024, 32]; the precondition says every point is finite and every index lies in [0, 16383]. Both programs compute
  the array of shape [8, 64, 1024, 32] whose entry `(b, c, q, s)` is `P (b, c, A (b, q, s))` (`Spec.takeAlong`).

  The kernel's program transposes the indices to [8, 32, 1024], starts a gathering kernel on the two SparseCores, and
  transposes the kernel's result back. Each of the 32 vector subcores takes one batch `b` and sixteen channel rows
  `c`: it fetches the batch's index slab once, then per channel row fetches the row of the points into its tile memory,
  gathers it at the slab's indices sixteen lanes at a time into an out scratch (two counted loops, 32 × 8 trips of eight
  chunks), and writes the scratch to the row `(b, c)` of the result. Each copy is waited for before the next is issued,
  on a semaphore of its own, so no buffer is touched while a copy into or out of it is in flight. The 512 rows written
  are pairwise disjoint and cover the result; the tasks share the points and the indices read-only. The proof runs one
  task symbolically (the loop nest by an invariant over the filled entries, one nest's proof serving all sixteen), hands
  each task a read share of the two inputs and its own rows, and reads the result row by row as one function of the
  whole arrays. The index range the gather's bounds check asks for is the precondition's.

  The reference flattens both arrays, normalises negative indices, gathers in fill mode and masks out-of-range indices
  with NaN; under the precondition the normalisation and the clamp are the identity and the mask is all ones. Its run
  is proved segment by segment over its 28 host operations and read at an index.

  The idealization rewrote nothing, so the word-level kernel and the idealized one are the same program text at the two
  float instances: one generic proof serves both frames, and the value statement needs no float arithmetic at all (the
  points are moved, never computed with).
-/
import proofs.«208723_g16346645529139_cont_week2b_1265_5_alg».proof.Defs
import proofs.«208723_g16346645529139_cont_week2b_1265_5_alg».proof.Proof.Gen.Kernel
import proofs.«208723_g16346645529139_cont_week2b_1265_5_alg».proof.Proof.Gen.Kernel.Skeleton
import proofs.«208723_g16346645529139_cont_week2b_1265_5_alg».proof.Proof.Gen.KernelIdeal
import proofs.«208723_g16346645529139_cont_week2b_1265_5_alg».proof.Proof.Gen.KernelIdeal.Skeleton
import proofs.«208723_g16346645529139_cont_week2b_1265_5_alg».proof.Proof.Gen.ReferenceIdeal
import proofs.«208723_g16346645529139_cont_week2b_1265_5_alg».proof.Proof.Gen.Pre_input_domain
import Idealize.ShloMosaic.Adequacy
import Idealize.ShloMosaic.Init
import proofs.«208723_g16346645529139_cont_week2b_1265_5_alg».proof.Proof.GroupI.Result
import proofs.«208723_g16346645529139_cont_week2b_1265_5_alg».proof.Proof.GroupB.Launch
import proofs.«208723_g16346645529139_cont_week2b_1265_5_alg».proof.Proof.PreDecode
import proofs.«208723_g16346645529139_cont_week2b_1265_5_alg».proof.Proof.RefRun
import proofs.«208723_g16346645529139_cont_week2b_1265_5_alg».proof.Proof.RefValue

noncomputable section

namespace Cert.Proof

open Idealize.ShloMosaic Idealize.SL.Sem

/-- Equal points and equal indices are taken along alike. -/
theorem takeAlong_congr {α : Type} {P P' : (⟨3, ![8, 64, 16384]⟩ : Shape).Idx → α} {A A' : (⟨3, ![8, 1024, 32]⟩ : Shape).Idx → BitVec 32}
    {hA : ∀ p, (A p).toNat < 16384} {hA' : ∀ p, (A' p).toNat < 16384} (e0 : P = P') (e1 : A = A') :
    Spec.takeAlong P A hA = Spec.takeAlong P' A' hA' := by
  subst e0; subst e1; rfl

/-- Under the precondition every transposed index names a lane of the points: at the idealized kernel's memory, -/
theorem preOK_I (m : (ℓ : Loc Cert.KernelIdeal.nD Cert.KernelIdeal.τ Cert.KernelIdeal.sig) → Buf (Elt Ideal) ℓ)
    (h : Cert.Pre_KernelIdeal m) : GroupI.PreOK (F := Ideal) m :=
  fun d _ => (PreDecode.idx_range (F := Ideal) _ _ (h d) _).1

/-- and at the word-level kernel's. -/
theorem preOK_B (m : (ℓ : Loc Cert.Kernel.nD Cert.Kernel.τ Cert.Kernel.sig) → Buf (Elt Bits) ℓ)
    (h : Cert.Pre_Kernel m) : GroupB.PreOK (F := Bits) m :=
  fun d _ => (PreDecode.idx_range (F := Bits) _ _ (h d) _).1

theorem frame_Kernel : Cert.frame_Kernel := fun m g hpre =>
  (θ_run _ _ _).mono (fun _ h c => ⟨(h c).2.1, (h c).2.2⟩) (GroupB.run_main (F := Bits) m g (preOK_B m hpre))

theorem frame_KernelIdeal : Cert.frame_KernelIdeal := fun m g hpre =>
  (θ_run _ _ _).mono (fun _ h c => ⟨(h c).2.1, (h c).2.2⟩) (GroupI.run_main (F := Ideal) m g (preOK_I m hpre))

theorem frame_ReferenceIdeal : Cert.frame_ReferenceIdeal := fun m g _ =>
  (θ_run _ _ _).mono (fun _ h c => ⟨(h c).2.1, (h c).2.2⟩) (RefRun.run (F := Ideal) m g)

/-- The two results are the same array: both are the points taken along their last axis at the indices. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (c : Dev Cert.KernelIdeal.nD) :
    Cert.ReferenceIdeal.ReadP.val_main_v6 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = GroupI.tr2 (F := Ideal) (GroupI.GoutD m (preOK_I m hpre) c) := by
  have e0 := (hag c).1
  have e1 := (hag c).2
  have hcm : ∀ p, IntOp.cmpi .sge (m ((c.tc : Thread Cert.KernelIdeal.nD Cert.KernelIdeal.τ).loc Cert.KernelIdeal.main_arg1) p) 0#32 = 1#1
      ∧ IntOp.cmpi .sle (m ((c.tc : Thread Cert.KernelIdeal.nD Cert.KernelIdeal.τ).loc Cert.KernelIdeal.main_arg1) p) 16383#32 = 1#1 :=
    fun p => PreDecode.idx_cmp (F := Ideal) _ _ (hpre c) p
  have hc' : ∀ p, IntOp.cmpi .sge (m' ((c.tc : Thread Cert.ReferenceIdeal.nD Cert.ReferenceIdeal.τ).loc Cert.ReferenceIdeal.main_arg1) p) 0#32 = 1#1
      ∧ IntOp.cmpi .sle (m' ((c.tc : Thread Cert.ReferenceIdeal.nD Cert.ReferenceIdeal.τ).loc Cert.ReferenceIdeal.main_arg1) p) 16383#32 = 1#1 := by
    rw [e1]; exact hcm
  rw [RefValue.ref_value (F := Ideal) _ _ hc',
    GroupI.result_eq (F := Ideal) c _ _ (fun p => (PreDecode.idx_range (F := Ideal) _ _ (hpre c) p).1) (preOK_I m hpre c)]
  exact takeAlong_congr e0 e1

theorem algebraic : Cert.algebraic_KernelIdeal_ReferenceIdeal := fun m g m' g' hpre hag =>
  ⟨fun c => GroupI.tr2 (F := Ideal) (GroupI.GoutD m (preOK_I m hpre) c),
    (θ_run _ _ _).mono (fun _ h c => h c) (GroupI.run_main (F := Ideal) m g (preOK_I m hpre)),
    (θ_run _ _ _).mono (fun _ h c => ⟨(h c).1.trans (value_eq m m' hpre hag c), (h c).2.1, (h c).2.2⟩) (RefRun.run (F := Ideal) m' g')⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
